-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "wd_over_u" .f32 0x3089705F#32 ((2748779 / 2748779069440000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S100000x64 : Shape := ⟨2, ![100000, 64]⟩
abbrev S200000x64 : Shape := ⟨2, ![200000, 64]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S1000000 : S_.BroadcastsInDim S1000000 (![] : Fin 0 → Fin S1000000.rank)
  reducesTo_S1000000_S_d0 : S1000000.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_v27 : IVec S_ 1) (main_v32 : IVec S4096 1) (main_c_12 : IVec S_ 1) : IVec S_ 1 :=
  let main_v33 : IVec S_ 1 := (fun x v => Host.reduce IntOp.andi x v reducesTo_S4096_S_d0 h_S_) main_v32 main_c_12
  let main_v34 : IVec S_ 1 := andi main_v27 main_v33
  main_v34

def fn_part1 {F : FTy → Type} [FloatOps F] (main_arg0 : IVec S4096 32) (main_arg1 : IVec S4096 32) (main_arg2 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg0 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  let main_c_7 : IVec S_ 32 := constantI S_ 32 0#32
  let main_v21 : IVec S4096 32 := broadcastInDim S4096 ![] bcast_S_S4096 main_c_7
  let main_v22 : IVec S4096 1 := cmpi .sge main_arg1 main_v21
  let main_c_8 : IVec S_ 32 := constantI S_ 32 200000#32
  let main_v23 : IVec S4096 32 := broadcastInDim S4096 ![] bcast_S_S4096 main_c_8
  let main_v24 : IVec S4096 1 := cmpi .slt main_arg1 main_v23
  let main_v25 : IVec S4096 1 := andi main_v22 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v20 main_v26
  let main_c_10 : IVec S_ 32 := constantI S_ 32 0#32
  let main_v28 : IVec S4096 32 := broadcastInDim S4096 ![] bcast_S_S4096 main_c_10
  let main_v29 : IVec S4096 1 := cmpi .sge main_arg2 main_v28
  let main_c_11 : IVec S_ 32 := constantI S_ 32 200000#32
  let main_v30 : IVec S4096 32 := broadcastInDim S4096 ![] bcast_S_S4096 main_c_11
  let main_v31 : IVec S4096 1 := cmpi .slt main_arg2 main_v30
  let main_v32 : IVec S4096 1 := andi main_v29 main_v31
  let main_c_12 : IVec S_ 1 := constantI S_ 1 1#1
  fn_part2 (F := F) main_v27 main_v32 main_c_12

def fn {F : FTy → Type} [FloatOps F] (main_arg0 : IVec S4096 32) (main_arg1 : IVec S4096 32) (main_arg2 : IVec S4096 32) (main_arg3 : FVec F S100000x64 .f32) (main_arg4 : FVec F S200000x64 .f32) (main_arg5 : IVec S1000000 32) (main_arg6 : IVec S1000000 32) (main_arg7 : FVec F S1000000 .f32) : IVec S_ 1 :=
  let main_v0 : FVec F S100000x64 .f32 := Host.absf main_arg3
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S200000x64 .f32 := Host.absf main_arg4
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S1000000 .f32 := Host.absf main_arg7
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg0 main_v14
  let main_c_5 : IVec S_ 32 := constantI S_ 32 100000#32
  fn_part1 (F := F) main_arg0 main_arg1 main_arg2 main_v13 main_v15 main_c_5
-- ==== Kernel.lean ====
abbrev S4096 : Shape := ⟨1, ![4096]⟩
abbrev S100000x64 : Shape := ⟨2, ![100000, 64]⟩
abbrev S200000x64 : Shape := ⟨2, ![200000, 64]⟩
abbrev S1000000 : Shape := ⟨1, ![1000000]⟩
abbrev S1000000x1 : Shape := ⟨2, ![1000000, 1]⟩
abbrev S_ : Shape := ⟨0, ![]⟩
abbrev S1000000x64 : Shape := ⟨2, ![1000000, 64]⟩
abbrev S100000x256 : Shape := ⟨2, ![100000, 256]⟩
abbrev S200000x256 : Shape := ⟨2, ![200000, 256]⟩
abbrev S100000x1x256 : Shape := ⟨3, ![100000, 1, 256]⟩
abbrev S200000x1x256 : Shape := ⟨3, ![200000, 1, 256]⟩
abbrev S1x1 : Shape := ⟨2, ![1, 1]⟩
abbrev S1x1x256 : Shape := ⟨3, ![1, 1, 256]⟩
abbrev S1 : Shape := ⟨1, ![1]⟩
abbrev S1x256 : Shape := ⟨2, ![1, 256]⟩
abbrev S1x64 : Shape := ⟨2, ![1, 64]⟩

abbrev nBuf : Space → Nat
  | .hbm => 107
  | .vmem => 9
  | .smem => 3
  | _ => 0

abbrev bufTy : (tb : Table) → Fin (tcTables nBuf tb) → BufTy
  | .hbm, ⟨0, _⟩ => ⟨S100000x64, .f32⟩
  | .hbm, ⟨1, _⟩ => ⟨S200000x64, .f32⟩
  | .hbm, ⟨2, _⟩ => ⟨S1000000, .i32⟩
  | .hbm, ⟨3, _⟩ => ⟨S1000000, .i32⟩
  | .hbm, ⟨4, _⟩ => ⟨S1000000, .f32⟩
  | .hbm, ⟨5, _⟩ => ⟨S1000000x1, .f32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S1000000x64, .f32⟩
  | .hbm, ⟨16, _⟩ => ⟨S1000000x64, .f32⟩
  | .hbm, ⟨17, _⟩ => ⟨S_, .f32⟩
  | .hbm, ⟨18, _⟩ => ⟨S100000x64, .f32⟩
  | .hbm, ⟨19, _⟩ => ⟨S1000000x1, .i32⟩
  | .hbm, ⟨20, _⟩ => ⟨S100000x64, .f32⟩
  | .hbm, ⟨21, _⟩ => ⟨S1000000x1, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S1000000x64, .f32⟩
  | .hbm, ⟨32, _⟩ => ⟨S1000000x64, .f32⟩
  | .hbm, ⟨33, _⟩ => ⟨S_, .f32⟩
  | .hbm, ⟨34, _⟩ => ⟨S200000x64, .f32⟩
  | .hbm, ⟨35, _⟩ => ⟨S1000000x1, .i32⟩
  | .hbm, ⟨36, _⟩ => ⟨S200000x64, .f32⟩
  | .hbm, ⟨37, _⟩ => ⟨S1000000x1, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x64, .f32⟩
  | .hbm, ⟨47, _⟩ => ⟨S1000000x64, .f32⟩
  | .hbm, ⟨48, _⟩ => ⟨S1000000x64, .f32⟩
  | .hbm, ⟨49, _⟩ => ⟨S_, .f32⟩
  | .hbm, ⟨50, _⟩ => ⟨S100000x64, .f32⟩
  | .hbm, ⟨51, _⟩ => ⟨S1000000x1, .i32⟩
  | .hbm, ⟨52, _⟩ => ⟨S100000x64, .f32⟩
  | .hbm, ⟨53, _⟩ => ⟨S1000000x1, .f32⟩
  | .hbm, ⟨54, _⟩ => ⟨S_, .i32⟩
  | .hbm, ⟨55, _⟩ => ⟨S1000000, .i32⟩
  | .hbm, ⟨56, _⟩ => ⟨S1000000, .i1⟩
  | .hbm, ⟨57, _⟩ => ⟨S_, .i32⟩
  | .hbm, ⟨58, _⟩ => ⟨S1000000, .i32⟩
  | .hbm, ⟨59, _⟩ => ⟨S1000000, .i32⟩
  | .hbm, ⟨60, _⟩ => ⟨S1000000, .i32⟩
  | .hbm, ⟨61, _⟩ => ⟨S1000000x1, .i32⟩
  | .hbm, ⟨62, _⟩ => ⟨S1000000x64, .f32⟩
  | .hbm, ⟨63, _⟩ => ⟨S1000000x64, .f32⟩
  | .hbm, ⟨64, _⟩ => ⟨S1000000x64, .f32⟩
  | .hbm, ⟨65, _⟩ => ⟨S_, .f32⟩
  | .hbm, ⟨66, _⟩ => ⟨S200000x64, .f32⟩
  | .hbm, ⟨67, _⟩ => ⟨S1000000x1, .i32⟩
  | .hbm, ⟨68, _⟩ => ⟨S200000x64, .f32⟩
  | .hbm, ⟨69, _⟩ => ⟨S1000000x1, .f32⟩
  | .hbm, ⟨70, _⟩ => ⟨S_, .i32⟩
  | .hbm, ⟨71, _⟩ => ⟨S1000000, .i32⟩
  | .hbm, ⟨72, _⟩ => ⟨S1000000, .i1⟩
  | .hbm, ⟨73, _⟩ => ⟨S_, .i32⟩
  | .hbm, ⟨74, _⟩ => ⟨S1000000, .i32⟩
  | .hbm, ⟨75, _⟩ => ⟨S1000000, .i32⟩
  | .hbm, ⟨76, _⟩ => ⟨S1000000, .i32⟩
  | .hbm, ⟨77, _⟩ => ⟨S1000000x1, .i32⟩
  | .hbm, ⟨78, _⟩ => ⟨S1000000x64, .f32⟩
  | .hbm, ⟨79, _⟩ => ⟨S1000000x64, .f32⟩
  | .hbm, ⟨80, _⟩ => ⟨S1000000x64, .f32⟩
  | .hbm, ⟨81, _⟩ => ⟨S_, .f32⟩
  | .hbm, ⟨82, _⟩ => ⟨S100000x64, .f32⟩
  | .hbm, ⟨83, _⟩ => ⟨S1000000x1, .i32⟩
  | .hbm, ⟨84, _⟩ => ⟨S100000x64, .f32⟩
  | .hbm, ⟨85, _⟩ => ⟨S1000000x1, .f32⟩
  | .hbm, ⟨86, _⟩ => ⟨S_, .i32⟩
  | .hbm, ⟨87, _⟩ => ⟨S1000000, .i32⟩
  | .hbm, ⟨88, _⟩ => ⟨S1000000, .i1⟩
  | .hbm, ⟨89, _⟩ => ⟨S_, .i32⟩
  | .hbm, ⟨90, _⟩ => ⟨S1000000, .i32⟩
  | .hbm, ⟨91, _⟩ => ⟨S1000000, .i32⟩
  | .hbm, ⟨92, _⟩ => ⟨S1000000, .i32⟩
  | .hbm, ⟨93, _⟩ => ⟨S1000000x1, .i32⟩
  | .hbm, ⟨94, _⟩ => ⟨S1000000x64, .f32⟩
  | .hbm, ⟨95, _⟩ => ⟨S1000000x64, .f32⟩
  | .hbm, ⟨96, _⟩ => ⟨S1000000x64, .f32⟩
  | .hbm, ⟨97, _⟩ => ⟨S_, .f32⟩
  | .hbm, ⟨98, _⟩ => ⟨S200000x64, .f32⟩
  | .hbm, ⟨99, _⟩ => ⟨S1000000x1, .i32⟩
  | .hbm, ⟨100, _⟩ => ⟨S200000x64, .f32⟩
  | .hbm, ⟨101, _⟩ => ⟨S100000x256, .f32⟩
  | .hbm, ⟨102, _⟩ => ⟨S200000x256, .f32⟩
  | .hbm, ⟨103, _⟩ => ⟨S100000x1x256, .f32⟩
  | .hbm, ⟨104, _⟩ => ⟨S200000x1x256, .f32⟩
  | .hbm, ⟨105, _⟩ => ⟨S1x1, .f32⟩
  | .hbm, ⟨106, _⟩ => ⟨S_, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .smem, ⟨0, _⟩ => ⟨S4096, .i32⟩
  | .local _ .smem, ⟨1, _⟩ => ⟨S4096, .i32⟩
  | .local _ .smem, ⟨2, _⟩ => ⟨S4096, .i32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_c_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_10 : Ref sig .tc := ⟨.hbm, 70, rfl⟩
abbrev main_v53 : Ref sig .tc := ⟨.hbm, 71, rfl⟩
abbrev main_v54 : Ref sig .tc := ⟨.hbm, 72, rfl⟩
abbrev main_c_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_13 : Ref sig .tc := ⟨.hbm, 86, rfl⟩
abbrev main_v66 : Ref sig .tc := ⟨.hbm, 87, rfl⟩
abbrev main_v67 : Ref sig .tc := ⟨.hbm, 88, rfl⟩
abbrev main_c_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_15 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4096], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg0 : BitVec 32 := BitVec.ofNat 32 (i 0).val
  let c4095_i32 : BitVec 32 := 4095#32
  let v90 : BitVec 1 := Scalar.cmpi .eq arg0 c4095_i32
  let v91 : BitVec 32 := Scalar.extui v90
  let c0_i32_31 : BitVec 32 := 0#32
  let v92 : BitVec 1 := Scalar.cmpi .ne v91 c0_i32_31
  v92

def cc0_transform_0 (k0_off1_inb : ∀ i : grid0.Coords, ∀ a, (k0_off1 i) a + S1.size a ≤ S4096.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S4096) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S4096.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S4096) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S4096.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S4096) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S_S200000x64 : S_.BroadcastsInDim S200000x64 (![] : Fin 0 → Fin S200000x64.rank)
  concatenates_S100000x64_S100000x64_S100000x64_S100000x64_S100000x256_d1 : Shape.Concatenates [S100000x64, S100000x64, S100000x64, S100000x64] S100000x256 1
  concatenates_S200000x64_S200000x64_S200000x64_S200000x64_S200000x256_d1 : Shape.Concatenates [S200000x64, S200000x64, S200000x64, S200000x64] S200000x256 1
  shapeCasts_S100000x256_S100000x1x256 : S100000x256.ShapeCasts S100000x1x256
  shapeCasts_S200000x256_S200000x1x256 : S200000x256.ShapeCasts S200000x1x256
  numel1_S1 : S1.numel = 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  slices_S1x256_o0_0_S1x64 : S1x256.Slices ![0, 0] S1x64
  slices_S1x256_o0_64_S1x64 : S1x256.Slices ![0, 64] S1x64
  slices_S1x256_o0_128_S1x64 : S1x256.Slices ![0, 128] S1x64
  slices_S1x256_o0_192_S1x64 : S1x256.Slices ![0, 192] S1x64
  reduces_S1x64_S1 : S1x64.Reduces [1] S1
  shapeCasts_S1_S1x1 : S1.ShapeCasts S1x1
  shapeCasts_S1x1_S_ : S1x1.ShapeCasts S_
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  gather_S100000x64_S1000000x1_S1000000x64_1_0_n_n_0_1_164_wf : GatherDims.WF S100000x64 S1000000x1 S1000000x64 [1] [0] [] [0] [] 1 ![1, 64]
  scatter_S200000x64_S1000000x1_S1000000x64_1_0_0_1_wf : ScatterDims.WF S200000x64 S1000000x1 S1000000x64 [1] [0] [0] 1
  hrank0 : 0 < grid0.rank
  k0_off1_inb : ∀ i : grid0.Coords, ∀ a, (k0_off1 i) a + S1.size a ≤ S4096.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf

abbrev spec0_0 : Pipeline.WinSpec sig grid0.rank :=
  Pipeline.WinSpec.ofSpec (Memref.whole main_v80) S1x1x256.size reads0_0 false false 2 stage0_0 sem0_0 nbuf0_0 hstage0_0

abbrev spec0_1 : Pipeline.WinSpec sig grid0.rank :=
  Pipeline.WinSpec.ofSpec (Memref.whole main_v81) S1x1x256.size reads0_1 false false 2 stage0_1 sem0_1 nbuf0_1 hstage0_1

abbrev spec0_2 : Pipeline.WinSpec sig grid0.rank :=
  Pipeline.WinSpec.ofSpec (Memref.whole main_v81) S1x1x256.size reads0_2 false false 2 stage0_2 sem0_2 nbuf0_2 hstage0_2

abbrev spec0_3 : Pipeline.WinSpec sig grid0.rank :=
  Pipeline.WinSpec.ofSpec (Memref.whole main_v82) S1x1.size reads0_3 true true 1 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x256.size a ≤ S100000x1x256.size a), EltTy.bits .f32 = 32 ∨ (Rect.block (s := S100000x1x256) S1x1x256.size (cc0_transform_0 k0_off1_inb numel1_S1 pf i) h).WholeWords (EltTy.packing .f32)) ∧
  (∀ i : grid0.Coords, ∃ h : (∀ a, (cc0_transform_1 k0_off1_inb numel1_S1 pf i a + 1) * S1x1x256.size a ≤ S200000x1x256.size a), EltTy.bits .f32 = 32 ∨ (Rect.block (s := S200000x1x256) S1x1x256.size (cc0_transform_1 k0_off1_inb numel1_S1 pf i) h).WholeWords (EltTy.packing .f32)) ∧
  (∀ i : grid0.Coords, ∃ h : (∀ a, (cc0_transform_2 k0_off1_inb numel1_S1 pf i a + 1) * S1x1x256.size a ≤ S200000x1x256.size a), EltTy.bits .f32 = 32 ∨ (Rect.block (s := S200000x1x256) S1x1x256.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2 i).elim fun _ h => h | 3 => hwx0_3 | ⟨_ + 4, h⟩ => absurd h (Nat.not_lt.2 (Nat.le_add_left _ _))
abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S4096 : Shape := ⟨1, ![4096]⟩
abbrev S100000x64 : Shape := ⟨2, ![100000, 64]⟩
abbrev S200000x64 : Shape := ⟨2, ![200000, 64]⟩
abbrev S1000000 : Shape := ⟨1, ![1000000]⟩
abbrev S_ : Shape := ⟨0, ![]⟩
abbrev S4096x1 : Shape := ⟨2, ![4096, 1]⟩
abbrev S4096x64 : Shape := ⟨2, ![4096, 64]⟩
abbrev S1000000x1 : Shape := ⟨2, ![1000000, 1]⟩
abbrev S1000000x64 : Shape := ⟨2, ![1000000, 64]⟩

abbrev nBuf : Space → Nat
  | .hbm => 271
  | .vmem => 0
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S100000x64, .f32⟩
  | 4 => ⟨S200000x64, .f32⟩
  | 5 => ⟨S1000000, .i32⟩
  | 6 => ⟨S1000000, .i32⟩
  | 7 => ⟨S1000000, .f32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S4096x64, .f32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S4096, .i32⟩
  | 24 => ⟨S4096x1, .i32⟩
  | 25 => ⟨S4096x64, .f32⟩
  | 26 => ⟨S_, .i32⟩
  | 27 => ⟨S4096, .i32⟩
  | 28 => ⟨S4096, .i1⟩
  | 29 => ⟨S_, .i32⟩
  | 30 => ⟨S4096, .i32⟩
  | 31 => ⟨S4096, .i32⟩
  | 32 => ⟨S4096, .i32⟩
  | 33 => ⟨S4096x1, .i32⟩
  | 34 => ⟨S4096x64, .f32⟩
  | 35 => ⟨S1000000x1, .f32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000x64, .f32⟩
  | 45 => ⟨S1000000x64, .f32⟩
  | 46 => ⟨S1000000x64, .f32⟩
  | 47 => ⟨S_, .f32⟩
  | 48 => ⟨S100000x64, .f32⟩
  | 49 => ⟨S1000000x1, .i32⟩
  | 50 => ⟨S100000x64, .f32⟩
  | 51 => ⟨S1000000x1, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x64, .f32⟩
  | 61 => ⟨S1000000x64, .f32⟩
  | 62 => ⟨S1000000x64, .f32⟩
  | 63 => ⟨S_, .f32⟩
  | 64 => ⟨S200000x64, .f32⟩
  | 65 => ⟨S1000000x1, .i32⟩
  | 66 => ⟨S200000x64, .f32⟩
  | 67 => ⟨S_, .i32⟩
  | 68 => ⟨S4096, .i32⟩
  | 69 => ⟨S4096, .i1⟩
  | 70 => ⟨S_, .i32⟩
  | 71 => ⟨S4096, .i32⟩
  | 72 => ⟨S4096, .i32⟩
  | 73 => ⟨S4096, .i32⟩
  | 74 => ⟨S4096x1, .i32⟩
  | 75 => ⟨S4096x64, .f32⟩
  | 76 => ⟨S4096x64, .f32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S4096x64, .f32⟩
  | 86 => ⟨S4096x64, .f32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S4096x1, .i32⟩
  | 95 => ⟨S4096x64, .f32⟩
  | 96 => ⟨S4096x64, .f32⟩
  | 97 => ⟨S1000000x1, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x64, .f32⟩
  | 107 => ⟨S1000000x64, .f32⟩
  | 108 => ⟨S1000000x64, .f32⟩
  | 109 => ⟨S_, .f32⟩
  | 110 => ⟨S100000x64, .f32⟩
  | 111 => ⟨S1000000x1, .i32⟩
  | 112 => ⟨S100000x64, .f32⟩
  | 113 => ⟨S1000000x1, .f32⟩
  | 114 => ⟨S_, .i32⟩
  | 115 => ⟨S1000000, .i32⟩
  | 116 => ⟨S1000000, .i1⟩
  | 117 => ⟨S_, .i32⟩
  | 118 => ⟨S1000000, .i32⟩
  | 119 => ⟨S1000000, .i32⟩
  | 120 => ⟨S1000000, .i32⟩
  | 121 => ⟨S1000000x1, .i32⟩
  | 122 => ⟨S1000000x64, .f32⟩
  | 123 => ⟨S1000000x64, .f32⟩
  | 124 => ⟨S1000000x64, .f32⟩
  | 125 => ⟨S_, .f32⟩
  | 126 => ⟨S200000x64, .f32⟩
  | 127 => ⟨S1000000x1, .i32⟩
  | _ => ⟨S4096, .i32⟩

abbrev hbmTy0_1 (i : Nat) : BufTy := match i % 128 with
  | 0 => ⟨S200000x64, .f32⟩
  | 1 => ⟨S_, .i32⟩
  | 2 => ⟨S4096, .i32⟩
  | 3 => ⟨S4096, .i1⟩
  | 4 => ⟨S_, .i32⟩
  | 5 => ⟨S4096, .i32⟩
  | 6 => ⟨S4096, .i32⟩
  | 7 => ⟨S4096, .i32⟩
  | 8 => ⟨S4096x1, .i32⟩
  | 9 => ⟨S4096x64, .f32⟩
  | 10 => ⟨S4096x64, .f32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S4096x1, .i32⟩
  | 19 => ⟨S4096x64, .f32⟩
  | 20 => ⟨S4096x64, .f32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S4096x64, .f32⟩
  | 30 => ⟨S4096x64, .f32⟩
  | 31 => ⟨S1000000x1, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x64, .f32⟩
  | 41 => ⟨S1000000x64, .f32⟩
  | 42 => ⟨S1000000x64, .f32⟩
  | 43 => ⟨S_, .f32⟩
  | 44 => ⟨S100000x64, .f32⟩
  | 45 => ⟨S1000000x1, .i32⟩
  | 46 => ⟨S100000x64, .f32⟩
  | 47 => ⟨S1000000x1, .f32⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i32⟩
  | 54 => ⟨S1000000, .i32⟩
  | 55 => ⟨S1000000x1, .i32⟩
  | 56 => ⟨S1000000x64, .f32⟩
  | 57 => ⟨S1000000x64, .f32⟩
  | 58 => ⟨S1000000x64, .f32⟩
  | 59 => ⟨S_, .f32⟩
  | 60 => ⟨S200000x64, .f32⟩
  | 61 => ⟨S1000000x1, .i32⟩
  | 62 => ⟨S200000x64, .f32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S4096, .i32⟩
  | 70 => ⟨S4096x1, .i32⟩
  | 71 => ⟨S4096x64, .f32⟩
  | 72 => ⟨S4096x64, .f32⟩
  | 73 => ⟨S_, .i32⟩
  | 74 => ⟨S4096, .i32⟩
  | 75 => ⟨S4096, .i1⟩
  | 76 => ⟨S_, .i32⟩
  | 77 => ⟨S4096, .i32⟩
  | 78 => ⟨S4096, .i32⟩
  | 79 => ⟨S4096, .i32⟩
  | 80 => ⟨S4096x1, .i32⟩
  | 81 => ⟨S4096x64, .f32⟩
  | 82 => ⟨S4096x64, .f32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S4096x1, .i32⟩
  | 91 => ⟨S4096x64, .f32⟩
  | 92 => ⟨S4096x64, .f32⟩
  | 93 => ⟨S_, .f32⟩
  | 94 => ⟨S4096x64, .f32⟩
  | 95 => ⟨S4096x64, .f32⟩
  | 96 => ⟨S_, .f32⟩
  | 97 => ⟨S4096x64, .f32⟩
  | 98 => ⟨S4096x64, .f32⟩
  | 99 => ⟨S_, .f32⟩
  | 100 => ⟨S4096x64, .f32⟩
  | 101 => ⟨S4096x64, .f32⟩
  | 102 => ⟨S4096x64, .f32⟩
  | 103 => ⟨S4096x64, .f32⟩
  | 104 => ⟨S_, .f32⟩
  | 105 => ⟨S4096, .f32⟩
  | 106 => ⟨S4096, .f32⟩
  | 107 => ⟨S_, .f32⟩
  | 108 => ⟨S4096, .f32⟩
  | 109 => ⟨S4096, .f32⟩
  | 110 => ⟨S4096, .f32⟩
  | 111 => ⟨S4096, .f32⟩
  | 112 => ⟨S4096, .i1⟩
  | 113 => ⟨S4096, .f32⟩
  | 114 => ⟨S4096, .f32⟩
  | 115 => ⟨S4096, .f32⟩
  | 116 => ⟨S4096, .f32⟩
  | 117 => ⟨S4096, .f32⟩
  | 118 => ⟨S4096, .f32⟩
  | 119 => ⟨S4096, .f32⟩
  | 120 => ⟨S4096, .f32⟩
  | 121 => ⟨S4096, .f32⟩
  | 122 => ⟨S_, .f32⟩
  | 123 => ⟨S_, .f32⟩
  | 124 => ⟨S4096x64, .f32⟩
  | 125 => ⟨S_, .f32⟩
  | 126 => ⟨S_, .f32⟩
  | 127 => ⟨S4096x64, .f32⟩
  | _ => ⟨S4096, .i32⟩

abbrev hbmTy0_2 (i : Nat) : BufTy := match i % 128 with
  | 0 => ⟨S_, .f32⟩
  | 1 => ⟨S_, .f32⟩
  | 2 => ⟨S_, .f32⟩
  | 3 => ⟨S4096x64, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | _ => ⟨S4096, .i32⟩

abbrev hbmTy (i : Nat) : BufTy := match i / 128 with
  | 0 => hbmTy0_0 i
  | 1 => hbmTy0_1 i
  | 2 => hbmTy0_2 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_c_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_18 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_19 : Ref sig .tc := ⟨.hbm, 114, rfl⟩
abbrev main_v85 : Ref sig .tc := ⟨.hbm, 115, rfl⟩
abbrev main_v86 : Ref sig .tc := ⟨.hbm, 116, rfl⟩
abbrev main_c_20 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_21 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_22 : Ref sig .tc := ⟨.hbm, 129, rfl⟩
abbrev main_v97 : Ref sig .tc := ⟨.hbm, 130, rfl⟩
abbrev main_v98 : Ref sig .tc := ⟨.hbm, 131, rfl⟩
abbrev main_c_23 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_24 : Ref sig .tc := ⟨.hbm, 139, rfl⟩
abbrev main_v105 : Ref sig .tc := ⟨.hbm, 140, rfl⟩
abbrev main_v106 : Ref sig .tc := ⟨.hbm, 141, rfl⟩
abbrev main_c_25 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_c_26 : Ref sig .tc := ⟨.hbm, 149, rfl⟩
abbrev main_v113 : Ref sig .tc := ⟨.hbm, 150, rfl⟩
abbrev main_v114 : Ref sig .tc := ⟨.hbm, 151, rfl⟩
abbrev main_c_27 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_c_28 : Ref sig .tc := ⟨.hbm, 160, rfl⟩
abbrev main_v122 : Ref sig .tc := ⟨.hbm, 161, rfl⟩
abbrev main_v123 : Ref sig .tc := ⟨.hbm, 162, rfl⟩
abbrev main_c_29 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_30 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_c_31 : Ref sig .tc := ⟨.hbm, 176, rfl⟩
abbrev main_v135 : Ref sig .tc := ⟨.hbm, 177, rfl⟩
abbrev main_v136 : Ref sig .tc := ⟨.hbm, 178, rfl⟩
abbrev main_c_32 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_cst_33 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_c_34 : Ref sig .tc := ⟨.hbm, 191, rfl⟩
abbrev main_v147 : Ref sig .tc := ⟨.hbm, 192, rfl⟩
abbrev main_v148 : Ref sig .tc := ⟨.hbm, 193, rfl⟩
abbrev main_c_35 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_c_36 : Ref sig .tc := ⟨.hbm, 201, rfl⟩
abbrev main_v155 : Ref sig .tc := ⟨.hbm, 202, rfl⟩
abbrev main_v156 : Ref sig .tc := ⟨.hbm, 203, rfl⟩
abbrev main_c_37 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_c_38 : Ref sig .tc := ⟨.hbm, 211, rfl⟩
abbrev main_v163 : Ref sig .tc := ⟨.hbm, 212, rfl⟩
abbrev main_v164 : Ref sig .tc := ⟨.hbm, 213, rfl⟩
abbrev main_c_39 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_cst_40 : Ref sig .tc := ⟨.hbm, 221, rfl⟩
abbrev main_v171 : Ref sig .tc := ⟨.hbm, 222, rfl⟩
abbrev main_v172 : Ref sig .tc := ⟨.hbm, 223, rfl⟩
abbrev main_cst_41 : Ref sig .tc := ⟨.hbm, 224, rfl⟩
abbrev main_v173 : Ref sig .tc := ⟨.hbm, 225, rfl⟩
abbrev main_v174 : Ref sig .tc := ⟨.hbm, 226, rfl⟩
abbrev main_cst_42 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_cst_43 : Ref sig .tc := ⟨.hbm, 232, rfl⟩
abbrev main_v179 : Ref sig .tc := ⟨.hbm, 233, rfl⟩
abbrev main_call0_v0 : Ref sig .tc := ⟨.hbm, 234, rfl⟩
abbrev main_call0_call0_cst : Ref sig .tc := ⟨.hbm, 235, rfl⟩
abbrev main_call0_call0_v0 : Ref sig .tc := ⟨.hbm, 236, rfl⟩
abbrev main_call0_call0_v1 : Ref sig .tc := ⟨.hbm, 237, rfl⟩
abbrev main_call0_call0_v2 : Ref sig .tc := ⟨.hbm, 238, rfl⟩
abbrev main_call0_call0_v3 : Ref sig .tc := ⟨.hbm, 239, rfl⟩
abbrev main_call0_call0_v4 : Ref sig .tc := ⟨.hbm, 240, rfl⟩
abbrev main_call0_call0_v5 : Ref sig .tc := ⟨.hbm, 241, rfl⟩
abbrev main_call0_call0_v6 : Ref sig .tc := ⟨.hbm, 242, rfl⟩
abbrev main_call0_call0_v7 : Ref sig .tc := ⟨.hbm, 243, rfl⟩
abbrev main_call0_call0_v8 : Ref sig .tc := ⟨.hbm, 244, rfl⟩
abbrev main_call0_call0_v9 : Ref sig .tc := ⟨.hbm, 245, rfl⟩
abbrev main_call0_call0_v10 : Ref sig .tc := ⟨.hbm, 246, rfl⟩
abbrev main_call0_call0_v11 : Ref sig .tc := ⟨.hbm, 247, rfl⟩
abbrev main_call0_v1 : Ref sig .tc := ⟨.hbm, 248, rfl⟩
abbrev main_v180 : Ref sig .tc := ⟨.hbm, 249, rfl⟩
abbrev main_cst_44 : Ref sig .tc := ⟨.hbm, 250, rfl⟩
abbrev main_v181 : Ref sig .tc := ⟨.hbm, 251, rfl⟩
abbrev main_v182 : Ref sig .tc := ⟨.hbm, 252, rfl⟩
abbrev main_cst_45 : Ref sig .tc := ⟨.hbm, 253, rfl⟩
abbrev main_v183 : Ref sig .tc := ⟨.hbm, 254, rfl⟩
abbrev main_v184 : Ref sig .tc := ⟨.hbm, 255, rfl⟩
abbrev main_cst_46 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_cst_47 : Ref sig .tc := ⟨.hbm, 260, rfl⟩
abbrev main_v188 : Ref sig .tc := ⟨.hbm, 261, rfl⟩
abbrev main_v189 : Ref sig .tc := ⟨.hbm, 262, rfl⟩
abbrev main_cst_48 : Ref sig .tc := ⟨.hbm, 263, rfl⟩
abbrev main_v190 : Ref sig .tc := ⟨.hbm, 264, rfl⟩
abbrev main_cst_49 : Ref sig .tc := ⟨.hbm, 265, rfl⟩
abbrev main_v191 : Ref sig .tc := ⟨.hbm, 266, rfl⟩
abbrev main_cst_50 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S_S200000x64 : S_.BroadcastsInDim S200000x64 (![] : Fin 0 → Fin S200000x64.rank)
  bcast_S_S4096x64 : S_.BroadcastsInDim S4096x64 (![] : Fin 0 → Fin S4096x64.rank)
  reducesTo_S4096x64_S4096_d1 : S4096x64.ReducesTo [1] S4096
  h_S_ : 0 < S_.numel
  reducesTo_S4096_S_d0 : S4096.ReducesTo [0] S_
  reducesTo_S4096x64_S_d0_1 : S4096x64.ReducesTo [0, 1] S_
  gather_S100000x64_S4096x1_S4096x64_1_0_n_n_0_1_164_wf : GatherDims.WF S100000x64 S4096x1 S4096x64 [1] [0] [] [0] [] 1 ![1, 64]
  gather_S200000x64_S4096x1_S4096x64_1_0_n_n_0_1_164_wf : GatherDims.WF S200000x64 S4096x1 S4096x64 [1] [0] [] [0] [] 1 ![1, 64]
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  gather_S100000x64_S1000000x1_S1000000x64_1_0_n_n_0_1_164_wf : GatherDims.WF S100000x64 S1000000x1 S1000000x64 [1] [0] [] [0] [] 1 ![1, 64]
  scatter_S200000x64_S1000000x1_S1000000x64_1_0_0_1_wf : ScatterDims.WF S200000x64 S1000000x1 S1000000x64 [1] [0] [0] 1

variable [Facts₀]

def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S200000x64_S4096x1_S4096x64_1_0_n_n_0_1_164 : GatherDims S200000x64 S4096x1 S4096x64 where
  offsetDims := [1]
  collapsedSliceDims := [0]
  operandBatchingDims := []
  startIndicesBatchingDims := []
  startIndexMap := [0]
  indexVectorDim := 1
  sliceSizes := ![1, 64]
  wf := gather_S200000x64_S4096x1_S4096x64_1_0_n_n_0_1_164_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf

class Facts : Prop extends Facts₀ where

variable [Facts]
-- ==== Proof.LibSharedPrefetchTail.lean ====
/-
  The host lines after a region whose windows may share arrays.

  When several input windows stage one array, the windows' arrays are not pairwise distinct and the
  region hands its arrays back split by window, each at the share its window holds. A line after the
  region that reads ONE array held whole at the full share (an output window's, which no other window
  stages) needs only that array's points-to and the buffers that bypass the region: the other windows'
  shares are framed around it. The lines run within that one array and the bypassing buffers, write the
  bypassing buffers only, and leave the array as they found it.
-/
import Idealize.ShloMosaic.Lib.Pipeline.FrameSuffix

noncomputable section

namespace Idealize.ShloMosaic.Pipeline

open Idealize.SL
open Idealize.SL.BI (sProp bigSep bigSep_map bigSep_insert bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Ix : Type} [DecidableEq Ix] {Name : Type} [DecidableEq Name] {U : Type} [URA U] {Lvl : Type}
variable {Λ₀ : SL.Sem.Labels} {P : Type}
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

variable (sig) in
/-- The device buffers a line after the region may touch when it reads the one array `x`: `x` and the buffers
    that bypass the region. -/
def tailRefsOne {gr : Nat} {W : Nat} (pre : Prefetch sig) (win : Fin W → WinSpec sig gr) (x : Ref sig .tc) : Finset (DevRef τ sig) :=
  (insert x (restRefsP sig pre win)).map ⟨Proc.devRef (sig := sig) .tc, Proc.devRef_injective _⟩

/-- Those buffers held at `Wv`: the array `x` whole at `Wv`, and the bypassing buffers at `Wv`
    (`hx`: `x`, being a window's array, is no bypassing buffer). -/
theorem held_tailRefsOne {gr : Nat} {W : Nat} (pre : Prefetch sig) (win : Fin W → WinSpec sig gr) (x : Ref sig .tc)
    (hx : x ∉ restRefsP sig pre win) (c : Dev nD) (Wv : Valuation τ sig Val) :
    (StableHlo.held (c.tc : Thread nD τ) (tailRefsOne sig pre win x) Wv : sProp 𝕄)
      = iprop((((c.tc : Thread nD τ).loc x) ↦{fullShare} Wv (Proc.devRef .tc x))
          ∗ unscopedRestP pre win c (fun b => Wv (Proc.devRef .tc b))) := by
  unfold StableHlo.held tailRefsOne unscopedRestP
  rw [bigSep_map, bigSep_insert hx]
  rfl

set_option backward.isDefEq.respectTransparency.types false in
/-- The lines after the region, reading one array: from the boundary, the array `x` whole at `Wv` and the
    bypassing buffers at `Wv`, the lines run within these (`hsub`), allocate nothing (`hfresh`), do not write
    `x` (`hkeep`), and hand back `x` as it was and the bypassing buffers at `StableHlo.after` of the lines. -/
theorem tail_seqs_one [Preorder Lvl] {gr : Nat} {W : Nat} (pre : Prefetch sig) (win : Fin W → WinSpec sig gr) (x : Ref sig .tc)
    (hx : x ∉ restRefsP sig pre win) (c : Dev nD) (Wv : Valuation τ sig Val)
    (opss : List (List (HloOp τ sig Val)))
    (hsub : ∀ ops ∈ opss, ∀ op ∈ ops, op.bufs ⊆ tailRefsOne sig pre win x)
    (hfresh : ∀ ops ∈ opss, ∀ op ∈ ops, op.fresh = ∅)
    (hkeep : ∀ ops ∈ opss, ∀ op ∈ ops, Proc.devRef .tc x ∉ op.writes)
    (Q' : PUnit → sProp 𝕄) :
    iprop((iprop((((c.tc : Thread nD τ).loc x) ↦{fullShare} Wv (Proc.devRef .tc x))
              ∗ unscopedRestP pre win c (fun b => StableHlo.after opss.flatten Wv (Proc.devRef .tc b))) -∗ Q' ⟨⟩)
        ∗ boundary (c.tc : Thread nD τ)
        ∗ iprop((((c.tc : Thread nD τ).loc x) ↦{fullShare} Wv (Proc.devRef .tc x))
            ∗ unscopedRestP pre win c (fun b => Wv (Proc.devRef .tc b))))
      ⊢ wp frame (wpE 𝔻 𝕍 (c.tc : Thread nD τ) none) Set.univ (chain (opss.map StableHlo.seq)) Q' := by
  have hW' : (StableHlo.held (c.tc : Thread nD τ) (tailRefsOne sig pre win x) (StableHlo.after opss.flatten Wv) : sProp 𝕄)
      = iprop((((c.tc : Thread nD τ).loc x) ↦{fullShare} Wv (Proc.devRef .tc x))
          ∗ unscopedRestP pre win c (fun b => StableHlo.after opss.flatten Wv (Proc.devRef .tc b))) := by
    rw [held_tailRefsOne pre win x hx, StableHlo.after_of_forall_not_mem _ _ fun op hop => ?_]
    obtain ⟨ops, hops, hop⟩ := List.mem_flatten.mp hop
    exact hkeep ops hops op hop
  rw [← List.append_nil (opss.map StableHlo.seq), ← held_tailRefsOne pre win x hx c Wv]
  iintro ⟨Hk, Hb⟩
  iapply (wp_seqs_then pcs defs₀ 𝒱₀ c (tailRefsOne sig pre win x) [] opss hsub hfresh Wv) $$ Hb
  iintro Hb
  rw [chain_nil, wp_pure, hW']
  imodintro
  iapply Hk
  icases Hb with ⟨-, H⟩
  iexact H

end Idealize.ShloMosaic.Pipeline

end
-- ==== Proof.KLaunch.lean ====
/-
  THE LAUNCH LAYER: from the body obligation of the one pipelined region to the run of the whole @main.

  @main is a stretch of host operations, one pipelined region with three prefetched index tables, and one more
  host operation, a reshape of the region's output array into the result buffer. The region has four windows over
  THREE arrays: windows 1 and 2 stage one array, so the windows' arrays are not pairwise distinct, and the array's
  full share is dealt between the two windows, the left half to window 1 and the right half to window 2; window 0's
  input array and window 3's output array are held whole.

  What is proved here, for any proof data `dats` at those shares whose arrays are the region-entry contents `V`:
  * `hsplit0`: the three buffers behind the arrays, whole at `V`, make the four windows' arrays at their shares;
  * `tail0`: from the region's exit the reshape runs within the output array, held whole, and the buffers that
    bypass the region, the other windows' shares framed around it, and hands the arrays back unchanged;
  * `run_of_body`: the run of @main. At the end the result buffer holds the output array as the region left it
    (`Dat.arrAt 3 N`) at the result's shape, and the eight arguments hold what they were launched with: the tables
    are held by the region throughout and found at the contents it ran at, and no host operation writes an argument.
-/
import proofs.«165248_j20779051778107_2_alg».proof.Proof.Gen.KernelIdeal.Launch
import proofs.«165248_j20779051778107_2_alg».proof.Proof.LibSharedPrefetchTail
import Idealize.ShloMosaic.Lib.Pipeline.FrameSuffix

set_option maxRecDepth 1312

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The buffers' contents when the region is entered -/

/-- Core `c`'s buffer contents when the region is entered, as a valuation: the launch contents after the host
    operations before the region. -/
abbrev V0 (m : (ℓ : Loc nD τ sig) → Buf (Elt F) ℓ) (c : Dev nD) : Valuation τ sig (Elt F) :=
  StableHlo.after (Gen.hostOps0 (F := F)) (fun b => m (c, b))

/-- The same read at a TensorCore reference. -/
abbrev V (m : (ℓ : Loc nD τ sig) → Buf (Elt F) ℓ) (c : Dev nD) (b : Ref sig .tc) : Buf (Elt F) ((c : Thread nD τ).loc b) :=
  StableHlo.after (Gen.hostOps0 (F := F)) (fun b => m (c, b)) (Proc.devRef .tc b)

theorem hostOps0_fresh : (Gen.hostOps0 : List (HloOp τ sig (Elt F))).Forall fun op => op.fresh = ∅ := by
  simp only [List.Forall]; repeat' constructor
theorem hostOps1_fresh : (Gen.hostOps1 : List (HloOp τ sig (Elt F))).Forall fun op => op.fresh = ∅ := by
  simp only [List.Forall]; repeat' constructor

/-- No host operation before the region writes an argument of @main. -/
theorem hostOps0_keeps_args : (Gen.hostOps0 : List (HloOp τ sig (Elt F))).Forall fun op =>
    Proc.devRef (τ := τ) .tc main_arg0 ∉ op.writes ∧ Proc.devRef (τ := τ) .tc main_arg1 ∉ op.writes
    ∧ Proc.devRef (τ := τ) .tc main_arg2 ∉ op.writes ∧ Proc.devRef (τ := τ) .tc main_arg3 ∉ op.writes
    ∧ Proc.devRef (τ := τ) .tc main_arg4 ∉ op.writes ∧ Proc.devRef (τ := τ) .tc main_arg5 ∉ op.writes
    ∧ Proc.devRef (τ := τ) .tc main_arg6 ∉ op.writes ∧ Proc.devRef (τ := τ) .tc main_arg7 ∉ op.writes := by
  simp only [Gen.hostOps0, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)

/-- A buffer no host operation before the region writes is found as launched. -/
theorem V_of_keeps (m : (ℓ : Loc nD τ sig) → Buf (Elt F) ℓ) (c : Dev nD) (r : Ref sig .tc)
    (hr : ∀ op ∈ (Gen.hostOps0 : List (HloOp τ sig (Elt F))), Proc.devRef (τ := τ) .tc r ∉ op.writes) :
    V m c r = m ((c : Thread nD τ).loc r) :=
  StableHlo.after_of_forall_not_mem (b := Proc.devRef .tc r) _ _ hr

/-! ## The windows' arrays, one by one -/

theorem v82_not_rest : main_v82 ∉ Pipeline.restRefsP sig pre0 spec0 := fun h =>
  (Finset.mem_sdiff.mp (Finset.mem_sdiff.mp h).1).2 (Finset.mem_image.mpr ⟨3, Finset.mem_univ _, rfl⟩)

theorem mem_rest_of (b : Ref sig .tc) (hs : b.isScoped = false) (ha : ∀ w, (spec0 w).arr.view.ref ≠ b)
    (hp : b ∉ Finset.univ.image pre0.ref) : b ∈ Pipeline.restRefsP sig pre0 spec0 :=
  Finset.mem_sdiff.mpr ⟨Pipeline.mem_restRefs_of b hs ha, hp⟩

theorem v83_rest : main_v83 ∈ Pipeline.restRefsP sig pre0 spec0 := mem_rest_of _ (by decide) (by decide) (by decide)
theorem arg3_rest : main_arg3 ∈ Pipeline.restRefsP sig pre0 spec0 := mem_rest_of _ (by decide) (by decide) (by decide)
theorem arg4_rest : main_arg4 ∈ Pipeline.restRefsP sig pre0 spec0 := mem_rest_of _ (by decide) (by decide) (by decide)
theorem arg5_rest : main_arg5 ∈ Pipeline.restRefsP sig pre0 spec0 := mem_rest_of _ (by decide) (by decide) (by decide)
theorem arg6_rest : main_arg6 ∈ Pipeline.restRefsP sig pre0 spec0 := mem_rest_of _ (by decide) (by decide) (by decide)
theorem arg7_rest : main_arg7 ∈ Pipeline.restRefsP sig pre0 spec0 := mem_rest_of _ (by decide) (by decide) (by decide)

/-- Window `w`'s array, a whole buffer, held at a share: the points-to of the buffer behind it. -/
theorem arr_pt {a : (pcfg0 (F := F)).Adm} {c : Dev nD} (w : Fin 4) (q : PosShare TreeShare)
    (g : Buf (Elt F) (((cfg0 a).win w).arr.view.loc (c.tc : Thread nD τ))) :
    ((((cfg0 a).win w).arr.view.loc (c.tc : Thread nD τ)) ↦[((cfg0 a).win w).arr.view.set]{q} g : sProp 𝕄)
      = (((c.tc : Thread nD τ).loc (Pipeline.arrRef spec0 w)) ↦{q} g) := by
  have harr : ∀ w : Fin 4, ((cfg0 a).win w).arr.IsWhole := Gen.arr_whole0
  rw [(harr w).set_eq_univ]

set_option maxHeartbeats 1600000 in
/-- The pipeline's arrays window by window: the three input windows' at their shares (windows 1 and 2 stage one
    array, each at half of it), the output window's whole. -/
theorem arrays4 {a : (pcfg0 (F := F)).Adm} {c : Dev nD} (D : Pipeline.Dat τ (Elt F) Unit ℕ (UR sig nD τ) ℕ (cfg0 a) c)
    (hq : D.q 0 = fullShare ∧ D.q 1 = fullShare.left ∧ D.q 2 = fullShare.right)
    (G : (w : Fin 4) → Buf (Elt F) (((cfg0 a).win w).arr.view.loc (c.tc : Thread nD τ))) :
    (D.arrays G : sProp 𝕄)
      = iprop((((c.tc : Thread nD τ).loc main_v80) ↦{fullShare} G 0) ∗ (((c.tc : Thread nD τ).loc main_v81) ↦{fullShare.left} G 1)
        ∗ (((c.tc : Thread nD τ).loc main_v81) ↦{fullShare.right} G 2) ∗ (((c.tc : Thread nD τ).loc main_v82) ↦{fullShare} G 3)) := by
  have hs0 : D.share (0 : Fin 4) = fullShare := (show D.share (0 : Fin 4) = D.q 0 from rfl).trans hq.1
  have hs1 : D.share (1 : Fin 4) = fullShare.left := (show D.share (1 : Fin 4) = D.q 1 from rfl).trans hq.2.1
  have hs2 : D.share (2 : Fin 4) = fullShare.right := (show D.share (2 : Fin 4) = D.q 2 from rfl).trans hq.2.2
  have hs3 : D.share (3 : Fin 4) = fullShare := rfl
  unfold Pipeline.Dat.arrays
  refine (Gen.bigSep_W0 _).trans ?_
  rw [arr_pt (0 : Fin 4), arr_pt (1 : Fin 4), arr_pt (2 : Fin 4), arr_pt (3 : Fin 4), hs0, hs1, hs2, hs3]

/-! ## The arrays' buffers dealt to the windows -/

theorem arr_image : Finset.univ.image (Pipeline.arrRef spec0) = {main_v80, main_v81, main_v82} := by decide

/-- The three buffers behind the four windows' arrays, each whole at the region-entry contents, make the windows'
    arrays at their shares: the array windows 1 and 2 both stage is split in two halves. -/
theorem hsplit0 (m : (ℓ : Loc nD τ sig) → Buf (Elt F) ℓ) {a : (pcfg0 (F := F)).Adm} {c : Dev nD}
    (D : Pipeline.Dat τ (Elt F) Unit ℕ (UR sig nD τ) ℕ (cfg0 a) c)
    (hA : ∀ w, D.A w = V m c (Pipeline.arrRef spec0 w))
    (hq : D.q 0 = fullShare ∧ D.q 1 = fullShare.left ∧ D.q 2 = fullShare.right) :
    (Pipeline.arrBufs spec0 c (V m c) : sProp 𝕄) ⊢ D.arrays (D.arrAt · 0) := by
  rw [arrays4 D hq]
  have e : (Pipeline.arrBufs spec0 c (V m c) : sProp 𝕄)
      = iprop((((c.tc : Thread nD τ).loc main_v80) ↦{fullShare} V m c main_v80) ∗ (((c.tc : Thread nD τ).loc main_v81) ↦{fullShare} V m c main_v81)
          ∗ (((c.tc : Thread nD τ).loc main_v82) ↦{fullShare} V m c main_v82)) := by
    unfold Pipeline.arrBufs
    rw [arr_image, bigSep_insert (show main_v80 ∉ ({main_v81, main_v82} : Finset (Ref sig .tc)) by decide),
      bigSep_insert (show main_v81 ∉ ({main_v82} : Finset (Ref sig .tc)) by decide), bigSep_singleton]
    rfl
  rw [e]
  rw [show D.arrAt 0 0 = V m c main_v80 from hA 0, show D.arrAt 1 0 = V m c main_v81 from hA 1,
    show D.arrAt 2 0 = V m c main_v81 from hA 2, show D.arrAt 3 0 = V m c main_v82 from hA 3]
  iintro ⟨H0, H1, H2⟩
  ihave H1 := (pointsTo_share (PosShare.mem_left_op_right fullShare)).1 $$ H1
  icases H1 with ⟨H1l, H1r⟩
  isplitl [H0]; · iexact H0
  isplitl [H1l]; · iexact H1l
  isplitl [H1r]; · iexact H1r
  iexact H2

/-! ## The line after the region -/

/-- The contents the line after the region runs from: the output array at what the region left in it, every
    other buffer at its region-entry contents. -/
def Wv (m : (ℓ : Loc nD τ sig) → Buf (Elt F) ℓ) {a : (pcfg0 (F := F)).Adm} (c : Dev nD)
    (D : Pipeline.Dat τ (Elt F) Unit ℕ (UR sig nD τ) ℕ (cfg0 a) c) : Valuation τ sig (Elt F) :=
  Function.update (V0 m c) (Proc.devRef .tc main_v82) (D.arrAt 3 (cfg0 a).N)

theorem Wv_v82 (m : (ℓ : Loc nD τ sig) → Buf (Elt F) ℓ) {a : (pcfg0 (F := F)).Adm} (c : Dev nD)
    (D : Pipeline.Dat τ (Elt F) Unit ℕ (UR sig nD τ) ℕ (cfg0 a) c) :
    Wv m c D (Proc.devRef .tc main_v82) = D.arrAt 3 (cfg0 a).N := Function.update_self ..

theorem Wv_of_ne (m : (ℓ : Loc nD τ sig) → Buf (Elt F) ℓ) {a : (pcfg0 (F := F)).Adm} (c : Dev nD)
    (D : Pipeline.Dat τ (Elt F) Unit ℕ (UR sig nD τ) ℕ (cfg0 a) c) (b : Ref sig .tc) (hb : b ≠ main_v82) :
    Wv m c D (Proc.devRef .tc b) = V m c b := Function.update_of_ne (StableHlo.devRef_ne_of_ne hb) ..

/-- The line touches the output array and a bypassing buffer only. -/
theorem sfx_sub : ∀ ops ∈ ([Gen.hostOps1] : List (List (HloOp τ sig (Elt F)))), ∀ op ∈ ops,
    op.bufs ⊆ Pipeline.tailRefsOne sig pre0 spec0 main_v82 := by
  intro ops hops op hop
  simp only [List.mem_cons, List.mem_nil_iff, or_false] at hops
  rcases hops with rfl
  simp only [Gen.hostOps1, List.mem_cons, List.mem_nil_iff, or_false] at hop
  rcases hop with rfl
  intro b hb
  rw [StableHlo.reshape_bufs] at hb
  rcases Finset.mem_insert.mp hb with rfl | hb
  · exact Finset.mem_map_of_mem _ (Finset.mem_insert_self _ _)
  · rw [Finset.mem_singleton] at hb; subst hb
    exact Finset.mem_map_of_mem _ (Finset.mem_insert_of_mem v83_rest)

/-- It allocates nothing. -/
theorem sfx_fresh : ∀ ops ∈ ([Gen.hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And does not write the output array. -/
theorem sfx_keeps : ∀ ops ∈ ([Gen.hostOps1] : List (List (HloOp τ sig (Elt F)))), ∀ op ∈ ops,
    Proc.devRef (τ := τ) .tc main_v82 ∉ op.writes := by
  intro ops hops op hop
  simp only [List.mem_cons, List.mem_nil_iff, or_false] at hops
  rcases hops with rfl
  simp only [Gen.hostOps1, List.mem_cons, List.mem_nil_iff, or_false] at hop
  rcases hop with rfl
  simp only [StableHlo.reshape_writes, Finset.mem_singleton]
  exact StableHlo.devRef_ne_of_ne (by decide)

/-- The line after the region, from the region's exit: the arrays split by window and the bypassing buffers at the
    region-entry contents. It takes the output window's array, which it reads, runs, and hands the arrays back
    as they were and the bypassing buffers at the contents after the line. -/
theorem tail0 (m : (ℓ : Loc nD τ sig) → Buf (Elt F) ℓ) {a : (pcfg0 (F := F)).Adm} (c : Dev nD)
    (D : Pipeline.Dat τ (Elt F) Unit ℕ (UR sig nD τ) ℕ (cfg0 a) c)
    (hq : D.q 0 = fullShare ∧ D.q 1 = fullShare.left ∧ D.q 2 = fullShare.right) (Q' : PUnit → sProp 𝕄) :
    iprop((iprop(D.arrays (D.arrAt · (cfg0 a).N)
              ∗ Pipeline.unscopedRestP pre0 spec0 c (fun b => StableHlo.after ([Gen.hostOps1] : List (List (HloOp τ sig (Elt F)))).flatten (Wv m c D) (Proc.devRef .tc b))) -∗ Q' ⟨⟩)
        ∗ boundary (c.tc : Thread nD τ) ∗ D.arrays (D.arrAt · (cfg0 a).N) ∗ Pipeline.unscopedRestP pre0 spec0 c (V m c))
      ⊢ wp frame (wpE (Pipeline.defs (pcfgs (F := F)) defs₀) (Variants.lift Variants.none) (c.tc : Thread nD τ) none) Set.univ
          (Pipeline.chain (([Gen.hostOps1] : List (List (HloOp τ sig (Elt F)))).map StableHlo.seq)) Q' := by
  have ht := Pipeline.tail_seqs_one (Ix := Unit) (Name := ℕ) (U := UR sig nD τ) (Lvl := ℕ) (pcfgs (F := F)) defs₀ Variants.none
    pre0 spec0 main_v82 v82_not_rest c (Wv m c D) [Gen.hostOps1] sfx_sub sfx_fresh sfx_keeps Q'
  have hZ : (Pipeline.unscopedRestP pre0 spec0 c (fun b => Wv m c D (Proc.devRef .tc b)) : sProp 𝕄)
      = Pipeline.unscopedRestP pre0 spec0 c (V m c) := by
    unfold Pipeline.unscopedRestP
    exact bigSep_congr fun b hb => by dsimp only; rw [Wv_of_ne m c D b (fun e => v82_not_rest (e ▸ hb))]
  rw [Wv_v82, hZ] at ht
  rw [arrays4 D hq]
  iintro ⟨Hk, Hb, ⟨H0, H1, H2, H3⟩, HZ⟩
  iapply ht
  isplitl [Hk H0 H1 H2]
  · iintro ⟨H3, HZ⟩
    iapply Hk
    isplitr [HZ]
    · isplitl [H0]; · iexact H0
      isplitl [H1]; · iexact H1
      isplitl [H2]; · iexact H2
      iexact H3
    · iexact HZ
  · isplitl [Hb]; · iexact Hb
    isplitl [H3]; · iexact H3
    iexact HZ

/-- After the line the result buffer holds the output array's elements at the result's shape. -/
theorem W'_v83 (m : (ℓ : Loc nD τ sig) → Buf (Elt F) ℓ) {a : (pcfg0 (F := F)).Adm} (c : Dev nD)
    (D : Pipeline.Dat τ (Elt F) Unit ℕ (UR sig nD τ) ℕ (cfg0 a) c) :
    StableHlo.after ([Gen.hostOps1] : List (List (HloOp τ sig (Elt F)))).flatten (Wv m c D) (Proc.devRef .tc main_v83)
      = shapeCast S_ (D.arrAt 3 (cfg0 a).N) Gen.shapeCasts_S1x1_S_ := by
  show StableHlo.after [StableHlo.reshape main_v82 main_v83 rfl Gen.shapeCasts_S1x1_S_] (Wv m c D) (Proc.devRef .tc main_v83) = _
  rw [StableHlo.after_cons, StableHlo.after_nil, StableHlo.reshape_result, Wv_v82]
  rfl

/-- A buffer the line does not write, other than the output array, that no host operation before the region wrote
    either, ends as launched. -/
theorem W'_arg (m : (ℓ : Loc nD τ sig) → Buf (Elt F) ℓ) {a : (pcfg0 (F := F)).Adm} (c : Dev nD)
    (D : Pipeline.Dat τ (Elt F) Unit ℕ (UR sig nD τ) ℕ (cfg0 a) c) (r : Ref sig .tc) (h83 : r ≠ main_v83) (h82 : r ≠ main_v82)
    (hr : ∀ op ∈ (Gen.hostOps0 : List (HloOp τ sig (Elt F))), Proc.devRef (τ := τ) .tc r ∉ op.writes) :
    StableHlo.after ([Gen.hostOps1] : List (List (HloOp τ sig (Elt F)))).flatten (Wv m c D) (Proc.devRef .tc r)
      = m ((c : Thread nD τ).loc r) := by
  rw [StableHlo.after_of_forall_not_mem (b := Proc.devRef .tc r) _ _ fun op hop => ?_, Wv_of_ne m c D r h82, V_of_keeps m c r hr]
  obtain ⟨ops, hops, hop⟩ := List.mem_flatten.mp hop
  simp only [List.mem_cons, List.mem_nil_iff, or_false] at hops
  rcases hops with rfl
  simp only [Gen.hostOps1, List.mem_cons, List.mem_nil_iff, or_false] at hop
  rcases hop with rfl
  simp only [StableHlo.reshape_writes, Finset.mem_singleton]
  exact StableHlo.devRef_ne_of_ne h83

/-! ## The run of @main from the body obligation -/

/-- @main around the region: the host operations before it, the region, the line after it. -/
theorem hmain (m : (ℓ : Loc nD τ sig) → Buf (Elt F) ℓ) :
    Pipeline.HMainPK (Ix := Unit) (Name := ℕ) (U := UR sig nD τ) (Lvl := ℕ) (pcfgs (F := F)) 0 defs₀ Variants.none m (main (F := F)) (V m)
      (fun _ => Pipeline.chain (([Gen.hostOps1] : List (List (HloOp τ sig (Elt F)))).map StableHlo.seq)) := by
  have h := Pipeline.hmainP_around (Ix := Unit) (Name := ℕ) (U := UR sig nD τ) (Lvl := ℕ) (pcfgs (F := F)) 0 defs₀ Variants.none m main
    [Gen.hostOps0] [Gen.hostOps1] (by simp only [List.Forall]; exact Gen.hostOps0_sub) (by simp only [List.Forall]; exact hostOps0_fresh) Gen.main_chain
  have hfl : ([Gen.hostOps0] : List (List (HloOp τ sig (Elt F)))).flatten = Gen.hostOps0 := by
    rw [List.flatten_cons, List.flatten_nil, List.append_nil]
  rw [hfl] at h
  exact h

theorem run_of_body (m : (ℓ : Loc nD τ sig) → Buf (Elt F) ℓ) (ρ : Dev nD → PrngReg) (a : (pcfg0 (F := F)).Adm)
    (hpf : ∀ (c : Dev nD) k, m ((c.tc : Thread nD τ).loc (pre0.ref k)) = a.1 k)
    (dats : (c : Dev nD) → Pipeline.Dat τ (Elt F) Unit ℕ (UR sig nD τ) ℕ (cfg0 a) c)
    (hA : ∀ c w, (dats c).A w = V m c (Pipeline.arrRef spec0 w))
    (hq : ∀ c, (dats c).q 0 = fullShare ∧ (dats c).q 1 = fullShare.left ∧ (dats c).q 2 = fullShare.right)
    (howed : ∀ c t, (dats c).owed t = 0)
    (hbody : ∀ c, Pipeline.BodyObligationLoose (dats c) (defs₀ (F := F)) Variants.none () Set.univ)
    (hin : ∀ c, iprop(Pipeline.ΦA spec0 c ∗ Pipeline.ΦT pre0 a.1 c) ⊢ (dats c).Φ 0)
    (hout : ∀ c, (dats c).Φ (Fin.last (cfg0 a).N) ⊢ Pipeline.ΦA spec0 c) :
    θ_run (defs (F := F)) (onTc (τ := τ) (main (F := F))) ⟨m, fun _ => 0, ρ⟩ (fun r => ∀ c : Dev nD,
      r.2.mem ((c.tc : Thread nD τ).loc main_v83) = shapeCast S_ ((dats c).arrAt 3 (cfg0 a).N) Gen.shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  classical
  have hk := fun op hop => List.forall_iff_forall_mem.mp (hostOps0_keeps_args (F := F)) op hop
  have hpfV : ∀ (c : Dev nD) k, V m c (pre0.ref k) = a.1 k := fun c k => by
    refine (V_of_keeps m c (pre0.ref k) fun op hop => ?_).trans (hpf c k)
    have h := hk op hop
    fin_cases k
    · exact h.1
    · exact h.2.1
    · exact h.2.2.1
  let aa : (p : Fin 1) → (pcfgs (F := F) p).Adm := fun _ => a
  exact Pipeline.θ_run_region_pf_tail (pcfgs (F := F)) aa (fun _ c => dats c) () (Gen.cellOf_inj aa) 0 Gen.winFacts₀0
    (Pipeline.OwnSemFacts.none spec0) Gen.preFacts0 emb₁ defs₀ Variants.none m ρ main
    (fun _ => Pipeline.chain (([Gen.hostOps1] : List (List (HloOp τ sig (Elt F)))).map StableHlo.seq)) hbody
    Gen.block_pos0 Gen.arr_whole0 Gen.stage_whole0 howed
    (G := fun _ => iprop(emp)) (u₀ := initOf (Pipeline.cells (Pipeline.pin (pcfgs (F := F)) aa) (Gen.cellOf_inj aa)) (Pipeline.launchToks (Pipeline.pin (pcfgs (F := F)) aa) (Gen.cellOf_inj aa)))
    (hu₀ := by
      iintro Hu; imodintro
      isplitl [Hu]; · iapply (show (ownU _ : sProp 𝕄) ⊢ BI.own (emb₁ (initOf (Pipeline.cells (Pipeline.pin (pcfgs (F := F)) aa) (Gen.cellOf_inj aa)) (Pipeline.launchToks (Pipeline.pin (pcfgs (F := F)) aa) (Gen.cellOf_inj aa)))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := fun c => hsplit0 m (dats c) (hA c) (hq c))
    (hpf := hpfV)
    (X := fun c => iprop(∃ r, prngReg c r)) (Y := fun c => iprop(∃ r, prngReg c r))
    (Z := fun c => Pipeline.unscopedRestP (Ix := Unit) (Name := ℕ) (U := UR sig nD τ) (Lvl := ℕ) pre0 spec0 c (V m c))
    (Z' := fun c => Pipeline.unscopedRestP (Ix := Unit) (Name := ℕ) (U := UR sig nD τ) (Lvl := ℕ) pre0 spec0 c
      (fun b => StableHlo.after ([Gen.hostOps1] : List (List (HloOp τ sig (Elt F)))).flatten (Wv m c (dats c)) (Proc.devRef .tc b)))
    (hX := fun c => by
      iintro ⟨HU, -, -, -, Hp, -⟩; imodintro
      isplitl [Hp]; · iexists _; iexact Hp
      iexact HU)
    (hin := fun c => (show _ ⊢ iprop(Pipeline.ΦA spec0 c ∗ Pipeline.ΦT pre0 a.1 c) by
      unfold Pipeline.ΦA Pipeline.ΦT; iintro ⟨Hp, Ht, Hr⟩
      isplitr [Ht]
      · isplitl [Hr] <;> iassumption
      · iexact Ht).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail0 m c (dats c) (hq c) Q')
    (QY := fun c s => ∀ b ∈ Pipeline.restRefsP sig pre0 spec0, s.mem ((c.tc : Thread nD τ).loc b)
      = StableHlo.after ([Gen.hostOps1] : List (List (HloOp τ sig (Elt F)))).flatten (Wv m c (dats c)) (Proc.devRef .tc b))
    (hY := fun c s' => by
      iintro ⟨-, HU, HSI⟩
      unfold Pipeline.unscopedRestP
      imodintro
      iapply (pointsTo_read_all (Pipeline.restRefsP sig pre0 spec0) (fun b => (c.tc : Thread nD τ).loc b)
        (fun b => StableHlo.after ([Gen.hostOps1] : List (List (HloOp τ sig (Elt F)))).flatten (Wv m c (dats c)) (Proc.devRef .tc b)) s')
      isplitl [HU] <;> iassumption)
    (hQ := fun s h c => by
      obtain ⟨-, htab, hrest⟩ := h c
      refine ⟨(hrest main_v83 v83_rest).trans (W'_v83 m c (dats c)),
        (htab 0).trans (hpf c 0).symm, (htab 1).trans (hpf c 1).symm, (htab 2).trans (hpf c 2).symm,
        (hrest main_arg3 arg3_rest).trans (W'_arg m c (dats c) main_arg3 (by decide) (by decide) fun op hop => (hk op hop).2.2.2.1),
        (hrest main_arg4 arg4_rest).trans (W'_arg m c (dats c) main_arg4 (by decide) (by decide) fun op hop => (hk op hop).2.2.2.2.1),
        (hrest main_arg5 arg5_rest).trans (W'_arg m c (dats c) main_arg5 (by decide) (by decide) fun op hop => (hk op hop).2.2.2.2.2.1),
        (hrest main_arg6 arg6_rest).trans (W'_arg m c (dats c) main_arg6 (by decide) (by decide) fun op hop => (hk op hop).2.2.2.2.2.2.1),
        (hrest main_arg7 arg7_rest).trans (W'_arg m c (dats c) main_arg7 (by decide) (by decide) fun op hop => (hk op hop).2.2.2.2.2.2.2)⟩)

end Cert.KernelIdeal.Hand

end
-- ==== Proof.KConds.lean ====
import proofs.«165248_j20779051778107_2_alg».proof.Proof.Gen.KernelIdeal.Launch
import proofs.«165248_j20779051778107_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two branch conditions

The body zeroes its two accumulators at the first grid point and writes the result at the last one. -/

/-- The condition of the first branch (zero the accumulators), from the grid coordinates. -/
abbrev condFirst (i : grid0.Coords) : Prop :=
  (Scalar.cmpi .ne (Scalar.extui (Scalar.cmpi .eq (BitVec.ofNat 32 (i 0).val) 0#32)) 0#32) = 1#1
/-- It holds at point 0 only. -/
theorem hcondFirst : ∀ t : Fin grid0.N, condFirst (grid0.coords t) ↔ t.val = 0 := by decide +kernel

/-- The condition of the last branch (write the result), from the grid coordinates. -/
abbrev condLast (i : grid0.Coords) : Prop := k0_cond2 i = 1#1
/-- It holds at point 4095 only. -/
theorem hcondLast : ∀ t : Fin grid0.N, condLast (grid0.coords t) ↔ t.val = 4095 := by decide +kernel

end Cert.KernelIdeal.Hand

end
-- ==== Proof.KRunB.lean ====
import proofs.«165248_j20779051778107_2_alg».proof.Proof.KConds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body at a point that is neither the first nor the last

On whole staging memrefs — the three input blocks at their contents, the output's buffer (untouched here) at
anything, the two accumulators at what the point before left — the body runs to its end, the inputs and the
output's buffer as they were, each accumulator with its one store written. -/

set_option maxHeartbeats 4000000 in
noncomputable def kernelRun_B (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬condFirst i) (hc2 : ¬condLast i)
    (x0 x1 x2 : Vec F S1x1x256 .f32) (xs0 xs1 : Vec F S1x1 .f32) :
    Σ' (LS8 : List (View.Piece (Elt F) S1x1 .f32)), { LS9 : List (View.Piece (Elt F) S1x1 .f32) //
      ∀ (xi7 : Vec F S1x1 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi7 ∗ owns (c : Thread nD τ) arg8 fullShare xs0 ∗ owns (c : Thread nD τ) arg9 fullShare xs1
            ∗ (iprop(owns (c : Thread nD τ) arg4 fullShare x0 ∗ owns (c : Thread nD τ) arg5 fullShare x1 ∗ owns (c : Thread nD τ) arg6 fullShare x2 ∗ owns (c : Thread nD τ) arg7 fullShare xi7 ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__epilogue_kernel i arg1 harg1 arg2 harg2 arg3 harg3 arg4 harg4 arg5 harg5 arg6 harg6 arg7 harg7 arg8 harg8 arg9 harg9) K } := by
  refine ⟨?_, ?_, fun xi7 E K => ?run⟩
  case run =>
    simp only [cc0__epilogue_kernel_eq_skeleton]; unfold cc0__epilogue_kernel_skel
    simp only [k0_part1_eq_skeleton, k0_part2_eq_skeleton]
    unfold owns
    iintro ⟨⟨%f0, %hf0, H0⟩, ⟨%f1, %hf1, H1⟩, ⟨%f2, %hf2, H2⟩, ⟨%f7, %hf7, H7⟩, ⟨%fs0, %hfs0, HS0⟩, ⟨%fs1, %hfs1, HS1⟩, Hk⟩
    obtain rfl := harg4.eq_unread hf0; obtain rfl := harg5.eq_unread hf1; obtain rfl := harg6.eq_unread hf2
    obtain rfl := harg7.eq_unread hf7; obtain rfl := harg8.eq_unread hfs0; obtain rfl := harg9.eq_unread hfs1
    sl_exec (disch := first | exact hc0 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H7]
    · iexists _; isplitr; · ipureintro; exact harg7.read_unread _
      iexact H7
    isplitl [HS0]; · iexists _; iexact HS0
    iexists _; iexact HS1

end Cert.KernelIdeal.Hand

end
-- ==== Proof.KRunA.lean ====
import proofs.«165248_j20779051778107_2_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body at the first point

As at a middle point, but the two accumulators are found at anything: the body stores zero into each before
it reads them. -/

set_option maxHeartbeats 4000000 in
noncomputable def kernelRun_A (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : condFirst i) (hc2 : ¬condLast i)
    (x0 x1 x2 : Vec F S1x1x256 .f32) :
    Σ' (LS8 : List (View.Piece (Elt F) S1x1 .f32)), { LS9 : List (View.Piece (Elt F) S1x1 .f32) //
      ∀ (xi7 : Vec F S1x1 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi7 ∗ (∃ d, owns (c : Thread nD τ) arg8 fullShare d) ∗ (∃ d, owns (c : Thread nD τ) arg9 fullShare d)
            ∗ (iprop(owns (c : Thread nD τ) arg4 fullShare x0 ∗ owns (c : Thread nD τ) arg5 fullShare x1 ∗ owns (c : Thread nD τ) arg6 fullShare x2 ∗ owns (c : Thread nD τ) arg7 fullShare xi7 ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__epilogue_kernel i arg1 harg1 arg2 harg2 arg3 harg3 arg4 harg4 arg5 harg5 arg6 harg6 arg7 harg7 arg8 harg8 arg9 harg9) K } := by
  refine ⟨?_, ?_, fun xi7 E K => ?run⟩
  case run =>
    simp only [cc0__epilogue_kernel_eq_skeleton]; unfold cc0__epilogue_kernel_skel
    simp only [k0_part1_eq_skeleton, k0_part2_eq_skeleton]
    unfold owns
    iintro ⟨⟨%f0, %hf0, H0⟩, ⟨%f1, %hf1, H1⟩, ⟨%f2, %hf2, H2⟩, ⟨%f7, %hf7, H7⟩, ⟨%ds0, %fs0, -, HS0⟩, ⟨%ds1, %fs1, -, HS1⟩, Hk⟩
    obtain rfl := harg4.eq_unread hf0; obtain rfl := harg5.eq_unread hf1; obtain rfl := harg6.eq_unread hf2
    obtain rfl := harg7.eq_unread hf7
    sl_exec (disch := first | exact hc0 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H7]
    · iexists _; isplitr; · ipureintro; exact harg7.read_unread _
      iexact H7
    isplitl [HS0]; · iexists _; iexact HS0
    iexists _; iexact HS1

end Cert.KernelIdeal.Hand

end
-- ==== Proof.KRunC.lean ====
import proofs.«165248_j20779051778107_2_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body at the last point

As at a middle point, and then the result is stored into the output's buffer, found at anything. -/

set_option maxHeartbeats 4000000 in
noncomputable def kernelRun_C (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬condFirst i) (hc2 : condLast i)
    (x0 x1 x2 : Vec F S1x1x256 .f32) (xs0 xs1 : Vec F S1x1 .f32) :
    Σ' (L7 : List (View.Piece (Elt F) S1x1 .f32)) (LS8 : List (View.Piece (Elt F) S1x1 .f32)), { LS9 : List (View.Piece (Elt F) S1x1 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs0 ∗ owns (c : Thread nD τ) arg9 fullShare xs1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__epilogue_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__epilogue_kernel_eq_skeleton]; unfold cc0__epilogue_kernel_skel
    simp only [k0_part1_eq_skeleton, k0_part2_eq_skeleton]
    unfold owns
    iintro ⟨⟨%f0, %hf0, H0⟩, ⟨%f1, %hf1, H1⟩, ⟨%f2, %hf2, H2⟩, ⟨%d7, %f7, -, H7⟩, ⟨%fs0, %hfs0, HS0⟩, ⟨%fs1, %hfs1, HS1⟩, Hk⟩
    obtain rfl := harg4.eq_unread hf0; obtain rfl := harg5.eq_unread hf1; obtain rfl := harg6.eq_unread hf2
    obtain rfl := harg8.eq_unread hfs0; obtain rfl := harg9.eq_unread hfs1
    sl_exec (disch := first | exact hc0 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H7]; · iexists _; iexact H7
    isplitl [HS0]; · iexists _; iexact HS0
    iexists _; iexact HS1

end Cert.KernelIdeal.Hand

end
-- ==== Proof.KSteps.lean ====
import proofs.«165248_j20779051778107_2_alg».proof.Proof.Gen.KernelIdeal.Skeleton

set_option maxRecDepth 16384

noncomputable section

namespace Cert.KernelIdeal.Hand

open Cert.KernelIdeal Cert.KernelIdeal.Gen
open Idealize.ShloMosaic
open Idealize.SL.Sem

variable {F : FTy → Type} [FloatOps F] [Named F]

/-! ## One grid point's work, as pure functions of the three staged rows and the accumulators

At a grid point the body reads the three staged rows `u`, `p`, `n` (the triplet's user, positive-item and
negative-item rows, four layers of 64 features side by side) and updates two one-element accumulators: the
loss accumulator gains the log-sigmoid of the triplet's score, the regularizer accumulator gains half the
squared norms of the three layer-0 rows. At the last point the result is minus the loss accumulator plus
the weight-decay constant times the regularizer accumulator. -/

/-- The loss accumulator after a point, from the three rows and the accumulator before it. -/
def lossStep (u p n : Vec F S1x1x256 .f32) (L : Vec F S1x1 .f32) : FVec F S1x1 .f32 :=
  k0_pay12 (k0_pay8 n) (k0_pay9 u) (k0_pay10 p) (k0_pay11 (F := F)) L

/-- The regularizer accumulator after a point. -/
def regStep (u p n : Vec F S1x1x256 .f32) (R : Vec F S1x1 .f32) : FVec F S1x1 .f32 :=
  k0_pay1 R (k0_pay13 (k0_pay5 u) (k0_pay6 p) (k0_pay7 n)) (k0_pay14 (F := F))

/-- The result written at the last point, from the two accumulators. -/
def outVal (L R : Vec F S1x1 .f32) : FVec F S1x1 .f32 := k0_pay2 L R

/-- The value both accumulators are reset to at the first point. -/
def zeroL : FVec F S1x1 .f32 := k0_pay3 (F := F)
def zeroR : FVec F S1x1 .f32 := k0_pay4 (F := F)

end Cert.KernelIdeal.Hand

end
-- ==== Proof.KData.lean ====
import proofs.«165248_j20779051778107_2_alg».proof.Proof.KRunC
import proofs.«165248_j20779051778107_2_alg».proof.Proof.KSteps
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The pipeline at admissible tables, a point's staging memrefs, the staged rows

Everything here is stated at ANY admissible contents `a` of the three prefetched index tables (the rows the
three input windows stage are read through them) and at ANY contents `Vv` of the buffers when the region is
entered. -/

variable (a : (pcfg0 (F := F)).Adm)
variable (Vv : (c : Dev nD) → (b : Ref sig .tc) → Buf (Elt F) ((c : Thread nD τ).loc b))

/-- The pipeline at the tables' contents. -/
abbrev cfgA : Pipeline.Cfg sig Λ₀ := cfg0 (F := F) a

/-- A point's grid coordinates. -/
abbrev crd (t : Fin (cfgA a).N) : grid0.Coords := (cfgA a).grid.coords t

/-- Each window's current staging memref at point `t`, as the pipeline passes it to the body, and its wholeness. -/
abbrev ms4 (t : Fin (cfgA a).N) : Memref sig .tc .vmem S1x1x256 .f32 := spec0_0.stage ((cfgA a).slots t (0 : Fin 4))
abbrev hs4 (t : Fin (cfgA a).N) : (ms4 a t).IsWhole := hstage0_0 (((cfgA a).slots t (0 : Fin 4)).cast nbuf0_0)
abbrev ms5 (t : Fin (cfgA a).N) : Memref sig .tc .vmem S1x1x256 .f32 := spec0_1.stage ((cfgA a).slots t (1 : Fin 4))
abbrev hs5 (t : Fin (cfgA a).N) : (ms5 a t).IsWhole := hstage0_1 (((cfgA a).slots t (1 : Fin 4)).cast nbuf0_1)
abbrev ms6 (t : Fin (cfgA a).N) : Memref sig .tc .vmem S1x1x256 .f32 := spec0_2.stage ((cfgA a).slots t (2 : Fin 4))
abbrev hs6 (t : Fin (cfgA a).N) : (ms6 a t).IsWhole := hstage0_2 (((cfgA a).slots t (2 : Fin 4)).cast nbuf0_2)
abbrev ms7 (t : Fin (cfgA a).N) : Memref sig .tc .vmem S1x1 .f32 := spec0_3.stage ((cfgA a).slots t (3 : Fin 4))
abbrev hs7 (t : Fin (cfgA a).N) : (ms7 a t).IsWhole := hstage0_3 (((cfgA a).slots t (3 : Fin 4)).cast nbuf0_3)
/-- The two accumulators: whole scoped buffers of the kernel's own. -/
abbrev scM8 : Memref sig .tc .vmem S1x1 .f32 := Memref.whole cc0_scratch0
abbrev scM9 : Memref sig .tc .vmem S1x1 .f32 := Memref.whole cc0_scratch1
/-- One staging buffer of the output window, and the accumulators, as views through which contents are stated. -/
abbrev VO7 : View sig .tc .vmem S1x1 .f32 := (Memref.whole cc0_stg3_0 : Memref sig .tc .vmem S1x1 .f32).view
abbrev VS8 : View sig .tc .vmem S1x1 .f32 := (scM8).view
abbrev VS9 : View sig .tc .vmem S1x1 .f32 := (scM9).view

/-- The body at point `t`, on what the pipeline calls it with. -/
abbrev bodyAt (t : Fin (cfgA a).N) : Prog (TpuEff nD τ sig (Elt F) Λ₀ .tc) PUnit :=
  cc0__epilogue_kernel (crd a t) (Memref.whole main_arg0) (Memref.isWhole_whole _) (Memref.whole main_arg1) (Memref.isWhole_whole _)
    (Memref.whole main_arg2) (Memref.isWhole_whole _) (ms4 a t) (hs4 a t) (ms5 a t) (hs5 a t) (ms6 a t) (hs6 a t) (ms7 a t) (hs7 a t)
    scM8 (Memref.isWhole_whole _) scM9 (Memref.isWhole_whole _)

/-- Window `w`'s block at point `t`, read off its array as the region finds it. -/
def iblk (c : Dev nD) (w : Fin (cfgA a).W) (t : Fin (cfgA a).N) : (((cfgA a).win w).xblock (crd a t)).Idx → Elt F ((cfgA a).win w).elt :=
  (((cfgA a).win w).blk t).view.read (Elt F) (Vv c (Pipeline.arrRef spec0 w))

/-! ## The two accumulators point by point -/

/-- What the two accumulators hold after the body at position `n`: reset and advanced once at the first point,
    advanced from the point before afterwards. -/
def accAt (c : Dev nD) : (n : ℕ) → n < (cfgA a).N → Vec F S1x1 .f32 × Vec F S1x1 .f32
  | 0, hn => (lossStep (iblk a Vv c 0 ⟨0, hn⟩) (iblk a Vv c 1 ⟨0, hn⟩) (iblk a Vv c 2 ⟨0, hn⟩) (zeroL (F := F)),
              regStep (iblk a Vv c 0 ⟨0, hn⟩) (iblk a Vv c 1 ⟨0, hn⟩) (iblk a Vv c 2 ⟨0, hn⟩) (zeroR (F := F)))
  | n + 1, hn => (lossStep (iblk a Vv c 0 ⟨n + 1, hn⟩) (iblk a Vv c 1 ⟨n + 1, hn⟩) (iblk a Vv c 2 ⟨n + 1, hn⟩) (accAt c n (Nat.lt_of_succ_lt hn)).1,
                  regStep (iblk a Vv c 0 ⟨n + 1, hn⟩) (iblk a Vv c 1 ⟨n + 1, hn⟩) (iblk a Vv c 2 ⟨n + 1, hn⟩) (accAt c n (Nat.lt_of_succ_lt hn)).2)

/-- What the output's staging buffer holds after the body at point `t`: the result, from that point's accumulators
    (read by the pipeline at the last point only, where the body stores it). -/
def outAt (c : Dev nD) (t : Fin (cfgA a).N) : Vec F S1x1 .f32 :=
  outVal (accAt a Vv c t.val t.isLt).1 (accAt a Vv c t.val t.isLt).2

/-- The region invariant before position `n`: before the first point the scoped rest (each accumulator at anything) and the
    generator register at some state; afterwards each accumulator at what the point before left. -/
def PhiS (c : Dev nD) : (n : ℕ) → n ≤ (cfgA a).N → sProp 𝕄
  | 0, _ => Pipeline.ΦA spec0 c
  | n + 1, hn => iprop(owns (c : Thread nD τ) scM8 fullShare ((accAt a Vv c n hn).1) ∗ owns (c : Thread nD τ) scM9 fullShare ((accAt a Vv c n hn).2) ∗ (∃ r, prngReg c r))

/-- The proof data: the arrays as the region finds them; after the body each input's buffer at its block, the output's at
    `outAt`; the invariant `PhiS`; nothing owed; the first window's array at the full share, the shared array's full share dealt
    between the two windows that read it. -/
def dats (c : Dev nD) : Dat τ (Elt F) Unit ℕ (UR sig nD τ) ℕ (cfgA a) c where
  A w := Vv c (Pipeline.arrRef spec0 w)
  after w t := match w with
    | ⟨0, _⟩ => iblk a Vv c 0 t
    | ⟨1, _⟩ => iblk a Vv c 1 t
    | ⟨2, _⟩ => iblk a Vv c 2 t
    | ⟨3, _⟩ => outAt a Vv c t
  Φ t := PhiS a Vv c t.val (Nat.le_of_lt_succ t.isLt)
  q w := match w with
    | ⟨0, _⟩ => fullShare
    | ⟨1, _⟩ => fullShare.left
    | ⟨2, _⟩ => fullShare.right
    | ⟨3, _⟩ => fullShare
  owed _ := 0

end Cert.KernelIdeal.Hand

end
-- ==== Proof.KPieces.lean ====
import proofs.«165248_j20779051778107_2_alg».proof.Proof.KData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each run's stores leave, read back

Every buffer the body stores into is one element wide and each store covers it, so what a buffer holds after
the body is the payload of its LAST store; a load that follows a store of the same run reads that store's
payload. Read back, the stores are the step functions of the staged rows and the accumulators. -/

theorem hz2 : (![0, 0] : Fin 2 → ℕ) = fun _ => 0 := by funext a; fin_cases a <;> rfl
theorem hz3 : (![0, 0, 0] : Fin 3 → ℕ) = fun _ => 0 := by funext a; fin_cases a <;> rfl

/-- Middle point: the loss accumulator advances by one step from what it held. -/
theorem LS8_B (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬condFirst i) (hc2 : ¬condLast i)
    (x0 x1 x2 : Vec F S1x1x256 .f32) (xs0 xs1 : Vec F S1x1 .f32) (v : View sig .tc .vmem S1x1 .f32) (f : v.ty.Contents (Elt F)) :
    v.read (Elt F) (v.writes (Elt F) f (kernelRun_B c i arg1 harg1 arg2 harg2 arg3 harg3 arg4 harg4 arg5 harg5 arg6 harg6 arg7 harg7 arg8 harg8 arg9 harg9 hc0 hc2 x0 x1 x2 xs0 xs1).1) = lossStep x0 x1 x2 xs0 := by
  unfold kernelRun_B; dsimp only; sl_unfold_words
  refine (View.read_writes_eq_canon v f _ ?cov).trans ?_
  case cov => intro y; exact ⟨_, List.Mem.head _, View.mem_set_unit_zero (S := S1x1) hz2 Cert.KernelIdeal.Gen.inb_S1x1_S1x1_0_0 y⟩
  refine (View.canon_cons_unit_zero (S := S1x1) hz2 _ _ _).trans ?_
  simp only [View.readCov_unit_zero (S := S1x1) _ hz2, View.readAt_eq_ld, harg4.read_unread, harg5.read_unread, harg6.read_unread, harg8.read_unread, harg9.read_unread,
    View.ld_unit_zero (S := S1x1x256) hz3, View.ld_unit_zero (S := S1x1) hz2]
  rfl

/-- Middle point: the regularizer accumulator advances by one step from what it held. -/
theorem LS9_B (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬condFirst i) (hc2 : ¬condLast i)
    (x0 x1 x2 : Vec F S1x1x256 .f32) (xs0 xs1 : Vec F S1x1 .f32) (v : View sig .tc .vmem S1x1 .f32) (f : v.ty.Contents (Elt F)) :
    v.read (Elt F) (v.writes (Elt F) f (kernelRun_B c i arg1 harg1 arg2 harg2 arg3 harg3 arg4 harg4 arg5 harg5 arg6 harg6 arg7 harg7 arg8 harg8 arg9 harg9 hc0 hc2 x0 x1 x2 xs0 xs1).2.1) = regStep x0 x1 x2 xs1 := by
  unfold kernelRun_B; dsimp only; sl_unfold_words
  refine (View.read_writes_eq_canon v f _ ?cov).trans ?_
  case cov => intro y; exact ⟨_, List.Mem.head _, View.mem_set_unit_zero (S := S1x1) hz2 Cert.KernelIdeal.Gen.inb_S1x1_S1x1_0_0 y⟩
  refine (View.canon_cons_unit_zero (S := S1x1) hz2 _ _ _).trans ?_
  simp only [View.readCov_unit_zero (S := S1x1) _ hz2, View.readAt_eq_ld, harg4.read_unread, harg5.read_unread, harg6.read_unread, harg8.read_unread, harg9.read_unread,
    View.ld_unit_zero (S := S1x1x256) hz3, View.ld_unit_zero (S := S1x1) hz2]
  rfl

/-- First point: the loss accumulator is reset, then advanced. -/
theorem LS8_A (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : condFirst i) (hc2 : ¬condLast i)
    (x0 x1 x2 : Vec F S1x1x256 .f32) (v : View sig .tc .vmem S1x1 .f32) (f : v.ty.Contents (Elt F)) :
    v.read (Elt F) (v.writes (Elt F) f (kernelRun_A c i arg1 harg1 arg2 harg2 arg3 harg3 arg4 harg4 arg5 harg5 arg6 harg6 arg7 harg7 arg8 harg8 arg9 harg9 hc0 hc2 x0 x1 x2).1) = lossStep x0 x1 x2 (zeroL (F := F)) := by
  unfold kernelRun_A; dsimp only; sl_unfold_words
  refine (View.read_writes_eq_canon v f _ ?cov).trans ?_
  case cov => intro y; exact ⟨_, List.Mem.head _, View.mem_set_unit_zero (S := S1x1) hz2 Cert.KernelIdeal.Gen.inb_S1x1_S1x1_0_0 y⟩
  refine (View.canon_cons_unit_zero (S := S1x1) hz2 _ _ _).trans ?_
  simp only [View.readCov_unit_zero (S := S1x1) _ hz2, View.readAt_eq_ld, harg4.read_unread, harg5.read_unread, harg6.read_unread, harg8.read_unread, harg9.read_unread,
    View.ld_unit_zero (S := S1x1x256) hz3, View.ld_unit_zero (S := S1x1) hz2]
  rfl

/-- First point: the regularizer accumulator is reset, then advanced. -/
theorem LS9_A (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : condFirst i) (hc2 : ¬condLast i)
    (x0 x1 x2 : Vec F S1x1x256 .f32) (v : View sig .tc .vmem S1x1 .f32) (f : v.ty.Contents (Elt F)) :
    v.read (Elt F) (v.writes (Elt F) f (kernelRun_A c i arg1 harg1 arg2 harg2 arg3 harg3 arg4 harg4 arg5 harg5 arg6 harg6 arg7 harg7 arg8 harg8 arg9 harg9 hc0 hc2 x0 x1 x2).2.1) = regStep x0 x1 x2 (zeroR (F := F)) := by
  unfold kernelRun_A; dsimp only; sl_unfold_words
  refine (View.read_writes_eq_canon v f _ ?cov).trans ?_
  case cov => intro y; exact ⟨_, List.Mem.head _, View.mem_set_unit_zero (S := S1x1) hz2 Cert.KernelIdeal.Gen.inb_S1x1_S1x1_0_0 y⟩
  refine (View.canon_cons_unit_zero (S := S1x1) hz2 _ _ _).trans ?_
  simp only [View.readCov_unit_zero (S := S1x1) _ hz2, View.readAt_eq_ld, harg4.read_unread, harg5.read_unread, harg6.read_unread, harg8.read_unread, harg9.read_unread,
    View.ld_unit_zero (S := S1x1x256) hz3, View.ld_unit_zero (S := S1x1) hz2]
  rfl

/-- Last point: the accumulators advance as at a middle point, -/
theorem LS8_C (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬condFirst i) (hc2 : condLast i)
    (x0 x1 x2 : Vec F S1x1x256 .f32) (xs0 xs1 : Vec F S1x1 .f32) (v : View sig .tc .vmem S1x1 .f32) (f : v.ty.Contents (Elt F)) :
    v.read (Elt F) (v.writes (Elt F) f (kernelRun_C c i arg1 harg1 arg2 harg2 arg3 harg3 arg4 harg4 arg5 harg5 arg6 harg6 arg7 harg7 arg8 harg8 arg9 harg9 hc0 hc2 x0 x1 x2 xs0 xs1).2.1) = lossStep x0 x1 x2 xs0 := by
  unfold kernelRun_C; dsimp only; sl_unfold_words
  refine (View.read_writes_eq_canon v f _ ?cov).trans ?_
  case cov => intro y; exact ⟨_, List.Mem.head _, View.mem_set_unit_zero (S := S1x1) hz2 Cert.KernelIdeal.Gen.inb_S1x1_S1x1_0_0 y⟩
  refine (View.canon_cons_unit_zero (S := S1x1) hz2 _ _ _).trans ?_
  simp only [View.readCov_unit_zero (S := S1x1) _ hz2, View.readAt_eq_ld, harg4.read_unread, harg5.read_unread, harg6.read_unread, harg8.read_unread, harg9.read_unread,
    View.ld_unit_zero (S := S1x1x256) hz3, View.ld_unit_zero (S := S1x1) hz2]
  rfl

theorem LS9_C (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬condFirst i) (hc2 : condLast i)
    (x0 x1 x2 : Vec F S1x1x256 .f32) (xs0 xs1 : Vec F S1x1 .f32) (v : View sig .tc .vmem S1x1 .f32) (f : v.ty.Contents (Elt F)) :
    v.read (Elt F) (v.writes (Elt F) f (kernelRun_C c i arg1 harg1 arg2 harg2 arg3 harg3 arg4 harg4 arg5 harg5 arg6 harg6 arg7 harg7 arg8 harg8 arg9 harg9 hc0 hc2 x0 x1 x2 xs0 xs1).2.2.1) = regStep x0 x1 x2 xs1 := by
  unfold kernelRun_C; dsimp only; sl_unfold_words
  refine (View.read_writes_eq_canon v f _ ?cov).trans ?_
  case cov => intro y; exact ⟨_, List.Mem.head _, View.mem_set_unit_zero (S := S1x1) hz2 Cert.KernelIdeal.Gen.inb_S1x1_S1x1_0_0 y⟩
  refine (View.canon_cons_unit_zero (S := S1x1) hz2 _ _ _).trans ?_
  simp only [View.readCov_unit_zero (S := S1x1) _ hz2, View.readAt_eq_ld, harg4.read_unread, harg5.read_unread, harg6.read_unread, harg8.read_unread, harg9.read_unread,
    View.ld_unit_zero (S := S1x1x256) hz3, View.ld_unit_zero (S := S1x1) hz2]
  rfl

/-- and the output's buffer takes the result computed from the advanced accumulators. -/
theorem L7_C (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬condFirst i) (hc2 : condLast i)
    (x0 x1 x2 : Vec F S1x1x256 .f32) (xs0 xs1 : Vec F S1x1 .f32) (v : View sig .tc .vmem S1x1 .f32) (f : v.ty.Contents (Elt F)) :
    v.read (Elt F) (v.writes (Elt F) f (kernelRun_C c i arg1 harg1 arg2 harg2 arg3 harg3 arg4 harg4 arg5 harg5 arg6 harg6 arg7 harg7 arg8 harg8 arg9 harg9 hc0 hc2 x0 x1 x2 xs0 xs1).1) = outVal (lossStep x0 x1 x2 xs0) (regStep x0 x1 x2 xs1) := by
  unfold kernelRun_C; dsimp only; sl_unfold_words
  refine (View.read_writes_eq_canon v f _ ?cov).trans ?_
  case cov => intro y; exact ⟨_, List.Mem.head _, View.mem_set_unit_zero (S := S1x1) hz2 Cert.KernelIdeal.Gen.inb_S1x1_S1x1_0_0 y⟩
  refine (View.canon_cons_unit_zero (S := S1x1) hz2 _ _ _).trans ?_
  simp only [View.readCov_unit_zero (S := S1x1) _ hz2, View.readAt_eq_ld, harg4.read_unread, harg5.read_unread, harg6.read_unread, harg8.read_unread, harg9.read_unread,
    View.ld_unit_zero (S := S1x1x256) hz3, View.ld_unit_zero (S := S1x1) hz2]
  rfl

end Cert.KernelIdeal.Hand

end
-- ==== Proof.KBody.lean ====
import proofs.«165248_j20779051778107_2_alg».proof.Proof.KPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body obligation

At every grid point the three input buffers hold their blocks; the output's buffer is idle except at the last
point; the invariant hands the body the two accumulators at what the point before left (at anything before the
first point) and takes them back advanced by this point's step. -/

variable (a : (pcfg0 (F := F)).Adm)
variable (Vv : (c : Dev nD) → (b : Ref sig .tc) → Buf (Elt F) ((c : Thread nD τ).loc b))

theorem N_eq : (cfgA a).N = 4096 := N_0
theorem hcF (t : Fin (cfgA a).N) : condFirst (crd a t) ↔ t.val = 0 := hcondFirst t
theorem hcL (t : Fin (cfgA a).N) : condLast (crd a t) ↔ t.val = 4095 := hcondLast t

/-- The inputs are never idle. -/
theorem live0 (t : Fin (cfgA a).N) : (cfgA a).idle 0 (crd a t) = false := rfl
theorem live1 (t : Fin (cfgA a).N) : (cfgA a).idle 1 (crd a t) = false := rfl
theorem live2 (t : Fin (cfgA a).N) : (cfgA a).idle 2 (crd a t) = false := rfl
/-- The output is idle exactly where the body does not store the result. -/
theorem idle3 (t : Fin (cfgA a).N) (h : ¬condLast (crd a t)) : (cfgA a).idle 3 (crd a t) = true := by
  show (!(k0_cond2 (crd a t) == 1#1)) = true
  rw [Bool.not_eq_true', beq_eq_false_iff_ne]; exact h
theorem live3 (t : Fin (cfgA a).N) (h : condLast (crd a t)) : (cfgA a).idle 3 (crd a t) = false := by
  show (!(k0_cond2 (crd a t) == 1#1)) = false
  rw [Bool.not_eq_false', beq_iff_eq]; exact h
/-- The output's block index never moves, so it is written back at the last point only. -/
theorem noFlush3 (t : Fin (cfgA a).N) (h : t.val ≠ 4095) : ((cfgA a).win 3).flush t = false := by
  have hN : (cfgA a).grid.N = 4096 := N_0
  rw [Bool.eq_false_iff]; intro hfl
  unfold Pipeline.Window.flush at hfl
  rw [Bool.and_eq_true, Bool.or_eq_true, decide_eq_true_eq, decide_eq_true_eq] at hfl
  rcases hfl.2 with h1 | ⟨_, hne⟩
  · omega
  · exact hne rfl

/-- The scoped rest with the two accumulators as memrefs owned at some contents. -/
theorem PhiA_eq (c : Dev nD) :
    (Pipeline.ΦA spec0 c : sProp 𝕄)
      = iprop(iprop((∃ d, owns (c : Thread nD τ) scM8 fullShare d) ∗ (∃ d, owns (c : Thread nD τ) scM9 fullShare d)) ∗ (∃ r, prngReg c r)) := by
  unfold Pipeline.ΦA; rw [scopedRest0_eq]; simp only [scM8, scM9, owns_whole]; try rfl

theorem PhiS_zero (c : Dev nD) (n : ℕ) (h : n ≤ (cfgA a).N) (hz : n = 0) : PhiS a Vv c n h = Pipeline.ΦA spec0 c := by
  subst hz; rfl
theorem PhiS_succ (c : Dev nD) (n : ℕ) (hn : n < (cfgA a).N) :
    PhiS a Vv c (n + 1) hn = iprop(owns (c : Thread nD τ) scM8 fullShare ((accAt a Vv c n hn).1) ∗ owns (c : Thread nD τ) scM9 fullShare ((accAt a Vv c n hn).2) ∗ (∃ r, prngReg c r)) := rfl
theorem PhiS_pos (c : Dev nD) (n : ℕ) (h : n ≤ (cfgA a).N) (hz : n ≠ 0) :
    PhiS a Vv c n h = iprop(owns (c : Thread nD τ) scM8 fullShare ((accAt a Vv c (n - 1) (by omega)).1) ∗ owns (c : Thread nD τ) scM9 fullShare ((accAt a Vv c (n - 1) (by omega)).2) ∗ (∃ r, prngReg c r)) := by
  cases n with
  | zero => exact absurd rfl hz
  | succ n => rfl
theorem PhiS_castSucc (c : Dev nD) (t : Fin (cfgA a).N) :
    (dats a Vv c).Φ t.castSucc = PhiS a Vv c t.val (Nat.le_of_lt t.isLt) := by
  dsimp only [dats]; simp only [Fin.coe_castSucc]

/-- The accumulators after the first point. -/
theorem accAt_first (c : Dev nD) (t : Fin (cfgA a).N) (hz : t.val = 0) :
    accAt a Vv c t.val t.isLt = (lossStep (iblk a Vv c 0 t) (iblk a Vv c 1 t) (iblk a Vv c 2 t) (zeroL (F := F)), regStep (iblk a Vv c 0 t) (iblk a Vv c 1 t) (iblk a Vv c 2 t) (zeroR (F := F))) := by
  obtain ⟨n, hn⟩ := t
  cases n with
  | zero => rfl
  | succ n => exact absurd hz (Nat.succ_ne_zero n)
/-- The accumulators after a later point, from the point before. -/
theorem accAt_later (c : Dev nD) (t : Fin (cfgA a).N) (hz : t.val ≠ 0) :
    accAt a Vv c t.val t.isLt = (lossStep (iblk a Vv c 0 t) (iblk a Vv c 1 t) (iblk a Vv c 2 t) (accAt a Vv c (t.val - 1) (by omega)).1, regStep (iblk a Vv c 0 t) (iblk a Vv c 1 t) (iblk a Vv c 2 t) (accAt a Vv c (t.val - 1) (by omega)).2) := by
  obtain ⟨n, hn⟩ := t
  cases n with
  | zero => exact absurd rfl hz
  | succ n => rfl

theorem after0 (c : Dev nD) (t : Fin (cfgA a).N) : (dats a Vv c).after 0 t = iblk a Vv c 0 t := rfl
theorem after1 (c : Dev nD) (t : Fin (cfgA a).N) : (dats a Vv c).after 1 t = iblk a Vv c 1 t := rfl
theorem after2 (c : Dev nD) (t : Fin (cfgA a).N) : (dats a Vv c).after 2 t = iblk a Vv c 2 t := rfl
theorem after3 (c : Dev nD) (t : Fin (cfgA a).N) : (dats a Vv c).after 3 t = outAt a Vv c t := rfl

/-- Each input's current staging buffer holds its block at every point, fetched there or not. -/
theorem before0 (c : Dev nD) (t : Fin (cfgA a).N) (d) : (dats a Vv c).before 0 t d = iblk a Vv c 0 t :=
  ((dats a Vv c).before_in_eq_fetched 0 rfl (fun _ => rfl) (fun _ _ _ => rfl) (fun t => by rw [after0]; unfold Dat.blockOf iblk; dsimp only [dats]; try rfl) t d).trans
    (by unfold Dat.fetched Dat.blockOf iblk; dsimp only [dats]; try rfl)
theorem before1 (c : Dev nD) (t : Fin (cfgA a).N) (d) : (dats a Vv c).before 1 t d = iblk a Vv c 1 t :=
  ((dats a Vv c).before_in_eq_fetched 1 rfl (fun _ => rfl) (fun _ _ _ => rfl) (fun t => by rw [after1]; unfold Dat.blockOf iblk; dsimp only [dats]; try rfl) t d).trans
    (by unfold Dat.fetched Dat.blockOf iblk; dsimp only [dats]; try rfl)
theorem before2 (c : Dev nD) (t : Fin (cfgA a).N) (d) : (dats a Vv c).before 2 t d = iblk a Vv c 2 t :=
  ((dats a Vv c).before_in_eq_fetched 2 rfl (fun _ => rfl) (fun _ _ _ => rfl) (fun t => by rw [after2]; unfold Dat.blockOf iblk; dsimp only [dats]; try rfl) t d).trans
    (by unfold Dat.fetched Dat.blockOf iblk; dsimp only [dats]; try rfl)

/-- What the body is called with at point `t`, -/
def bodyPre (c : Dev nD) (t : Fin (cfgA a).N) : sProp 𝕄 :=
  iprop((dats a Vv c).Φ t.castSucc ∗ (dats a Vv c).owesAt () t.castSucc
    ∗ (∃ d, owns (c : Thread nD τ) (ms4 a t) fullShare ((dats a Vv c).before 0 t d))
    ∗ (∃ d, owns (c : Thread nD τ) (ms5 a t) fullShare ((dats a Vv c).before 1 t d))
    ∗ (∃ d, owns (c : Thread nD τ) (ms6 a t) fullShare ((dats a Vv c).before 2 t d))
    ∗ (∃ d, owns (c : Thread nD τ) (ms7 a t) fullShare ((dats a Vv c).before 3 t d)))

/-- and what it returns. -/
def bodyPost (c : Dev nD) (t : Fin (cfgA a).N) : sProp 𝕄 :=
  iprop((dats a Vv c).Φ t.succ ∗ (dats a Vv c).owesAt () t.succ
    ∗ (dats a Vv c).leavesExact 0 t ∗ (dats a Vv c).leavesExact 1 t ∗ (dats a Vv c).leavesExact 2 t ∗ (dats a Vv c).leavesExact 3 t)

set_option maxHeartbeats 4800000 in
theorem sound_body (c : Dev nD) (t : Fin (cfgA a).N) :
    bodyPre a Vv c t ⊢ wp frame (wpE (defs₀ (F := F)) Variants.none c none) Set.univ (bodyAt a t) (fun _ => bodyPost a Vv c t) := by
  unfold bodyPre bodyPost bodyAt
  simp only [before0, before1, before2]
  rw [show (dats a Vv c).owesAt () t.succ = (dats a Vv c).owesAt () t.castSucc from rfl]
  rw [show (dats a Vv c).Φ t.succ = PhiS a Vv c (t.val + 1) t.isLt from rfl, PhiS_succ]
  have hN : t.val < 4096 := lt_of_lt_of_eq t.isLt (N_eq a)
  rw [show (dats a Vv c).leavesExact 0 t = owns (c : Thread nD τ) (ms4 a t) fullShare ((dats a Vv c).after 0 t) from by
    unfold Dat.leavesExact; rw [live0 a t]; try rfl, after0]
  rw [show (dats a Vv c).leavesExact 1 t = owns (c : Thread nD τ) (ms5 a t) fullShare ((dats a Vv c).after 1 t) from by
    unfold Dat.leavesExact; rw [live1 a t]; try rfl, after1]
  rw [show (dats a Vv c).leavesExact 2 t = owns (c : Thread nD τ) (ms6 a t) fullShare ((dats a Vv c).after 2 t) from by
    unfold Dat.leavesExact; rw [live2 a t]; try rfl, after2]
  by_cases hz : t.val = 0
  · have hc0 : condFirst (crd a t) := (hcF a t).mpr hz
    have hc2 : ¬condLast (crd a t) := fun h => by have := (hcL a t).mp h; omega
    rw [Dat.leavesExact_idle (dats a Vv c) 3 t (idle3 a t hc2) (noFlush3 a t (by omega))]
    rw [accAt_first a Vv c t hz]; dsimp only
    rw [PhiS_castSucc a Vv c t, PhiS_zero a Vv c _ _ hz, PhiA_eq]
    iintro ⟨⟨⟨HS0, HS1⟩, Hg⟩, Ho, ⟨%d0, H0⟩, ⟨%d1, H1⟩, ⟨%d2, H2⟩, ⟨%d3, H3⟩⟩
    iapply ((kernelRun_A c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t)).2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hg]
    · isplitl [HS0]
      · unfold owns; iexists _; isplitr
        swap; · iexact HS0
        ipureintro; exact LS8_A c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _
      isplitl [HS1]
      · unfold owns; iexists _; isplitr
        swap; · iexact HS1
        ipureintro; exact LS9_A c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _
      iexact Hg
    isplitl [Ho]; · iexact Ho
    isplitl [H0]; · iexact H0
    isplitl [H1]; · iexact H1
    isplitl [H2]; · iexact H2
    iexists _; iexact H3
  · by_cases hl : t.val = 4095
    · have hc0 : ¬condFirst (crd a t) := fun h => hz ((hcF a t).mp h)
      have hc2 : condLast (crd a t) := (hcL a t).mpr hl
      rw [show (dats a Vv c).leavesExact 3 t = owns (c : Thread nD τ) (ms7 a t) fullShare ((dats a Vv c).after 3 t) from by
        unfold Dat.leavesExact; rw [live3 a t hc2]; try rfl, after3]
      unfold outAt
      rw [accAt_later a Vv c t hz]; dsimp only
      rw [PhiS_castSucc a Vv c t, PhiS_pos a Vv c _ _ hz]
      iintro ⟨⟨HS0, HS1, Hg⟩, Ho, ⟨%d0, H0⟩, ⟨%d1, H1⟩, ⟨%d2, H2⟩, ⟨%d3, H3⟩⟩
      iapply ((kernelRun_C c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0]
        · unfold owns; iexists _; isplitr
          swap; · iexact HS0
          ipureintro; exact LS8_C c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _ _ _
        isplitl [HS1]
        · unfold owns; iexists _; isplitr
          swap; · iexact HS1
          ipureintro; exact LS9_C c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _ _ _
        iexact Hg
      isplitl [Ho]; · iexact Ho
      isplitl [H0]; · iexact H0
      isplitl [H1]; · iexact H1
      isplitl [H2]; · iexact H2
      unfold owns; iexists _; isplitr
      swap; · iexact H3
      ipureintro; exact L7_C c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _ _ _
    · have hc0 : ¬condFirst (crd a t) := fun h => hz ((hcF a t).mp h)
      have hc2 : ¬condLast (crd a t) := fun h => hl ((hcL a t).mp h)
      rw [Dat.leavesExact_idle (dats a Vv c) 3 t (idle3 a t hc2) (noFlush3 a t hl)]
      rw [accAt_later a Vv c t hz]; dsimp only
      rw [PhiS_castSucc a Vv c t, PhiS_pos a Vv c _ _ hz]
      iintro ⟨⟨HS0, HS1, Hg⟩, Ho, ⟨%d0, H0⟩, ⟨%d1, H1⟩, ⟨%d2, H2⟩, ⟨%d3, H3⟩⟩
      iapply ((kernelRun_B c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0]
        · unfold owns; iexists _; isplitr
          swap; · iexact HS0
          ipureintro; exact LS8_B c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _ _ _
        isplitl [HS1]
        · unfold owns; iexists _; isplitr
          swap; · iexact HS1
          ipureintro; exact LS9_B c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _ _ _
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats a Vv c) (defs₀ (F := F)) Variants.none () Set.univ := fun t => by
  rw [bigSep_W0, bigSep_W0]
  exact sound_body a Vv c t

/-- The scoped rest (and the tables' share, let go) is the invariant before the first point. -/
theorem hin (c : Dev nD) : iprop(Pipeline.ΦA spec0 c ∗ Pipeline.ΦT pre0 a.1 c) ⊢ (dats a Vv c).Φ 0 := by
  rw [show (dats a Vv c).Φ 0 = PhiS a Vv c 0 (Nat.zero_le _) from rfl, PhiS_zero a Vv c 0 _ rfl]
  iintro ⟨H, -⟩; iexact H

/-- After the last point the invariant gives the scoped rest back: the accumulators' contents are forgotten. -/
theorem hout (c : Dev nD) : (dats a Vv c).Φ (Fin.last (cfgA a).N) ⊢ Pipeline.ΦA spec0 c := by
  rw [show (dats a Vv c).Φ (Fin.last (cfgA a).N) = PhiS a Vv c (Fin.last (cfgA a).N).val (Nat.le_of_lt_succ (Fin.last (cfgA a).N).isLt) from rfl,
    PhiS_pos a Vv c _ _ (by rw [Fin.val_last]; have := N_eq a; omega), PhiA_eq]
  iintro ⟨HS0, HS1, Hg⟩
  isplitl [HS0 HS1]
  · isplitl [HS0]
    · iexists _; iexact HS0
    iexists _; iexact HS1
  iexact Hg

theorem dats_A (c : Dev nD) (w : Fin (cfgA a).W) : (dats a Vv c).A w = Vv c (Pipeline.arrRef spec0 w) := by dsimp only [dats]
theorem dats_q (c : Dev nD) : (dats a Vv c).q 0 = fullShare ∧ (dats a Vv c).q 1 = fullShare.left ∧ (dats a Vv c).q 2 = fullShare.right := ⟨rfl, rfl, rfl⟩
theorem dats_owed (c : Dev nD) (t) : (dats a Vv c).owed t = 0 := rfl

end Cert.KernelIdeal.Hand

end
-- ==== Proof.KFrame.lean ====
/-
  The run of @main with the region's proof data in place.

  The launch layer turns a body obligation into the run of the whole @main; here it is given the proof data of the
  region (the arrays as the region finds them, the two accumulators point by point as the invariant), the body
  obligation proved of them, and the invariant's two ends. The result buffer ends holding the output array as the
  region's write-backs left it, at the result's shape; the eight arguments end as launched. Stated at any value
  algebra: nothing here reads what the accumulators hold.
-/
import proofs.«165248_j20779051778107_2_alg».proof.Proof.KLaunch
import proofs.«165248_j20779051778107_2_alg».proof.Proof.KBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]

/-- The run of @main: the result buffer holds the output array after the region (`Dat.arrAt 3 N` of the region's
    proof data at the region-entry contents `V m`) at the result's shape, and the arguments are unchanged. -/
theorem run_generic (m : (ℓ : Loc nD τ sig) → Buf (Elt F) ℓ) (ρ : Dev nD → PrngReg) (a : (pcfg0 (F := F)).Adm)
    (hpf : ∀ (c : Dev nD) k, m ((c.tc : Thread nD τ).loc (pre0.ref k)) = a.1 k) :
    θ_run (defs (F := F)) (onTc (τ := τ) (main (F := F))) ⟨m, fun _ => 0, ρ⟩ (fun r => ∀ c : Dev nD,
      r.2.mem ((c.tc : Thread nD τ).loc main_v83) = shapeCast S_ ((dats a (V m) c).arrAt 3 (cfgA a).N) Gen.shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_of_body m ρ a hpf (fun c => dats a (V m) c) (fun c w => dats_A a (V m) c w) (fun c => dats_q a (V m) c)
    (fun c t => dats_owed a (V m) c t) (fun c => (body_obligation a (V m) c).loose) (fun c => hin a (V m) c)
    (fun c => hout a (V m) c)

end Cert.KernelIdeal.Hand

end
-- ==== Proof.BLaunch.lean ====
/-
  THE LAUNCH LAYER: from the body obligation of the one pipelined region to the run of the whole @main.

  @main is a stretch of host operations, one pipelined region with three prefetched index tables, and one more
  host operation, a reshape of the region's output array into the result buffer. The region has four windows over
  THREE arrays: windows 1 and 2 stage one array, so the windows' arrays are not pairwise distinct, and the array's
  full share is dealt between the two windows, the left half to window 1 and the right half to window 2; window 0's
  input array and window 3's output array are held whole.

  What is proved here, for any proof data `dats` at those shares whose arrays are the region-entry contents `V`:
  * `hsplit0`: the three buffers behind the arrays, whole at `V`, make the four windows' arrays at their shares;
  * `tail0`: from the region's exit the reshape runs within the output array, held whole, and the buffers that
    bypass the region, the other windows' shares framed around it, and hands the arrays back unchanged;
  * `run_of_body`: the run of @main. At the end the result buffer holds the output array as the region left it
    (`Dat.arrAt 3 N`) at the result's shape, and the eight arguments hold what they were launched with: the tables
    are held by the region throughout and found at the contents it ran at, and no host operation writes an argument.
-/
import proofs.«165248_j20779051778107_2_alg».proof.Proof.Gen.Kernel.Launch
import proofs.«165248_j20779051778107_2_alg».proof.Proof.LibSharedPrefetchTail
import Idealize.ShloMosaic.Lib.Pipeline.FrameSuffix

set_option maxRecDepth 1312

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The buffers' contents when the region is entered -/

/-- Core `c`'s buffer contents when the region is entered, as a valuation: the launch contents after the host
    operations before the region. -/
abbrev V0 (m : (ℓ : Loc nD τ sig) → Buf (Elt F) ℓ) (c : Dev nD) : Valuation τ sig (Elt F) :=
  StableHlo.after (Gen.hostOps0 (F := F)) (fun b => m (c, b))

/-- The same read at a TensorCore reference. -/
abbrev V (m : (ℓ : Loc nD τ sig) → Buf (Elt F) ℓ) (c : Dev nD) (b : Ref sig .tc) : Buf (Elt F) ((c : Thread nD τ).loc b) :=
  StableHlo.after (Gen.hostOps0 (F := F)) (fun b => m (c, b)) (Proc.devRef .tc b)

theorem hostOps0_fresh : (Gen.hostOps0 : List (HloOp τ sig (Elt F))).Forall fun op => op.fresh = ∅ := by
  simp only [List.Forall]; repeat' constructor
theorem hostOps1_fresh : (Gen.hostOps1 : List (HloOp τ sig (Elt F))).Forall fun op => op.fresh = ∅ := by
  simp only [List.Forall]; repeat' constructor

/-- No host operation before the region writes an argument of @main. -/
theorem hostOps0_keeps_args : (Gen.hostOps0 : List (HloOp τ sig (Elt F))).Forall fun op =>
    Proc.devRef (τ := τ) .tc main_arg0 ∉ op.writes ∧ Proc.devRef (τ := τ) .tc main_arg1 ∉ op.writes
    ∧ Proc.devRef (τ := τ) .tc main_arg2 ∉ op.writes ∧ Proc.devRef (τ := τ) .tc main_arg3 ∉ op.writes
    ∧ Proc.devRef (τ := τ) .tc main_arg4 ∉ op.writes ∧ Proc.devRef (τ := τ) .tc main_arg5 ∉ op.writes
    ∧ Proc.devRef (τ := τ) .tc main_arg6 ∉ op.writes ∧ Proc.devRef (τ := τ) .tc main_arg7 ∉ op.writes := by
  simp only [Gen.hostOps0, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)

/-- A buffer no host operation before the region writes is found as launched. -/
theorem V_of_keeps (m : (ℓ : Loc nD τ sig) → Buf (Elt F) ℓ) (c : Dev nD) (r : Ref sig .tc)
    (hr : ∀ op ∈ (Gen.hostOps0 : List (HloOp τ sig (Elt F))), Proc.devRef (τ := τ) .tc r ∉ op.writes) :
    V m c r = m ((c : Thread nD τ).loc r) :=
  StableHlo.after_of_forall_not_mem (b := Proc.devRef .tc r) _ _ hr

/-! ## The windows' arrays, one by one -/

theorem v82_not_rest : main_v82 ∉ Pipeline.restRefsP sig pre0 spec0 := fun h =>
  (Finset.mem_sdiff.mp (Finset.mem_sdiff.mp h).1).2 (Finset.mem_image.mpr ⟨3, Finset.mem_univ _, rfl⟩)

theorem mem_rest_of (b : Ref sig .tc) (hs : b.isScoped = false) (ha : ∀ w, (spec0 w).arr.view.ref ≠ b)
    (hp : b ∉ Finset.univ.image pre0.ref) : b ∈ Pipeline.restRefsP sig pre0 spec0 :=
  Finset.mem_sdiff.mpr ⟨Pipeline.mem_restRefs_of b hs ha, hp⟩

theorem v83_rest : main_v83 ∈ Pipeline.restRefsP sig pre0 spec0 := mem_rest_of _ (by decide) (by decide) (by decide)
theorem arg3_rest : main_arg3 ∈ Pipeline.restRefsP sig pre0 spec0 := mem_rest_of _ (by decide) (by decide) (by decide)
theorem arg4_rest : main_arg4 ∈ Pipeline.restRefsP sig pre0 spec0 := mem_rest_of _ (by decide) (by decide) (by decide)
theorem arg5_rest : main_arg5 ∈ Pipeline.restRefsP sig pre0 spec0 := mem_rest_of _ (by decide) (by decide) (by decide)
theorem arg6_rest : main_arg6 ∈ Pipeline.restRefsP sig pre0 spec0 := mem_rest_of _ (by decide) (by decide) (by decide)
theorem arg7_rest : main_arg7 ∈ Pipeline.restRefsP sig pre0 spec0 := mem_rest_of _ (by decide) (by decide) (by decide)

/-- Window `w`'s array, a whole buffer, held at a share: the points-to of the buffer behind it. -/
theorem arr_pt {a : (pcfg0 (F := F)).Adm} {c : Dev nD} (w : Fin 4) (q : PosShare TreeShare)
    (g : Buf (Elt F) (((cfg0 a).win w).arr.view.loc (c.tc : Thread nD τ))) :
    ((((cfg0 a).win w).arr.view.loc (c.tc : Thread nD τ)) ↦[((cfg0 a).win w).arr.view.set]{q} g : sProp 𝕄)
      = (((c.tc : Thread nD τ).loc (Pipeline.arrRef spec0 w)) ↦{q} g) := by
  have harr : ∀ w : Fin 4, ((cfg0 a).win w).arr.IsWhole := Gen.arr_whole0
  rw [(harr w).set_eq_univ]

set_option maxHeartbeats 1600000 in
/-- The pipeline's arrays window by window: the three input windows' at their shares (windows 1 and 2 stage one
    array, each at half of it), the output window's whole. -/
theorem arrays4 {a : (pcfg0 (F := F)).Adm} {c : Dev nD} (D : Pipeline.Dat τ (Elt F) Unit ℕ (UR sig nD τ) ℕ (cfg0 a) c)
    (hq : D.q 0 = fullShare ∧ D.q 1 = fullShare.left ∧ D.q 2 = fullShare.right)
    (G : (w : Fin 4) → Buf (Elt F) (((cfg0 a).win w).arr.view.loc (c.tc : Thread nD τ))) :
    (D.arrays G : sProp 𝕄)
      = iprop((((c.tc : Thread nD τ).loc main_v80) ↦{fullShare} G 0) ∗ (((c.tc : Thread nD τ).loc main_v81) ↦{fullShare.left} G 1)
        ∗ (((c.tc : Thread nD τ).loc main_v81) ↦{fullShare.right} G 2) ∗ (((c.tc : Thread nD τ).loc main_v82) ↦{fullShare} G 3)) := by
  have hs0 : D.share (0 : Fin 4) = fullShare := (show D.share (0 : Fin 4) = D.q 0 from rfl).trans hq.1
  have hs1 : D.share (1 : Fin 4) = fullShare.left := (show D.share (1 : Fin 4) = D.q 1 from rfl).trans hq.2.1
  have hs2 : D.share (2 : Fin 4) = fullShare.right := (show D.share (2 : Fin 4) = D.q 2 from rfl).trans hq.2.2
  have hs3 : D.share (3 : Fin 4) = fullShare := rfl
  unfold Pipeline.Dat.arrays
  refine (Gen.bigSep_W0 _).trans ?_
  rw [arr_pt (0 : Fin 4), arr_pt (1 : Fin 4), arr_pt (2 : Fin 4), arr_pt (3 : Fin 4), hs0, hs1, hs2, hs3]

/-! ## The arrays' buffers dealt to the windows -/

theorem arr_image : Finset.univ.image (Pipeline.arrRef spec0) = {main_v80, main_v81, main_v82} := by decide

/-- The three buffers behind the four windows' arrays, each whole at the region-entry contents, make the windows'
    arrays at their shares: the array windows 1 and 2 both stage is split in two halves. -/
theorem hsplit0 (m : (ℓ : Loc nD τ sig) → Buf (Elt F) ℓ) {a : (pcfg0 (F := F)).Adm} {c : Dev nD}
    (D : Pipeline.Dat τ (Elt F) Unit ℕ (UR sig nD τ) ℕ (cfg0 a) c)
    (hA : ∀ w, D.A w = V m c (Pipeline.arrRef spec0 w))
    (hq : D.q 0 = fullShare ∧ D.q 1 = fullShare.left ∧ D.q 2 = fullShare.right) :
    (Pipeline.arrBufs spec0 c (V m c) : sProp 𝕄) ⊢ D.arrays (D.arrAt · 0) := by
  rw [arrays4 D hq]
  have e : (Pipeline.arrBufs spec0 c (V m c) : sProp 𝕄)
      = iprop((((c.tc : Thread nD τ).loc main_v80) ↦{fullShare} V m c main_v80) ∗ (((c.tc : Thread nD τ).loc main_v81) ↦{fullShare} V m c main_v81)
          ∗ (((c.tc : Thread nD τ).loc main_v82) ↦{fullShare} V m c main_v82)) := by
    unfold Pipeline.arrBufs
    rw [arr_image, bigSep_insert (show main_v80 ∉ ({main_v81, main_v82} : Finset (Ref sig .tc)) by decide),
      bigSep_insert (show main_v81 ∉ ({main_v82} : Finset (Ref sig .tc)) by decide), bigSep_singleton]
    rfl
  rw [e]
  rw [show D.arrAt 0 0 = V m c main_v80 from hA 0, show D.arrAt 1 0 = V m c main_v81 from hA 1,
    show D.arrAt 2 0 = V m c main_v81 from hA 2, show D.arrAt 3 0 = V m c main_v82 from hA 3]
  iintro ⟨H0, H1, H2⟩
  ihave H1 := (pointsTo_share (PosShare.mem_left_op_right fullShare)).1 $$ H1
  icases H1 with ⟨H1l, H1r⟩
  isplitl [H0]; · iexact H0
  isplitl [H1l]; · iexact H1l
  isplitl [H1r]; · iexact H1r
  iexact H2

/-! ## The line after the region -/

/-- The contents the line after the region runs from: the output array at what the region left in it, every
    other buffer at its region-entry contents. -/
def Wv (m : (ℓ : Loc nD τ sig) → Buf (Elt F) ℓ) {a : (pcfg0 (F := F)).Adm} (c : Dev nD)
    (D : Pipeline.Dat τ (Elt F) Unit ℕ (UR sig nD τ) ℕ (cfg0 a) c) : Valuation τ sig (Elt F) :=
  Function.update (V0 m c) (Proc.devRef .tc main_v82) (D.arrAt 3 (cfg0 a).N)

theorem Wv_v82 (m : (ℓ : Loc nD τ sig) → Buf (Elt F) ℓ) {a : (pcfg0 (F := F)).Adm} (c : Dev nD)
    (D : Pipeline.Dat τ (Elt F) Unit ℕ (UR sig nD τ) ℕ (cfg0 a) c) :
    Wv m c D (Proc.devRef .tc main_v82) = D.arrAt 3 (cfg0 a).N := Function.update_self ..

theorem Wv_of_ne (m : (ℓ : Loc nD τ sig) → Buf (Elt F) ℓ) {a : (pcfg0 (F := F)).Adm} (c : Dev nD)
    (D : Pipeline.Dat τ (Elt F) Unit ℕ (UR sig nD τ) ℕ (cfg0 a) c) (b : Ref sig .tc) (hb : b ≠ main_v82) :
    Wv m c D (Proc.devRef .tc b) = V m c b := Function.update_of_ne (StableHlo.devRef_ne_of_ne hb) ..

/-- The line touches the output array and a bypassing buffer only. -/
theorem sfx_sub : ∀ ops ∈ ([Gen.hostOps1] : List (List (HloOp τ sig (Elt F)))), ∀ op ∈ ops,
    op.bufs ⊆ Pipeline.tailRefsOne sig pre0 spec0 main_v82 := by
  intro ops hops op hop
  simp only [List.mem_cons, List.mem_nil_iff, or_false] at hops
  rcases hops with rfl
  simp only [Gen.hostOps1, List.mem_cons, List.mem_nil_iff, or_false] at hop
  rcases hop with rfl
  intro b hb
  rw [StableHlo.reshape_bufs] at hb
  rcases Finset.mem_insert.mp hb with rfl | hb
  · exact Finset.mem_map_of_mem _ (Finset.mem_insert_self _ _)
  · rw [Finset.mem_singleton] at hb; subst hb
    exact Finset.mem_map_of_mem _ (Finset.mem_insert_of_mem v83_rest)

/-- It allocates nothing. -/
theorem sfx_fresh : ∀ ops ∈ ([Gen.hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And does not write the output array. -/
theorem sfx_keeps : ∀ ops ∈ ([Gen.hostOps1] : List (List (HloOp τ sig (Elt F)))), ∀ op ∈ ops,
    Proc.devRef (τ := τ) .tc main_v82 ∉ op.writes := by
  intro ops hops op hop
  simp only [List.mem_cons, List.mem_nil_iff, or_false] at hops
  rcases hops with rfl
  simp only [Gen.hostOps1, List.mem_cons, List.mem_nil_iff, or_false] at hop
  rcases hop with rfl
  simp only [StableHlo.reshape_writes, Finset.mem_singleton]
  exact StableHlo.devRef_ne_of_ne (by decide)

/-- The line after the region, from the region's exit: the arrays split by window and the bypassing buffers at the
    region-entry contents. It takes the output window's array, which it reads, runs, and hands the arrays back
    as they were and the bypassing buffers at the contents after the line. -/
theorem tail0 (m : (ℓ : Loc nD τ sig) → Buf (Elt F) ℓ) {a : (pcfg0 (F := F)).Adm} (c : Dev nD)
    (D : Pipeline.Dat τ (Elt F) Unit ℕ (UR sig nD τ) ℕ (cfg0 a) c)
    (hq : D.q 0 = fullShare ∧ D.q 1 = fullShare.left ∧ D.q 2 = fullShare.right) (Q' : PUnit → sProp 𝕄) :
    iprop((iprop(D.arrays (D.arrAt · (cfg0 a).N)
              ∗ Pipeline.unscopedRestP pre0 spec0 c (fun b => StableHlo.after ([Gen.hostOps1] : List (List (HloOp τ sig (Elt F)))).flatten (Wv m c D) (Proc.devRef .tc b))) -∗ Q' ⟨⟩)
        ∗ boundary (c.tc : Thread nD τ) ∗ D.arrays (D.arrAt · (cfg0 a).N) ∗ Pipeline.unscopedRestP pre0 spec0 c (V m c))
      ⊢ wp frame (wpE (Pipeline.defs (pcfgs (F := F)) defs₀) (Variants.lift Variants.none) (c.tc : Thread nD τ) none) Set.univ
          (Pipeline.chain (([Gen.hostOps1] : List (List (HloOp τ sig (Elt F)))).map StableHlo.seq)) Q' := by
  have ht := Pipeline.tail_seqs_one (Ix := Unit) (Name := ℕ) (U := UR sig nD τ) (Lvl := ℕ) (pcfgs (F := F)) defs₀ Variants.none
    pre0 spec0 main_v82 v82_not_rest c (Wv m c D) [Gen.hostOps1] sfx_sub sfx_fresh sfx_keeps Q'
  have hZ : (Pipeline.unscopedRestP pre0 spec0 c (fun b => Wv m c D (Proc.devRef .tc b)) : sProp 𝕄)
      = Pipeline.unscopedRestP pre0 spec0 c (V m c) := by
    unfold Pipeline.unscopedRestP
    exact bigSep_congr fun b hb => by dsimp only; rw [Wv_of_ne m c D b (fun e => v82_not_rest (e ▸ hb))]
  rw [Wv_v82, hZ] at ht
  rw [arrays4 D hq]
  iintro ⟨Hk, Hb, ⟨H0, H1, H2, H3⟩, HZ⟩
  iapply ht
  isplitl [Hk H0 H1 H2]
  · iintro ⟨H3, HZ⟩
    iapply Hk
    isplitr [HZ]
    · isplitl [H0]; · iexact H0
      isplitl [H1]; · iexact H1
      isplitl [H2]; · iexact H2
      iexact H3
    · iexact HZ
  · isplitl [Hb]; · iexact Hb
    isplitl [H3]; · iexact H3
    iexact HZ

/-- After the line the result buffer holds the output array's elements at the result's shape. -/
theorem W'_v83 (m : (ℓ : Loc nD τ sig) → Buf (Elt F) ℓ) {a : (pcfg0 (F := F)).Adm} (c : Dev nD)
    (D : Pipeline.Dat τ (Elt F) Unit ℕ (UR sig nD τ) ℕ (cfg0 a) c) :
    StableHlo.after ([Gen.hostOps1] : List (List (HloOp τ sig (Elt F)))).flatten (Wv m c D) (Proc.devRef .tc main_v83)
      = shapeCast S_ (D.arrAt 3 (cfg0 a).N) Gen.shapeCasts_S1x1_S_ := by
  show StableHlo.after [StableHlo.reshape main_v82 main_v83 rfl Gen.shapeCasts_S1x1_S_] (Wv m c D) (Proc.devRef .tc main_v83) = _
  rw [StableHlo.after_cons, StableHlo.after_nil, StableHlo.reshape_result, Wv_v82]
  rfl

/-- A buffer the line does not write, other than the output array, that no host operation before the region wrote
    either, ends as launched. -/
theorem W'_arg (m : (ℓ : Loc nD τ sig) → Buf (Elt F) ℓ) {a : (pcfg0 (F := F)).Adm} (c : Dev nD)
    (D : Pipeline.Dat τ (Elt F) Unit ℕ (UR sig nD τ) ℕ (cfg0 a) c) (r : Ref sig .tc) (h83 : r ≠ main_v83) (h82 : r ≠ main_v82)
    (hr : ∀ op ∈ (Gen.hostOps0 : List (HloOp τ sig (Elt F))), Proc.devRef (τ := τ) .tc r ∉ op.writes) :
    StableHlo.after ([Gen.hostOps1] : List (List (HloOp τ sig (Elt F)))).flatten (Wv m c D) (Proc.devRef .tc r)
      = m ((c : Thread nD τ).loc r) := by
  rw [StableHlo.after_of_forall_not_mem (b := Proc.devRef .tc r) _ _ fun op hop => ?_, Wv_of_ne m c D r h82, V_of_keeps m c r hr]
  obtain ⟨ops, hops, hop⟩ := List.mem_flatten.mp hop
  simp only [List.mem_cons, List.mem_nil_iff, or_false] at hops
  rcases hops with rfl
  simp only [Gen.hostOps1, List.mem_cons, List.mem_nil_iff, or_false] at hop
  rcases hop with rfl
  simp only [StableHlo.reshape_writes, Finset.mem_singleton]
  exact StableHlo.devRef_ne_of_ne h83

/-! ## The run of @main from the body obligation -/

/-- @main around the region: the host operations before it, the region, the line after it. -/
theorem hmain (m : (ℓ : Loc nD τ sig) → Buf (Elt F) ℓ) :
    Pipeline.HMainPK (Ix := Unit) (Name := ℕ) (U := UR sig nD τ) (Lvl := ℕ) (pcfgs (F := F)) 0 defs₀ Variants.none m (main (F := F)) (V m)
      (fun _ => Pipeline.chain (([Gen.hostOps1] : List (List (HloOp τ sig (Elt F)))).map StableHlo.seq)) := by
  have h := Pipeline.hmainP_around (Ix := Unit) (Name := ℕ) (U := UR sig nD τ) (Lvl := ℕ) (pcfgs (F := F)) 0 defs₀ Variants.none m main
    [Gen.hostOps0] [Gen.hostOps1] (by simp only [List.Forall]; exact Gen.hostOps0_sub) (by simp only [List.Forall]; exact hostOps0_fresh) Gen.main_chain
  have hfl : ([Gen.hostOps0] : List (List (HloOp τ sig (Elt F)))).flatten = Gen.hostOps0 := by
    rw [List.flatten_cons, List.flatten_nil, List.append_nil]
  rw [hfl] at h
  exact h

theorem run_of_body (m : (ℓ : Loc nD τ sig) → Buf (Elt F) ℓ) (ρ : Dev nD → PrngReg) (a : (pcfg0 (F := F)).Adm)
    (hpf : ∀ (c : Dev nD) k, m ((c.tc : Thread nD τ).loc (pre0.ref k)) = a.1 k)
    (dats : (c : Dev nD) → Pipeline.Dat τ (Elt F) Unit ℕ (UR sig nD τ) ℕ (cfg0 a) c)
    (hA : ∀ c w, (dats c).A w = V m c (Pipeline.arrRef spec0 w))
    (hq : ∀ c, (dats c).q 0 = fullShare ∧ (dats c).q 1 = fullShare.left ∧ (dats c).q 2 = fullShare.right)
    (howed : ∀ c t, (dats c).owed t = 0)
    (hbody : ∀ c, Pipeline.BodyObligationLoose (dats c) (defs₀ (F := F)) Variants.none () Set.univ)
    (hin : ∀ c, iprop(Pipeline.ΦA spec0 c ∗ Pipeline.ΦT pre0 a.1 c) ⊢ (dats c).Φ 0)
    (hout : ∀ c, (dats c).Φ (Fin.last (cfg0 a).N) ⊢ Pipeline.ΦA spec0 c) :
    θ_run (defs (F := F)) (onTc (τ := τ) (main (F := F))) ⟨m, fun _ => 0, ρ⟩ (fun r => ∀ c : Dev nD,
      r.2.mem ((c.tc : Thread nD τ).loc main_v83) = shapeCast S_ ((dats c).arrAt 3 (cfg0 a).N) Gen.shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  classical
  have hk := fun op hop => List.forall_iff_forall_mem.mp (hostOps0_keeps_args (F := F)) op hop
  have hpfV : ∀ (c : Dev nD) k, V m c (pre0.ref k) = a.1 k := fun c k => by
    refine (V_of_keeps m c (pre0.ref k) fun op hop => ?_).trans (hpf c k)
    have h := hk op hop
    fin_cases k
    · exact h.1
    · exact h.2.1
    · exact h.2.2.1
  let aa : (p : Fin 1) → (pcfgs (F := F) p).Adm := fun _ => a
  exact Pipeline.θ_run_region_pf_tail (pcfgs (F := F)) aa (fun _ c => dats c) () (Gen.cellOf_inj aa) 0 Gen.winFacts₀0
    (Pipeline.OwnSemFacts.none spec0) Gen.preFacts0 emb₁ defs₀ Variants.none m ρ main
    (fun _ => Pipeline.chain (([Gen.hostOps1] : List (List (HloOp τ sig (Elt F)))).map StableHlo.seq)) hbody
    Gen.block_pos0 Gen.arr_whole0 Gen.stage_whole0 howed
    (G := fun _ => iprop(emp)) (u₀ := initOf (Pipeline.cells (Pipeline.pin (pcfgs (F := F)) aa) (Gen.cellOf_inj aa)) (Pipeline.launchToks (Pipeline.pin (pcfgs (F := F)) aa) (Gen.cellOf_inj aa)))
    (hu₀ := by
      iintro Hu; imodintro
      isplitl [Hu]; · iapply (show (ownU _ : sProp 𝕄) ⊢ BI.own (emb₁ (initOf (Pipeline.cells (Pipeline.pin (pcfgs (F := F)) aa) (Gen.cellOf_inj aa)) (Pipeline.launchToks (Pipeline.pin (pcfgs (F := F)) aa) (Gen.cellOf_inj aa)))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := fun c => hsplit0 m (dats c) (hA c) (hq c))
    (hpf := hpfV)
    (X := fun c => iprop(∃ r, prngReg c r)) (Y := fun c => iprop(∃ r, prngReg c r))
    (Z := fun c => Pipeline.unscopedRestP (Ix := Unit) (Name := ℕ) (U := UR sig nD τ) (Lvl := ℕ) pre0 spec0 c (V m c))
    (Z' := fun c => Pipeline.unscopedRestP (Ix := Unit) (Name := ℕ) (U := UR sig nD τ) (Lvl := ℕ) pre0 spec0 c
      (fun b => StableHlo.after ([Gen.hostOps1] : List (List (HloOp τ sig (Elt F)))).flatten (Wv m c (dats c)) (Proc.devRef .tc b)))
    (hX := fun c => by
      iintro ⟨HU, -, -, -, Hp, -⟩; imodintro
      isplitl [Hp]; · iexists _; iexact Hp
      iexact HU)
    (hin := fun c => (show _ ⊢ iprop(Pipeline.ΦA spec0 c ∗ Pipeline.ΦT pre0 a.1 c) by
      unfold Pipeline.ΦA Pipeline.ΦT; iintro ⟨Hp, Ht, Hr⟩
      isplitr [Ht]
      · isplitl [Hr] <;> iassumption
      · iexact Ht).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail0 m c (dats c) (hq c) Q')
    (QY := fun c s => ∀ b ∈ Pipeline.restRefsP sig pre0 spec0, s.mem ((c.tc : Thread nD τ).loc b)
      = StableHlo.after ([Gen.hostOps1] : List (List (HloOp τ sig (Elt F)))).flatten (Wv m c (dats c)) (Proc.devRef .tc b))
    (hY := fun c s' => by
      iintro ⟨-, HU, HSI⟩
      unfold Pipeline.unscopedRestP
      imodintro
      iapply (pointsTo_read_all (Pipeline.restRefsP sig pre0 spec0) (fun b => (c.tc : Thread nD τ).loc b)
        (fun b => StableHlo.after ([Gen.hostOps1] : List (List (HloOp τ sig (Elt F)))).flatten (Wv m c (dats c)) (Proc.devRef .tc b)) s')
      isplitl [HU] <;> iassumption)
    (hQ := fun s h c => by
      obtain ⟨-, htab, hrest⟩ := h c
      refine ⟨(hrest main_v83 v83_rest).trans (W'_v83 m c (dats c)),
        (htab 0).trans (hpf c 0).symm, (htab 1).trans (hpf c 1).symm, (htab 2).trans (hpf c 2).symm,
        (hrest main_arg3 arg3_rest).trans (W'_arg m c (dats c) main_arg3 (by decide) (by decide) fun op hop => (hk op hop).2.2.2.1),
        (hrest main_arg4 arg4_rest).trans (W'_arg m c (dats c) main_arg4 (by decide) (by decide) fun op hop => (hk op hop).2.2.2.2.1),
        (hrest main_arg5 arg5_rest).trans (W'_arg m c (dats c) main_arg5 (by decide) (by decide) fun op hop => (hk op hop).2.2.2.2.2.1),
        (hrest main_arg6 arg6_rest).trans (W'_arg m c (dats c) main_arg6 (by decide) (by decide) fun op hop => (hk op hop).2.2.2.2.2.2.1),
        (hrest main_arg7 arg7_rest).trans (W'_arg m c (dats c) main_arg7 (by decide) (by decide) fun op hop => (hk op hop).2.2.2.2.2.2.2)⟩)

end Cert.Kernel.Hand

end
-- ==== Proof.BConds.lean ====
import proofs.«165248_j20779051778107_2_alg».proof.Proof.Gen.Kernel.Launch
import proofs.«165248_j20779051778107_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions

The body zeroes its two accumulators at the first grid point and writes the result at the last one. -/

/-- The condition of the first branch (zero the accumulators), from the grid coordinates. -/
abbrev condFirst (i : grid0.Coords) : Prop :=
  (Scalar.cmpi .ne (Scalar.extui (Scalar.cmpi .eq (BitVec.ofNat 32 (i 0).val) 0#32)) 0#32) = 1#1
/-- It holds at point 0 only. -/
theorem hcondFirst : ∀ t : Fin grid0.N, condFirst (grid0.coords t) ↔ t.val = 0 := by decide +kernel

/-- The condition of the last branch (write the result), from the grid coordinates. -/
abbrev condLast (i : grid0.Coords) : Prop := k0_cond2 i = 1#1
/-- It holds at point 4095 only. -/
theorem hcondLast : ∀ t : Fin grid0.N, condLast (grid0.coords t) ↔ t.val = 4095 := by decide +kernel

end Cert.Kernel.Hand

end
-- ==== Proof.BRunB.lean ====
import proofs.«165248_j20779051778107_2_alg».proof.Proof.BConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a point that is neither the first nor the last

On whole staging memrefs — the three input blocks at their contents, the output's buffer (untouched here) at
anything, the two accumulators at what the point before left — the body runs to its end, the inputs and the
output's buffer as they were, each accumulator with its one store written. -/

set_option maxHeartbeats 4000000 in
noncomputable def kernelRun_B (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬condFirst i) (hc2 : ¬condLast i)
    (x0 x1 x2 : Vec F S1x1x256 .f32) (xs0 xs1 : Vec F S1x1 .f32) :
    Σ' (LS8 : List (View.Piece (Elt F) S1x1 .f32)), { LS9 : List (View.Piece (Elt F) S1x1 .f32) //
      ∀ (xi7 : Vec F S1x1 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi7 ∗ owns (c : Thread nD τ) arg8 fullShare xs0 ∗ owns (c : Thread nD τ) arg9 fullShare xs1
            ∗ (iprop(owns (c : Thread nD τ) arg4 fullShare x0 ∗ owns (c : Thread nD τ) arg5 fullShare x1 ∗ owns (c : Thread nD τ) arg6 fullShare x2 ∗ owns (c : Thread nD τ) arg7 fullShare xi7 ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__epilogue_kernel i arg1 harg1 arg2 harg2 arg3 harg3 arg4 harg4 arg5 harg5 arg6 harg6 arg7 harg7 arg8 harg8 arg9 harg9) K } := by
  refine ⟨?_, ?_, fun xi7 E K => ?run⟩
  case run =>
    simp only [cc0__epilogue_kernel_eq_skeleton]; unfold cc0__epilogue_kernel_skel
    simp only [k0_part1_eq_skeleton, k0_part2_eq_skeleton]
    unfold owns
    iintro ⟨⟨%f0, %hf0, H0⟩, ⟨%f1, %hf1, H1⟩, ⟨%f2, %hf2, H2⟩, ⟨%f7, %hf7, H7⟩, ⟨%fs0, %hfs0, HS0⟩, ⟨%fs1, %hfs1, HS1⟩, Hk⟩
    obtain rfl := harg4.eq_unread hf0; obtain rfl := harg5.eq_unread hf1; obtain rfl := harg6.eq_unread hf2
    obtain rfl := harg7.eq_unread hf7; obtain rfl := harg8.eq_unread hfs0; obtain rfl := harg9.eq_unread hfs1
    sl_exec (disch := first | exact hc0 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H7]
    · iexists _; isplitr; · ipureintro; exact harg7.read_unread _
      iexact H7
    isplitl [HS0]; · iexists _; iexact HS0
    iexists _; iexact HS1

end Cert.Kernel.Hand

end
-- ==== Proof.BRunA.lean ====
import proofs.«165248_j20779051778107_2_alg».proof.Proof.BRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the first point

As at a middle point, but the two accumulators are found at anything: the body stores zero into each before
it reads them. -/

set_option maxHeartbeats 4000000 in
noncomputable def kernelRun_A (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : condFirst i) (hc2 : ¬condLast i)
    (x0 x1 x2 : Vec F S1x1x256 .f32) :
    Σ' (LS8 : List (View.Piece (Elt F) S1x1 .f32)), { LS9 : List (View.Piece (Elt F) S1x1 .f32) //
      ∀ (xi7 : Vec F S1x1 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi7 ∗ (∃ d, owns (c : Thread nD τ) arg8 fullShare d) ∗ (∃ d, owns (c : Thread nD τ) arg9 fullShare d)
            ∗ (iprop(owns (c : Thread nD τ) arg4 fullShare x0 ∗ owns (c : Thread nD τ) arg5 fullShare x1 ∗ owns (c : Thread nD τ) arg6 fullShare x2 ∗ owns (c : Thread nD τ) arg7 fullShare xi7 ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__epilogue_kernel i arg1 harg1 arg2 harg2 arg3 harg3 arg4 harg4 arg5 harg5 arg6 harg6 arg7 harg7 arg8 harg8 arg9 harg9) K } := by
  refine ⟨?_, ?_, fun xi7 E K => ?run⟩
  case run =>
    simp only [cc0__epilogue_kernel_eq_skeleton]; unfold cc0__epilogue_kernel_skel
    simp only [k0_part1_eq_skeleton, k0_part2_eq_skeleton]
    unfold owns
    iintro ⟨⟨%f0, %hf0, H0⟩, ⟨%f1, %hf1, H1⟩, ⟨%f2, %hf2, H2⟩, ⟨%f7, %hf7, H7⟩, ⟨%ds0, %fs0, -, HS0⟩, ⟨%ds1, %fs1, -, HS1⟩, Hk⟩
    obtain rfl := harg4.eq_unread hf0; obtain rfl := harg5.eq_unread hf1; obtain rfl := harg6.eq_unread hf2
    obtain rfl := harg7.eq_unread hf7
    sl_exec (disch := first | exact hc0 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H7]
    · iexists _; isplitr; · ipureintro; exact harg7.read_unread _
      iexact H7
    isplitl [HS0]; · iexists _; iexact HS0
    iexists _; iexact HS1

end Cert.Kernel.Hand

end
-- ==== Proof.BRunC.lean ====
import proofs.«165248_j20779051778107_2_alg».proof.Proof.BRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the last point

As at a middle point, and then the result is stored into the output's buffer, found at anything. -/

set_option maxHeartbeats 4000000 in
noncomputable def kernelRun_C (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬condFirst i) (hc2 : condLast i)
    (x0 x1 x2 : Vec F S1x1x256 .f32) (xs0 xs1 : Vec F S1x1 .f32) :
    Σ' (L7 : List (View.Piece (Elt F) S1x1 .f32)) (LS8 : List (View.Piece (Elt F) S1x1 .f32)), { LS9 : List (View.Piece (Elt F) S1x1 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs0 ∗ owns (c : Thread nD τ) arg9 fullShare xs1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc0__epilogue_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__epilogue_kernel_eq_skeleton]; unfold cc0__epilogue_kernel_skel
    simp only [k0_part1_eq_skeleton, k0_part2_eq_skeleton]
    unfold owns
    iintro ⟨⟨%f0, %hf0, H0⟩, ⟨%f1, %hf1, H1⟩, ⟨%f2, %hf2, H2⟩, ⟨%d7, %f7, -, H7⟩, ⟨%fs0, %hfs0, HS0⟩, ⟨%fs1, %hfs1, HS1⟩, Hk⟩
    obtain rfl := harg4.eq_unread hf0; obtain rfl := harg5.eq_unread hf1; obtain rfl := harg6.eq_unread hf2
    obtain rfl := harg8.eq_unread hfs0; obtain rfl := harg9.eq_unread hfs1
    sl_exec (disch := first | exact hc0 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H7]; · iexists _; iexact H7
    isplitl [HS0]; · iexists _; iexact HS0
    iexists _; iexact HS1

end Cert.Kernel.Hand

end
-- ==== Proof.BSteps.lean ====
import proofs.«165248_j20779051778107_2_alg».proof.Proof.Gen.Kernel.Skeleton

set_option maxRecDepth 16384

noncomputable section

namespace Cert.Kernel.Hand

open Cert.Kernel Cert.Kernel.Gen
open Idealize.ShloMosaic
open Idealize.SL.Sem

variable {F : FTy → Type} [FloatOps F]

/-! ## One grid point's work, as pure functions of the three staged rows and the accumulators

At a grid point the body reads the three staged rows `u`, `p`, `n` (the triplet's user, positive-item and
negative-item rows, four layers of 64 features side by side) and updates two one-element accumulators: the
loss accumulator gains the log-sigmoid of the triplet's score, the regularizer accumulator gains half the
squared norms of the three layer-0 rows. At the last point the result is minus the loss accumulator plus
the weight-decay constant times the regularizer accumulator. -/

/-- The loss accumulator after a point, from the three rows and the accumulator before it. -/
def lossStep (u p n : Vec F S1x1x256 .f32) (L : Vec F S1x1 .f32) : FVec F S1x1 .f32 :=
  k0_pay12 (k0_pay8 n) (k0_pay9 u) (k0_pay10 p) (k0_pay11 (F := F)) L

/-- The regularizer accumulator after a point. -/
def regStep (u p n : Vec F S1x1x256 .f32) (R : Vec F S1x1 .f32) : FVec F S1x1 .f32 :=
  k0_pay1 R (k0_pay13 (k0_pay5 u) (k0_pay6 p) (k0_pay7 n)) (k0_pay14 (F := F))

/-- The result written at the last point, from the two accumulators. -/
def outVal (L R : Vec F S1x1 .f32) : FVec F S1x1 .f32 := k0_pay2 L R

/-- The value both accumulators are reset to at the first point. -/
def zeroL : FVec F S1x1 .f32 := k0_pay3 (F := F)
def zeroR : FVec F S1x1 .f32 := k0_pay4 (F := F)

end Cert.Kernel.Hand

end
-- ==== Proof.BData.lean ====
import proofs.«165248_j20779051778107_2_alg».proof.Proof.BRunC
import proofs.«165248_j20779051778107_2_alg».proof.Proof.BSteps
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pipeline at admissible tables, a point's staging memrefs, the staged rows

Everything here is stated at ANY admissible contents `a` of the three prefetched index tables (the rows the
three input windows stage are read through them) and at ANY contents `Vv` of the buffers when the region is
entered. -/

variable (a : (pcfg0 (F := F)).Adm)
variable (Vv : (c : Dev nD) → (b : Ref sig .tc) → Buf (Elt F) ((c : Thread nD τ).loc b))

/-- The pipeline at the tables' contents. -/
abbrev cfgA : Pipeline.Cfg sig Λ₀ := cfg0 (F := F) a

/-- A point's grid coordinates. -/
abbrev crd (t : Fin (cfgA a).N) : grid0.Coords := (cfgA a).grid.coords t

/-- Each window's current staging memref at point `t`, as the pipeline passes it to the body, and its wholeness. -/
abbrev ms4 (t : Fin (cfgA a).N) : Memref sig .tc .vmem S1x1x256 .f32 := spec0_0.stage ((cfgA a).slots t (0 : Fin 4))
abbrev hs4 (t : Fin (cfgA a).N) : (ms4 a t).IsWhole := hstage0_0 (((cfgA a).slots t (0 : Fin 4)).cast nbuf0_0)
abbrev ms5 (t : Fin (cfgA a).N) : Memref sig .tc .vmem S1x1x256 .f32 := spec0_1.stage ((cfgA a).slots t (1 : Fin 4))
abbrev hs5 (t : Fin (cfgA a).N) : (ms5 a t).IsWhole := hstage0_1 (((cfgA a).slots t (1 : Fin 4)).cast nbuf0_1)
abbrev ms6 (t : Fin (cfgA a).N) : Memref sig .tc .vmem S1x1x256 .f32 := spec0_2.stage ((cfgA a).slots t (2 : Fin 4))
abbrev hs6 (t : Fin (cfgA a).N) : (ms6 a t).IsWhole := hstage0_2 (((cfgA a).slots t (2 : Fin 4)).cast nbuf0_2)
abbrev ms7 (t : Fin (cfgA a).N) : Memref sig .tc .vmem S1x1 .f32 := spec0_3.stage ((cfgA a).slots t (3 : Fin 4))
abbrev hs7 (t : Fin (cfgA a).N) : (ms7 a t).IsWhole := hstage0_3 (((cfgA a).slots t (3 : Fin 4)).cast nbuf0_3)
/-- The two accumulators: whole scoped buffers of the kernel's own. -/
abbrev scM8 : Memref sig .tc .vmem S1x1 .f32 := Memref.whole cc0_scratch0
abbrev scM9 : Memref sig .tc .vmem S1x1 .f32 := Memref.whole cc0_scratch1
/-- One staging buffer of the output window, and the accumulators, as views through which contents are stated. -/
abbrev VO7 : View sig .tc .vmem S1x1 .f32 := (Memref.whole cc0_stg3_0 : Memref sig .tc .vmem S1x1 .f32).view
abbrev VS8 : View sig .tc .vmem S1x1 .f32 := (scM8).view
abbrev VS9 : View sig .tc .vmem S1x1 .f32 := (scM9).view

/-- The body at point `t`, on what the pipeline calls it with. -/
abbrev bodyAt (t : Fin (cfgA a).N) : Prog (TpuEff nD τ sig (Elt F) Λ₀ .tc) PUnit :=
  cc0__epilogue_kernel (crd a t) (Memref.whole main_arg0) (Memref.isWhole_whole _) (Memref.whole main_arg1) (Memref.isWhole_whole _)
    (Memref.whole main_arg2) (Memref.isWhole_whole _) (ms4 a t) (hs4 a t) (ms5 a t) (hs5 a t) (ms6 a t) (hs6 a t) (ms7 a t) (hs7 a t)
    scM8 (Memref.isWhole_whole _) scM9 (Memref.isWhole_whole _)

/-- Window `w`'s block at point `t`, read off its array as the region finds it. -/
def iblk (c : Dev nD) (w : Fin (cfgA a).W) (t : Fin (cfgA a).N) : (((cfgA a).win w).xblock (crd a t)).Idx → Elt F ((cfgA a).win w).elt :=
  (((cfgA a).win w).blk t).view.read (Elt F) (Vv c (Pipeline.arrRef spec0 w))

/-! ## The two accumulators point by point -/

/-- What the two accumulators hold after the body at position `n`: reset and advanced once at the first point,
    advanced from the point before afterwards. -/
def accAt (c : Dev nD) : (n : ℕ) → n < (cfgA a).N → Vec F S1x1 .f32 × Vec F S1x1 .f32
  | 0, hn => (lossStep (iblk a Vv c 0 ⟨0, hn⟩) (iblk a Vv c 1 ⟨0, hn⟩) (iblk a Vv c 2 ⟨0, hn⟩) (zeroL (F := F)),
              regStep (iblk a Vv c 0 ⟨0, hn⟩) (iblk a Vv c 1 ⟨0, hn⟩) (iblk a Vv c 2 ⟨0, hn⟩) (zeroR (F := F)))
  | n + 1, hn => (lossStep (iblk a Vv c 0 ⟨n + 1, hn⟩) (iblk a Vv c 1 ⟨n + 1, hn⟩) (iblk a Vv c 2 ⟨n + 1, hn⟩) (accAt c n (Nat.lt_of_succ_lt hn)).1,
                  regStep (iblk a Vv c 0 ⟨n + 1, hn⟩) (iblk a Vv c 1 ⟨n + 1, hn⟩) (iblk a Vv c 2 ⟨n + 1, hn⟩) (accAt c n (Nat.lt_of_succ_lt hn)).2)

/-- What the output's staging buffer holds after the body at point `t`: the result, from that point's accumulators
    (read by the pipeline at the last point only, where the body stores it). -/
def outAt (c : Dev nD) (t : Fin (cfgA a).N) : Vec F S1x1 .f32 :=
  outVal (accAt a Vv c t.val t.isLt).1 (accAt a Vv c t.val t.isLt).2

/-- The region invariant before position `n`: before the first point the scoped rest (each accumulator at anything) and the
    generator register at some state; afterwards each accumulator at what the point before left. -/
def PhiS (c : Dev nD) : (n : ℕ) → n ≤ (cfgA a).N → sProp 𝕄
  | 0, _ => Pipeline.ΦA spec0 c
  | n + 1, hn => iprop(owns (c : Thread nD τ) scM8 fullShare ((accAt a Vv c n hn).1) ∗ owns (c : Thread nD τ) scM9 fullShare ((accAt a Vv c n hn).2) ∗ (∃ r, prngReg c r))

/-- The proof data: the arrays as the region finds them; after the body each input's buffer at its block, the output's at
    `outAt`; the invariant `PhiS`; nothing owed; the first window's array at the full share, the shared array's full share dealt
    between the two windows that read it. -/
def dats (c : Dev nD) : Dat τ (Elt F) Unit ℕ (UR sig nD τ) ℕ (cfgA a) c where
  A w := Vv c (Pipeline.arrRef spec0 w)
  after w t := match w with
    | ⟨0, _⟩ => iblk a Vv c 0 t
    | ⟨1, _⟩ => iblk a Vv c 1 t
    | ⟨2, _⟩ => iblk a Vv c 2 t
    | ⟨3, _⟩ => outAt a Vv c t
  Φ t := PhiS a Vv c t.val (Nat.le_of_lt_succ t.isLt)
  q w := match w with
    | ⟨0, _⟩ => fullShare
    | ⟨1, _⟩ => fullShare.left
    | ⟨2, _⟩ => fullShare.right
    | ⟨3, _⟩ => fullShare
  owed _ := 0

end Cert.Kernel.Hand

end
-- ==== Proof.BPieces.lean ====
import proofs.«165248_j20779051778107_2_alg».proof.Proof.BData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each run's stores leave, read back

Every buffer the body stores into is one element wide and each store covers it, so what a buffer holds after
the body is the payload of its LAST store; a load that follows a store of the same run reads that store's
payload. Read back, the stores are the step functions of the staged rows and the accumulators. -/

theorem hz2 : (![0, 0] : Fin 2 → ℕ) = fun _ => 0 := by funext a; fin_cases a <;> rfl
theorem hz3 : (![0, 0, 0] : Fin 3 → ℕ) = fun _ => 0 := by funext a; fin_cases a <;> rfl

/-- Middle point: the loss accumulator advances by one step from what it held. -/
theorem LS8_B (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬condFirst i) (hc2 : ¬condLast i)
    (x0 x1 x2 : Vec F S1x1x256 .f32) (xs0 xs1 : Vec F S1x1 .f32) (v : View sig .tc .vmem S1x1 .f32) (f : v.ty.Contents (Elt F)) :
    v.read (Elt F) (v.writes (Elt F) f (kernelRun_B c i arg1 harg1 arg2 harg2 arg3 harg3 arg4 harg4 arg5 harg5 arg6 harg6 arg7 harg7 arg8 harg8 arg9 harg9 hc0 hc2 x0 x1 x2 xs0 xs1).1) = lossStep x0 x1 x2 xs0 := by
  unfold kernelRun_B; dsimp only; sl_unfold_words
  refine (View.read_writes_eq_canon v f _ ?cov).trans ?_
  case cov => intro y; exact ⟨_, List.Mem.head _, View.mem_set_unit_zero (S := S1x1) hz2 Cert.Kernel.Gen.inb_S1x1_S1x1_0_0 y⟩
  refine (View.canon_cons_unit_zero (S := S1x1) hz2 _ _ _).trans ?_
  simp only [View.readCov_unit_zero (S := S1x1) _ hz2, View.readAt_eq_ld, harg4.read_unread, harg5.read_unread, harg6.read_unread, harg8.read_unread, harg9.read_unread,
    View.ld_unit_zero (S := S1x1x256) hz3, View.ld_unit_zero (S := S1x1) hz2]
  rfl

/-- Middle point: the regularizer accumulator advances by one step from what it held. -/
theorem LS9_B (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬condFirst i) (hc2 : ¬condLast i)
    (x0 x1 x2 : Vec F S1x1x256 .f32) (xs0 xs1 : Vec F S1x1 .f32) (v : View sig .tc .vmem S1x1 .f32) (f : v.ty.Contents (Elt F)) :
    v.read (Elt F) (v.writes (Elt F) f (kernelRun_B c i arg1 harg1 arg2 harg2 arg3 harg3 arg4 harg4 arg5 harg5 arg6 harg6 arg7 harg7 arg8 harg8 arg9 harg9 hc0 hc2 x0 x1 x2 xs0 xs1).2.1) = regStep x0 x1 x2 xs1 := by
  unfold kernelRun_B; dsimp only; sl_unfold_words
  refine (View.read_writes_eq_canon v f _ ?cov).trans ?_
  case cov => intro y; exact ⟨_, List.Mem.head _, View.mem_set_unit_zero (S := S1x1) hz2 Cert.Kernel.Gen.inb_S1x1_S1x1_0_0 y⟩
  refine (View.canon_cons_unit_zero (S := S1x1) hz2 _ _ _).trans ?_
  simp only [View.readCov_unit_zero (S := S1x1) _ hz2, View.readAt_eq_ld, harg4.read_unread, harg5.read_unread, harg6.read_unread, harg8.read_unread, harg9.read_unread,
    View.ld_unit_zero (S := S1x1x256) hz3, View.ld_unit_zero (S := S1x1) hz2]
  rfl

/-- First point: the loss accumulator is reset, then advanced. -/
theorem LS8_A (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : condFirst i) (hc2 : ¬condLast i)
    (x0 x1 x2 : Vec F S1x1x256 .f32) (v : View sig .tc .vmem S1x1 .f32) (f : v.ty.Contents (Elt F)) :
    v.read (Elt F) (v.writes (Elt F) f (kernelRun_A c i arg1 harg1 arg2 harg2 arg3 harg3 arg4 harg4 arg5 harg5 arg6 harg6 arg7 harg7 arg8 harg8 arg9 harg9 hc0 hc2 x0 x1 x2).1) = lossStep x0 x1 x2 (zeroL (F := F)) := by
  unfold kernelRun_A; dsimp only; sl_unfold_words
  refine (View.read_writes_eq_canon v f _ ?cov).trans ?_
  case cov => intro y; exact ⟨_, List.Mem.head _, View.mem_set_unit_zero (S := S1x1) hz2 Cert.Kernel.Gen.inb_S1x1_S1x1_0_0 y⟩
  refine (View.canon_cons_unit_zero (S := S1x1) hz2 _ _ _).trans ?_
  simp only [View.readCov_unit_zero (S := S1x1) _ hz2, View.readAt_eq_ld, harg4.read_unread, harg5.read_unread, harg6.read_unread, harg8.read_unread, harg9.read_unread,
    View.ld_unit_zero (S := S1x1x256) hz3, View.ld_unit_zero (S := S1x1) hz2]
  rfl

/-- First point: the regularizer accumulator is reset, then advanced. -/
theorem LS9_A (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : condFirst i) (hc2 : ¬condLast i)
    (x0 x1 x2 : Vec F S1x1x256 .f32) (v : View sig .tc .vmem S1x1 .f32) (f : v.ty.Contents (Elt F)) :
    v.read (Elt F) (v.writes (Elt F) f (kernelRun_A c i arg1 harg1 arg2 harg2 arg3 harg3 arg4 harg4 arg5 harg5 arg6 harg6 arg7 harg7 arg8 harg8 arg9 harg9 hc0 hc2 x0 x1 x2).2.1) = regStep x0 x1 x2 (zeroR (F := F)) := by
  unfold kernelRun_A; dsimp only; sl_unfold_words
  refine (View.read_writes_eq_canon v f _ ?cov).trans ?_
  case cov => intro y; exact ⟨_, List.Mem.head _, View.mem_set_unit_zero (S := S1x1) hz2 Cert.Kernel.Gen.inb_S1x1_S1x1_0_0 y⟩
  refine (View.canon_cons_unit_zero (S := S1x1) hz2 _ _ _).trans ?_
  simp only [View.readCov_unit_zero (S := S1x1) _ hz2, View.readAt_eq_ld, harg4.read_unread, harg5.read_unread, harg6.read_unread, harg8.read_unread, harg9.read_unread,
    View.ld_unit_zero (S := S1x1x256) hz3, View.ld_unit_zero (S := S1x1) hz2]
  rfl

/-- Last point: the accumulators advance as at a middle point, -/
theorem LS8_C (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬condFirst i) (hc2 : condLast i)
    (x0 x1 x2 : Vec F S1x1x256 .f32) (xs0 xs1 : Vec F S1x1 .f32) (v : View sig .tc .vmem S1x1 .f32) (f : v.ty.Contents (Elt F)) :
    v.read (Elt F) (v.writes (Elt F) f (kernelRun_C c i arg1 harg1 arg2 harg2 arg3 harg3 arg4 harg4 arg5 harg5 arg6 harg6 arg7 harg7 arg8 harg8 arg9 harg9 hc0 hc2 x0 x1 x2 xs0 xs1).2.1) = lossStep x0 x1 x2 xs0 := by
  unfold kernelRun_C; dsimp only; sl_unfold_words
  refine (View.read_writes_eq_canon v f _ ?cov).trans ?_
  case cov => intro y; exact ⟨_, List.Mem.head _, View.mem_set_unit_zero (S := S1x1) hz2 Cert.Kernel.Gen.inb_S1x1_S1x1_0_0 y⟩
  refine (View.canon_cons_unit_zero (S := S1x1) hz2 _ _ _).trans ?_
  simp only [View.readCov_unit_zero (S := S1x1) _ hz2, View.readAt_eq_ld, harg4.read_unread, harg5.read_unread, harg6.read_unread, harg8.read_unread, harg9.read_unread,
    View.ld_unit_zero (S := S1x1x256) hz3, View.ld_unit_zero (S := S1x1) hz2]
  rfl

theorem LS9_C (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬condFirst i) (hc2 : condLast i)
    (x0 x1 x2 : Vec F S1x1x256 .f32) (xs0 xs1 : Vec F S1x1 .f32) (v : View sig .tc .vmem S1x1 .f32) (f : v.ty.Contents (Elt F)) :
    v.read (Elt F) (v.writes (Elt F) f (kernelRun_C c i arg1 harg1 arg2 harg2 arg3 harg3 arg4 harg4 arg5 harg5 arg6 harg6 arg7 harg7 arg8 harg8 arg9 harg9 hc0 hc2 x0 x1 x2 xs0 xs1).2.2.1) = regStep x0 x1 x2 xs1 := by
  unfold kernelRun_C; dsimp only; sl_unfold_words
  refine (View.read_writes_eq_canon v f _ ?cov).trans ?_
  case cov => intro y; exact ⟨_, List.Mem.head _, View.mem_set_unit_zero (S := S1x1) hz2 Cert.Kernel.Gen.inb_S1x1_S1x1_0_0 y⟩
  refine (View.canon_cons_unit_zero (S := S1x1) hz2 _ _ _).trans ?_
  simp only [View.readCov_unit_zero (S := S1x1) _ hz2, View.readAt_eq_ld, harg4.read_unread, harg5.read_unread, harg6.read_unread, harg8.read_unread, harg9.read_unread,
    View.ld_unit_zero (S := S1x1x256) hz3, View.ld_unit_zero (S := S1x1) hz2]
  rfl

/-- and the output's buffer takes the result computed from the advanced accumulators. -/
theorem L7_C (c : Dev nD) (i : grid0.Coords) (arg1 : Memref sig .tc .smem S4096 .i32) (harg1 : arg1.IsWhole) (arg2 : Memref sig .tc .smem S4096 .i32) (harg2 : arg2.IsWhole) (arg3 : Memref sig .tc .smem S4096 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬condFirst i) (hc2 : condLast i)
    (x0 x1 x2 : Vec F S1x1x256 .f32) (xs0 xs1 : Vec F S1x1 .f32) (v : View sig .tc .vmem S1x1 .f32) (f : v.ty.Contents (Elt F)) :
    v.read (Elt F) (v.writes (Elt F) f (kernelRun_C c i arg1 harg1 arg2 harg2 arg3 harg3 arg4 harg4 arg5 harg5 arg6 harg6 arg7 harg7 arg8 harg8 arg9 harg9 hc0 hc2 x0 x1 x2 xs0 xs1).1) = outVal (lossStep x0 x1 x2 xs0) (regStep x0 x1 x2 xs1) := by
  unfold kernelRun_C; dsimp only; sl_unfold_words
  refine (View.read_writes_eq_canon v f _ ?cov).trans ?_
  case cov => intro y; exact ⟨_, List.Mem.head _, View.mem_set_unit_zero (S := S1x1) hz2 Cert.Kernel.Gen.inb_S1x1_S1x1_0_0 y⟩
  refine (View.canon_cons_unit_zero (S := S1x1) hz2 _ _ _).trans ?_
  simp only [View.readCov_unit_zero (S := S1x1) _ hz2, View.readAt_eq_ld, harg4.read_unread, harg5.read_unread, harg6.read_unread, harg8.read_unread, harg9.read_unread,
    View.ld_unit_zero (S := S1x1x256) hz3, View.ld_unit_zero (S := S1x1) hz2]
  rfl

end Cert.Kernel.Hand

end
-- ==== Proof.BBody.lean ====
import proofs.«165248_j20779051778107_2_alg».proof.Proof.BPieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body obligation

At every grid point the three input buffers hold their blocks; the output's buffer is idle except at the last
point; the invariant hands the body the two accumulators at what the point before left (at anything before the
first point) and takes them back advanced by this point's step. -/

variable (a : (pcfg0 (F := F)).Adm)
variable (Vv : (c : Dev nD) → (b : Ref sig .tc) → Buf (Elt F) ((c : Thread nD τ).loc b))

theorem N_eq : (cfgA a).N = 4096 := N_0
theorem hcF (t : Fin (cfgA a).N) : condFirst (crd a t) ↔ t.val = 0 := hcondFirst t
theorem hcL (t : Fin (cfgA a).N) : condLast (crd a t) ↔ t.val = 4095 := hcondLast t

/-- The inputs are never idle. -/
theorem live0 (t : Fin (cfgA a).N) : (cfgA a).idle 0 (crd a t) = false := rfl
theorem live1 (t : Fin (cfgA a).N) : (cfgA a).idle 1 (crd a t) = false := rfl
theorem live2 (t : Fin (cfgA a).N) : (cfgA a).idle 2 (crd a t) = false := rfl
/-- The output is idle exactly where the body does not store the result. -/
theorem idle3 (t : Fin (cfgA a).N) (h : ¬condLast (crd a t)) : (cfgA a).idle 3 (crd a t) = true := by
  show (!(k0_cond2 (crd a t) == 1#1)) = true
  rw [Bool.not_eq_true', beq_eq_false_iff_ne]; exact h
theorem live3 (t : Fin (cfgA a).N) (h : condLast (crd a t)) : (cfgA a).idle 3 (crd a t) = false := by
  show (!(k0_cond2 (crd a t) == 1#1)) = false
  rw [Bool.not_eq_false', beq_iff_eq]; exact h
/-- The output's block index never moves, so it is written back at the last point only. -/
theorem noFlush3 (t : Fin (cfgA a).N) (h : t.val ≠ 4095) : ((cfgA a).win 3).flush t = false := by
  have hN : (cfgA a).grid.N = 4096 := N_0
  rw [Bool.eq_false_iff]; intro hfl
  unfold Pipeline.Window.flush at hfl
  rw [Bool.and_eq_true, Bool.or_eq_true, decide_eq_true_eq, decide_eq_true_eq] at hfl
  rcases hfl.2 with h1 | ⟨_, hne⟩
  · omega
  · exact hne rfl

/-- The scoped rest with the two accumulators as memrefs owned at some contents. -/
theorem PhiA_eq (c : Dev nD) :
    (Pipeline.ΦA spec0 c : sProp 𝕄)
      = iprop(iprop((∃ d, owns (c : Thread nD τ) scM8 fullShare d) ∗ (∃ d, owns (c : Thread nD τ) scM9 fullShare d)) ∗ (∃ r, prngReg c r)) := by
  unfold Pipeline.ΦA; rw [scopedRest0_eq]; simp only [scM8, scM9, owns_whole]; try rfl

theorem PhiS_zero (c : Dev nD) (n : ℕ) (h : n ≤ (cfgA a).N) (hz : n = 0) : PhiS a Vv c n h = Pipeline.ΦA spec0 c := by
  subst hz; rfl
theorem PhiS_succ (c : Dev nD) (n : ℕ) (hn : n < (cfgA a).N) :
    PhiS a Vv c (n + 1) hn = iprop(owns (c : Thread nD τ) scM8 fullShare ((accAt a Vv c n hn).1) ∗ owns (c : Thread nD τ) scM9 fullShare ((accAt a Vv c n hn).2) ∗ (∃ r, prngReg c r)) := rfl
theorem PhiS_pos (c : Dev nD) (n : ℕ) (h : n ≤ (cfgA a).N) (hz : n ≠ 0) :
    PhiS a Vv c n h = iprop(owns (c : Thread nD τ) scM8 fullShare ((accAt a Vv c (n - 1) (by omega)).1) ∗ owns (c : Thread nD τ) scM9 fullShare ((accAt a Vv c (n - 1) (by omega)).2) ∗ (∃ r, prngReg c r)) := by
  cases n with
  | zero => exact absurd rfl hz
  | succ n => rfl
theorem PhiS_castSucc (c : Dev nD) (t : Fin (cfgA a).N) :
    (dats a Vv c).Φ t.castSucc = PhiS a Vv c t.val (Nat.le_of_lt t.isLt) := by
  dsimp only [dats]; simp only [Fin.coe_castSucc]

/-- The accumulators after the first point. -/
theorem accAt_first (c : Dev nD) (t : Fin (cfgA a).N) (hz : t.val = 0) :
    accAt a Vv c t.val t.isLt = (lossStep (iblk a Vv c 0 t) (iblk a Vv c 1 t) (iblk a Vv c 2 t) (zeroL (F := F)), regStep (iblk a Vv c 0 t) (iblk a Vv c 1 t) (iblk a Vv c 2 t) (zeroR (F := F))) := by
  obtain ⟨n, hn⟩ := t
  cases n with
  | zero => rfl
  | succ n => exact absurd hz (Nat.succ_ne_zero n)
/-- The accumulators after a later point, from the point before. -/
theorem accAt_later (c : Dev nD) (t : Fin (cfgA a).N) (hz : t.val ≠ 0) :
    accAt a Vv c t.val t.isLt = (lossStep (iblk a Vv c 0 t) (iblk a Vv c 1 t) (iblk a Vv c 2 t) (accAt a Vv c (t.val - 1) (by omega)).1, regStep (iblk a Vv c 0 t) (iblk a Vv c 1 t) (iblk a Vv c 2 t) (accAt a Vv c (t.val - 1) (by omega)).2) := by
  obtain ⟨n, hn⟩ := t
  cases n with
  | zero => exact absurd rfl hz
  | succ n => rfl

theorem after0 (c : Dev nD) (t : Fin (cfgA a).N) : (dats a Vv c).after 0 t = iblk a Vv c 0 t := rfl
theorem after1 (c : Dev nD) (t : Fin (cfgA a).N) : (dats a Vv c).after 1 t = iblk a Vv c 1 t := rfl
theorem after2 (c : Dev nD) (t : Fin (cfgA a).N) : (dats a Vv c).after 2 t = iblk a Vv c 2 t := rfl
theorem after3 (c : Dev nD) (t : Fin (cfgA a).N) : (dats a Vv c).after 3 t = outAt a Vv c t := rfl

/-- Each input's current staging buffer holds its block at every point, fetched there or not. -/
theorem before0 (c : Dev nD) (t : Fin (cfgA a).N) (d) : (dats a Vv c).before 0 t d = iblk a Vv c 0 t :=
  ((dats a Vv c).before_in_eq_fetched 0 rfl (fun _ => rfl) (fun _ _ _ => rfl) (fun t => by rw [after0]; unfold Dat.blockOf iblk; dsimp only [dats]; try rfl) t d).trans
    (by unfold Dat.fetched Dat.blockOf iblk; dsimp only [dats]; try rfl)
theorem before1 (c : Dev nD) (t : Fin (cfgA a).N) (d) : (dats a Vv c).before 1 t d = iblk a Vv c 1 t :=
  ((dats a Vv c).before_in_eq_fetched 1 rfl (fun _ => rfl) (fun _ _ _ => rfl) (fun t => by rw [after1]; unfold Dat.blockOf iblk; dsimp only [dats]; try rfl) t d).trans
    (by unfold Dat.fetched Dat.blockOf iblk; dsimp only [dats]; try rfl)
theorem before2 (c : Dev nD) (t : Fin (cfgA a).N) (d) : (dats a Vv c).before 2 t d = iblk a Vv c 2 t :=
  ((dats a Vv c).before_in_eq_fetched 2 rfl (fun _ => rfl) (fun _ _ _ => rfl) (fun t => by rw [after2]; unfold Dat.blockOf iblk; dsimp only [dats]; try rfl) t d).trans
    (by unfold Dat.fetched Dat.blockOf iblk; dsimp only [dats]; try rfl)

/-- What the body is called with at point `t`, -/
def bodyPre (c : Dev nD) (t : Fin (cfgA a).N) : sProp 𝕄 :=
  iprop((dats a Vv c).Φ t.castSucc ∗ (dats a Vv c).owesAt () t.castSucc
    ∗ (∃ d, owns (c : Thread nD τ) (ms4 a t) fullShare ((dats a Vv c).before 0 t d))
    ∗ (∃ d, owns (c : Thread nD τ) (ms5 a t) fullShare ((dats a Vv c).before 1 t d))
    ∗ (∃ d, owns (c : Thread nD τ) (ms6 a t) fullShare ((dats a Vv c).before 2 t d))
    ∗ (∃ d, owns (c : Thread nD τ) (ms7 a t) fullShare ((dats a Vv c).before 3 t d)))

/-- and what it returns. -/
def bodyPost (c : Dev nD) (t : Fin (cfgA a).N) : sProp 𝕄 :=
  iprop((dats a Vv c).Φ t.succ ∗ (dats a Vv c).owesAt () t.succ
    ∗ (dats a Vv c).leavesExact 0 t ∗ (dats a Vv c).leavesExact 1 t ∗ (dats a Vv c).leavesExact 2 t ∗ (dats a Vv c).leavesExact 3 t)

set_option maxHeartbeats 4800000 in
theorem sound_body (c : Dev nD) (t : Fin (cfgA a).N) :
    bodyPre a Vv c t ⊢ wp frame (wpE (defs₀ (F := F)) Variants.none c none) Set.univ (bodyAt a t) (fun _ => bodyPost a Vv c t) := by
  unfold bodyPre bodyPost bodyAt
  simp only [before0, before1, before2]
  rw [show (dats a Vv c).owesAt () t.succ = (dats a Vv c).owesAt () t.castSucc from rfl]
  rw [show (dats a Vv c).Φ t.succ = PhiS a Vv c (t.val + 1) t.isLt from rfl, PhiS_succ]
  have hN : t.val < 4096 := lt_of_lt_of_eq t.isLt (N_eq a)
  rw [show (dats a Vv c).leavesExact 0 t = owns (c : Thread nD τ) (ms4 a t) fullShare ((dats a Vv c).after 0 t) from by
    unfold Dat.leavesExact; rw [live0 a t]; try rfl, after0]
  rw [show (dats a Vv c).leavesExact 1 t = owns (c : Thread nD τ) (ms5 a t) fullShare ((dats a Vv c).after 1 t) from by
    unfold Dat.leavesExact; rw [live1 a t]; try rfl, after1]
  rw [show (dats a Vv c).leavesExact 2 t = owns (c : Thread nD τ) (ms6 a t) fullShare ((dats a Vv c).after 2 t) from by
    unfold Dat.leavesExact; rw [live2 a t]; try rfl, after2]
  by_cases hz : t.val = 0
  · have hc0 : condFirst (crd a t) := (hcF a t).mpr hz
    have hc2 : ¬condLast (crd a t) := fun h => by have := (hcL a t).mp h; omega
    rw [Dat.leavesExact_idle (dats a Vv c) 3 t (idle3 a t hc2) (noFlush3 a t (by omega))]
    rw [accAt_first a Vv c t hz]; dsimp only
    rw [PhiS_castSucc a Vv c t, PhiS_zero a Vv c _ _ hz, PhiA_eq]
    iintro ⟨⟨⟨HS0, HS1⟩, Hg⟩, Ho, ⟨%d0, H0⟩, ⟨%d1, H1⟩, ⟨%d2, H2⟩, ⟨%d3, H3⟩⟩
    iapply ((kernelRun_A c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t)).2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hg]
    · isplitl [HS0]
      · unfold owns; iexists _; isplitr
        swap; · iexact HS0
        ipureintro; exact LS8_A c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _
      isplitl [HS1]
      · unfold owns; iexists _; isplitr
        swap; · iexact HS1
        ipureintro; exact LS9_A c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _
      iexact Hg
    isplitl [Ho]; · iexact Ho
    isplitl [H0]; · iexact H0
    isplitl [H1]; · iexact H1
    isplitl [H2]; · iexact H2
    iexists _; iexact H3
  · by_cases hl : t.val = 4095
    · have hc0 : ¬condFirst (crd a t) := fun h => hz ((hcF a t).mp h)
      have hc2 : condLast (crd a t) := (hcL a t).mpr hl
      rw [show (dats a Vv c).leavesExact 3 t = owns (c : Thread nD τ) (ms7 a t) fullShare ((dats a Vv c).after 3 t) from by
        unfold Dat.leavesExact; rw [live3 a t hc2]; try rfl, after3]
      unfold outAt
      rw [accAt_later a Vv c t hz]; dsimp only
      rw [PhiS_castSucc a Vv c t, PhiS_pos a Vv c _ _ hz]
      iintro ⟨⟨HS0, HS1, Hg⟩, Ho, ⟨%d0, H0⟩, ⟨%d1, H1⟩, ⟨%d2, H2⟩, ⟨%d3, H3⟩⟩
      iapply ((kernelRun_C c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0]
        · unfold owns; iexists _; isplitr
          swap; · iexact HS0
          ipureintro; exact LS8_C c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _ _ _
        isplitl [HS1]
        · unfold owns; iexists _; isplitr
          swap; · iexact HS1
          ipureintro; exact LS9_C c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _ _ _
        iexact Hg
      isplitl [Ho]; · iexact Ho
      isplitl [H0]; · iexact H0
      isplitl [H1]; · iexact H1
      isplitl [H2]; · iexact H2
      unfold owns; iexists _; isplitr
      swap; · iexact H3
      ipureintro; exact L7_C c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _ _ _
    · have hc0 : ¬condFirst (crd a t) := fun h => hz ((hcF a t).mp h)
      have hc2 : ¬condLast (crd a t) := fun h => hl ((hcL a t).mp h)
      rw [Dat.leavesExact_idle (dats a Vv c) 3 t (idle3 a t hc2) (noFlush3 a t hl)]
      rw [accAt_later a Vv c t hz]; dsimp only
      rw [PhiS_castSucc a Vv c t, PhiS_pos a Vv c _ _ hz]
      iintro ⟨⟨HS0, HS1, Hg⟩, Ho, ⟨%d0, H0⟩, ⟨%d1, H1⟩, ⟨%d2, H2⟩, ⟨%d3, H3⟩⟩
      iapply ((kernelRun_B c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0]
        · unfold owns; iexists _; isplitr
          swap; · iexact HS0
          ipureintro; exact LS8_B c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _ _ _
        isplitl [HS1]
        · unfold owns; iexists _; isplitr
          swap; · iexact HS1
          ipureintro; exact LS9_B c (crd a t) (Memref.whole main_arg0) (Memref.isWhole_whole _) (Memref.whole main_arg1) (Memref.isWhole_whole _) (Memref.whole main_arg2) (Memref.isWhole_whole _) (ms4 a t) (hs4 a t) (ms5 a t) (hs5 a t) (ms6 a t) (hs6 a t) (ms7 a t) (hs7 a t) scM8 (Memref.isWhole_whole _) scM9 (Memref.isWhole_whole _) hc0 hc2 (iblk a Vv c 0 t) (iblk a Vv c 1 t) (iblk a Vv c 2 t) _ _ _ _
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats a Vv c) (defs₀ (F := F)) Variants.none () Set.univ := fun t => by
  rw [bigSep_W0, bigSep_W0]
  exact sound_body a Vv c t

/-- The scoped rest (and the tables' share, let go) is the invariant before the first point. -/
theorem hin (c : Dev nD) : iprop(Pipeline.ΦA spec0 c ∗ Pipeline.ΦT pre0 a.1 c) ⊢ (dats a Vv c).Φ 0 := by
  rw [show (dats a Vv c).Φ 0 = PhiS a Vv c 0 (Nat.zero_le _) from rfl, PhiS_zero a Vv c 0 _ rfl]
  iintro ⟨H, -⟩; iexact H

/-- After the last point the invariant gives the scoped rest back: the accumulators' contents are forgotten. -/
theorem hout (c : Dev nD) : (dats a Vv c).Φ (Fin.last (cfgA a).N) ⊢ Pipeline.ΦA spec0 c := by
  rw [show (dats a Vv c).Φ (Fin.last (cfgA a).N) = PhiS a Vv c (Fin.last (cfgA a).N).val (Nat.le_of_lt_succ (Fin.last (cfgA a).N).isLt) from rfl,
    PhiS_pos a Vv c _ _ (by rw [Fin.val_last]; have := N_eq a; omega), PhiA_eq]
  iintro ⟨HS0, HS1, Hg⟩
  isplitl [HS0 HS1]
  · isplitl [HS0]
    · iexists _; iexact HS0
    iexists _; iexact HS1
  iexact Hg

theorem dats_A (c : Dev nD) (w : Fin (cfgA a).W) : (dats a Vv c).A w = Vv c (Pipeline.arrRef spec0 w) := by dsimp only [dats]
theorem dats_q (c : Dev nD) : (dats a Vv c).q 0 = fullShare ∧ (dats a Vv c).q 1 = fullShare.left ∧ (dats a Vv c).q 2 = fullShare.right := ⟨rfl, rfl, rfl⟩
theorem dats_owed (c : Dev nD) (t) : (dats a Vv c).owed t = 0 := rfl

end Cert.Kernel.Hand

end
-- ==== Proof.BFrame.lean ====
/-
  The run of @main from the launch layer and the body obligation, at any admissible contents of the three index tables
  that the memory's table buffers hold: the result buffer ends holding the output array as the region left it, read at
  the result's shape, and the eight arguments end as they were launched.
-/
import proofs.«165248_j20779051778107_2_alg».proof.Proof.BLaunch
import proofs.«165248_j20779051778107_2_alg».proof.Proof.BBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- THE RUN at any admissible tables the memory holds: the proof data are those of the body, over the region-entry
    contents; the launch layer carries the body obligation to the run of the whole @main. -/
theorem run_generic (m : (ℓ : Loc nD τ sig) → Buf (Elt F) ℓ) (ρ : Dev nD → PrngReg) (a : (pcfg0 (F := F)).Adm)
    (hpf : ∀ (c : Dev nD) k, m ((c.tc : Thread nD τ).loc (pre0.ref k)) = a.1 k) :
    θ_run (defs (F := F)) (onTc (τ := τ) (main (F := F))) ⟨m, fun _ => 0, ρ⟩ (fun r => ∀ c : Dev nD,
      r.2.mem ((c.tc : Thread nD τ).loc main_v83) = shapeCast S_ ((dats a (V m) c).arrAt 3 (cfgA a).N) Gen.shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_of_body m ρ a hpf (fun c => dats a (V m) c) (fun c w => dats_A a (V m) c w) (fun c => dats_q a (V m) c)
    (fun c t => dats_owed a (V m) c t) (fun c => (body_obligation a (V m) c).loose) (hin a (V m)) (hout a (V m))

end Cert.Kernel.Hand

end
-- ==== Proof.RefRunOps.lean ====
/-
  The reference program's @main as a list of its host operations, window by window: the 249 printed statements are
  263 operations once the one call is unfolded (the negation, the fourteen operations of the softplus it calls, the
  negation), each a builder over literal references. Stated here: @main is the sequence of that list, every
  operation touches TensorCore references only, no reference or semaphore is scoped, and which references each
  window writes.
-/
import proofs.«165248_j20779051778107_2_alg».proof.Proof.Gen.ReferenceIdeal
import Idealize.ShloMosaic.Lib.StableHlo.Run

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- @main's statements 1 … 60 of 249 (window `main_part0`). -/
abbrev ops_part0 : List (HloOp τ sig (Elt F)) :=
  [ nullary main_c (constantI S_ 32 0#32),
    unary main_c main_v0 (broadcastInDim S4096 ![] bcast_S_S4096 : (⟨S_, .i32⟩ : BufTy).Contents (Elt F) → (⟨S4096, .i32⟩ : BufTy).Contents (Elt F)),
    binary main_arg0 main_v0 main_v1 (cmpi .slt : (⟨S4096, .i32⟩ : BufTy).Contents (Elt F) → (⟨S4096, .i32⟩ : BufTy).Contents (Elt F) → (⟨S4096, .i1⟩ : BufTy).Contents (Elt F)),
    nullary main_c_0 (constantI S_ 32 100000#32),
    unary main_c_0 main_v2 (broadcastInDim S4096 ![] bcast_S_S4096 : (⟨S_, .i32⟩ : BufTy).Contents (Elt F) → (⟨S4096, .i32⟩ : BufTy).Contents (Elt F)),
    binary main_arg0 main_v2 main_v3 (addi : (⟨S4096, .i32⟩ : BufTy).Contents (Elt F) → (⟨S4096, .i32⟩ : BufTy).Contents (Elt F) → (⟨S4096, .i32⟩ : BufTy).Contents (Elt F)),
    ternary main_v1 main_v3 main_arg0 main_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v4 main_v5 (broadcastInDim S4096x1 ![0] bcast_S4096_S4096x1_0 : (⟨S4096, .i32⟩ : BufTy).Contents (Elt F) → (⟨S4096x1, .i32⟩ : BufTy).Contents (Elt F)),
    binary main_arg3 main_v5 main_v6 ((fun x i => Host.gather gather_S100000x64_S4096x1_S4096x64_1_0_n_n_0_1_164 x i) : (⟨S100000x64, .f32⟩ : BufTy).Contents (Elt F) → (⟨S4096x1, .i32⟩ : BufTy).Contents (Elt F) → (⟨S4096x64, .f32⟩ : BufTy).Contents (Elt F)),
    nullary main_c_1 (constantI S_ 32 0#32),
    unary main_c_1 main_v7 (broadcastInDim S4096 ![] bcast_S_S4096 : (⟨S_, .i32⟩ : BufTy).Contents (Elt F) → (⟨S4096, .i32⟩ : BufTy).Contents (Elt F)),
    binary main_arg1 main_v7 main_v8 (cmpi .slt : (⟨S4096, .i32⟩ : BufTy).Contents (Elt F) → (⟨S4096, .i32⟩ : BufTy).Contents (Elt F) → (⟨S4096, .i1⟩ : BufTy).Contents (Elt F)),
    nullary main_c_2 (constantI S_ 32 200000#32),
    unary main_c_2 main_v9 (broadcastInDim S4096 ![] bcast_S_S4096 : (⟨S_, .i32⟩ : BufTy).Contents (Elt F) → (⟨S4096, .i32⟩ : BufTy).Contents (Elt F)),
    binary main_arg1 main_v9 main_v10 (addi : (⟨S4096, .i32⟩ : BufTy).Contents (Elt F) → (⟨S4096, .i32⟩ : BufTy).Contents (Elt F) → (⟨S4096, .i32⟩ : BufTy).Contents (Elt F)),
    ternary main_v8 main_v10 main_arg1 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v11 main_v12 (broadcastInDim S4096x1 ![0] bcast_S4096_S4096x1_0 : (⟨S4096, .i32⟩ : BufTy).Contents (Elt F) → (⟨S4096x1, .i32⟩ : BufTy).Contents (Elt F)),
    binary main_arg4 main_v12 main_v13 ((fun x i => Host.gather gather_S200000x64_S4096x1_S4096x64_1_0_n_n_0_1_164 x i) : (⟨S200000x64, .f32⟩ : BufTy).Contents (Elt F) → (⟨S4096x1, .i32⟩ : BufTy).Contents (Elt F) → (⟨S4096x64, .f32⟩ : BufTy).Contents (Elt F)),
    nullary main_c_3 (constantI S_ 32 0#32),
    unary main_c_3 main_v14 (broadcastInDim S4096 ![] bcast_S_S4096 : (⟨S_, .i32⟩ : BufTy).Contents (Elt F) → (⟨S4096, .i32⟩ : BufTy).Contents (Elt F)),
    binary main_arg2 main_v14 main_v15 (cmpi .slt : (⟨S4096, .i32⟩ : BufTy).Contents (Elt F) → (⟨S4096, .i32⟩ : BufTy).Contents (Elt F) → (⟨S4096, .i1⟩ : BufTy).Contents (Elt F)),
    nullary main_c_4 (constantI S_ 32 200000#32),
    unary main_c_4 main_v16 (broadcastInDim S4096 ![] bcast_S_S4096 : (⟨S_, .i32⟩ : BufTy).Contents (Elt F) → (⟨S4096, .i32⟩ : BufTy).Contents (Elt F)),
    binary main_arg2 main_v16 main_v17 (addi : (⟨S4096, .i32⟩ : BufTy).Contents (Elt F) → (⟨S4096, .i32⟩ : BufTy).Contents (Elt F) → (⟨S4096, .i32⟩ : BufTy).Contents (Elt F)),
    ternary main_v15 main_v17 main_arg2 main_v18 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v18 main_v19 (broadcastInDim S4096x1 ![0] bcast_S4096_S4096x1_0 : (⟨S4096, .i32⟩ : BufTy).Contents (Elt F) → (⟨S4096x1, .i32⟩ : BufTy).Contents (Elt F)),
    binary main_arg4 main_v19 main_v20 ((fun x i => Host.gather gather_S200000x64_S4096x1_S4096x64_1_0_n_n_0_1_164 x i) : (⟨S200000x64, .f32⟩ : BufTy).Contents (Elt F) → (⟨S4096x1, .i32⟩ : BufTy).Contents (Elt F) → (⟨S4096x64, .f32⟩ : BufTy).Contents (Elt F)),
    unary main_arg7 main_v21 (broadcastInDim S1000000x1 ![0] bcast_S1000000_S1000000x1_0 : (⟨S1000000, .f32⟩ : BufTy).Contents (Elt F) → (⟨S1000000x1, .f32⟩ : BufTy).Contents (Elt F)),
    nullary main_c_5 (constantI S_ 32 0#32),
    unary main_c_5 main_v22 (broadcastInDim S1000000 ![] bcast_S_S1000000 : (⟨S_, .i32⟩ : BufTy).Contents (Elt F) → (⟨S1000000, .i32⟩ : BufTy).Contents (Elt F)),
    binary main_arg6 main_v22 main_v23 (cmpi .slt : (⟨S1000000, .i32⟩ : BufTy).Contents (Elt F) → (⟨S1000000, .i32⟩ : BufTy).Contents (Elt F) → (⟨S1000000, .i1⟩ : BufTy).Contents (Elt F)),
    nullary main_c_6 (constantI S_ 32 200000#32),
    unary main_c_6 main_v24 (broadcastInDim S1000000 ![] bcast_S_S1000000 : (⟨S_, .i32⟩ : BufTy).Contents (Elt F) → (⟨S1000000, .i32⟩ : BufTy).Contents (Elt F)),
    binary main_arg6 main_v24 main_v25 (addi : (⟨S1000000, .i32⟩ : BufTy).Contents (Elt F) → (⟨S1000000, .i32⟩ : BufTy).Contents (Elt F) → (⟨S1000000, .i32⟩ : BufTy).Contents (Elt F)),
    ternary main_v23 main_v25 main_arg6 main_v26 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v26 main_v27 (broadcastInDim S1000000x1 ![0] bcast_S1000000_S1000000x1_0 : (⟨S1000000, .i32⟩ : BufTy).Contents (Elt F) → (⟨S1000000x1, .i32⟩ : BufTy).Contents (Elt F)),
    binary main_arg4 main_v27 main_v28 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    unary main_v21 main_v29 (broadcastInDim S1000000x64 ![0, 1] bcast_S1000000x1_S1000000x64_0_1 : (⟨S1000000x1, .f32⟩ : BufTy).Contents (Elt F) → (⟨S1000000x64, .f32⟩ : BufTy).Contents (Elt F)),
    binary main_v29 main_v28 main_v30 (mulf : (⟨S1000000x64, .f32⟩ : BufTy).Contents (Elt F) → (⟨S1000000x64, .f32⟩ : BufTy).Contents (Elt F) → (⟨S1000000x64, .f32⟩ : BufTy).Contents (Elt F)),
    nullary main_cst (constant S_ .f32 0x00000000#32),
    unary main_cst main_v31 (broadcastInDim S100000x64 ![] bcast_S_S100000x64 : (⟨S_, .f32⟩ : BufTy).Contents (Elt F) → (⟨S100000x64, .f32⟩ : BufTy).Contents (Elt F)),
    unary main_arg5 main_v32 (broadcastInDim S1000000x1 ![0] bcast_S1000000_S1000000x1_0 : (⟨S1000000, .i32⟩ : BufTy).Contents (Elt F) → (⟨S1000000x1, .i32⟩ : BufTy).Contents (Elt F)),
    ternary main_v31 main_v32 main_v30 main_v33 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_arg7 main_v34 (broadcastInDim S1000000x1 ![0] bcast_S1000000_S1000000x1_0 : (⟨S1000000, .f32⟩ : BufTy).Contents (Elt F) → (⟨S1000000x1, .f32⟩ : BufTy).Contents (Elt F)),
    nullary main_c_7 (constantI S_ 32 0#32),
    unary main_c_7 main_v35 (broadcastInDim S1000000 ![] bcast_S_S1000000 : (⟨S_, .i32⟩ : BufTy).Contents (Elt F) → (⟨S1000000, .i32⟩ : BufTy).Contents (Elt F)),
    binary main_arg5 main_v35 main_v36 (cmpi .slt : (⟨S1000000, .i32⟩ : BufTy).Contents (Elt F) → (⟨S1000000, .i32⟩ : BufTy).Contents (Elt F) → (⟨S1000000, .i1⟩ : BufTy).Contents (Elt F)),
    nullary main_c_8 (constantI S_ 32 100000#32),
    unary main_c_8 main_v37 (broadcastInDim S1000000 ![] bcast_S_S1000000 : (⟨S_, .i32⟩ : BufTy).Contents (Elt F) → (⟨S1000000, .i32⟩ : BufTy).Contents (Elt F)),
    binary main_arg5 main_v37 main_v38 (addi : (⟨S1000000, .i32⟩ : BufTy).Contents (Elt F) → (⟨S1000000, .i32⟩ : BufTy).Contents (Elt F) → (⟨S1000000, .i32⟩ : BufTy).Contents (Elt F)),
    ternary main_v36 main_v38 main_arg5 main_v39 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v39 main_v40 (broadcastInDim S1000000x1 ![0] bcast_S1000000_S1000000x1_0 : (⟨S1000000, .i32⟩ : BufTy).Contents (Elt F) → (⟨S1000000x1, .i32⟩ : BufTy).Contents (Elt F)),
    binary main_v33 main_v40 main_v41 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_v34 main_v42 (broadcastInDim S1000000x64 ![0, 1] bcast_S1000000x1_S1000000x64_0_1 : (⟨S1000000x1, .f32⟩ : BufTy).Contents (Elt F) → (⟨S1000000x64, .f32⟩ : BufTy).Contents (Elt F)),
    binary main_v42 main_v41 main_v43 (mulf : (⟨S1000000x64, .f32⟩ : BufTy).Contents (Elt F) → (⟨S1000000x64, .f32⟩ : BufTy).Contents (Elt F) → (⟨S1000000x64, .f32⟩ : BufTy).Contents (Elt F)),
    nullary main_cst_9 (constant S_ .f32 0x00000000#32),
    unary main_cst_9 main_v44 (broadcastInDim S200000x64 ![] bcast_S_S200000x64 : (⟨S_, .f32⟩ : BufTy).Contents (Elt F) → (⟨S200000x64, .f32⟩ : BufTy).Contents (Elt F)),
    unary main_arg6 main_v45 (broadcastInDim S1000000x1 ![0] bcast_S1000000_S1000000x1_0 : (⟨S1000000, .i32⟩ : BufTy).Contents (Elt F) → (⟨S1000000x1, .i32⟩ : BufTy).Contents (Elt F)),
    ternary main_v44 main_v45 main_v43 main_v46 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    nullary main_c_10 (constantI S_ 32 0#32) ]

/-- @main's statements 61 … 120 of 249 (window `main_part1`). -/
abbrev ops_part1 : List (HloOp τ sig (Elt F)) :=
  [ unary main_c_10 main_v47 (broadcastInDim S4096 ![] bcast_S_S4096 : (⟨S_, .i32⟩ : BufTy).Contents (Elt F) → (⟨S4096, .i32⟩ : BufTy).Contents (Elt F)),
    binary main_arg0 main_v47 main_v48 (cmpi .slt : (⟨S4096, .i32⟩ : BufTy).Contents (Elt F) → (⟨S4096, .i32⟩ : BufTy).Contents (Elt F) → (⟨S4096, .i1⟩ : BufTy).Contents (Elt F)),
    nullary main_c_11 (constantI S_ 32 100000#32),
    unary main_c_11 main_v49 (broadcastInDim S4096 ![] bcast_S_S4096 : (⟨S_, .i32⟩ : BufTy).Contents (Elt F) → (⟨S4096, .i32⟩ : BufTy).Contents (Elt F)),
    binary main_arg0 main_v49 main_v50 (addi : (⟨S4096, .i32⟩ : BufTy).Contents (Elt F) → (⟨S4096, .i32⟩ : BufTy).Contents (Elt F) → (⟨S4096, .i32⟩ : BufTy).Contents (Elt F)),
    ternary main_v48 main_v50 main_arg0 main_v51 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v51 main_v52 (broadcastInDim S4096x1 ![0] bcast_S4096_S4096x1_0 : (⟨S4096, .i32⟩ : BufTy).Contents (Elt F) → (⟨S4096x1, .i32⟩ : BufTy).Contents (Elt F)),
    binary main_v33 main_v52 main_v53 ((fun x i => Host.gather gather_S100000x64_S4096x1_S4096x64_1_0_n_n_0_1_164 x i) : (⟨S100000x64, .f32⟩ : BufTy).Contents (Elt F) → (⟨S4096x1, .i32⟩ : BufTy).Contents (Elt F) → (⟨S4096x64, .f32⟩ : BufTy).Contents (Elt F)),
    binary main_v6 main_v53 main_v54 (addf : (⟨S4096x64, .f32⟩ : BufTy).Contents (Elt F) → (⟨S4096x64, .f32⟩ : BufTy).Contents (Elt F) → (⟨S4096x64, .f32⟩ : BufTy).Contents (Elt F)),
    nullary main_c_12 (constantI S_ 32 0#32),
    unary main_c_12 main_v55 (broadcastInDim S4096 ![] bcast_S_S4096 : (⟨S_, .i32⟩ : BufTy).Contents (Elt F) → (⟨S4096, .i32⟩ : BufTy).Contents (Elt F)),
    binary main_arg1 main_v55 main_v56 (cmpi .slt : (⟨S4096, .i32⟩ : BufTy).Contents (Elt F) → (⟨S4096, .i32⟩ : BufTy).Contents (Elt F) → (⟨S4096, .i1⟩ : BufTy).Contents (Elt F)),
    nullary main_c_13 (constantI S_ 32 200000#32),
    unary main_c_13 main_v57 (broadcastInDim S4096 ![] bcast_S_S4096 : (⟨S_, .i32⟩ : BufTy).Contents (Elt F) → (⟨S4096, .i32⟩ : BufTy).Contents (Elt F)),
    binary main_arg1 main_v57 main_v58 (addi : (⟨S4096, .i32⟩ : BufTy).Contents (Elt F) → (⟨S4096, .i32⟩ : BufTy).Contents (Elt F) → (⟨S4096, .i32⟩ : BufTy).Contents (Elt F)),
    ternary main_v56 main_v58 main_arg1 main_v59 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v59 main_v60 (broadcastInDim S4096x1 ![0] bcast_S4096_S4096x1_0 : (⟨S4096, .i32⟩ : BufTy).Contents (Elt F) → (⟨S4096x1, .i32⟩ : BufTy).Contents (Elt F)),
    binary main_v46 main_v60 main_v61 ((fun x i => Host.gather gather_S200000x64_S4096x1_S4096x64_1_0_n_n_0_1_164 x i) : (⟨S200000x64, .f32⟩ : BufTy).Contents (Elt F) → (⟨S4096x1, .i32⟩ : BufTy).Contents (Elt F) → (⟨S4096x64, .f32⟩ : BufTy).Contents (Elt F)),
    binary main_v13 main_v61 main_v62 (addf : (⟨S4096x64, .f32⟩ : BufTy).Contents (Elt F) → (⟨S4096x64, .f32⟩ : BufTy).Contents (Elt F) → (⟨S4096x64, .f32⟩ : BufTy).Contents (Elt F)),
    nullary main_c_14 (constantI S_ 32 0#32),
    unary main_c_14 main_v63 (broadcastInDim S4096 ![] bcast_S_S4096 : (⟨S_, .i32⟩ : BufTy).Contents (Elt F) → (⟨S4096, .i32⟩ : BufTy).Contents (Elt F)),
    binary main_arg2 main_v63 main_v64 (cmpi .slt : (⟨S4096, .i32⟩ : BufTy).Contents (Elt F) → (⟨S4096, .i32⟩ : BufTy).Contents (Elt F) → (⟨S4096, .i1⟩ : BufTy).Contents (Elt F)),
    nullary main_c_15 (constantI S_ 32 200000#32),
    unary main_c_15 main_v65 (broadcastInDim S4096 ![] bcast_S_S4096 : (⟨S_, .i32⟩ : BufTy).Contents (Elt F) → (⟨S4096, .i32⟩ : BufTy).Contents (Elt F)),
    binary main_arg2 main_v65 main_v66 (addi : (⟨S4096, .i32⟩ : BufTy).Contents (Elt F) → (⟨S4096, .i32⟩ : BufTy).Contents (Elt F) → (⟨S4096, .i32⟩ : BufTy).Contents (Elt F)),
    ternary main_v64 main_v66 main_arg2 main_v67 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v67 main_v68 (broadcastInDim S4096x1 ![0] bcast_S4096_S4096x1_0 : (⟨S4096, .i32⟩ : BufTy).Contents (Elt F) → (⟨S4096x1, .i32⟩ : BufTy).Contents (Elt F)),
    binary main_v46 main_v68 main_v69 ((fun x i => Host.gather gather_S200000x64_S4096x1_S4096x64_1_0_n_n_0_1_164 x i) : (⟨S200000x64, .f32⟩ : BufTy).Contents (Elt F) → (⟨S4096x1, .i32⟩ : BufTy).Contents (Elt F) → (⟨S4096x64, .f32⟩ : BufTy).Contents (Elt F)),
    binary main_v20 main_v69 main_v70 (addf : (⟨S4096x64, .f32⟩ : BufTy).Contents (Elt F) → (⟨S4096x64, .f32⟩ : BufTy).Contents (Elt F) → (⟨S4096x64, .f32⟩ : BufTy).Contents (Elt F)),
    unary main_arg7 main_v71 (broadcastInDim S1000000x1 ![0] bcast_S1000000_S1000000x1_0 : (⟨S1000000, .f32⟩ : BufTy).Contents (Elt F) → (⟨S1000000x1, .f32⟩ : BufTy).Contents (Elt F)),
    nullary main_c_16 (constantI S_ 32 0#32),
    unary main_c_16 main_v72 (broadcastInDim S1000000 ![] bcast_S_S1000000 : (⟨S_, .i32⟩ : BufTy).Contents (Elt F) → (⟨S1000000, .i32⟩ : BufTy).Contents (Elt F)),
    binary main_arg6 main_v72 main_v73 (cmpi .slt : (⟨S1000000, .i32⟩ : BufTy).Contents (Elt F) → (⟨S1000000, .i32⟩ : BufTy).Contents (Elt F) → (⟨S1000000, .i1⟩ : BufTy).Contents (Elt F)),
    nullary main_c_17 (constantI S_ 32 200000#32),
    unary main_c_17 main_v74 (broadcastInDim S1000000 ![] bcast_S_S1000000 : (⟨S_, .i32⟩ : BufTy).Contents (Elt F) → (⟨S1000000, .i32⟩ : BufTy).Contents (Elt F)),
    binary main_arg6 main_v74 main_v75 (addi : (⟨S1000000, .i32⟩ : BufTy).Contents (Elt F) → (⟨S1000000, .i32⟩ : BufTy).Contents (Elt F) → (⟨S1000000, .i32⟩ : BufTy).Contents (Elt F)),
    ternary main_v73 main_v75 main_arg6 main_v76 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v76 main_v77 (broadcastInDim S1000000x1 ![0] bcast_S1000000_S1000000x1_0 : (⟨S1000000, .i32⟩ : BufTy).Contents (Elt F) → (⟨S1000000x1, .i32⟩ : BufTy).Contents (Elt F)),
    binary main_v46 main_v77 main_v78 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    unary main_v71 main_v79 (broadcastInDim S1000000x64 ![0, 1] bcast_S1000000x1_S1000000x64_0_1 : (⟨S1000000x1, .f32⟩ : BufTy).Contents (Elt F) → (⟨S1000000x64, .f32⟩ : BufTy).Contents (Elt F)),
    binary main_v79 main_v78 main_v80 (mulf : (⟨S1000000x64, .f32⟩ : BufTy).Contents (Elt F) → (⟨S1000000x64, .f32⟩ : BufTy).Contents (Elt F) → (⟨S1000000x64, .f32⟩ : BufTy).Contents (Elt F)),
    nullary main_cst_18 (constant S_ .f32 0x00000000#32),
    unary main_cst_18 main_v81 (broadcastInDim S100000x64 ![] bcast_S_S100000x64 : (⟨S_, .f32⟩ : BufTy).Contents (Elt F) → (⟨S100000x64, .f32⟩ : BufTy).Contents (Elt F)),
    unary main_arg5 main_v82 (broadcastInDim S1000000x1 ![0] bcast_S1000000_S1000000x1_0 : (⟨S1000000, .i32⟩ : BufTy).Contents (Elt F) → (⟨S1000000x1, .i32⟩ : BufTy).Contents (Elt F)),
    ternary main_v81 main_v82 main_v80 main_v83 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_arg7 main_v84 (broadcastInDim S1000000x1 ![0] bcast_S1000000_S1000000x1_0 : (⟨S1000000, .f32⟩ : BufTy).Contents (Elt F) → (⟨S1000000x1, .f32⟩ : BufTy).Contents (Elt F)),
    nullary main_c_19 (constantI S_ 32 0#32),
    unary main_c_19 main_v85 (broadcastInDim S1000000 ![] bcast_S_S1000000 : (⟨S_, .i32⟩ : BufTy).Contents (Elt F) → (⟨S1000000, .i32⟩ : BufTy).Contents (Elt F)),
    binary main_arg5 main_v85 main_v86 (cmpi .slt : (⟨S1000000, .i32⟩ : BufTy).Contents (Elt F) → (⟨S1000000, .i32⟩ : BufTy).Contents (Elt F) → (⟨S1000000, .i1⟩ : BufTy).Contents (Elt F)),
    nullary main_c_20 (constantI S_ 32 100000#32),
    unary main_c_20 main_v87 (broadcastInDim S1000000 ![] bcast_S_S1000000 : (⟨S_, .i32⟩ : BufTy).Contents (Elt F) → (⟨S1000000, .i32⟩ : BufTy).Contents (Elt F)),
    binary main_arg5 main_v87 main_v88 (addi : (⟨S1000000, .i32⟩ : BufTy).Contents (Elt F) → (⟨S1000000, .i32⟩ : BufTy).Contents (Elt F) → (⟨S1000000, .i32⟩ : BufTy).Contents (Elt F)),
    ternary main_v86 main_v88 main_arg5 main_v89 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v89 main_v90 (broadcastInDim S1000000x1 ![0] bcast_S1000000_S1000000x1_0 : (⟨S1000000, .i32⟩ : BufTy).Contents (Elt F) → (⟨S1000000x1, .i32⟩ : BufTy).Contents (Elt F)),
    binary main_v83 main_v90 main_v91 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_v84 main_v92 (broadcastInDim S1000000x64 ![0, 1] bcast_S1000000x1_S1000000x64_0_1 : (⟨S1000000x1, .f32⟩ : BufTy).Contents (Elt F) → (⟨S1000000x64, .f32⟩ : BufTy).Contents (Elt F)),
    binary main_v92 main_v91 main_v93 (mulf : (⟨S1000000x64, .f32⟩ : BufTy).Contents (Elt F) → (⟨S1000000x64, .f32⟩ : BufTy).Contents (Elt F) → (⟨S1000000x64, .f32⟩ : BufTy).Contents (Elt F)),
    nullary main_cst_21 (constant S_ .f32 0x00000000#32),
    unary main_cst_21 main_v94 (broadcastInDim S200000x64 ![] bcast_S_S200000x64 : (⟨S_, .f32⟩ : BufTy).Contents (Elt F) → (⟨S200000x64, .f32⟩ : BufTy).Contents (Elt F)),
    unary main_arg6 main_v95 (broadcastInDim S1000000x1 ![0] bcast_S1000000_S1000000x1_0 : (⟨S1000000, .i32⟩ : BufTy).Contents (Elt F) → (⟨S1000000x1, .i32⟩ : BufTy).Contents (Elt F)) ]

/-- @main's statements 121 … 180 of 249 (window `main_part2`). -/
abbrev ops_part2 : List (HloOp τ sig (Elt F)) :=
  [ ternary main_v94 main_v95 main_v93 main_v96 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    nullary main_c_22 (constantI S_ 32 0#32),
    unary main_c_22 main_v97 (broadcastInDim S4096 ![] bcast_S_S4096 : (⟨S_, .i32⟩ : BufTy).Contents (Elt F) → (⟨S4096, .i32⟩ : BufTy).Contents (Elt F)),
    binary main_arg0 main_v97 main_v98 (cmpi .slt : (⟨S4096, .i32⟩ : BufTy).Contents (Elt F) → (⟨S4096, .i32⟩ : BufTy).Contents (Elt F) → (⟨S4096, .i1⟩ : BufTy).Contents (Elt F)),
    nullary main_c_23 (constantI S_ 32 100000#32),
    unary main_c_23 main_v99 (broadcastInDim S4096 ![] bcast_S_S4096 : (⟨S_, .i32⟩ : BufTy).Contents (Elt F) → (⟨S4096, .i32⟩ : BufTy).Contents (Elt F)),
    binary main_arg0 main_v99 main_v100 (addi : (⟨S4096, .i32⟩ : BufTy).Contents (Elt F) → (⟨S4096, .i32⟩ : BufTy).Contents (Elt F) → (⟨S4096, .i32⟩ : BufTy).Contents (Elt F)),
    ternary main_v98 main_v100 main_arg0 main_v101 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v101 main_v102 (broadcastInDim S4096x1 ![0] bcast_S4096_S4096x1_0 : (⟨S4096, .i32⟩ : BufTy).Contents (Elt F) → (⟨S4096x1, .i32⟩ : BufTy).Contents (Elt F)),
    binary main_v83 main_v102 main_v103 ((fun x i => Host.gather gather_S100000x64_S4096x1_S4096x64_1_0_n_n_0_1_164 x i) : (⟨S100000x64, .f32⟩ : BufTy).Contents (Elt F) → (⟨S4096x1, .i32⟩ : BufTy).Contents (Elt F) → (⟨S4096x64, .f32⟩ : BufTy).Contents (Elt F)),
    binary main_v54 main_v103 main_v104 (addf : (⟨S4096x64, .f32⟩ : BufTy).Contents (Elt F) → (⟨S4096x64, .f32⟩ : BufTy).Contents (Elt F) → (⟨S4096x64, .f32⟩ : BufTy).Contents (Elt F)),
    nullary main_c_24 (constantI S_ 32 0#32),
    unary main_c_24 main_v105 (broadcastInDim S4096 ![] bcast_S_S4096 : (⟨S_, .i32⟩ : BufTy).Contents (Elt F) → (⟨S4096, .i32⟩ : BufTy).Contents (Elt F)),
    binary main_arg1 main_v105 main_v106 (cmpi .slt : (⟨S4096, .i32⟩ : BufTy).Contents (Elt F) → (⟨S4096, .i32⟩ : BufTy).Contents (Elt F) → (⟨S4096, .i1⟩ : BufTy).Contents (Elt F)),
    nullary main_c_25 (constantI S_ 32 200000#32),
    unary main_c_25 main_v107 (broadcastInDim S4096 ![] bcast_S_S4096 : (⟨S_, .i32⟩ : BufTy).Contents (Elt F) → (⟨S4096, .i32⟩ : BufTy).Contents (Elt F)),
    binary main_arg1 main_v107 main_v108 (addi : (⟨S4096, .i32⟩ : BufTy).Contents (Elt F) → (⟨S4096, .i32⟩ : BufTy).Contents (Elt F) → (⟨S4096, .i32⟩ : BufTy).Contents (Elt F)),
    ternary main_v106 main_v108 main_arg1 main_v109 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v109 main_v110 (broadcastInDim S4096x1 ![0] bcast_S4096_S4096x1_0 : (⟨S4096, .i32⟩ : BufTy).Contents (Elt F) → (⟨S4096x1, .i32⟩ : BufTy).Contents (Elt F)),
    binary main_v96 main_v110 main_v111 ((fun x i => Host.gather gather_S200000x64_S4096x1_S4096x64_1_0_n_n_0_1_164 x i) : (⟨S200000x64, .f32⟩ : BufTy).Contents (Elt F) → (⟨S4096x1, .i32⟩ : BufTy).Contents (Elt F) → (⟨S4096x64, .f32⟩ : BufTy).Contents (Elt F)),
    binary main_v62 main_v111 main_v112 (addf : (⟨S4096x64, .f32⟩ : BufTy).Contents (Elt F) → (⟨S4096x64, .f32⟩ : BufTy).Contents (Elt F) → (⟨S4096x64, .f32⟩ : BufTy).Contents (Elt F)),
    nullary main_c_26 (constantI S_ 32 0#32),
    unary main_c_26 main_v113 (broadcastInDim S4096 ![] bcast_S_S4096 : (⟨S_, .i32⟩ : BufTy).Contents (Elt F) → (⟨S4096, .i32⟩ : BufTy).Contents (Elt F)),
    binary main_arg2 main_v113 main_v114 (cmpi .slt : (⟨S4096, .i32⟩ : BufTy).Contents (Elt F) → (⟨S4096, .i32⟩ : BufTy).Contents (Elt F) → (⟨S4096, .i1⟩ : BufTy).Contents (Elt F)),
    nullary main_c_27 (constantI S_ 32 200000#32),
    unary main_c_27 main_v115 (broadcastInDim S4096 ![] bcast_S_S4096 : (⟨S_, .i32⟩ : BufTy).Contents (Elt F) → (⟨S4096, .i32⟩ : BufTy).Contents (Elt F)),
    binary main_arg2 main_v115 main_v116 (addi : (⟨S4096, .i32⟩ : BufTy).Contents (Elt F) → (⟨S4096, .i32⟩ : BufTy).Contents (Elt F) → (⟨S4096, .i32⟩ : BufTy).Contents (Elt F)),
    ternary main_v114 main_v116 main_arg2 main_v117 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v117 main_v118 (broadcastInDim S4096x1 ![0] bcast_S4096_S4096x1_0 : (⟨S4096, .i32⟩ : BufTy).Contents (Elt F) → (⟨S4096x1, .i32⟩ : BufTy).Contents (Elt F)),
    binary main_v96 main_v118 main_v119 ((fun x i => Host.gather gather_S200000x64_S4096x1_S4096x64_1_0_n_n_0_1_164 x i) : (⟨S200000x64, .f32⟩ : BufTy).Contents (Elt F) → (⟨S4096x1, .i32⟩ : BufTy).Contents (Elt F) → (⟨S4096x64, .f32⟩ : BufTy).Contents (Elt F)),
    binary main_v70 main_v119 main_v120 (addf : (⟨S4096x64, .f32⟩ : BufTy).Contents (Elt F) → (⟨S4096x64, .f32⟩ : BufTy).Contents (Elt F) → (⟨S4096x64, .f32⟩ : BufTy).Contents (Elt F)),
    unary main_arg7 main_v121 (broadcastInDim S1000000x1 ![0] bcast_S1000000_S1000000x1_0 : (⟨S1000000, .f32⟩ : BufTy).Contents (Elt F) → (⟨S1000000x1, .f32⟩ : BufTy).Contents (Elt F)),
    nullary main_c_28 (constantI S_ 32 0#32),
    unary main_c_28 main_v122 (broadcastInDim S1000000 ![] bcast_S_S1000000 : (⟨S_, .i32⟩ : BufTy).Contents (Elt F) → (⟨S1000000, .i32⟩ : BufTy).Contents (Elt F)),
    binary main_arg6 main_v122 main_v123 (cmpi .slt : (⟨S1000000, .i32⟩ : BufTy).Contents (Elt F) → (⟨S1000000, .i32⟩ : BufTy).Contents (Elt F) → (⟨S1000000, .i1⟩ : BufTy).Contents (Elt F)),
    nullary main_c_29 (constantI S_ 32 200000#32),
    unary main_c_29 main_v124 (broadcastInDim S1000000 ![] bcast_S_S1000000 : (⟨S_, .i32⟩ : BufTy).Contents (Elt F) → (⟨S1000000, .i32⟩ : BufTy).Contents (Elt F)),
    binary main_arg6 main_v124 main_v125 (addi : (⟨S1000000, .i32⟩ : BufTy).Contents (Elt F) → (⟨S1000000, .i32⟩ : BufTy).Contents (Elt F) → (⟨S1000000, .i32⟩ : BufTy).Contents (Elt F)),
    ternary main_v123 main_v125 main_arg6 main_v126 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v126 main_v127 (broadcastInDim S1000000x1 ![0] bcast_S1000000_S1000000x1_0 : (⟨S1000000, .i32⟩ : BufTy).Contents (Elt F) → (⟨S1000000x1, .i32⟩ : BufTy).Contents (Elt F)),
    binary main_v96 main_v127 main_v128 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    unary main_v121 main_v129 (broadcastInDim S1000000x64 ![0, 1] bcast_S1000000x1_S1000000x64_0_1 : (⟨S1000000x1, .f32⟩ : BufTy).Contents (Elt F) → (⟨S1000000x64, .f32⟩ : BufTy).Contents (Elt F)),
    binary main_v129 main_v128 main_v130 (mulf : (⟨S1000000x64, .f32⟩ : BufTy).Contents (Elt F) → (⟨S1000000x64, .f32⟩ : BufTy).Contents (Elt F) → (⟨S1000000x64, .f32⟩ : BufTy).Contents (Elt F)),
    nullary main_cst_30 (constant S_ .f32 0x00000000#32),
    unary main_cst_30 main_v131 (broadcastInDim S100000x64 ![] bcast_S_S100000x64 : (⟨S_, .f32⟩ : BufTy).Contents (Elt F) → (⟨S100000x64, .f32⟩ : BufTy).Contents (Elt F)),
    unary main_arg5 main_v132 (broadcastInDim S1000000x1 ![0] bcast_S1000000_S1000000x1_0 : (⟨S1000000, .i32⟩ : BufTy).Contents (Elt F) → (⟨S1000000x1, .i32⟩ : BufTy).Contents (Elt F)),
    ternary main_v131 main_v132 main_v130 main_v133 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_arg7 main_v134 (broadcastInDim S1000000x1 ![0] bcast_S1000000_S1000000x1_0 : (⟨S1000000, .f32⟩ : BufTy).Contents (Elt F) → (⟨S1000000x1, .f32⟩ : BufTy).Contents (Elt F)),
    nullary main_c_31 (constantI S_ 32 0#32),
    unary main_c_31 main_v135 (broadcastInDim S1000000 ![] bcast_S_S1000000 : (⟨S_, .i32⟩ : BufTy).Contents (Elt F) → (⟨S1000000, .i32⟩ : BufTy).Contents (Elt F)),
    binary main_arg5 main_v135 main_v136 (cmpi .slt : (⟨S1000000, .i32⟩ : BufTy).Contents (Elt F) → (⟨S1000000, .i32⟩ : BufTy).Contents (Elt F) → (⟨S1000000, .i1⟩ : BufTy).Contents (Elt F)),
    nullary main_c_32 (constantI S_ 32 100000#32),
    unary main_c_32 main_v137 (broadcastInDim S1000000 ![] bcast_S_S1000000 : (⟨S_, .i32⟩ : BufTy).Contents (Elt F) → (⟨S1000000, .i32⟩ : BufTy).Contents (Elt F)),
    binary main_arg5 main_v137 main_v138 (addi : (⟨S1000000, .i32⟩ : BufTy).Contents (Elt F) → (⟨S1000000, .i32⟩ : BufTy).Contents (Elt F) → (⟨S1000000, .i32⟩ : BufTy).Contents (Elt F)),
    ternary main_v136 main_v138 main_arg5 main_v139 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v139 main_v140 (broadcastInDim S1000000x1 ![0] bcast_S1000000_S1000000x1_0 : (⟨S1000000, .i32⟩ : BufTy).Contents (Elt F) → (⟨S1000000x1, .i32⟩ : BufTy).Contents (Elt F)),
    binary main_v133 main_v140 main_v141 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_v134 main_v142 (broadcastInDim S1000000x64 ![0, 1] bcast_S1000000x1_S1000000x64_0_1 : (⟨S1000000x1, .f32⟩ : BufTy).Contents (Elt F) → (⟨S1000000x64, .f32⟩ : BufTy).Contents (Elt F)),
    binary main_v142 main_v141 main_v143 (mulf : (⟨S1000000x64, .f32⟩ : BufTy).Contents (Elt F) → (⟨S1000000x64, .f32⟩ : BufTy).Contents (Elt F) → (⟨S1000000x64, .f32⟩ : BufTy).Contents (Elt F)),
    nullary main_cst_33 (constant S_ .f32 0x00000000#32) ]

/-- @main's statements 181 … 240 (the call unfolded: 75 operations) of 249 (window `main_part3`). -/
abbrev ops_part3 : List (HloOp τ sig (Elt F)) :=
  [ unary main_cst_33 main_v144 (broadcastInDim S200000x64 ![] bcast_S_S200000x64 : (⟨S_, .f32⟩ : BufTy).Contents (Elt F) → (⟨S200000x64, .f32⟩ : BufTy).Contents (Elt F)),
    unary main_arg6 main_v145 (broadcastInDim S1000000x1 ![0] bcast_S1000000_S1000000x1_0 : (⟨S1000000, .i32⟩ : BufTy).Contents (Elt F) → (⟨S1000000x1, .i32⟩ : BufTy).Contents (Elt F)),
    ternary main_v144 main_v145 main_v143 main_v146 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    nullary main_c_34 (constantI S_ 32 0#32),
    unary main_c_34 main_v147 (broadcastInDim S4096 ![] bcast_S_S4096 : (⟨S_, .i32⟩ : BufTy).Contents (Elt F) → (⟨S4096, .i32⟩ : BufTy).Contents (Elt F)),
    binary main_arg0 main_v147 main_v148 (cmpi .slt : (⟨S4096, .i32⟩ : BufTy).Contents (Elt F) → (⟨S4096, .i32⟩ : BufTy).Contents (Elt F) → (⟨S4096, .i1⟩ : BufTy).Contents (Elt F)),
    nullary main_c_35 (constantI S_ 32 100000#32),
    unary main_c_35 main_v149 (broadcastInDim S4096 ![] bcast_S_S4096 : (⟨S_, .i32⟩ : BufTy).Contents (Elt F) → (⟨S4096, .i32⟩ : BufTy).Contents (Elt F)),
    binary main_arg0 main_v149 main_v150 (addi : (⟨S4096, .i32⟩ : BufTy).Contents (Elt F) → (⟨S4096, .i32⟩ : BufTy).Contents (Elt F) → (⟨S4096, .i32⟩ : BufTy).Contents (Elt F)),
    ternary main_v148 main_v150 main_arg0 main_v151 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v151 main_v152 (broadcastInDim S4096x1 ![0] bcast_S4096_S4096x1_0 : (⟨S4096, .i32⟩ : BufTy).Contents (Elt F) → (⟨S4096x1, .i32⟩ : BufTy).Contents (Elt F)),
    binary main_v133 main_v152 main_v153 ((fun x i => Host.gather gather_S100000x64_S4096x1_S4096x64_1_0_n_n_0_1_164 x i) : (⟨S100000x64, .f32⟩ : BufTy).Contents (Elt F) → (⟨S4096x1, .i32⟩ : BufTy).Contents (Elt F) → (⟨S4096x64, .f32⟩ : BufTy).Contents (Elt F)),
    binary main_v104 main_v153 main_v154 (addf : (⟨S4096x64, .f32⟩ : BufTy).Contents (Elt F) → (⟨S4096x64, .f32⟩ : BufTy).Contents (Elt F) → (⟨S4096x64, .f32⟩ : BufTy).Contents (Elt F)),
    nullary main_c_36 (constantI S_ 32 0#32),
    unary main_c_36 main_v155 (broadcastInDim S4096 ![] bcast_S_S4096 : (⟨S_, .i32⟩ : BufTy).Contents (Elt F) → (⟨S4096, .i32⟩ : BufTy).Contents (Elt F)),
    binary main_arg1 main_v155 main_v156 (cmpi .slt : (⟨S4096, .i32⟩ : BufTy).Contents (Elt F) → (⟨S4096, .i32⟩ : BufTy).Contents (Elt F) → (⟨S4096, .i1⟩ : BufTy).Contents (Elt F)),
    nullary main_c_37 (constantI S_ 32 200000#32),
    unary main_c_37 main_v157 (broadcastInDim S4096 ![] bcast_S_S4096 : (⟨S_, .i32⟩ : BufTy).Contents (Elt F) → (⟨S4096, .i32⟩ : BufTy).Contents (Elt F)),
    binary main_arg1 main_v157 main_v158 (addi : (⟨S4096, .i32⟩ : BufTy).Contents (Elt F) → (⟨S4096, .i32⟩ : BufTy).Contents (Elt F) → (⟨S4096, .i32⟩ : BufTy).Contents (Elt F)),
    ternary main_v156 main_v158 main_arg1 main_v159 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v159 main_v160 (broadcastInDim S4096x1 ![0] bcast_S4096_S4096x1_0 : (⟨S4096, .i32⟩ : BufTy).Contents (Elt F) → (⟨S4096x1, .i32⟩ : BufTy).Contents (Elt F)),
    binary main_v146 main_v160 main_v161 ((fun x i => Host.gather gather_S200000x64_S4096x1_S4096x64_1_0_n_n_0_1_164 x i) : (⟨S200000x64, .f32⟩ : BufTy).Contents (Elt F) → (⟨S4096x1, .i32⟩ : BufTy).Contents (Elt F) → (⟨S4096x64, .f32⟩ : BufTy).Contents (Elt F)),
    binary main_v112 main_v161 main_v162 (addf : (⟨S4096x64, .f32⟩ : BufTy).Contents (Elt F) → (⟨S4096x64, .f32⟩ : BufTy).Contents (Elt F) → (⟨S4096x64, .f32⟩ : BufTy).Contents (Elt F)),
    nullary main_c_38 (constantI S_ 32 0#32),
    unary main_c_38 main_v163 (broadcastInDim S4096 ![] bcast_S_S4096 : (⟨S_, .i32⟩ : BufTy).Contents (Elt F) → (⟨S4096, .i32⟩ : BufTy).Contents (Elt F)),
    binary main_arg2 main_v163 main_v164 (cmpi .slt : (⟨S4096, .i32⟩ : BufTy).Contents (Elt F) → (⟨S4096, .i32⟩ : BufTy).Contents (Elt F) → (⟨S4096, .i1⟩ : BufTy).Contents (Elt F)),
    nullary main_c_39 (constantI S_ 32 200000#32),
    unary main_c_39 main_v165 (broadcastInDim S4096 ![] bcast_S_S4096 : (⟨S_, .i32⟩ : BufTy).Contents (Elt F) → (⟨S4096, .i32⟩ : BufTy).Contents (Elt F)),
    binary main_arg2 main_v165 main_v166 (addi : (⟨S4096, .i32⟩ : BufTy).Contents (Elt F) → (⟨S4096, .i32⟩ : BufTy).Contents (Elt F) → (⟨S4096, .i32⟩ : BufTy).Contents (Elt F)),
    ternary main_v164 main_v166 main_arg2 main_v167 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v167 main_v168 (broadcastInDim S4096x1 ![0] bcast_S4096_S4096x1_0 : (⟨S4096, .i32⟩ : BufTy).Contents (Elt F) → (⟨S4096x1, .i32⟩ : BufTy).Contents (Elt F)),
    binary main_v146 main_v168 main_v169 ((fun x i => Host.gather gather_S200000x64_S4096x1_S4096x64_1_0_n_n_0_1_164 x i) : (⟨S200000x64, .f32⟩ : BufTy).Contents (Elt F) → (⟨S4096x1, .i32⟩ : BufTy).Contents (Elt F) → (⟨S4096x64, .f32⟩ : BufTy).Contents (Elt F)),
    binary main_v120 main_v169 main_v170 (addf : (⟨S4096x64, .f32⟩ : BufTy).Contents (Elt F) → (⟨S4096x64, .f32⟩ : BufTy).Contents (Elt F) → (⟨S4096x64, .f32⟩ : BufTy).Contents (Elt F)),
    nullary main_cst_40 (constant S_ .f32 0x40800000#32),
    unary main_cst_40 main_v171 (broadcastInDim S4096x64 ![] bcast_S_S4096x64 : (⟨S_, .f32⟩ : BufTy).Contents (Elt F) → (⟨S4096x64, .f32⟩ : BufTy).Contents (Elt F)),
    binary main_v154 main_v171 main_v172 (Host.divf : (⟨S4096x64, .f32⟩ : BufTy).Contents (Elt F) → (⟨S4096x64, .f32⟩ : BufTy).Contents (Elt F) → (⟨S4096x64, .f32⟩ : BufTy).Contents (Elt F)),
    nullary main_cst_41 (constant S_ .f32 0x40800000#32),
    unary main_cst_41 main_v173 (broadcastInDim S4096x64 ![] bcast_S_S4096x64 : (⟨S_, .f32⟩ : BufTy).Contents (Elt F) → (⟨S4096x64, .f32⟩ : BufTy).Contents (Elt F)),
    binary main_v162 main_v173 main_v174 (Host.divf : (⟨S4096x64, .f32⟩ : BufTy).Contents (Elt F) → (⟨S4096x64, .f32⟩ : BufTy).Contents (Elt F) → (⟨S4096x64, .f32⟩ : BufTy).Contents (Elt F)),
    nullary main_cst_42 (constant S_ .f32 0x40800000#32),
    unary main_cst_42 main_v175 (broadcastInDim S4096x64 ![] bcast_S_S4096x64 : (⟨S_, .f32⟩ : BufTy).Contents (Elt F) → (⟨S4096x64, .f32⟩ : BufTy).Contents (Elt F)),
    binary main_v170 main_v175 main_v176 (Host.divf : (⟨S4096x64, .f32⟩ : BufTy).Contents (Elt F) → (⟨S4096x64, .f32⟩ : BufTy).Contents (Elt F) → (⟨S4096x64, .f32⟩ : BufTy).Contents (Elt F)),
    binary main_v174 main_v176 main_v177 (subf : (⟨S4096x64, .f32⟩ : BufTy).Contents (Elt F) → (⟨S4096x64, .f32⟩ : BufTy).Contents (Elt F) → (⟨S4096x64, .f32⟩ : BufTy).Contents (Elt F)),
    binary main_v172 main_v177 main_v178 (mulf : (⟨S4096x64, .f32⟩ : BufTy).Contents (Elt F) → (⟨S4096x64, .f32⟩ : BufTy).Contents (Elt F) → (⟨S4096x64, .f32⟩ : BufTy).Contents (Elt F)),
    nullary main_cst_43 (constant S_ .f32 0x00000000#32),
    binary main_v178 main_cst_43 main_v179 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    TRef.unary (.of main_v179) main_call0.v0 Host.negf,
    TRef.nullary main_call0.call0.cst (constant S_ .f32 0x00000000#32),
    TRef.unary main_call0.call0.cst main_call0.call0.v0 (broadcastInDim S4096 ![] bcast_S_S4096),
    TRef.binary main_call0.v0 main_call0.call0.v0 main_call0.call0.v1 maximumf,
    TRef.unary main_call0.call0.cst main_call0.call0.v2 (broadcastInDim S4096 ![] bcast_S_S4096),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S4096 ![] bcast_S_S4096),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    nullary main_cst_44 (constant S_ .f32 0x00000000#32),
    binary main_v180 main_cst_44 main_v181 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    binary main_v6 main_v6 main_v182 (mulf : (⟨S4096x64, .f32⟩ : BufTy).Contents (Elt F) → (⟨S4096x64, .f32⟩ : BufTy).Contents (Elt F) → (⟨S4096x64, .f32⟩ : BufTy).Contents (Elt F)),
    nullary main_cst_45 (constant S_ .f32 0x00000000#32),
    binary main_v182 main_cst_45 main_v183 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    binary main_v13 main_v13 main_v184 (mulf : (⟨S4096x64, .f32⟩ : BufTy).Contents (Elt F) → (⟨S4096x64, .f32⟩ : BufTy).Contents (Elt F) → (⟨S4096x64, .f32⟩ : BufTy).Contents (Elt F)),
    nullary main_cst_46 (constant S_ .f32 0x00000000#32),
    binary main_v184 main_cst_46 main_v185 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    binary main_v183 main_v185 main_v186 (addf : (⟨S_, .f32⟩ : BufTy).Contents (Elt F) → (⟨S_, .f32⟩ : BufTy).Contents (Elt F) → (⟨S_, .f32⟩ : BufTy).Contents (Elt F)),
    binary main_v20 main_v20 main_v187 (mulf : (⟨S4096x64, .f32⟩ : BufTy).Contents (Elt F) → (⟨S4096x64, .f32⟩ : BufTy).Contents (Elt F) → (⟨S4096x64, .f32⟩ : BufTy).Contents (Elt F)),
    nullary main_cst_47 (constant S_ .f32 0x00000000#32),
    binary main_v187 main_cst_47 main_v188 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    binary main_v186 main_v188 main_v189 (addf : (⟨S_, .f32⟩ : BufTy).Contents (Elt F) → (⟨S_, .f32⟩ : BufTy).Contents (Elt F) → (⟨S_, .f32⟩ : BufTy).Contents (Elt F)) ]

/-- @main's statements 241 … 248 of 249 (window `main_part4`). -/
abbrev ops_part4 : List (HloOp τ sig (Elt F)) :=
  [ nullary main_cst_48 (constant S_ .f32 0x3F000000#32),
    binary main_cst_48 main_v189 main_v190 (mulf : (⟨S_, .f32⟩ : BufTy).Contents (Elt F) → (⟨S_, .f32⟩ : BufTy).Contents (Elt F) → (⟨S_, .f32⟩ : BufTy).Contents (Elt F)),
    nullary main_cst_49 (constant S_ .f32 0x47C35000#32),
    binary main_v190 main_cst_49 main_v191 (Host.divf : (⟨S_, .f32⟩ : BufTy).Contents (Elt F) → (⟨S_, .f32⟩ : BufTy).Contents (Elt F) → (⟨S_, .f32⟩ : BufTy).Contents (Elt F)),
    nullary main_cst_50 (constant S_ .f32 0x38D1B717#32),
    binary main_cst_50 main_v191 main_v192 (mulf : (⟨S_, .f32⟩ : BufTy).Contents (Elt F) → (⟨S_, .f32⟩ : BufTy).Contents (Elt F) → (⟨S_, .f32⟩ : BufTy).Contents (Elt F)),
    unary main_v181 main_v193 (Host.negf : (⟨S_, .f32⟩ : BufTy).Contents (Elt F) → (⟨S_, .f32⟩ : BufTy).Contents (Elt F)),
    binary main_v193 main_v192 main_v194 (addf : (⟨S_, .f32⟩ : BufTy).Contents (Elt F) → (⟨S_, .f32⟩ : BufTy).Contents (Elt F) → (⟨S_, .f32⟩ : BufTy).Contents (Elt F)) ]

/-- @main's 263 operations, in order. -/
abbrev ops : List (HloOp τ sig (Elt F)) :=
  ops_part0 ++ (ops_part1 ++ (ops_part2 ++ (ops_part3 ++ ops_part4)))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
/-- The window with the call: the two functions' bodies unfolded at their calls and the records at their fields, both
    sides are one chain of steps once sequencing is reassociated. -/
theorem main_part3_eq (c : Dev nD) : main_part3 (F := F) c = seq ops_part3 := by
  simp only [main_part3, fn_log_sigmoid.body, fn_softplus.body, seq, bind_assoc, pure_bind]
  rfl
set_option maxRecDepth 8192 in
theorem main_part4_eq (c : Dev nD) : main_part4 (F := F) c = seq ops_part4 := rfl
set_option maxRecDepth 8192 in
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub ..⟩
set_option maxRecDepth 8192 in
theorem ops_part1_sub : (ops_part1 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub ..⟩
set_option maxRecDepth 8192 in
theorem ops_part2_sub : (ops_part2 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub ..⟩
set_option maxRecDepth 8192 in
theorem ops_part3_sub : (ops_part3 : List (HloOp τ sig (Elt F))).Forall fun op => op.bufs ⊆ tcRefs τ sig :=
  ⟨unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., binary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub ..⟩
set_option maxRecDepth 8192 in
theorem ops_part4_sub : (ops_part4 : List (HloOp τ sig (Elt F))).Forall fun op => op.bufs ⊆ tcRefs τ sig :=
  ⟨nullary_bufs_sub .., binary_bufs_sub .., nullary_bufs_sub .., binary_bufs_sub .., nullary_bufs_sub .., binary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h]

/-- The buffers that window `main_part0`'s operations write. -/
abbrev ops_part0_W : List (Ref sig .tc) := [main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_v18, main_v19, main_v20, main_v21, main_c_5, main_v22, main_v23, main_c_6, main_v24, main_v25, main_v26, main_v27, main_v28, main_v29, main_v30, main_cst, main_v31, main_v32, main_v33, main_v34, main_c_7, main_v35, main_v36, main_c_8, main_v37, main_v38, main_v39, main_v40, main_v41, main_v42, main_v43, main_cst_9, main_v44, main_v45, main_v46, main_c_10]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩

/-- The buffers that window `main_part1`'s operations write. -/
abbrev ops_part1_W : List (Ref sig .tc) := [main_v47, main_v48, main_c_11, main_v49, main_v50, main_v51, main_v52, main_v53, main_v54, main_c_12, main_v55, main_v56, main_c_13, main_v57, main_v58, main_v59, main_v60, main_v61, main_v62, main_c_14, main_v63, main_v64, main_c_15, main_v65, main_v66, main_v67, main_v68, main_v69, main_v70, main_v71, main_c_16, main_v72, main_v73, main_c_17, main_v74, main_v75, main_v76, main_v77, main_v78, main_v79, main_v80, main_cst_18, main_v81, main_v82, main_v83, main_v84, main_c_19, main_v85, main_v86, main_c_20, main_v87, main_v88, main_v89, main_v90, main_v91, main_v92, main_v93, main_cst_21, main_v94, main_v95]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩

/-- The buffers that window `main_part2`'s operations write. -/
abbrev ops_part2_W : List (Ref sig .tc) := [main_v96, main_c_22, main_v97, main_v98, main_c_23, main_v99, main_v100, main_v101, main_v102, main_v103, main_v104, main_c_24, main_v105, main_v106, main_c_25, main_v107, main_v108, main_v109, main_v110, main_v111, main_v112, main_c_26, main_v113, main_v114, main_c_27, main_v115, main_v116, main_v117, main_v118, main_v119, main_v120, main_v121, main_c_28, main_v122, main_v123, main_c_29, main_v124, main_v125, main_v126, main_v127, main_v128, main_v129, main_v130, main_cst_30, main_v131, main_v132, main_v133, main_v134, main_c_31, main_v135, main_v136, main_c_32, main_v137, main_v138, main_v139, main_v140, main_v141, main_v142, main_v143, main_cst_33]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩

/-- The buffers that window `main_part3`'s operations write. -/
abbrev ops_part3_W : List (Ref sig .tc) := [main_v144, main_v145, main_v146, main_c_34, main_v147, main_v148, main_c_35, main_v149, main_v150, main_v151, main_v152, main_v153, main_v154, main_c_36, main_v155, main_v156, main_c_37, main_v157, main_v158, main_v159, main_v160, main_v161, main_v162, main_c_38, main_v163, main_v164, main_c_39, main_v165, main_v166, main_v167, main_v168, main_v169, main_v170, main_cst_40, main_v171, main_v172, main_cst_41, main_v173, main_v174, main_cst_42, main_v175, main_v176, main_v177, main_v178, main_cst_43, main_v179, main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v180, main_cst_44, main_v181, main_v182, main_cst_45, main_v183, main_v184, main_cst_46, main_v185, main_v186, main_v187, main_cst_47, main_v188, main_v189]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩

/-- The buffers that window `main_part4`'s operations write. -/
abbrev ops_part4_W : List (Ref sig .tc) := [main_cst_48, main_v190, main_cst_49, main_v191, main_cst_50, main_v192, main_v193, main_v194]
set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩

end Cert.ReferenceIdeal.RefRun

end
-- ==== Proof.RefRunResult.lean ====
/-
  What the reference computes, as a function of its eight arguments, stage by stage: the three rounds of propagation
  over the edge list (each round a weighted gather of one side's table scattered and summed into the other side's
  rows), the rows of every round's table picked at the batch's indices and summed, their quarter, the row-wise inner
  product with the difference, the log-sigmoid of it summed over the batch, and the squared norms of the round-zero
  rows. Every stage is the printed operations applied in the printed order, so the result buffer's contents after
  the run is `result` of the arguments' contents by unfolding.
-/
import proofs.«165248_j20779051778107_2_alg».proof.Proof.Gen.ReferenceIdeal
import Idealize.ShloMosaic.PureOps.Ideal

noncomputable section

namespace Cert.ReferenceIdeal.RefRun

open Cert.ReferenceIdeal Idealize.ShloMosaic
open Cert.ReferenceIdeal.Facts₀ Cert.ReferenceIdeal.Facts

/-! ## Indices brought into range: a negative index has the table's row count added -/

/-- A batch index into the 100000-row table, as a column. -/
def rowU (a : IVec S4096 32) : IVec S4096x1 32 :=
  broadcastInDim S4096x1 ![0] bcast_S4096_S4096x1_0
    (select (cmpi .slt a (broadcastInDim S4096 ![] bcast_S_S4096 (constantI S_ 32 0#32)))
      (addi a (broadcastInDim S4096 ![] bcast_S_S4096 (constantI S_ 32 100000#32))) a)

/-- A batch index into the 200000-row table, as a column. -/
def rowI (a : IVec S4096 32) : IVec S4096x1 32 :=
  broadcastInDim S4096x1 ![0] bcast_S4096_S4096x1_0
    (select (cmpi .slt a (broadcastInDim S4096 ![] bcast_S_S4096 (constantI S_ 32 0#32)))
      (addi a (broadcastInDim S4096 ![] bcast_S_S4096 (constantI S_ 32 200000#32))) a)

/-- An edge's end in the 100000-row table, as a column. -/
def edgeU (a5 : IVec S1000000 32) : IVec S1000000x1 32 :=
  broadcastInDim S1000000x1 ![0] bcast_S1000000_S1000000x1_0
    (select (cmpi .slt a5 (broadcastInDim S1000000 ![] bcast_S_S1000000 (constantI S_ 32 0#32)))
      (addi a5 (broadcastInDim S1000000 ![] bcast_S_S1000000 (constantI S_ 32 100000#32))) a5)

/-- An edge's end in the 200000-row table, as a column. -/
def edgeI (a6 : IVec S1000000 32) : IVec S1000000x1 32 :=
  broadcastInDim S1000000x1 ![0] bcast_S1000000_S1000000x1_0
    (select (cmpi .slt a6 (broadcastInDim S1000000 ![] bcast_S_S1000000 (constantI S_ 32 0#32)))
      (addi a6 (broadcastInDim S1000000 ![] bcast_S_S1000000 (constantI S_ 32 200000#32))) a6)

/-- The edge weights, one row of 64 equal entries per edge. -/
def edgeW (a7 : FVec Ideal S1000000 .f32) : FVec Ideal S1000000x64 .f32 :=
  broadcastInDim S1000000x64 ![0, 1] bcast_S1000000x1_S1000000x64_0_1
    (broadcastInDim S1000000x1 ![0] bcast_S1000000_S1000000x1_0 a7)

/-! ## One round of propagation -/

/-- The 100000-row side from the 200000-row side: each edge's weighted row of `I` summed into row `a5` of zeros. -/
def layerU (I : FVec Ideal S200000x64 .f32) (a5 a6 : IVec S1000000 32) (a7 : FVec Ideal S1000000 .f32) :
    FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 a5)
    (mulf (F := Ideal) (edgeW a7) (Host.gather gather_S200000x64_S1000000x1_S1000000x64_1_0_n_n_0_1_164 I (edgeI a6)))

/-- The 200000-row side from the 100000-row side: each edge's weighted row of `U` summed into row `a6` of zeros. -/
def layerI (U : FVec Ideal S100000x64 .f32) (a5 a6 : IVec S1000000 32) (a7 : FVec Ideal S1000000 .f32) :
    FVec Ideal S200000x64 .f32 :=
  Host.scatterAdd (F := Ideal) scatter_S200000x64_S1000000x1_S1000000x64_1_0_0_1
    (broadcastInDim S200000x64 ![] bcast_S_S200000x64 (constant (F := Ideal) S_ .f32 0x00000000#32))
    (broadcastInDim S1000000x1 ![0] bcast_S1000000_S1000000x1_0 a6)
    (mulf (F := Ideal) (edgeW a7) (Host.gather gather_S100000x64_S1000000x1_S1000000x64_1_0_n_n_0_1_164 U (edgeU a5)))

/-! ## The three rounds (round zero is the argument tables `a3`, `a4` themselves) -/

def U1 (a4 : FVec Ideal S200000x64 .f32) (a5 a6 : IVec S1000000 32) (a7 : FVec Ideal S1000000 .f32) : FVec Ideal S100000x64 .f32 := layerU a4 a5 a6 a7
def I1 (a4 : FVec Ideal S200000x64 .f32) (a5 a6 : IVec S1000000 32) (a7 : FVec Ideal S1000000 .f32) : FVec Ideal S200000x64 .f32 := layerI (U1 a4 a5 a6 a7) a5 a6 a7
def U2 (a4 : FVec Ideal S200000x64 .f32) (a5 a6 : IVec S1000000 32) (a7 : FVec Ideal S1000000 .f32) : FVec Ideal S100000x64 .f32 := layerU (I1 a4 a5 a6 a7) a5 a6 a7
def I2 (a4 : FVec Ideal S200000x64 .f32) (a5 a6 : IVec S1000000 32) (a7 : FVec Ideal S1000000 .f32) : FVec Ideal S200000x64 .f32 := layerI (U2 a4 a5 a6 a7) a5 a6 a7
def U3 (a4 : FVec Ideal S200000x64 .f32) (a5 a6 : IVec S1000000 32) (a7 : FVec Ideal S1000000 .f32) : FVec Ideal S100000x64 .f32 := layerU (I2 a4 a5 a6 a7) a5 a6 a7
def I3 (a4 : FVec Ideal S200000x64 .f32) (a5 a6 : IVec S1000000 32) (a7 : FVec Ideal S1000000 .f32) : FVec Ideal S200000x64 .f32 := layerI (U3 a4 a5 a6 a7) a5 a6 a7

/-! ## The batch's rows -/

/-- The rows of a 100000-row table at the batch's indices. -/
def rowsU (T : FVec Ideal S100000x64 .f32) (a : IVec S4096 32) : FVec Ideal S4096x64 .f32 :=
  Host.gather gather_S100000x64_S4096x1_S4096x64_1_0_n_n_0_1_164 T (rowU a)

/-- The rows of a 200000-row table at the batch's indices. -/
def rowsI (T : FVec Ideal S200000x64 .f32) (a : IVec S4096 32) : FVec Ideal S4096x64 .f32 :=
  Host.gather gather_S200000x64_S4096x1_S4096x64_1_0_n_n_0_1_164 T (rowI a)

/-- The rows at `a0` of the four rounds' 100000-row tables, summed in round order. -/
def sumU (a0 : IVec S4096 32) (a3 : FVec Ideal S100000x64 .f32) (a4 : FVec Ideal S200000x64 .f32) (a5 a6 : IVec S1000000 32) (a7 : FVec Ideal S1000000 .f32) : FVec Ideal S4096x64 .f32 :=
  addf (F := Ideal) (addf (F := Ideal) (addf (F := Ideal) (rowsU a3 a0) (rowsU (U1 a4 a5 a6 a7) a0)) (rowsU (U2 a4 a5 a6 a7) a0)) (rowsU (U3 a4 a5 a6 a7) a0)

/-- The rows at `a` (the positive or the negative indices) of the four rounds' 200000-row tables, summed in round order. -/
def sumI (a : IVec S4096 32) (a4 : FVec Ideal S200000x64 .f32) (a5 a6 : IVec S1000000 32) (a7 : FVec Ideal S1000000 .f32) : FVec Ideal S4096x64 .f32 :=
  addf (F := Ideal) (addf (F := Ideal) (addf (F := Ideal) (rowsI a4 a) (rowsI (I1 a4 a5 a6 a7) a)) (rowsI (I2 a4 a5 a6 a7) a)) (rowsI (I3 a4 a5 a6 a7) a)

/-- A summed array divided by four. -/
def quarter (x : FVec Ideal S4096x64 .f32) : FVec Ideal S4096x64 .f32 :=
  Host.divf (F := Ideal) x (broadcastInDim S4096x64 ![] bcast_S_S4096x64 (constant (F := Ideal) S_ .f32 0x40800000#32))

/-- Per batch entry, the inner product of the averaged `a0` row with the difference of the averaged `a1` and `a2` rows. -/
def o (a0 a1 a2 : IVec S4096 32) (a3 : FVec Ideal S100000x64 .f32) (a4 : FVec Ideal S200000x64 .f32) (a5 a6 : IVec S1000000 32) (a7 : FVec Ideal S1000000 .f32) : FVec Ideal S4096 .f32 :=
  Host.reduceAdd (F := Ideal)
    (mulf (F := Ideal) (quarter (sumU a0 a3 a4 a5 a6 a7)) (subf (F := Ideal) (quarter (sumI a1 a4 a5 a6 a7)) (quarter (sumI a2 a4 a5 a6 a7))))
    (constant (F := Ideal) S_ .f32 0x00000000#32) reducesTo_S4096x64_S4096_d1 h_S_

/-! ## The log-sigmoid, as the two outlined functions compute it -/

/-- The zero vector the softplus compares and adds with. -/
def zero4096 : FVec Ideal S4096 .f32 := broadcastInDim S4096 ![] bcast_S_S4096 (constant (F := Ideal) S_ .f32 0x00000000#32)

/-- The softplus: where `x - 0` differs from itself, `x + 0`; elsewhere `max x 0 + log1p (exp (- |x - 0|))`. -/
def softplus (x : FVec Ideal S4096 .f32) : FVec Ideal S4096 .f32 :=
  select (cmpf (F := Ideal) .une (subf (F := Ideal) x zero4096) (subf (F := Ideal) x zero4096)) (addf (F := Ideal) x zero4096)
    (addf (F := Ideal) (maximumf (F := Ideal) x zero4096)
      (Host.log1p (F := Ideal) (Host.exp (F := Ideal) (Host.negf (F := Ideal) (Host.absf (F := Ideal) (subf (F := Ideal) x zero4096))))))

/-- The log-sigmoid: minus the softplus of minus the argument. -/
def logSigmoid (x : FVec Ideal S4096 .f32) : FVec Ideal S4096 .f32 :=
  Host.negf (F := Ideal) (softplus (Host.negf (F := Ideal) x))

/-- Per batch entry, the log-sigmoid of the inner product. -/
def ls (a0 a1 a2 : IVec S4096 32) (a3 : FVec Ideal S100000x64 .f32) (a4 : FVec Ideal S200000x64 .f32) (a5 a6 : IVec S1000000 32) (a7 : FVec Ideal S1000000 .f32) : FVec Ideal S4096 .f32 := logSigmoid (o a0 a1 a2 a3 a4 a5 a6 a7)

/-- The log-sigmoids summed over the batch. -/
def loss (a0 a1 a2 : IVec S4096 32) (a3 : FVec Ideal S100000x64 .f32) (a4 : FVec Ideal S200000x64 .f32) (a5 a6 : IVec S1000000 32) (a7 : FVec Ideal S1000000 .f32) : FVec Ideal S_ .f32 :=
  Host.reduceAdd (F := Ideal) (ls a0 a1 a2 a3 a4 a5 a6 a7) (constant (F := Ideal) S_ .f32 0x00000000#32) reducesTo_S4096_S_d0 h_S_

/-! ## The squared norms of the round-zero rows -/

def Su (a0 : IVec S4096 32) (a3 : FVec Ideal S100000x64 .f32) : FVec Ideal S_ .f32 :=
  Host.reduceAdd (F := Ideal) (mulf (F := Ideal) (rowsU a3 a0) (rowsU a3 a0)) (constant (F := Ideal) S_ .f32 0x00000000#32) reducesTo_S4096x64_S_d0_1 h_S_
def Sp (a1 : IVec S4096 32) (a4 : FVec Ideal S200000x64 .f32) : FVec Ideal S_ .f32 :=
  Host.reduceAdd (F := Ideal) (mulf (F := Ideal) (rowsI a4 a1) (rowsI a4 a1)) (constant (F := Ideal) S_ .f32 0x00000000#32) reducesTo_S4096x64_S_d0_1 h_S_
def Sn (a2 : IVec S4096 32) (a4 : FVec Ideal S200000x64 .f32) : FVec Ideal S_ .f32 :=
  Host.reduceAdd (F := Ideal) (mulf (F := Ideal) (rowsI a4 a2) (rowsI a4 a2)) (constant (F := Ideal) S_ .f32 0x00000000#32) reducesTo_S4096x64_S_d0_1 h_S_

/-- Half the three squared norms' sum, in the printed association. -/
def reg (a0 a1 a2 : IVec S4096 32) (a3 : FVec Ideal S100000x64 .f32) (a4 : FVec Ideal S200000x64 .f32) : FVec Ideal S_ .f32 :=
  mulf (F := Ideal) (constant (F := Ideal) S_ .f32 0x3F000000#32) (addf (F := Ideal) (addf (F := Ideal) (Su a0 a3) (Sp a1 a4)) (Sn a2 a4))

/-- What the reference's result buffer holds: minus the summed log-sigmoids, plus the constant `0x38D1B717` times
    the regulariser divided by `100000`. -/
def result (a0 a1 a2 : IVec S4096 32) (a3 : FVec Ideal S100000x64 .f32) (a4 : FVec Ideal S200000x64 .f32) (a5 a6 : IVec S1000000 32) (a7 : FVec Ideal S1000000 .f32) : FVec Ideal S_ .f32 :=
  addf (F := Ideal) (Host.negf (F := Ideal) (loss a0 a1 a2 a3 a4 a5 a6 a7))
    (mulf (F := Ideal) (constant (F := Ideal) S_ .f32 0x38D1B717#32)
      (Host.divf (F := Ideal) (reg a0 a1 a2 a3 a4) (constant (F := Ideal) S_ .f32 0x47C35000#32)))

end Cert.ReferenceIdeal.RefRun

end
-- ==== Proof.LibTypedRef.lean ====
/-
  A buffer reference that carries the type of the tensor value it holds moves contents between "the value's type" and
  "the buffer's own type" along the equation between the two. Going one way and then back is the identity, for any
  such reference: the two transports are along an equation and its inverse.
-/
import Idealize.ShloMosaic.Lib.StableHlo

namespace Cert.TypedRef

open Idealize.ShloMosaic Idealize.ShloMosaic.StableHlo

/-- To the buffer's type and back is the identity. -/
theorem ofBuf_toBuf {sig : RefSig} {T : BufTy} {Val : EltTy → Type} (x : TRef sig T) (v : T.Contents Val) :
    x.ofBuf (x.toBuf v) = v := by
  unfold TRef.ofBuf TRef.toBuf
  simp

end Cert.TypedRef
-- ==== Proof.RefRun.lean ====
/-
  The reference's run: from any memory with zero counters every weakly fair execution of @main terminates with the
  result buffer at `result` of the arguments' launch contents and the arguments unchanged. The list of operations is
  folded window by window: after each window, what the buffers a later window reads hold is stated as the named stage
  of the computation it is (a round's table, a partial sum of gathered rows, a scatter's update), a buffer the window
  does not write keeping its contents; the last window's result buffer is then `result`.
-/
import proofs.«165248_j20779051778107_2_alg».proof.Proof.RefRunOps
import proofs.«165248_j20779051778107_2_alg».proof.Proof.RefRunResult
import proofs.«165248_j20779051778107_2_alg».proof.Proof.LibTypedRef
import Idealize.ShloMosaic.Lib.Pipeline.Frame

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

/-- The device's buffer contents before @main's first window. -/
def val0 (V0 : Valuation τ sig (Elt Ideal)) : Valuation τ sig (Elt Ideal) := V0
theorem val0_main_arg0 (V0 : Valuation τ sig (Elt Ideal)) : val0 V0 (no_index (Proc.devRef .tc main_arg0)) = V0 (Proc.devRef .tc main_arg0) := rfl
theorem val0_main_arg1 (V0 : Valuation τ sig (Elt Ideal)) : val0 V0 (no_index (Proc.devRef .tc main_arg1)) = V0 (Proc.devRef .tc main_arg1) := rfl
theorem val0_main_arg2 (V0 : Valuation τ sig (Elt Ideal)) : val0 V0 (no_index (Proc.devRef .tc main_arg2)) = V0 (Proc.devRef .tc main_arg2) := rfl
theorem val0_main_arg3 (V0 : Valuation τ sig (Elt Ideal)) : val0 V0 (no_index (Proc.devRef .tc main_arg3)) = V0 (Proc.devRef .tc main_arg3) := rfl
theorem val0_main_arg4 (V0 : Valuation τ sig (Elt Ideal)) : val0 V0 (no_index (Proc.devRef .tc main_arg4)) = V0 (Proc.devRef .tc main_arg4) := rfl
theorem val0_main_arg5 (V0 : Valuation τ sig (Elt Ideal)) : val0 V0 (no_index (Proc.devRef .tc main_arg5)) = V0 (Proc.devRef .tc main_arg5) := rfl
theorem val0_main_arg6 (V0 : Valuation τ sig (Elt Ideal)) : val0 V0 (no_index (Proc.devRef .tc main_arg6)) = V0 (Proc.devRef .tc main_arg6) := rfl
theorem val0_main_arg7 (V0 : Valuation τ sig (Elt Ideal)) : val0 V0 (no_index (Proc.devRef .tc main_arg7)) = V0 (Proc.devRef .tc main_arg7) := rfl

/-- The device's buffer contents after @main's first 1 window. -/
def val1 (V0 : Valuation τ sig (Elt Ideal)) : Valuation τ sig (Elt Ideal) := after (ops_part0 (F := Ideal)) (val0 V0)
/-- A buffer that window `main_part0` does not write keeps its contents through it. -/
theorem val1_keep (V0 : Valuation τ sig (Elt Ideal)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt Ideal)) : val1 V0 (no_index (Proc.devRef .tc main_arg0)) = V0 (Proc.devRef .tc main_arg0) :=
  (val1_keep V0 main_arg0 (by decide)).trans (val0_main_arg0 V0)
theorem val1_main_arg1 (V0 : Valuation τ sig (Elt Ideal)) : val1 V0 (no_index (Proc.devRef .tc main_arg1)) = V0 (Proc.devRef .tc main_arg1) :=
  (val1_keep V0 main_arg1 (by decide)).trans (val0_main_arg1 V0)
theorem val1_main_arg2 (V0 : Valuation τ sig (Elt Ideal)) : val1 V0 (no_index (Proc.devRef .tc main_arg2)) = V0 (Proc.devRef .tc main_arg2) :=
  (val1_keep V0 main_arg2 (by decide)).trans (val0_main_arg2 V0)
theorem val1_main_arg3 (V0 : Valuation τ sig (Elt Ideal)) : val1 V0 (no_index (Proc.devRef .tc main_arg3)) = V0 (Proc.devRef .tc main_arg3) :=
  (val1_keep V0 main_arg3 (by decide)).trans (val0_main_arg3 V0)
theorem val1_main_arg4 (V0 : Valuation τ sig (Elt Ideal)) : val1 V0 (no_index (Proc.devRef .tc main_arg4)) = V0 (Proc.devRef .tc main_arg4) :=
  (val1_keep V0 main_arg4 (by decide)).trans (val0_main_arg4 V0)
theorem val1_main_arg5 (V0 : Valuation τ sig (Elt Ideal)) : val1 V0 (no_index (Proc.devRef .tc main_arg5)) = V0 (Proc.devRef .tc main_arg5) :=
  (val1_keep V0 main_arg5 (by decide)).trans (val0_main_arg5 V0)
theorem val1_main_arg6 (V0 : Valuation τ sig (Elt Ideal)) : val1 V0 (no_index (Proc.devRef .tc main_arg6)) = V0 (Proc.devRef .tc main_arg6) :=
  (val1_keep V0 main_arg6 (by decide)).trans (val0_main_arg6 V0)
theorem val1_main_arg7 (V0 : Valuation τ sig (Elt Ideal)) : val1 V0 (no_index (Proc.devRef .tc main_arg7)) = V0 (Proc.devRef .tc main_arg7) :=
  (val1_keep V0 main_arg7 (by decide)).trans (val0_main_arg7 V0)
set_option maxRecDepth 8192 in
set_option maxHeartbeats 4000000 in
theorem val1_main_c_10 (V0 : Valuation τ sig (Elt Ideal)) : val1 V0 (no_index (Proc.devRef .tc main_c_10)) = constantI S_ 32 0#32 := by
  unfold val1
  simp only [ops_part0]
  after_results_simp
  all_goals try simp only [val0_main_arg0, val0_main_arg1, val0_main_arg2, val0_main_arg3, val0_main_arg4, val0_main_arg5, val0_main_arg6, val0_main_arg7]
  all_goals rfl
set_option maxRecDepth 8192 in
set_option maxHeartbeats 4000000 in
theorem val1_main_v6 (V0 : Valuation τ sig (Elt Ideal)) : val1 V0 (no_index (Proc.devRef .tc main_v6)) = (rowsU (V0 (Proc.devRef .tc main_arg3)) (V0 (Proc.devRef .tc main_arg0))) := by
  unfold val1
  simp only [ops_part0]
  after_results_simp
  all_goals try simp only [val0_main_arg0, val0_main_arg1, val0_main_arg2, val0_main_arg3, val0_main_arg4, val0_main_arg5, val0_main_arg6, val0_main_arg7]
  all_goals rfl
set_option maxRecDepth 8192 in
set_option maxHeartbeats 4000000 in
theorem val1_main_v13 (V0 : Valuation τ sig (Elt Ideal)) : val1 V0 (no_index (Proc.devRef .tc main_v13)) = (rowsI (V0 (Proc.devRef .tc main_arg4)) (V0 (Proc.devRef .tc main_arg1))) := by
  unfold val1
  simp only [ops_part0]
  after_results_simp
  all_goals try simp only [val0_main_arg0, val0_main_arg1, val0_main_arg2, val0_main_arg3, val0_main_arg4, val0_main_arg5, val0_main_arg6, val0_main_arg7]
  all_goals rfl
set_option maxRecDepth 8192 in
set_option maxHeartbeats 4000000 in
theorem val1_main_v20 (V0 : Valuation τ sig (Elt Ideal)) : val1 V0 (no_index (Proc.devRef .tc main_v20)) = (rowsI (V0 (Proc.devRef .tc main_arg4)) (V0 (Proc.devRef .tc main_arg2))) := by
  unfold val1
  simp only [ops_part0]
  after_results_simp
  all_goals try simp only [val0_main_arg0, val0_main_arg1, val0_main_arg2, val0_main_arg3, val0_main_arg4, val0_main_arg5, val0_main_arg6, val0_main_arg7]
  all_goals rfl
set_option maxRecDepth 8192 in
set_option maxHeartbeats 4000000 in
theorem val1_main_v33 (V0 : Valuation τ sig (Elt Ideal)) : val1 V0 (no_index (Proc.devRef .tc main_v33)) = (U1 (V0 (Proc.devRef .tc main_arg4)) (V0 (Proc.devRef .tc main_arg5)) (V0 (Proc.devRef .tc main_arg6)) (V0 (Proc.devRef .tc main_arg7))) := by
  unfold val1
  simp only [ops_part0]
  after_results_simp
  all_goals try simp only [val0_main_arg0, val0_main_arg1, val0_main_arg2, val0_main_arg3, val0_main_arg4, val0_main_arg5, val0_main_arg6, val0_main_arg7]
  all_goals rfl
set_option maxRecDepth 8192 in
set_option maxHeartbeats 4000000 in
theorem val1_main_v46 (V0 : Valuation τ sig (Elt Ideal)) : val1 V0 (no_index (Proc.devRef .tc main_v46)) = (I1 (V0 (Proc.devRef .tc main_arg4)) (V0 (Proc.devRef .tc main_arg5)) (V0 (Proc.devRef .tc main_arg6)) (V0 (Proc.devRef .tc main_arg7))) := by
  unfold val1
  simp only [ops_part0]
  after_results_simp
  all_goals try simp only [val0_main_arg0, val0_main_arg1, val0_main_arg2, val0_main_arg3, val0_main_arg4, val0_main_arg5, val0_main_arg6, val0_main_arg7]
  all_goals rfl

/-- The device's buffer contents after @main's first 2 windows. -/
def val2 (V0 : Valuation τ sig (Elt Ideal)) : Valuation τ sig (Elt Ideal) := after (ops_part1 (F := Ideal)) (val1 V0)
/-- A buffer that window `main_part1` does not write keeps its contents through it. -/
theorem val2_keep (V0 : Valuation τ sig (Elt Ideal)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt Ideal)) : val2 V0 (no_index (Proc.devRef .tc main_arg0)) = V0 (Proc.devRef .tc main_arg0) :=
  (val2_keep V0 main_arg0 (by decide)).trans (val1_main_arg0 V0)
theorem val2_main_arg1 (V0 : Valuation τ sig (Elt Ideal)) : val2 V0 (no_index (Proc.devRef .tc main_arg1)) = V0 (Proc.devRef .tc main_arg1) :=
  (val2_keep V0 main_arg1 (by decide)).trans (val1_main_arg1 V0)
theorem val2_main_arg2 (V0 : Valuation τ sig (Elt Ideal)) : val2 V0 (no_index (Proc.devRef .tc main_arg2)) = V0 (Proc.devRef .tc main_arg2) :=
  (val2_keep V0 main_arg2 (by decide)).trans (val1_main_arg2 V0)
theorem val2_main_arg3 (V0 : Valuation τ sig (Elt Ideal)) : val2 V0 (no_index (Proc.devRef .tc main_arg3)) = V0 (Proc.devRef .tc main_arg3) :=
  (val2_keep V0 main_arg3 (by decide)).trans (val1_main_arg3 V0)
theorem val2_main_arg4 (V0 : Valuation τ sig (Elt Ideal)) : val2 V0 (no_index (Proc.devRef .tc main_arg4)) = V0 (Proc.devRef .tc main_arg4) :=
  (val2_keep V0 main_arg4 (by decide)).trans (val1_main_arg4 V0)
theorem val2_main_arg5 (V0 : Valuation τ sig (Elt Ideal)) : val2 V0 (no_index (Proc.devRef .tc main_arg5)) = V0 (Proc.devRef .tc main_arg5) :=
  (val2_keep V0 main_arg5 (by decide)).trans (val1_main_arg5 V0)
theorem val2_main_arg6 (V0 : Valuation τ sig (Elt Ideal)) : val2 V0 (no_index (Proc.devRef .tc main_arg6)) = V0 (Proc.devRef .tc main_arg6) :=
  (val2_keep V0 main_arg6 (by decide)).trans (val1_main_arg6 V0)
theorem val2_main_arg7 (V0 : Valuation τ sig (Elt Ideal)) : val2 V0 (no_index (Proc.devRef .tc main_arg7)) = V0 (Proc.devRef .tc main_arg7) :=
  (val2_keep V0 main_arg7 (by decide)).trans (val1_main_arg7 V0)
theorem val2_main_v6 (V0 : Valuation τ sig (Elt Ideal)) : val2 V0 (no_index (Proc.devRef .tc main_v6)) = (rowsU (V0 (Proc.devRef .tc main_arg3)) (V0 (Proc.devRef .tc main_arg0))) :=
  (val2_keep V0 main_v6 (by decide)).trans (val1_main_v6 V0)
theorem val2_main_v13 (V0 : Valuation τ sig (Elt Ideal)) : val2 V0 (no_index (Proc.devRef .tc main_v13)) = (rowsI (V0 (Proc.devRef .tc main_arg4)) (V0 (Proc.devRef .tc main_arg1))) :=
  (val2_keep V0 main_v13 (by decide)).trans (val1_main_v13 V0)
theorem val2_main_v20 (V0 : Valuation τ sig (Elt Ideal)) : val2 V0 (no_index (Proc.devRef .tc main_v20)) = (rowsI (V0 (Proc.devRef .tc main_arg4)) (V0 (Proc.devRef .tc main_arg2))) :=
  (val2_keep V0 main_v20 (by decide)).trans (val1_main_v20 V0)
set_option maxRecDepth 8192 in
set_option maxHeartbeats 4000000 in
theorem val2_main_v54 (V0 : Valuation τ sig (Elt Ideal)) : val2 V0 (no_index (Proc.devRef .tc main_v54)) = (addf (F := Ideal) (rowsU (V0 (Proc.devRef .tc main_arg3)) (V0 (Proc.devRef .tc main_arg0))) (rowsU (U1 (V0 (Proc.devRef .tc main_arg4)) (V0 (Proc.devRef .tc main_arg5)) (V0 (Proc.devRef .tc main_arg6)) (V0 (Proc.devRef .tc main_arg7))) (V0 (Proc.devRef .tc main_arg0)))) := by
  unfold val2
  simp only [ops_part1]
  after_results_simp
  all_goals try simp only [val1_main_arg0, val1_main_arg1, val1_main_arg2, val1_main_arg3, val1_main_arg4, val1_main_arg5, val1_main_arg6, val1_main_arg7, val1_main_c_10, val1_main_v6, val1_main_v13, val1_main_v20, val1_main_v33, val1_main_v46]
  all_goals rfl
set_option maxRecDepth 8192 in
set_option maxHeartbeats 4000000 in
theorem val2_main_v62 (V0 : Valuation τ sig (Elt Ideal)) : val2 V0 (no_index (Proc.devRef .tc main_v62)) = (addf (F := Ideal) (rowsI (V0 (Proc.devRef .tc main_arg4)) (V0 (Proc.devRef .tc main_arg1))) (rowsI (I1 (V0 (Proc.devRef .tc main_arg4)) (V0 (Proc.devRef .tc main_arg5)) (V0 (Proc.devRef .tc main_arg6)) (V0 (Proc.devRef .tc main_arg7))) (V0 (Proc.devRef .tc main_arg1)))) := by
  unfold val2
  simp only [ops_part1]
  after_results_simp
  all_goals try simp only [val1_main_arg0, val1_main_arg1, val1_main_arg2, val1_main_arg3, val1_main_arg4, val1_main_arg5, val1_main_arg6, val1_main_arg7, val1_main_c_10, val1_main_v6, val1_main_v13, val1_main_v20, val1_main_v33, val1_main_v46]
  all_goals rfl
set_option maxRecDepth 8192 in
set_option maxHeartbeats 4000000 in
theorem val2_main_v70 (V0 : Valuation τ sig (Elt Ideal)) : val2 V0 (no_index (Proc.devRef .tc main_v70)) = (addf (F := Ideal) (rowsI (V0 (Proc.devRef .tc main_arg4)) (V0 (Proc.devRef .tc main_arg2))) (rowsI (I1 (V0 (Proc.devRef .tc main_arg4)) (V0 (Proc.devRef .tc main_arg5)) (V0 (Proc.devRef .tc main_arg6)) (V0 (Proc.devRef .tc main_arg7))) (V0 (Proc.devRef .tc main_arg2)))) := by
  unfold val2
  simp only [ops_part1]
  after_results_simp
  all_goals try simp only [val1_main_arg0, val1_main_arg1, val1_main_arg2, val1_main_arg3, val1_main_arg4, val1_main_arg5, val1_main_arg6, val1_main_arg7, val1_main_c_10, val1_main_v6, val1_main_v13, val1_main_v20, val1_main_v33, val1_main_v46]
  all_goals rfl
set_option maxRecDepth 8192 in
set_option maxHeartbeats 4000000 in
theorem val2_main_v83 (V0 : Valuation τ sig (Elt Ideal)) : val2 V0 (no_index (Proc.devRef .tc main_v83)) = (U2 (V0 (Proc.devRef .tc main_arg4)) (V0 (Proc.devRef .tc main_arg5)) (V0 (Proc.devRef .tc main_arg6)) (V0 (Proc.devRef .tc main_arg7))) := by
  unfold val2
  simp only [ops_part1]
  after_results_simp
  all_goals try simp only [val1_main_arg0, val1_main_arg1, val1_main_arg2, val1_main_arg3, val1_main_arg4, val1_main_arg5, val1_main_arg6, val1_main_arg7, val1_main_c_10, val1_main_v6, val1_main_v13, val1_main_v20, val1_main_v33, val1_main_v46]
  all_goals rfl
set_option maxRecDepth 8192 in
set_option maxHeartbeats 4000000 in
theorem val2_main_v93 (V0 : Valuation τ sig (Elt Ideal)) : val2 V0 (no_index (Proc.devRef .tc main_v93)) = (mulf (F := Ideal) (edgeW (V0 (Proc.devRef .tc main_arg7))) (Host.gather gather_S100000x64_S1000000x1_S1000000x64_1_0_n_n_0_1_164 (U2 (V0 (Proc.devRef .tc main_arg4)) (V0 (Proc.devRef .tc main_arg5)) (V0 (Proc.devRef .tc main_arg6)) (V0 (Proc.devRef .tc main_arg7))) (edgeU (V0 (Proc.devRef .tc main_arg5))))) := by
  unfold val2
  simp only [ops_part1]
  after_results_simp
  all_goals try simp only [val1_main_arg0, val1_main_arg1, val1_main_arg2, val1_main_arg3, val1_main_arg4, val1_main_arg5, val1_main_arg6, val1_main_arg7, val1_main_c_10, val1_main_v6, val1_main_v13, val1_main_v20, val1_main_v33, val1_main_v46]
  all_goals rfl
set_option maxRecDepth 8192 in
set_option maxHeartbeats 4000000 in
theorem val2_main_v94 (V0 : Valuation τ sig (Elt Ideal)) : val2 V0 (no_index (Proc.devRef .tc main_v94)) = (broadcastInDim S200000x64 ![] bcast_S_S200000x64 (constant (F := Ideal) S_ .f32 0x00000000#32)) := by
  unfold val2
  simp only [ops_part1]
  after_results_simp
  all_goals try simp only [val1_main_arg0, val1_main_arg1, val1_main_arg2, val1_main_arg3, val1_main_arg4, val1_main_arg5, val1_main_arg6, val1_main_arg7, val1_main_c_10, val1_main_v6, val1_main_v13, val1_main_v20, val1_main_v33, val1_main_v46]
  all_goals rfl
set_option maxRecDepth 8192 in
set_option maxHeartbeats 4000000 in
theorem val2_main_v95 (V0 : Valuation τ sig (Elt Ideal)) : val2 V0 (no_index (Proc.devRef .tc main_v95)) = (broadcastInDim S1000000x1 ![0] bcast_S1000000_S1000000x1_0 (V0 (Proc.devRef .tc main_arg6))) := by
  unfold val2
  simp only [ops_part1]
  after_results_simp
  all_goals try simp only [val1_main_arg0, val1_main_arg1, val1_main_arg2, val1_main_arg3, val1_main_arg4, val1_main_arg5, val1_main_arg6, val1_main_arg7, val1_main_c_10, val1_main_v6, val1_main_v13, val1_main_v20, val1_main_v33, val1_main_v46]
  all_goals rfl

/-- The device's buffer contents after @main's first 3 windows. -/
def val3 (V0 : Valuation τ sig (Elt Ideal)) : Valuation τ sig (Elt Ideal) := after (ops_part2 (F := Ideal)) (val2 V0)
/-- A buffer that window `main_part2` does not write keeps its contents through it. -/
theorem val3_keep (V0 : Valuation τ sig (Elt Ideal)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt Ideal)) : val3 V0 (no_index (Proc.devRef .tc main_arg0)) = V0 (Proc.devRef .tc main_arg0) :=
  (val3_keep V0 main_arg0 (by decide)).trans (val2_main_arg0 V0)
theorem val3_main_arg1 (V0 : Valuation τ sig (Elt Ideal)) : val3 V0 (no_index (Proc.devRef .tc main_arg1)) = V0 (Proc.devRef .tc main_arg1) :=
  (val3_keep V0 main_arg1 (by decide)).trans (val2_main_arg1 V0)
theorem val3_main_arg2 (V0 : Valuation τ sig (Elt Ideal)) : val3 V0 (no_index (Proc.devRef .tc main_arg2)) = V0 (Proc.devRef .tc main_arg2) :=
  (val3_keep V0 main_arg2 (by decide)).trans (val2_main_arg2 V0)
theorem val3_main_arg3 (V0 : Valuation τ sig (Elt Ideal)) : val3 V0 (no_index (Proc.devRef .tc main_arg3)) = V0 (Proc.devRef .tc main_arg3) :=
  (val3_keep V0 main_arg3 (by decide)).trans (val2_main_arg3 V0)
theorem val3_main_arg4 (V0 : Valuation τ sig (Elt Ideal)) : val3 V0 (no_index (Proc.devRef .tc main_arg4)) = V0 (Proc.devRef .tc main_arg4) :=
  (val3_keep V0 main_arg4 (by decide)).trans (val2_main_arg4 V0)
theorem val3_main_arg5 (V0 : Valuation τ sig (Elt Ideal)) : val3 V0 (no_index (Proc.devRef .tc main_arg5)) = V0 (Proc.devRef .tc main_arg5) :=
  (val3_keep V0 main_arg5 (by decide)).trans (val2_main_arg5 V0)
theorem val3_main_arg6 (V0 : Valuation τ sig (Elt Ideal)) : val3 V0 (no_index (Proc.devRef .tc main_arg6)) = V0 (Proc.devRef .tc main_arg6) :=
  (val3_keep V0 main_arg6 (by decide)).trans (val2_main_arg6 V0)
theorem val3_main_arg7 (V0 : Valuation τ sig (Elt Ideal)) : val3 V0 (no_index (Proc.devRef .tc main_arg7)) = V0 (Proc.devRef .tc main_arg7) :=
  (val3_keep V0 main_arg7 (by decide)).trans (val2_main_arg7 V0)
theorem val3_main_v6 (V0 : Valuation τ sig (Elt Ideal)) : val3 V0 (no_index (Proc.devRef .tc main_v6)) = (rowsU (V0 (Proc.devRef .tc main_arg3)) (V0 (Proc.devRef .tc main_arg0))) :=
  (val3_keep V0 main_v6 (by decide)).trans (val2_main_v6 V0)
theorem val3_main_v13 (V0 : Valuation τ sig (Elt Ideal)) : val3 V0 (no_index (Proc.devRef .tc main_v13)) = (rowsI (V0 (Proc.devRef .tc main_arg4)) (V0 (Proc.devRef .tc main_arg1))) :=
  (val3_keep V0 main_v13 (by decide)).trans (val2_main_v13 V0)
theorem val3_main_v20 (V0 : Valuation τ sig (Elt Ideal)) : val3 V0 (no_index (Proc.devRef .tc main_v20)) = (rowsI (V0 (Proc.devRef .tc main_arg4)) (V0 (Proc.devRef .tc main_arg2))) :=
  (val3_keep V0 main_v20 (by decide)).trans (val2_main_v20 V0)
set_option maxRecDepth 8192 in
set_option maxHeartbeats 4000000 in
theorem val3_main_v104 (V0 : Valuation τ sig (Elt Ideal)) : val3 V0 (no_index (Proc.devRef .tc main_v104)) = (addf (F := Ideal) (addf (F := Ideal) (rowsU (V0 (Proc.devRef .tc main_arg3)) (V0 (Proc.devRef .tc main_arg0))) (rowsU (U1 (V0 (Proc.devRef .tc main_arg4)) (V0 (Proc.devRef .tc main_arg5)) (V0 (Proc.devRef .tc main_arg6)) (V0 (Proc.devRef .tc main_arg7))) (V0 (Proc.devRef .tc main_arg0)))) (rowsU (U2 (V0 (Proc.devRef .tc main_arg4)) (V0 (Proc.devRef .tc main_arg5)) (V0 (Proc.devRef .tc main_arg6)) (V0 (Proc.devRef .tc main_arg7))) (V0 (Proc.devRef .tc main_arg0)))) := by
  unfold val3
  simp only [ops_part2]
  after_results_simp
  all_goals try simp only [val2_main_arg0, val2_main_arg1, val2_main_arg2, val2_main_arg3, val2_main_arg4, val2_main_arg5, val2_main_arg6, val2_main_arg7, val2_main_v54, val2_main_v62, val2_main_v70, val2_main_v83, val2_main_v93, val2_main_v94, val2_main_v95, val2_main_v6, val2_main_v13, val2_main_v20]
  all_goals rfl
set_option maxRecDepth 8192 in
set_option maxHeartbeats 4000000 in
theorem val3_main_v112 (V0 : Valuation τ sig (Elt Ideal)) : val3 V0 (no_index (Proc.devRef .tc main_v112)) = (addf (F := Ideal) (addf (F := Ideal) (rowsI (V0 (Proc.devRef .tc main_arg4)) (V0 (Proc.devRef .tc main_arg1))) (rowsI (I1 (V0 (Proc.devRef .tc main_arg4)) (V0 (Proc.devRef .tc main_arg5)) (V0 (Proc.devRef .tc main_arg6)) (V0 (Proc.devRef .tc main_arg7))) (V0 (Proc.devRef .tc main_arg1)))) (rowsI (I2 (V0 (Proc.devRef .tc main_arg4)) (V0 (Proc.devRef .tc main_arg5)) (V0 (Proc.devRef .tc main_arg6)) (V0 (Proc.devRef .tc main_arg7))) (V0 (Proc.devRef .tc main_arg1)))) := by
  unfold val3
  simp only [ops_part2]
  after_results_simp
  all_goals try simp only [val2_main_arg0, val2_main_arg1, val2_main_arg2, val2_main_arg3, val2_main_arg4, val2_main_arg5, val2_main_arg6, val2_main_arg7, val2_main_v54, val2_main_v62, val2_main_v70, val2_main_v83, val2_main_v93, val2_main_v94, val2_main_v95, val2_main_v6, val2_main_v13, val2_main_v20]
  all_goals rfl
set_option maxRecDepth 8192 in
set_option maxHeartbeats 4000000 in
theorem val3_main_v120 (V0 : Valuation τ sig (Elt Ideal)) : val3 V0 (no_index (Proc.devRef .tc main_v120)) = (addf (F := Ideal) (addf (F := Ideal) (rowsI (V0 (Proc.devRef .tc main_arg4)) (V0 (Proc.devRef .tc main_arg2))) (rowsI (I1 (V0 (Proc.devRef .tc main_arg4)) (V0 (Proc.devRef .tc main_arg5)) (V0 (Proc.devRef .tc main_arg6)) (V0 (Proc.devRef .tc main_arg7))) (V0 (Proc.devRef .tc main_arg2)))) (rowsI (I2 (V0 (Proc.devRef .tc main_arg4)) (V0 (Proc.devRef .tc main_arg5)) (V0 (Proc.devRef .tc main_arg6)) (V0 (Proc.devRef .tc main_arg7))) (V0 (Proc.devRef .tc main_arg2)))) := by
  unfold val3
  simp only [ops_part2]
  after_results_simp
  all_goals try simp only [val2_main_arg0, val2_main_arg1, val2_main_arg2, val2_main_arg3, val2_main_arg4, val2_main_arg5, val2_main_arg6, val2_main_arg7, val2_main_v54, val2_main_v62, val2_main_v70, val2_main_v83, val2_main_v93, val2_main_v94, val2_main_v95, val2_main_v6, val2_main_v13, val2_main_v20]
  all_goals rfl
set_option maxRecDepth 8192 in
set_option maxHeartbeats 4000000 in
theorem val3_main_v133 (V0 : Valuation τ sig (Elt Ideal)) : val3 V0 (no_index (Proc.devRef .tc main_v133)) = (U3 (V0 (Proc.devRef .tc main_arg4)) (V0 (Proc.devRef .tc main_arg5)) (V0 (Proc.devRef .tc main_arg6)) (V0 (Proc.devRef .tc main_arg7))) := by
  unfold val3
  simp only [ops_part2]
  after_results_simp
  all_goals try simp only [val2_main_arg0, val2_main_arg1, val2_main_arg2, val2_main_arg3, val2_main_arg4, val2_main_arg5, val2_main_arg6, val2_main_arg7, val2_main_v54, val2_main_v62, val2_main_v70, val2_main_v83, val2_main_v93, val2_main_v94, val2_main_v95, val2_main_v6, val2_main_v13, val2_main_v20]
  all_goals rfl
set_option maxRecDepth 8192 in
set_option maxHeartbeats 4000000 in
theorem val3_main_v143 (V0 : Valuation τ sig (Elt Ideal)) : val3 V0 (no_index (Proc.devRef .tc main_v143)) = (mulf (F := Ideal) (edgeW (V0 (Proc.devRef .tc main_arg7))) (Host.gather gather_S100000x64_S1000000x1_S1000000x64_1_0_n_n_0_1_164 (U3 (V0 (Proc.devRef .tc main_arg4)) (V0 (Proc.devRef .tc main_arg5)) (V0 (Proc.devRef .tc main_arg6)) (V0 (Proc.devRef .tc main_arg7))) (edgeU (V0 (Proc.devRef .tc main_arg5))))) := by
  unfold val3
  simp only [ops_part2]
  after_results_simp
  all_goals try simp only [val2_main_arg0, val2_main_arg1, val2_main_arg2, val2_main_arg3, val2_main_arg4, val2_main_arg5, val2_main_arg6, val2_main_arg7, val2_main_v54, val2_main_v62, val2_main_v70, val2_main_v83, val2_main_v93, val2_main_v94, val2_main_v95, val2_main_v6, val2_main_v13, val2_main_v20]
  all_goals rfl
set_option maxRecDepth 8192 in
set_option maxHeartbeats 4000000 in
theorem val3_main_cst_33 (V0 : Valuation τ sig (Elt Ideal)) : val3 V0 (no_index (Proc.devRef .tc main_cst_33)) = constant (F := Ideal) S_ .f32 0x00000000#32 := by
  unfold val3
  simp only [ops_part2]
  after_results_simp
  all_goals try simp only [val2_main_arg0, val2_main_arg1, val2_main_arg2, val2_main_arg3, val2_main_arg4, val2_main_arg5, val2_main_arg6, val2_main_arg7, val2_main_v54, val2_main_v62, val2_main_v70, val2_main_v83, val2_main_v93, val2_main_v94, val2_main_v95, val2_main_v6, val2_main_v13, val2_main_v20]
  all_goals rfl

/-- The device's buffer contents after @main's first 4 windows. -/
def val4 (V0 : Valuation τ sig (Elt Ideal)) : Valuation τ sig (Elt Ideal) := after (ops_part3 (F := Ideal)) (val3 V0)
/-- A buffer that window `main_part3` does not write keeps its contents through it. -/
theorem val4_keep (V0 : Valuation τ sig (Elt Ideal)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt Ideal)) : val4 V0 (no_index (Proc.devRef .tc main_arg0)) = V0 (Proc.devRef .tc main_arg0) :=
  (val4_keep V0 main_arg0 (by decide)).trans (val3_main_arg0 V0)
theorem val4_main_arg1 (V0 : Valuation τ sig (Elt Ideal)) : val4 V0 (no_index (Proc.devRef .tc main_arg1)) = V0 (Proc.devRef .tc main_arg1) :=
  (val4_keep V0 main_arg1 (by decide)).trans (val3_main_arg1 V0)
theorem val4_main_arg2 (V0 : Valuation τ sig (Elt Ideal)) : val4 V0 (no_index (Proc.devRef .tc main_arg2)) = V0 (Proc.devRef .tc main_arg2) :=
  (val4_keep V0 main_arg2 (by decide)).trans (val3_main_arg2 V0)
theorem val4_main_arg3 (V0 : Valuation τ sig (Elt Ideal)) : val4 V0 (no_index (Proc.devRef .tc main_arg3)) = V0 (Proc.devRef .tc main_arg3) :=
  (val4_keep V0 main_arg3 (by decide)).trans (val3_main_arg3 V0)
theorem val4_main_arg4 (V0 : Valuation τ sig (Elt Ideal)) : val4 V0 (no_index (Proc.devRef .tc main_arg4)) = V0 (Proc.devRef .tc main_arg4) :=
  (val4_keep V0 main_arg4 (by decide)).trans (val3_main_arg4 V0)
theorem val4_main_arg5 (V0 : Valuation τ sig (Elt Ideal)) : val4 V0 (no_index (Proc.devRef .tc main_arg5)) = V0 (Proc.devRef .tc main_arg5) :=
  (val4_keep V0 main_arg5 (by decide)).trans (val3_main_arg5 V0)
theorem val4_main_arg6 (V0 : Valuation τ sig (Elt Ideal)) : val4 V0 (no_index (Proc.devRef .tc main_arg6)) = V0 (Proc.devRef .tc main_arg6) :=
  (val4_keep V0 main_arg6 (by decide)).trans (val3_main_arg6 V0)
theorem val4_main_arg7 (V0 : Valuation τ sig (Elt Ideal)) : val4 V0 (no_index (Proc.devRef .tc main_arg7)) = V0 (Proc.devRef .tc main_arg7) :=
  (val4_keep V0 main_arg7 (by decide)).trans (val3_main_arg7 V0)
set_option maxRecDepth 8192 in
set_option maxHeartbeats 4000000 in
theorem val4_main_v181 (V0 : Valuation τ sig (Elt Ideal)) : val4 V0 (no_index (Proc.devRef .tc main_v181)) = loss (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val4
  simp only [ops_part3]
  after_results_simp
  all_goals try simp only [val3_main_arg0, val3_main_arg1, val3_main_arg2, val3_main_arg3, val3_main_arg4, val3_main_arg5, val3_main_arg6, val3_main_arg7, val3_main_v104, val3_main_v112, val3_main_v120, val3_main_v133, val3_main_v143, val3_main_cst_33, val3_main_v6, val3_main_v13, val3_main_v20, Cert.TypedRef.ofBuf_toBuf]
  all_goals rfl
set_option maxRecDepth 8192 in
set_option maxHeartbeats 4000000 in
theorem val4_main_v189 (V0 : Valuation τ sig (Elt Ideal)) : val4 V0 (no_index (Proc.devRef .tc main_v189)) = (addf (F := Ideal) (addf (F := Ideal) (Su (V0 (Proc.devRef .tc main_arg0)) (V0 (Proc.devRef .tc main_arg3))) (Sp (V0 (Proc.devRef .tc main_arg1)) (V0 (Proc.devRef .tc main_arg4)))) (Sn (V0 (Proc.devRef .tc main_arg2)) (V0 (Proc.devRef .tc main_arg4)))) := by
  unfold val4
  simp only [ops_part3]
  after_results_simp
  all_goals try simp only [val3_main_arg0, val3_main_arg1, val3_main_arg2, val3_main_arg3, val3_main_arg4, val3_main_arg5, val3_main_arg6, val3_main_arg7, val3_main_v104, val3_main_v112, val3_main_v120, val3_main_v133, val3_main_v143, val3_main_cst_33, val3_main_v6, val3_main_v13, val3_main_v20, Cert.TypedRef.ofBuf_toBuf]
  all_goals rfl

/-- The device's buffer contents after @main's first 5 windows. -/
def val5 (V0 : Valuation τ sig (Elt Ideal)) : Valuation τ sig (Elt Ideal) := after (ops_part4 (F := Ideal)) (val4 V0)
/-- A buffer that window `main_part4` does not write keeps its contents through it. -/
theorem val5_keep (V0 : Valuation τ sig (Elt Ideal)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt Ideal)) : val5 V0 (no_index (Proc.devRef .tc main_arg0)) = V0 (Proc.devRef .tc main_arg0) :=
  (val5_keep V0 main_arg0 (by decide)).trans (val4_main_arg0 V0)
theorem val5_main_arg1 (V0 : Valuation τ sig (Elt Ideal)) : val5 V0 (no_index (Proc.devRef .tc main_arg1)) = V0 (Proc.devRef .tc main_arg1) :=
  (val5_keep V0 main_arg1 (by decide)).trans (val4_main_arg1 V0)
theorem val5_main_arg2 (V0 : Valuation τ sig (Elt Ideal)) : val5 V0 (no_index (Proc.devRef .tc main_arg2)) = V0 (Proc.devRef .tc main_arg2) :=
  (val5_keep V0 main_arg2 (by decide)).trans (val4_main_arg2 V0)
theorem val5_main_arg3 (V0 : Valuation τ sig (Elt Ideal)) : val5 V0 (no_index (Proc.devRef .tc main_arg3)) = V0 (Proc.devRef .tc main_arg3) :=
  (val5_keep V0 main_arg3 (by decide)).trans (val4_main_arg3 V0)
theorem val5_main_arg4 (V0 : Valuation τ sig (Elt Ideal)) : val5 V0 (no_index (Proc.devRef .tc main_arg4)) = V0 (Proc.devRef .tc main_arg4) :=
  (val5_keep V0 main_arg4 (by decide)).trans (val4_main_arg4 V0)
theorem val5_main_arg5 (V0 : Valuation τ sig (Elt Ideal)) : val5 V0 (no_index (Proc.devRef .tc main_arg5)) = V0 (Proc.devRef .tc main_arg5) :=
  (val5_keep V0 main_arg5 (by decide)).trans (val4_main_arg5 V0)
theorem val5_main_arg6 (V0 : Valuation τ sig (Elt Ideal)) : val5 V0 (no_index (Proc.devRef .tc main_arg6)) = V0 (Proc.devRef .tc main_arg6) :=
  (val5_keep V0 main_arg6 (by decide)).trans (val4_main_arg6 V0)
theorem val5_main_arg7 (V0 : Valuation τ sig (Elt Ideal)) : val5 V0 (no_index (Proc.devRef .tc main_arg7)) = V0 (Proc.devRef .tc main_arg7) :=
  (val5_keep V0 main_arg7 (by decide)).trans (val4_main_arg7 V0)
set_option maxRecDepth 8192 in
set_option maxHeartbeats 4000000 in
theorem val5_main_v194 (V0 : Valuation τ sig (Elt Ideal)) : val5 V0 (no_index (Proc.devRef .tc main_v194)) = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val5
  simp only [ops_part4]
  after_results_simp
  all_goals try simp only [val4_main_arg0, val4_main_arg1, val4_main_arg2, val4_main_arg3, val4_main_arg4, val4_main_arg5, val4_main_arg6, val4_main_arg7, val4_main_v181, val4_main_v189]
  all_goals rfl

theorem after_ops (V0 : Valuation τ sig (Elt Ideal)) : after (ops (F := Ideal)) V0 = val5 V0 := by
  simp only [ops, after_append]
  rfl

set_option maxRecDepth 8192 in
/-- On every device, from any memory with zero counters: every weakly fair execution of @main terminates with the
    result buffer at `result` of the arguments' contents at launch, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v194) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v194).trans (by simp only [after_ops]; exact val5_main_v194 (launchContents m c)),
      (h c main_arg0).trans (by simp only [after_ops]; exact val5_main_arg0 (launchContents m c)),
      (h c main_arg1).trans (by simp only [after_ops]; exact val5_main_arg1 (launchContents m c)),
      (h c main_arg2).trans (by simp only [after_ops]; exact val5_main_arg2 (launchContents m c)),
      (h c main_arg3).trans (by simp only [after_ops]; exact val5_main_arg3 (launchContents m c)),
      (h c main_arg4).trans (by simp only [after_ops]; exact val5_main_arg4 (launchContents m c)),
      (h c main_arg5).trans (by simp only [after_ops]; exact val5_main_arg5 (launchContents m c)),
      (h c main_arg6).trans (by simp only [after_ops]; exact val5_main_arg6 (launchContents m c)),
      (h c main_arg7).trans (by simp only [after_ops]; exact val5_main_arg7 (launchContents m c))⟩)
    (run_seq scopedRefs_eq scopedSems_eq defs main (fun _ => ops) main_eq (fun _ => ops_sub) m ρ)

end Cert.ReferenceIdeal.RefRun

end
-- ==== Proof.LibRealEdgeSums.lean ====
/-
  The two rearrangements behind a normalised graph convolution, over the extended reals.

  Nodes `v`, edges `e`; every edge has a source row `s e`; `In v` is the set of edges arriving at `v`, and `g e` names
  the arrival node again (`g e = v` for `e ∈ In v`). With a per-node weight `d`:

  * scaling the rows before summing over the arriving edges, scaling the sum by `d v` and THEN multiplying by a matrix
    `W` gives the same as multiplying each source row by `W` first and weighting each edge by `d (s e) * d (g e)`;
  * summing rows already weighted by `d (s e)` and scaling the sum by `d v` gives the same as weighting each edge by
    `d (s e) * d (g e)`.

  Both are distributivity and an exchange of two finite sums. On the extended reals distributivity fails at infinities,
  so the laws are stated for entries that are real numbers and proved in ℝ; the closure lemmas `IsReal.*` carry "is a
  real number" through sums, products and maxima.
-/
import Idealize.ShloMosaic.PureOps.Ideal.Laws
import Mathlib.Algebra.BigOperators.Group.Finset.Sigma
import Mathlib.Tactic.Ring

open scoped BigOperators

namespace Cert.GcnAlgebra

/-- An extended real that is a real number. -/
def IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨r, rfl⟩ := ha; obtain ⟨t, rfl⟩ := hb; exact ⟨r + t, (EReal.coe_add r t).symm⟩
theorem IsReal.mul {a b : EReal} (ha : IsReal a) (hb : IsReal b) : IsReal (a * b) := by
  obtain ⟨r, rfl⟩ := ha; obtain ⟨t, rfl⟩ := hb; exact ⟨r * t, (EReal.coe_mul r t).symm⟩
theorem IsReal.max {a b : EReal} (ha : IsReal a) (hb : IsReal b) : IsReal (max a b) := by
  obtain ⟨r, rfl⟩ := ha; obtain ⟨t, rfl⟩ := hb; exact ⟨Max.max r t, (EReal.coe_strictMono.monotone.map_max).symm⟩

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem IsReal.sum {ι : Type*} (S : Finset ι) (f : ι → EReal) (h : ∀ i ∈ S, IsReal (f i)) : IsReal (∑ i ∈ S, f i) := by
  classical
  induction S using Finset.induction_on with
  | empty => simpa using IsReal.zero
  | insert a S ha ih =>
    rw [Finset.sum_insert ha]
    exact (h a (Finset.mem_insert_self a S)).add (ih fun i hi => h i (Finset.mem_insert_of_mem hi))

section Laws
variable {N E A B : ℕ} (s g : Fin E → Fin N) (In : Fin N → Finset (Fin E))
  (hg : ∀ v, ∀ e ∈ In v, g e = v) (d : Fin N → EReal) (hd : ∀ v, IsReal (d v))

include hg hd

/-- AGGREGATE THEN TRANSFORM is TRANSFORM THEN AGGREGATE: for real entries, the pre-scaled rows summed over the
    arriving edges, scaled by `d v` and multiplied by `W`, are the edge sum of the transformed source rows weighted by
    `d (s e) * d (g e)`. -/
theorem aggregate_then_transform (x : Fin N → Fin A → EReal) (hx : ∀ v f, IsReal (x v f))
    (W : Fin A → Fin B → EReal) (hW : ∀ f j, IsReal (W f j)) (v : Fin N) (j : Fin B) :
    ∑ f, ((∑ e ∈ In v, x (s e) f * d (s e)) * d v) * W f j
      = ∑ e ∈ In v, (∑ f, x (s e) f * W f j) * (d (s e) * d (g e)) := by
  choose xr hxr using hx
  choose Wr hWr using hW
  choose dr hdr using hd
  have hR : (∑ f, ((∑ e ∈ In v, xr (s e) f * dr (s e)) * dr v) * Wr f j : ℝ)
      = ∑ e ∈ In v, (∑ f, xr (s e) f * Wr f j) * (dr (s e) * dr v) := by
    simp only [Finset.sum_mul]
    rw [Finset.sum_comm]
    refine Finset.sum_congr rfl fun e _ => Finset.sum_congr rfl fun f _ => ?_
    ring
  have hL : ∑ f, ((∑ e ∈ In v, x (s e) f * d (s e)) * d v) * W f j
      = ((∑ f, ((∑ e ∈ In v, xr (s e) f * dr (s e)) * dr v) * Wr f j : ℝ) : EReal) := by
    simp only [hxr, hWr, hdr, coe_sum, EReal.coe_mul]
  have hRR : ∑ e ∈ In v, (∑ f, x (s e) f * W f j) * (d (s e) * d (g e))
      = ((∑ e ∈ In v, (∑ f, xr (s e) f * Wr f j) * (dr (s e) * dr v) : ℝ) : EReal) := by
    rw [coe_sum]
    refine Finset.sum_congr rfl fun e he => ?_
    rw [hg v e he]
    simp only [hxr, hWr, hdr, coe_sum, EReal.coe_mul]
  rw [hL, hRR, hR]

/-- SCALE AFTER THE SUM is WEIGHT EACH EDGE: for real entries, rows weighted by `d (s e)`, summed over the arriving
    edges and scaled by `d v`, are the edge sum weighted by `d (s e) * d (g e)`. -/
theorem scale_after_sum (T : Fin N → EReal) (hT : ∀ u, IsReal (T u)) (v : Fin N) :
    (∑ e ∈ In v, T (s e) * d (s e)) * d v = ∑ e ∈ In v, T (s e) * (d (s e) * d (g e)) := by
  choose Tr hTr using hT
  choose dr hdr using hd
  have hR : ((∑ e ∈ In v, Tr (s e) * dr (s e)) * dr v : ℝ) = ∑ e ∈ In v, Tr (s e) * (dr (s e) * dr v) := by
    rw [Finset.sum_mul]
    exact Finset.sum_congr rfl fun e _ => by ring
  have hL : (∑ e ∈ In v, T (s e) * d (s e)) * d v = (((∑ e ∈ In v, Tr (s e) * dr (s e)) * dr v : ℝ) : EReal) := by
    simp only [hTr, hdr, coe_sum, EReal.coe_mul]
  have hRR : ∑ e ∈ In v, T (s e) * (d (s e) * d (g e)) = ((∑ e ∈ In v, Tr (s e) * (dr (s e) * dr v) : ℝ) : EReal) := by
    rw [coe_sum]
    refine Finset.sum_congr rfl fun e he => ?_
    rw [hg v e he]
    simp only [hTr, hdr, EReal.coe_mul]
  rw [hL, hRR, hR]

end Laws

end Cert.GcnAlgebra
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.LibFiniteEntries.lean ====
/-
  "Every entry is finite", read back from its printed test, for an array of any shape.

  A finiteness precondition tests each entry by |a| < +∞ — the absolute value the host's max (a, -a), plus infinity the
  word 0x7F800000 repeated over the shape — and reduces the tests by `and` to one bit. When that bit is one every test is
  one; and on the extended reals |a| < +∞ says a is neither infinity, so a is a real number (`IsReal`).
-/
import proofs.«165248_j20779051778107_2_alg».proof.Proof.LibRealEdgeSums
import proofs.«165248_j20779051778107_2_alg».proof.Proof.LibBroadcastInDim
import Idealize.ShloMosaic.Lib.ReduceAll
import Idealize.ShloMosaic.Lib.ValueIdx
import Idealize.ShloMosaic.PureOps.Ideal.Laws

noncomputable section

namespace Cert.FiniteEntries

open Idealize.ShloMosaic Idealize.ShloMosaic.ValueIdx Cert.GcnAlgebra

/-- The word 0x7F800000 is plus infinity. -/
theorem inf_word : Ideal.ofBits .f32 0x7F800000#32 = ⊤ := by simp [Ideal.ofBits, Ideal.ieee]

/-- An extended real whose absolute value compares below plus infinity is a real number. -/
theorem isReal_of_lt_inf (x : EReal) (h : Ideal.cmp .olt (max x (-x)) (Ideal.ofBits .f32 0x7F800000#32) = 1#1) : IsReal x := by
  rw [inf_word] at h
  have hlt : max x (-x) < ⊤ := by
    by_contra hc
    have h0 : Ideal.cmp .olt (max x (-x)) ⊤ = 0#1 := by
      unfold Ideal.cmp
      simp [hc]
    rw [h0] at h
    exact absurd h (by decide)
  obtain ⟨h1, h2⟩ := max_lt_iff.mp hlt
  induction x using EReal.rec with
  | bot => exact absurd h2 (by simp)
  | top => exact absurd h1 (lt_irrefl _)
  | coe r => exact ⟨r, rfl⟩

instance : Subsingleton (⟨0, ![]⟩ : Shape).Idx := ⟨fun a b => funext fun d => d.elim0⟩

/-- One argument: when the all-reduction of its "absolute value below plus infinity" tests is one, every entry is real. -/
theorem all_real {S : Shape} (a : FVec Ideal S .f32) (hb : (⟨0, ![]⟩ : Shape).BroadcastsInDim S ![])
    {axes : List (Fin S.rank)} (hr : S.ReducesTo axes ⟨0, ![]⟩) (hu : 0 < (⟨0, ![]⟩ : Shape).numel)
    (h : Host.reduce IntOp.andi
        (cmpf .olt (Host.absf a) (broadcastInDim S ![] hb (constant (F := Ideal) ⟨0, ![]⟩ .f32 0x7F800000#32)))
        (constantI ⟨0, ![]⟩ 1 1#1) hr hu ix0 = 1#1) (i : S.Idx) : IsReal (a i) := by
  have hi := Host.reduce_andi_all _ _ hr hu ix0 h i
  have hB : broadcastInDim S ![] hb (constant (F := Ideal) ⟨0, ![]⟩ .f32 0x7F800000#32) i
      = Ideal.ofBits .f32 0x7F800000#32 := Cert.BroadcastInDim.scalar_apply _ hb i
  have hi' : Ideal.cmp .olt (max (a i) (-(a i)))
      (broadcastInDim S ![] hb (constant (F := Ideal) ⟨0, ![]⟩ .f32 0x7F800000#32) i) = 1#1 := hi
  rw [hB] at hi'
  exact isReal_of_lt_inf _ hi'

end Cert.FiniteEntries

end
-- ==== Proof.PreDecode.lean ====
/-
  The precondition read back.

  The precondition is one bit: the conjunction of six all-reductions by "and". Three say that every entry of a float
  array has absolute value below plus infinity, so is a real number; three say that every word of an index table lies in
  [0, N) read signed, so is below N read unsigned. A table whose words are below the row count of the array a window
  reads names, at every grid point, a row block inside that array: the side condition of the pipeline at those tables.
-/
import proofs.«165248_j20779051778107_2_alg».proof.Proof.Gen.Pre_finite_inputs
import proofs.«165248_j20779051778107_2_alg».proof.Proof.Gen.KernelIdeal
import proofs.«165248_j20779051778107_2_alg».proof.Proof.Gen.Kernel
import proofs.«165248_j20779051778107_2_alg».proof.Proof.LibFiniteEntries
import Idealize.ShloMosaic.Lib.ReduceAll
import Idealize.ShloMosaic.Lib.Affine

noncomputable section

namespace Cert.PreDecode

open Idealize.ShloMosaic Idealize.ShloMosaic.ValueIdx Cert.GcnAlgebra
open Cert.Pre_finite_inputs Cert.Pre_finite_inputs.Facts

/-- The elementwise "and" of two bit arrays, at an index. -/
theorem andi_apply {s : Shape} {w : Nat} (x y : IVec s w) (i : s.Idx) : andi x y i = IntOp.andi (x i) (y i) := rfl

/-- A word in [0, n) read signed is below n read unsigned. -/
theorem toNat_lt (w : BitVec 32) (n : Nat) (hn : n < 2 ^ 31) (h0 : IntOp.cmpi .sge w (0#32) = 1#1)
    (h1 : IntOp.cmpi .slt w (BitVec.ofNat 32 n) = 1#1) : w.toNat < n := by
  rw [IntOp.cmpi_sge, show (0#32 : BitVec 32).toInt = 0 from by decide] at h0
  rw [IntOp.cmpi_slt] at h1
  have hw : 2 * w.toNat < 2 ^ 32 := BitVec.toInt_pos_iff.mp h0
  have hnN : (BitVec.ofNat 32 n).toNat = n := by rw [BitVec.toNat_ofNat]; omega
  rw [BitVec.toInt_eq_toNat_of_lt hw, BitVec.toInt_eq_toNat_of_lt (by omega), hnN] at h1
  omega

/-- One table: when the all-reduction of its "0 ≤ word and word < n" tests is one, every word is below n unsigned. -/
theorem range_of_all (n : Nat) (hn : n < 2 ^ 31) (a : IVec S4096 32)
    (h : Host.reduce IntOp.andi
        (andi (cmpi .sge a (broadcastInDim S4096 ![] bcast_S_S4096 (constantI S_ 32 0#32)))
          (cmpi .slt a (broadcastInDim S4096 ![] bcast_S_S4096 (constantI S_ 32 (BitVec.ofNat 32 n)))))
        (constantI S_ 1 1#1) reducesTo_S4096_S_d0 h_S_ ix0 = 1#1) (i : S4096.Idx) : (a i).toNat < n := by
  have hi := Host.reduce_andi_all _ _ reducesTo_S4096_S_d0 h_S_ ix0 h i
  rw [andi_apply, IntOp.andi_eq_one] at hi
  obtain ⟨h0, h1⟩ := hi
  have hB0 : broadcastInDim S4096 ![] bcast_S_S4096 (constantI S_ 32 0#32) i = 0#32 :=
    Cert.BroadcastInDim.scalar_apply _ bcast_S_S4096 i
  have hB1 : broadcastInDim S4096 ![] bcast_S_S4096 (constantI S_ 32 (BitVec.ofNat 32 n)) i = BitVec.ofNat 32 n :=
    Cert.BroadcastInDim.scalar_apply _ bcast_S_S4096 i
  have h0' : IntOp.cmpi .sge (a i) (broadcastInDim S4096 ![] bcast_S_S4096 (constantI S_ 32 0#32) i) = 1#1 := h0
  have h1' : IntOp.cmpi .slt (a i) (broadcastInDim S4096 ![] bcast_S_S4096 (constantI S_ 32 (BitVec.ofNat 32 n)) i) = 1#1 := h1
  rw [hB0] at h0'
  rw [hB1] at h1'
  exact toNat_lt _ n hn h0' h1'

/-- The precondition's six conjuncts, each still an all-reduction. -/
theorem split {F : FTy → Type} [FloatOps F] (a0 a1 a2 : IVec S4096 32) (a3 : FVec F S100000x64 .f32)
    (a4 : FVec F S200000x64 .f32) (a5 a6 : IVec S1000000 32) (a7 : FVec F S1000000 .f32)
    (h : fn (F := F) a0 a1 a2 a3 a4 a5 a6 a7 = fun _ => 1#1) :
    (((((Host.reduce IntOp.andi (cmpf .olt (Host.absf a3) (broadcastInDim S100000x64 ![] bcast_S_S100000x64 (constant (F := F) S_ .f32 0x7F800000#32)))
            (constantI S_ 1 1#1) reducesTo_S100000x64_S_d0_1 h_S_ ix0 = 1#1
        ∧ Host.reduce IntOp.andi (cmpf .olt (Host.absf a4) (broadcastInDim S200000x64 ![] bcast_S_S200000x64 (constant (F := F) S_ .f32 0x7F800000#32)))
            (constantI S_ 1 1#1) reducesTo_S200000x64_S_d0_1 h_S_ ix0 = 1#1)
        ∧ Host.reduce IntOp.andi (cmpf .olt (Host.absf a7) (broadcastInDim S1000000 ![] bcast_S_S1000000 (constant (F := F) S_ .f32 0x7F800000#32)))
            (constantI S_ 1 1#1) reducesTo_S1000000_S_d0 h_S_ ix0 = 1#1)
        ∧ Host.reduce IntOp.andi
            (andi (cmpi .sge a0 (broadcastInDim S4096 ![] bcast_S_S4096 (constantI S_ 32 0#32)))
              (cmpi .slt a0 (broadcastInDim S4096 ![] bcast_S_S4096 (constantI S_ 32 100000#32))))
            (constantI S_ 1 1#1) reducesTo_S4096_S_d0 h_S_ ix0 = 1#1)
        ∧ Host.reduce IntOp.andi
            (andi (cmpi .sge a1 (broadcastInDim S4096 ![] bcast_S_S4096 (constantI S_ 32 0#32)))
              (cmpi .slt a1 (broadcastInDim S4096 ![] bcast_S_S4096 (constantI S_ 32 200000#32))))
            (constantI S_ 1 1#1) reducesTo_S4096_S_d0 h_S_ ix0 = 1#1)
        ∧ Host.reduce IntOp.andi
            (andi (cmpi .sge a2 (broadcastInDim S4096 ![] bcast_S_S4096 (constantI S_ 32 0#32)))
              (cmpi .slt a2 (broadcastInDim S4096 ![] bcast_S_S4096 (constantI S_ 32 200000#32))))
            (constantI S_ 1 1#1) reducesTo_S4096_S_d0 h_S_ ix0 = 1#1) := by
  have e := congrFun h ix0
  dsimp only [fn, fn_part1, fn_part2] at e
  simp only [andi_apply, IntOp.andi_eq_one] at e
  exact e

/-- THE INDEX TABLES IN RANGE: every word of the first table is below 100000, of the other two below 200000. -/
theorem idx_ranges {F : FTy → Type} [FloatOps F] (a0 a1 a2 : IVec S4096 32) (a3 : FVec F S100000x64 .f32)
    (a4 : FVec F S200000x64 .f32) (a5 a6 : IVec S1000000 32) (a7 : FVec F S1000000 .f32)
    (h : fn (F := F) a0 a1 a2 a3 a4 a5 a6 a7 = fun _ => 1#1) :
    (∀ i : S4096.Idx, (a0 i).toNat < 100000) ∧ (∀ i : S4096.Idx, (a1 i).toNat < 200000) ∧ (∀ i : S4096.Idx, (a2 i).toNat < 200000) := by
  obtain ⟨⟨⟨-, h0⟩, h1⟩, h2⟩ := split a0 a1 a2 a3 a4 a5 a6 a7 h
  exact ⟨range_of_all 100000 (by decide) a0 h0, range_of_all 200000 (by decide) a1 h1, range_of_all 200000 (by decide) a2 h2⟩

/-- THE FLOAT ARRAYS FINITE: every entry of the two tables and of the edge values is a real number. -/
theorem all_finite (a0 a1 a2 : IVec S4096 32) (a3 : FVec Ideal S100000x64 .f32)
    (a4 : FVec Ideal S200000x64 .f32) (a5 a6 : IVec S1000000 32) (a7 : FVec Ideal S1000000 .f32)
    (h : fn (F := Ideal) a0 a1 a2 a3 a4 a5 a6 a7 = fun _ => 1#1) :
    (∀ i, IsReal (a3 i)) ∧ (∀ i, IsReal (a4 i)) ∧ (∀ i, IsReal (a7 i)) := by
  obtain ⟨⟨⟨⟨⟨h3, h4⟩, h7⟩, -⟩, -⟩, -⟩ := split a0 a1 a2 a3 a4 a5 a6 a7 h
  exact ⟨Cert.FiniteEntries.all_real a3 bcast_S_S100000x64 reducesTo_S100000x64_S_d0_1 h_S_ h3,
    Cert.FiniteEntries.all_real a4 bcast_S_S200000x64 reducesTo_S200000x64_S_d0_1 h_S_ h4,
    Cert.FiniteEntries.all_real a7 bcast_S_S1000000 reducesTo_S1000000_S_d0 h_S_ h7⟩

/-! ## The pipeline's side condition at tables in range -/

section Tables

open Cert.KernelIdeal Cert.KernelIdeal.Facts₀ Idealize.SL.Sem

variable {F : FTy → Type} [FloatOps F] [Named F]

/-- THE SIDE CONDITION: when every word of table 0 is below 100000 and every word of tables 1 and 2 below 200000, each
    of the three row windows has, at every grid point, its one-row block inside its array (the row the table names is a
    row of the array; the block is the whole row), and the element type is a word wide. -/
theorem ok0_of_ranges (pf : Cert.KernelIdeal.pre0.Contents (Elt F))
    (h0 : ∀ i : Cert.KernelIdeal.S4096.Idx, (pf 0 i : BitVec 32).toNat < 100000)
    (h1 : ∀ i : Cert.KernelIdeal.S4096.Idx, (pf 1 i : BitVec 32).toNat < 200000)
    (h2 : ∀ i : Cert.KernelIdeal.S4096.Idx, (pf 2 i : BitVec 32).toNat < 200000) : Cert.KernelIdeal.ok0 pf := by
  refine ⟨fun i => ?_, fun i => ?_, fun i => ?_⟩
  · obtain ⟨w, hw, e⟩ : ∃ w : BitVec 32, w.toNat < 100000 ∧ cc0_transform_0 k0_off1_inb numel1_S1 pf i = ![w.toNat, 0, 0] :=
      ⟨_, h0 _, rfl⟩
    refine ⟨fun a => ?_, Or.inl rfl⟩
    rw [e]
    fin_cases a <;> simp [S1x1x256, S100000x1x256] <;> omega
  · obtain ⟨w, hw, e⟩ : ∃ w : BitVec 32, w.toNat < 200000 ∧ cc0_transform_1 k0_off1_inb numel1_S1 pf i = ![w.toNat, 0, 0] :=
      ⟨_, h1 _, rfl⟩
    refine ⟨fun a => ?_, Or.inl rfl⟩
    rw [e]
    fin_cases a <;> simp [S1x1x256, S200000x1x256] <;> omega
  · obtain ⟨w, hw, e⟩ : ∃ w : BitVec 32, w.toNat < 200000 ∧ cc0_transform_2 k0_off1_inb numel1_S1 pf i = ![w.toNat, 0, 0] :=
      ⟨_, h2 _, rfl⟩
    refine ⟨fun a => ?_, Or.inl rfl⟩
    rw [e]
    fin_cases a <;> simp [S1x1x256, S200000x1x256] <;> omega

variable (m : (ℓ : Loc nD τ sig) → Buf (Elt F) ℓ)

/-- The tables' contents in a memory: what device 0, the one device, holds in the three table buffers. -/
def tbl : Cert.KernelIdeal.pre0.Contents (Elt F) := fun k => m (((0 : Dev nD).tc : Thread nD τ).loc (pre0.ref k))

/-- On every device the tables hold those contents (there is one device). -/
theorem tbl_pf (c : Dev nD) (k : Fin 3) : m ((c.tc : Thread nD τ).loc (pre0.ref k)) = tbl m k := by
  obtain rfl : c = 0 := Subsingleton.elim _ _; rfl

/-- The tables of a memory whose words are in range, as admissible contents of the pipeline. -/
def adm_of (h0 : ∀ i : Cert.KernelIdeal.S4096.Idx, (m (((0 : Dev nD).tc : Thread nD τ).loc main_arg0) i : BitVec 32).toNat < 100000)
    (h1 : ∀ i : Cert.KernelIdeal.S4096.Idx, (m (((0 : Dev nD).tc : Thread nD τ).loc main_arg1) i : BitVec 32).toNat < 200000)
    (h2 : ∀ i : Cert.KernelIdeal.S4096.Idx, (m (((0 : Dev nD).tc : Thread nD τ).loc main_arg2) i : BitVec 32).toNat < 200000) :
    (pcfg0 (F := F)).Adm := ⟨tbl m, ok0_of_ranges (tbl m) h0 h1 h2⟩

/-- Its contents are the memory's tables, on every device. -/
theorem adm_of_pf (h0 : ∀ i : Cert.KernelIdeal.S4096.Idx, (m (((0 : Dev nD).tc : Thread nD τ).loc main_arg0) i : BitVec 32).toNat < 100000)
    (h1 : ∀ i : Cert.KernelIdeal.S4096.Idx, (m (((0 : Dev nD).tc : Thread nD τ).loc main_arg1) i : BitVec 32).toNat < 200000)
    (h2 : ∀ i : Cert.KernelIdeal.S4096.Idx, (m (((0 : Dev nD).tc : Thread nD τ).loc main_arg2) i : BitVec 32).toNat < 200000)
    (c : Dev nD) (k : Fin 3) : m ((c.tc : Thread nD τ).loc (pre0.ref k)) = (adm_of m h0 h1 h2).1 k := tbl_pf m c k

/-- The three ranges of a memory's tables, from the precondition at that memory (device 0, the one device). -/
theorem ranges_of_pre
    (h : fn (F := F)
        (m (((0 : Dev nD).tc : Thread nD τ).loc main_arg0)) (m (((0 : Dev nD).tc : Thread nD τ).loc main_arg1))
        (m (((0 : Dev nD).tc : Thread nD τ).loc main_arg2)) (m (((0 : Dev nD).tc : Thread nD τ).loc main_arg3))
        (m (((0 : Dev nD).tc : Thread nD τ).loc main_arg4)) (m (((0 : Dev nD).tc : Thread nD τ).loc main_arg5))
        (m (((0 : Dev nD).tc : Thread nD τ).loc main_arg6)) (m (((0 : Dev nD).tc : Thread nD τ).loc main_arg7))
      = fun _ => 1#1) :
    (∀ i : Cert.KernelIdeal.S4096.Idx, (m (((0 : Dev nD).tc : Thread nD τ).loc main_arg0) i : BitVec 32).toNat < 100000)
    ∧ (∀ i : Cert.KernelIdeal.S4096.Idx, (m (((0 : Dev nD).tc : Thread nD τ).loc main_arg1) i : BitVec 32).toNat < 200000)
    ∧ (∀ i : Cert.KernelIdeal.S4096.Idx, (m (((0 : Dev nD).tc : Thread nD τ).loc main_arg2) i : BitVec 32).toNat < 200000) :=
  idx_ranges _ _ _ _ _ _ _ _ h

end Tables

/-! ## The same at the program as printed -/

namespace Bits

open Cert.Kernel Cert.Kernel.Facts₀ Idealize.SL.Sem

variable {F : FTy → Type} [FloatOps F]

/-- THE SIDE CONDITION: when every word of table 0 is below 100000 and every word of tables 1 and 2 below 200000, each
    of the three row windows has, at every grid point, its one-row block inside its array (the row the table names is a
    row of the array; the block is the whole row), and the element type is a word wide. -/
theorem ok0_of_ranges (pf : Cert.Kernel.pre0.Contents (Elt F))
    (h0 : ∀ i : Cert.Kernel.S4096.Idx, (pf 0 i : BitVec 32).toNat < 100000)
    (h1 : ∀ i : Cert.Kernel.S4096.Idx, (pf 1 i : BitVec 32).toNat < 200000)
    (h2 : ∀ i : Cert.Kernel.S4096.Idx, (pf 2 i : BitVec 32).toNat < 200000) : Cert.Kernel.ok0 pf := by
  refine ⟨fun i => ?_, fun i => ?_, fun i => ?_⟩
  · obtain ⟨w, hw, e⟩ : ∃ w : BitVec 32, w.toNat < 100000 ∧ cc0_transform_0 k0_off1_inb numel1_S1 pf i = ![w.toNat, 0, 0] :=
      ⟨_, h0 _, rfl⟩
    refine ⟨fun a => ?_, Or.inl rfl⟩
    rw [e]
    fin_cases a <;> simp [S1x1x256, S100000x1x256] <;> omega
  · obtain ⟨w, hw, e⟩ : ∃ w : BitVec 32, w.toNat < 200000 ∧ cc0_transform_1 k0_off1_inb numel1_S1 pf i = ![w.toNat, 0, 0] :=
      ⟨_, h1 _, rfl⟩
    refine ⟨fun a => ?_, Or.inl rfl⟩
    rw [e]
    fin_cases a <;> simp [S1x1x256, S200000x1x256] <;> omega
  · obtain ⟨w, hw, e⟩ : ∃ w : BitVec 32, w.toNat < 200000 ∧ cc0_transform_2 k0_off1_inb numel1_S1 pf i = ![w.toNat, 0, 0] :=
      ⟨_, h2 _, rfl⟩
    refine ⟨fun a => ?_, Or.inl rfl⟩
    rw [e]
    fin_cases a <;> simp [S1x1x256, S200000x1x256] <;> omega

variable (m : (ℓ : Loc nD τ sig) → Buf (Elt F) ℓ)

/-- The tables' contents in a memory: what device 0, the one device, holds in the three table buffers. -/
def tbl : Cert.Kernel.pre0.Contents (Elt F) := fun k => m (((0 : Dev nD).tc : Thread nD τ).loc (pre0.ref k))

/-- On every device the tables hold those contents (there is one device). -/
theorem tbl_pf (c : Dev nD) (k : Fin 3) : m ((c.tc : Thread nD τ).loc (pre0.ref k)) = tbl m k := by
  obtain rfl : c = 0 := Subsingleton.elim _ _; rfl

/-- The tables of a memory whose words are in range, as admissible contents of the pipeline. -/
def adm_of (h0 : ∀ i : Cert.Kernel.S4096.Idx, (m (((0 : Dev nD).tc : Thread nD τ).loc main_arg0) i : BitVec 32).toNat < 100000)
    (h1 : ∀ i : Cert.Kernel.S4096.Idx, (m (((0 : Dev nD).tc : Thread nD τ).loc main_arg1) i : BitVec 32).toNat < 200000)
    (h2 : ∀ i : Cert.Kernel.S4096.Idx, (m (((0 : Dev nD).tc : Thread nD τ).loc main_arg2) i : BitVec 32).toNat < 200000) :
    (pcfg0 (F := F)).Adm := ⟨tbl m, ok0_of_ranges (tbl m) h0 h1 h2⟩

/-- Its contents are the memory's tables, on every device. -/
theorem adm_of_pf (h0 : ∀ i : Cert.Kernel.S4096.Idx, (m (((0 : Dev nD).tc : Thread nD τ).loc main_arg0) i : BitVec 32).toNat < 100000)
    (h1 : ∀ i : Cert.Kernel.S4096.Idx, (m (((0 : Dev nD).tc : Thread nD τ).loc main_arg1) i : BitVec 32).toNat < 200000)
    (h2 : ∀ i : Cert.Kernel.S4096.Idx, (m (((0 : Dev nD).tc : Thread nD τ).loc main_arg2) i : BitVec 32).toNat < 200000)
    (c : Dev nD) (k : Fin 3) : m ((c.tc : Thread nD τ).loc (pre0.ref k)) = (adm_of m h0 h1 h2).1 k := tbl_pf m c k

/-- The three ranges of a memory's tables, from the precondition at that memory (device 0, the one device). -/
theorem ranges_of_pre
    (h : fn (F := F)
        (m (((0 : Dev nD).tc : Thread nD τ).loc main_arg0)) (m (((0 : Dev nD).tc : Thread nD τ).loc main_arg1))
        (m (((0 : Dev nD).tc : Thread nD τ).loc main_arg2)) (m (((0 : Dev nD).tc : Thread nD τ).loc main_arg3))
        (m (((0 : Dev nD).tc : Thread nD τ).loc main_arg4)) (m (((0 : Dev nD).tc : Thread nD τ).loc main_arg5))
        (m (((0 : Dev nD).tc : Thread nD τ).loc main_arg6)) (m (((0 : Dev nD).tc : Thread nD τ).loc main_arg7))
      = fun _ => 1#1) :
    (∀ i : Cert.Kernel.S4096.Idx, (m (((0 : Dev nD).tc : Thread nD τ).loc main_arg0) i : BitVec 32).toNat < 100000)
    ∧ (∀ i : Cert.Kernel.S4096.Idx, (m (((0 : Dev nD).tc : Thread nD τ).loc main_arg1) i : BitVec 32).toNat < 200000)
    ∧ (∀ i : Cert.Kernel.S4096.Idx, (m (((0 : Dev nD).tc : Thread nD τ).loc main_arg2) i : BitVec 32).toNat < 200000) :=
  idx_ranges _ _ _ _ _ _ _ _ h

end Bits

end Cert.PreDecode

end
-- ==== Proof.KHost.lean ====
/-
  What the kernel's two stacked arrays hold when the region is entered. The host operations before the region build
  three rounds of propagation over the edges — into the user table, a scatter-add at each edge's user index of the edge
  weight times the item row the edge reads; into the item table, the same with the roles exchanged, reading the user
  layer just built —, join each table with its three propagated layers along the columns (four blocks of 64 lanes) and
  give the result a unit middle axis. Here: the layers as the operations' own composed terms, the two stacked arrays
  as those terms, and a stacked array read at a row and a lane.
-/
import proofs.«165248_j20779051778107_2_alg».proof.Proof.Gen.KernelIdeal.Launch
import Idealize.ShloMosaic.Lib.StableHlo.Run
import Idealize.ShloMosaic.Lib.ValueIdx
import Idealize.ShloMosaic.Lib.Pipeline.Value

set_option maxRecDepth 1312

noncomputable section

namespace Cert.KernelIdeal.Hand

open Idealize.ShloMosaic Idealize.ShloMosaic.TcCoe Idealize.ShloMosaic.ValueIdx
open Idealize.SL.Sem
open Cert.KernelIdeal Cert.KernelIdeal.Gen

/-! ## A stacked array read at a row and a lane -/

section Stack
variable {α : Type}

/-- Four blocks of width 64 joined along the columns and then given a unit middle axis, read at row `r` and lane `j`
    of the `k`-th span of 64 lanes (`j = 64 k + d`): block `k` at row `r`, column `d`. -/
theorem stack_read {n : ℕ} (x0 x1 x2 x3 : (⟨2, ![n, 64]⟩ : Shape).Idx → α)
    (hc : Shape.Concatenates ([(⟨⟨2, ![n, 64]⟩, x0⟩ : (s : Shape) × (s.Idx → α)), ⟨⟨2, ![n, 64]⟩, x1⟩, ⟨⟨2, ![n, 64]⟩, x2⟩, ⟨⟨2, ![n, 64]⟩, x3⟩].map (·.1)) ⟨2, ![n, 256]⟩ 1)
    (hs : (⟨2, ![n, 256]⟩ : Shape).ShapeCasts ⟨3, ![n, 1, 256]⟩)
    (r : Fin n) (u : Fin 1) (j : Fin 256) (d : Fin 64)
    (k : ℕ) (hk : k < 4) (x : (⟨2, ![n, 64]⟩ : Shape).Idx → α)
    (hx : [(⟨⟨2, ![n, 64]⟩, x0⟩ : (s : Shape) × (s.Idx → α)), ⟨⟨2, ![n, 64]⟩, x1⟩, ⟨⟨2, ![n, 64]⟩, x2⟩, ⟨⟨2, ![n, 64]⟩, x3⟩][k]'(by simpa using hk) = ⟨⟨2, ![n, 64]⟩, x⟩)
    (hj : j.val = 64 * k + d.val) :
    shapeCast ⟨3, ![n, 1, 256]⟩ (concatenate ⟨2, ![n, 256]⟩ 1 [⟨⟨2, ![n, 64]⟩, x0⟩, ⟨⟨2, ![n, 64]⟩, x1⟩, ⟨⟨2, ![n, 64]⟩, x2⟩, ⟨⟨2, ![n, 64]⟩, x3⟩] hc) hs (ix3 r u j)
      = x (ix2 r d) := by
  rw [shapeCast_apply _ hs (ix3 r u j) (ix2 r j) (by
    rw [Shape.rowMajor_val_two, Shape.rowMajor_val_three]
    show r.val * 256 + j.val = (r.val * 1 + u.val) * 256 + j.val
    have := u.isLt; omega)]
  refine concatenate_apply_piece (1 : Fin 2) _ hc (ix2 r j) k (by simpa using hk) ⟨2, ![n, 64]⟩ x hx rfl (64 * k) ?_ (ix2 r d) ?_ ?_
  · interval_cases k <;> rfl
  · intro b hb
    match b with
    | ⟨0, _⟩ => rfl
    | ⟨1, _⟩ => exact absurd rfl hb
  · show 64 * k + d.val = j.val
    omega

/-- Lanes 0 … 63 of the stack read the first block. -/
theorem stack_l0 {n : ℕ} (x0 x1 x2 x3 : (⟨2, ![n, 64]⟩ : Shape).Idx → α)
    (hc : Shape.Concatenates [(⟨2, ![n, 64]⟩ : Shape), ⟨2, ![n, 64]⟩, ⟨2, ![n, 64]⟩, ⟨2, ![n, 64]⟩] ⟨2, ![n, 256]⟩ 1)
    (hs : (⟨2, ![n, 256]⟩ : Shape).ShapeCasts ⟨3, ![n, 1, 256]⟩)
    (r : Fin n) (u : Fin 1) (j : Fin 256) (d : Fin 64) (hj : j.val = d.val) :
    shapeCast ⟨3, ![n, 1, 256]⟩ (concatenate ⟨2, ![n, 256]⟩ 1 [⟨⟨2, ![n, 64]⟩, x0⟩, ⟨⟨2, ![n, 64]⟩, x1⟩, ⟨⟨2, ![n, 64]⟩, x2⟩, ⟨⟨2, ![n, 64]⟩, x3⟩] hc) hs (ix3 r u j)
      = x0 (ix2 r d) :=
  stack_read x0 x1 x2 x3 hc hs r u j d 0 (by omega) x0 rfl (by omega)

/-- Lanes 64 … 127 of the stack read the second block. -/
theorem stack_l1 {n : ℕ} (x0 x1 x2 x3 : (⟨2, ![n, 64]⟩ : Shape).Idx → α)
    (hc : Shape.Concatenates [(⟨2, ![n, 64]⟩ : Shape), ⟨2, ![n, 64]⟩, ⟨2, ![n, 64]⟩, ⟨2, ![n, 64]⟩] ⟨2, ![n, 256]⟩ 1)
    (hs : (⟨2, ![n, 256]⟩ : Shape).ShapeCasts ⟨3, ![n, 1, 256]⟩)
    (r : Fin n) (u : Fin 1) (j : Fin 256) (d : Fin 64) (hj : j.val = 64 + d.val) :
    shapeCast ⟨3, ![n, 1, 256]⟩ (concatenate ⟨2, ![n, 256]⟩ 1 [⟨⟨2, ![n, 64]⟩, x0⟩, ⟨⟨2, ![n, 64]⟩, x1⟩, ⟨⟨2, ![n, 64]⟩, x2⟩, ⟨⟨2, ![n, 64]⟩, x3⟩] hc) hs (ix3 r u j)
      = x1 (ix2 r d) :=
  stack_read x0 x1 x2 x3 hc hs r u j d 1 (by omega) x1 rfl (by omega)

/-- Lanes 128 … 191 of the stack read the third block. -/
theorem stack_l2 {n : ℕ} (x0 x1 x2 x3 : (⟨2, ![n, 64]⟩ : Shape).Idx → α)
    (hc : Shape.Concatenates [(⟨2, ![n, 64]⟩ : Shape), ⟨2, ![n, 64]⟩, ⟨2, ![n, 64]⟩, ⟨2, ![n, 64]⟩] ⟨2, ![n, 256]⟩ 1)
    (hs : (⟨2, ![n, 256]⟩ : Shape).ShapeCasts ⟨3, ![n, 1, 256]⟩)
    (r : Fin n) (u : Fin 1) (j : Fin 256) (d : Fin 64) (hj : j.val = 128 + d.val) :
    shapeCast ⟨3, ![n, 1, 256]⟩ (concatenate ⟨2, ![n, 256]⟩ 1 [⟨⟨2, ![n, 64]⟩, x0⟩, ⟨⟨2, ![n, 64]⟩, x1⟩, ⟨⟨2, ![n, 64]⟩, x2⟩, ⟨⟨2, ![n, 64]⟩, x3⟩] hc) hs (ix3 r u j)
      = x2 (ix2 r d) :=
  stack_read x0 x1 x2 x3 hc hs r u j d 2 (by omega) x2 rfl (by omega)

/-- Lanes 192 … 255 of the stack read the fourth block. -/
theorem stack_l3 {n : ℕ} (x0 x1 x2 x3 : (⟨2, ![n, 64]⟩ : Shape).Idx → α)
    (hc : Shape.Concatenates [(⟨2, ![n, 64]⟩ : Shape), ⟨2, ![n, 64]⟩, ⟨2, ![n, 64]⟩, ⟨2, ![n, 64]⟩] ⟨2, ![n, 256]⟩ 1)
    (hs : (⟨2, ![n, 256]⟩ : Shape).ShapeCasts ⟨3, ![n, 1, 256]⟩)
    (r : Fin n) (u : Fin 1) (j : Fin 256) (d : Fin 64) (hj : j.val = 192 + d.val) :
    shapeCast ⟨3, ![n, 1, 256]⟩ (concatenate ⟨2, ![n, 256]⟩ 1 [⟨⟨2, ![n, 64]⟩, x0⟩, ⟨⟨2, ![n, 64]⟩, x1⟩, ⟨⟨2, ![n, 64]⟩, x2⟩, ⟨⟨2, ![n, 64]⟩, x3⟩] hc) hs (ix3 r u j)
      = x3 (ix2 r d) :=
  stack_read x0 x1 x2 x3 hc hs r u j d 3 (by omega) x3 rfl (by omega)

end Stack

/-! ## The propagated layers, as the host operations' own terms -/

variable {F : FTy → Type} [FloatOps F] [Named F]

/-- One round into the USER table from an item layer `I`: zeros, plus at each edge's user index the edge weight times the
    row of `I` at the edge's item index (a negative index wrapped by the table's height first). -/
def stepU (a5 a6 : IVec S1000000 32) (a7 : FVec F S1000000 .f32) (I : FVec F S200000x64 .f32) : FVec F S100000x64 .f32 :=
  Host.scatterAdd scatter_S100000x64_S1000000x1_S1000000x64_1_0_0_1
    (broadcastInDim S100000x64 ![] bcast_S_S100000x64 (constant S_ .f32 0x00000000#32 : FVec F S_ .f32))
    (broadcastInDim S1000000x1 ![0] bcast_S1000000_S1000000x1_0 a5)
    (mulf
      (broadcastInDim S1000000x64 ![0, 1] bcast_S1000000x1_S1000000x64_0_1
        (broadcastInDim S1000000x1 ![0] bcast_S1000000_S1000000x1_0 a7))
      (Host.gather gather_S200000x64_S1000000x1_S1000000x64_1_0_n_n_0_1_164 I
        (broadcastInDim S1000000x1 ![0] bcast_S1000000_S1000000x1_0
          (select (cmpi .slt a6 (broadcastInDim S1000000 ![] bcast_S_S1000000 (constantI S_ 32 0#32)))
            (addi a6 (broadcastInDim S1000000 ![] bcast_S_S1000000 (constantI S_ 32 200000#32)))
            a6))))

/-- One round into the ITEM table from a user layer `U`: zeros, plus at each edge's item index the edge weight times the
    row of `U` at the edge's user index (a negative index wrapped by the table's height first). -/
def stepI (a5 a6 : IVec S1000000 32) (a7 : FVec F S1000000 .f32) (U : FVec F S100000x64 .f32) : FVec F S200000x64 .f32 :=
  Host.scatterAdd scatter_S200000x64_S1000000x1_S1000000x64_1_0_0_1
    (broadcastInDim S200000x64 ![] bcast_S_S200000x64 (constant S_ .f32 0x00000000#32 : FVec F S_ .f32))
    (broadcastInDim S1000000x1 ![0] bcast_S1000000_S1000000x1_0 a6)
    (mulf
      (broadcastInDim S1000000x64 ![0, 1] bcast_S1000000x1_S1000000x64_0_1
        (broadcastInDim S1000000x1 ![0] bcast_S1000000_S1000000x1_0 a7))
      (Host.gather gather_S100000x64_S1000000x1_S1000000x64_1_0_n_n_0_1_164 U
        (broadcastInDim S1000000x1 ![0] bcast_S1000000_S1000000x1_0
          (select (cmpi .slt a5 (broadcastInDim S1000000 ![] bcast_S_S1000000 (constantI S_ 32 0#32)))
            (addi a5 (broadcastInDim S1000000 ![] bcast_S_S1000000 (constantI S_ 32 100000#32)))
            a5))))

/-- The first propagated user layer (from the item table itself). The user table `a3` enters no propagated layer: it
    is only the stack's first block. -/
def U1 (a3 : FVec F S100000x64 .f32) (a4 : FVec F S200000x64 .f32) (a5 a6 : IVec S1000000 32) (a7 : FVec F S1000000 .f32) :
    FVec F S100000x64 .f32 := stepU a5 a6 a7 a4
/-- The first propagated item layer (from the first user layer). -/
def I1 (a3 : FVec F S100000x64 .f32) (a4 : FVec F S200000x64 .f32) (a5 a6 : IVec S1000000 32) (a7 : FVec F S1000000 .f32) :
    FVec F S200000x64 .f32 := stepI a5 a6 a7 (U1 a3 a4 a5 a6 a7)
/-- The second propagated user layer. -/
def U2 (a3 : FVec F S100000x64 .f32) (a4 : FVec F S200000x64 .f32) (a5 a6 : IVec S1000000 32) (a7 : FVec F S1000000 .f32) :
    FVec F S100000x64 .f32 := stepU a5 a6 a7 (I1 a3 a4 a5 a6 a7)
/-- The second propagated item layer. -/
def I2 (a3 : FVec F S100000x64 .f32) (a4 : FVec F S200000x64 .f32) (a5 a6 : IVec S1000000 32) (a7 : FVec F S1000000 .f32) :
    FVec F S200000x64 .f32 := stepI a5 a6 a7 (U2 a3 a4 a5 a6 a7)
/-- The third propagated user layer. -/
def U3 (a3 : FVec F S100000x64 .f32) (a4 : FVec F S200000x64 .f32) (a5 a6 : IVec S1000000 32) (a7 : FVec F S1000000 .f32) :
    FVec F S100000x64 .f32 := stepU a5 a6 a7 (I2 a3 a4 a5 a6 a7)
/-- The third propagated item layer. -/
def I3 (a3 : FVec F S100000x64 .f32) (a4 : FVec F S200000x64 .f32) (a5 a6 : IVec S1000000 32) (a7 : FVec F S1000000 .f32) :
    FVec F S200000x64 .f32 := stepI a5 a6 a7 (U3 a3 a4 a5 a6 a7)

/-! ## The buffers when the region is entered -/

variable (m : (ℓ : Loc nD τ sig) → Buf (Elt F) ℓ) (c : Dev nD)

/-- No host operation writes an argument: the region finds each as launched. -/
theorem V_arg3 : StableHlo.after (Gen.hostOps0 (F := F)) (fun b => m (c, b)) (Proc.devRef .tc main_arg3) = m ((c : Thread nD τ).loc main_arg3) := by
  dsimp only [Gen.hostOps0]
  after_results_simp
theorem V_arg4 : StableHlo.after (Gen.hostOps0 (F := F)) (fun b => m (c, b)) (Proc.devRef .tc main_arg4) = m ((c : Thread nD τ).loc main_arg4) := by
  dsimp only [Gen.hostOps0]
  after_results_simp
theorem V_arg5 : StableHlo.after (Gen.hostOps0 (F := F)) (fun b => m (c, b)) (Proc.devRef .tc main_arg5) = m ((c : Thread nD τ).loc main_arg5) := by
  dsimp only [Gen.hostOps0]
  after_results_simp
theorem V_arg6 : StableHlo.after (Gen.hostOps0 (F := F)) (fun b => m (c, b)) (Proc.devRef .tc main_arg6) = m ((c : Thread nD τ).loc main_arg6) := by
  dsimp only [Gen.hostOps0]
  after_results_simp
theorem V_arg7 : StableHlo.after (Gen.hostOps0 (F := F)) (fun b => m (c, b)) (Proc.devRef .tc main_arg7) = m ((c : Thread nD τ).loc main_arg7) := by
  dsimp only [Gen.hostOps0]
  after_results_simp

set_option maxHeartbeats 4000000 in
/-- The user stack when the region is entered: the user table and its three propagated layers, joined along the columns,
    with a unit middle axis. -/
theorem V_v80 : StableHlo.after (Gen.hostOps0 (F := F)) (fun b => m (c, b)) (Proc.devRef .tc main_v80)
    = (shapeCast S100000x1x256 (concatenate S100000x256 1
        [⟨S100000x64, (m ((c : Thread nD τ).loc main_arg3))⟩, ⟨S100000x64, U1 (m ((c : Thread nD τ).loc main_arg3)) (m ((c : Thread nD τ).loc main_arg4)) (m ((c : Thread nD τ).loc main_arg5)) (m ((c : Thread nD τ).loc main_arg6)) (m ((c : Thread nD τ).loc main_arg7))⟩, ⟨S100000x64, U2 (m ((c : Thread nD τ).loc main_arg3)) (m ((c : Thread nD τ).loc main_arg4)) (m ((c : Thread nD τ).loc main_arg5)) (m ((c : Thread nD τ).loc main_arg6)) (m ((c : Thread nD τ).loc main_arg7))⟩, ⟨S100000x64, U3 (m ((c : Thread nD τ).loc main_arg3)) (m ((c : Thread nD τ).loc main_arg4)) (m ((c : Thread nD τ).loc main_arg5)) (m ((c : Thread nD τ).loc main_arg6)) (m ((c : Thread nD τ).loc main_arg7))⟩]
        concatenates_S100000x64_S100000x64_S100000x64_S100000x64_S100000x256_d1) shapeCasts_S100000x256_S100000x1x256
        : FVec F S100000x1x256 .f32) := by
  dsimp only [Gen.hostOps0]
  after_results_simp
  rfl

set_option maxHeartbeats 4000000 in
/-- The item stack when the region is entered: the item table and its three propagated layers, joined along the columns,
    with a unit middle axis. -/
theorem V_v81 : StableHlo.after (Gen.hostOps0 (F := F)) (fun b => m (c, b)) (Proc.devRef .tc main_v81)
    = (shapeCast S200000x1x256 (concatenate S200000x256 1
        [⟨S200000x64, (m ((c : Thread nD τ).loc main_arg4))⟩, ⟨S200000x64, I1 (m ((c : Thread nD τ).loc main_arg3)) (m ((c : Thread nD τ).loc main_arg4)) (m ((c : Thread nD τ).loc main_arg5)) (m ((c : Thread nD τ).loc main_arg6)) (m ((c : Thread nD τ).loc main_arg7))⟩, ⟨S200000x64, I2 (m ((c : Thread nD τ).loc main_arg3)) (m ((c : Thread nD τ).loc main_arg4)) (m ((c : Thread nD τ).loc main_arg5)) (m ((c : Thread nD τ).loc main_arg6)) (m ((c : Thread nD τ).loc main_arg7))⟩, ⟨S200000x64, I3 (m ((c : Thread nD τ).loc main_arg3)) (m ((c : Thread nD τ).loc main_arg4)) (m ((c : Thread nD τ).loc main_arg5)) (m ((c : Thread nD τ).loc main_arg6)) (m ((c : Thread nD τ).loc main_arg7))⟩]
        concatenates_S200000x64_S200000x64_S200000x64_S200000x64_S200000x256_d1) shapeCasts_S200000x256_S200000x1x256
        : FVec F S200000x1x256 .f32) := by
  dsimp only [Gen.hostOps0]
  after_results_simp
  rfl

end Cert.KernelIdeal.Hand

end
-- ==== Proof.KBlock.lean ====
/-
  The staged rows read at an index.

  Each of the three input windows stages, at grid point t, ONE row of its array: the block index on the row axis is the
  word the window's table holds at position t (the index maps load it at the offset the point's one grid coordinate
  gives, which is t itself), and 0 on the two other axes; the block is a whole row, [1, 1, 256]. A block's coordinate in
  the array is index × size + the coordinate inside the block, so entry (0, 0, j) of the staged block is entry
  (word, 0, j) of the array. The pipeline's side condition at the tables says that row is a row of the array.
-/
import proofs.«165248_j20779051778107_2_alg».proof.Proof.KData
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F] [Named F]

/-! ## The table position a point reads -/

/-- A point's one grid coordinate is its position in the run. -/
theorem coord_val : ∀ t : Fin grid0.N, ((grid0.coords t) 0).val = t.val := by decide +kernel

/-- The offset the index maps compute from a grid coordinate is the coordinate. -/
theorem off_val (i : grid0.Coords) : (Scalar.indexCast (BitVec.ofNat 32 (i 0).val)).toNat = (i 0).val :=
  congrFun (k0_off1_eq i) 0

/-- The one index of the table's unit rectangle at a point's offset is the table index the coordinate names. -/
theorem unit_idx (i : grid0.Coords) (h1 : 0 < S1.numel) :
    (Rect.unit (s := S4096) ![(Scalar.indexCast (BitVec.ofNat 32 (i 0).val)).toNat] S1.size (k0_off1_inb i)).emb (Shape.Idx.first h1)
      = ix1 (i 0) := by
  funext d
  apply Fin.ext
  match d with
  | ⟨0, _⟩ =>
    show (Scalar.indexCast (BitVec.ofNat 32 (i 0).val)).toNat + 1 * (Shape.Idx.first h1 (0 : Fin 1)).val = (i 0).val
    have hz : (Shape.Idx.first h1 (0 : Fin 1)).val = 0 := by
      have hlt := (Shape.Idx.first h1 (0 : Fin 1)).isLt
      have e : S1.size (0 : Fin 1) = 1 := by decide
      omega
    rw [hz, off_val]
    omega

/-- The three index maps at any tables: the row the table names at the coordinate, then 0, 0. -/
theorem transform_0_eq (pf : pre0.Contents (Elt F)) (i : grid0.Coords) :
    cc0_transform_0 k0_off1_inb numel1_S1 pf i = ![(pf 0 (ix1 (i 0)) : BitVec 32).toNat, 0, 0] :=
  congrArg (fun x : S4096.Idx => (![(pf 0 x : BitVec 32).toNat, 0, 0] : Fin 3 → Nat)) (unit_idx i _)
theorem transform_1_eq (pf : pre0.Contents (Elt F)) (i : grid0.Coords) :
    cc0_transform_1 k0_off1_inb numel1_S1 pf i = ![(pf 1 (ix1 (i 0)) : BitVec 32).toNat, 0, 0] :=
  congrArg (fun x : S4096.Idx => (![(pf 1 x : BitVec 32).toNat, 0, 0] : Fin 3 → Nat)) (unit_idx i _)
theorem transform_2_eq (pf : pre0.Contents (Elt F)) (i : grid0.Coords) :
    cc0_transform_2 k0_off1_inb numel1_S1 pf i = ![(pf 2 (ix1 (i 0)) : BitVec 32).toNat, 0, 0] :=
  congrArg (fun x : S4096.Idx => (![(pf 2 x : BitVec 32).toNat, 0, 0] : Fin 3 → Nat)) (unit_idx i _)

variable (a : (pcfg0 (F := F)).Adm)
variable (Vv : (c : Dev nD) → (b : Ref sig .tc) → Buf (Elt F) ((c : Thread nD τ).loc b))

/-- There are 4096 points. -/
theorem lt_N (t : Fin (cfgA a).N) : t.val < 4096 := lt_of_lt_of_eq t.isLt N_0

/-- The table index point t reads: t. -/
abbrev tix (t : Fin (cfgA a).N) : S4096.Idx := ix1 ⟨t.val, lt_N a t⟩

/-- The table index the point's coordinate names is t. -/
theorem crd_tix (t : Fin (cfgA a).N) : (ix1 (crd a t 0) : S4096.Idx) = tix a t :=
  congrArg (fun x : Fin 4096 => (ix1 x : S4096.Idx)) (Fin.ext (coord_val t))

/-- The words the three tables hold at position t. -/
abbrev row0 (t : Fin (cfgA a).N) : BitVec 32 := a.1 0 (tix a t)
abbrev row1 (t : Fin (cfgA a).N) : BitVec 32 := a.1 1 (tix a t)
abbrev row2 (t : Fin (cfgA a).N) : BitVec 32 := a.1 2 (tix a t)

/-- The table word as the index maps spell it (the load through the unit rectangle at the point's offset) is the
    table's word at position t. -/
theorem at_0 (t : Fin (cfgA a).N) :
    a.1.at 0 (Rect.unit (s := S4096) ![(Scalar.indexCast (BitVec.ofNat 32 (crd a t 0).val)).toNat] S1.size (k0_off1_inb (crd a t))) numel1_S1 = row0 a t :=
  (congrArg (fun x : S4096.Idx => (a.1 0 x : BitVec 32)) (unit_idx (crd a t) _)).trans (congrArg (fun x : S4096.Idx => (a.1 0 x : BitVec 32)) (crd_tix a t))
theorem at_1 (t : Fin (cfgA a).N) :
    a.1.at 1 (Rect.unit (s := S4096) ![(Scalar.indexCast (BitVec.ofNat 32 (crd a t 0).val)).toNat] S1.size (k0_off1_inb (crd a t))) numel1_S1 = row1 a t :=
  (congrArg (fun x : S4096.Idx => (a.1 1 x : BitVec 32)) (unit_idx (crd a t) _)).trans (congrArg (fun x : S4096.Idx => (a.1 1 x : BitVec 32)) (crd_tix a t))
theorem at_2 (t : Fin (cfgA a).N) :
    a.1.at 2 (Rect.unit (s := S4096) ![(Scalar.indexCast (BitVec.ofNat 32 (crd a t 0).val)).toNat] S1.size (k0_off1_inb (crd a t))) numel1_S1 = row2 a t :=
  (congrArg (fun x : S4096.Idx => (a.1 2 x : BitVec 32)) (unit_idx (crd a t) _)).trans (congrArg (fun x : S4096.Idx => (a.1 2 x : BitVec 32)) (crd_tix a t))

/-! ## The windows' block indices at a point -/

theorem index_0 (t : Fin (cfgA a).N) : ((cfgA a).win 0).index t = ![(row0 a t).toNat, 0, 0] :=
  (transform_0_eq a.1 (crd a t)).trans (congrArg (fun x : S4096.Idx => (![(a.1 0 x : BitVec 32).toNat, 0, 0] : Fin 3 → Nat)) (crd_tix a t))
theorem index_1 (t : Fin (cfgA a).N) : ((cfgA a).win 1).index t = ![(row1 a t).toNat, 0, 0] :=
  (transform_1_eq a.1 (crd a t)).trans (congrArg (fun x : S4096.Idx => (![(a.1 1 x : BitVec 32).toNat, 0, 0] : Fin 3 → Nat)) (crd_tix a t))
theorem index_2 (t : Fin (cfgA a).N) : ((cfgA a).win 2).index t = ![(row2 a t).toNat, 0, 0] :=
  (transform_2_eq a.1 (crd a t)).trans (congrArg (fun x : S4096.Idx => (![(a.1 2 x : BitVec 32).toNat, 0, 0] : Fin 3 → Nat)) (crd_tix a t))

/-! ## The rows are rows of the arrays: the side condition at the tables -/

theorem row0_lt (t : Fin (cfgA a).N) : (row0 a t).toNat < 100000 := by
  have hok : ok0 a.1 := a.2
  obtain ⟨hb, -⟩ := hok.1 (crd a t)
  have h0 := hb 0
  rw [transform_0_eq, crd_tix] at h0
  have h0' : ((row0 a t).toNat + 1) * 1 ≤ 100000 := h0
  omega
theorem row1_lt (t : Fin (cfgA a).N) : (row1 a t).toNat < 200000 := by
  have hok : ok0 a.1 := a.2
  obtain ⟨hb, -⟩ := hok.2.1 (crd a t)
  have h0 := hb 0
  rw [transform_1_eq, crd_tix] at h0
  have h0' : ((row1 a t).toNat + 1) * 1 ≤ 200000 := h0
  omega
theorem row2_lt (t : Fin (cfgA a).N) : (row2 a t).toNat < 200000 := by
  have hok : ok0 a.1 := a.2
  obtain ⟨hb, -⟩ := hok.2.2 (crd a t)
  have h0 := hb 0
  rw [transform_2_eq, crd_tix] at h0
  have h0' : ((row2 a t).toNat + 1) * 1 ≤ 200000 := h0
  omega

/-! ## The staged rows at an index -/

/-- Entry j of a [1, 1, 256] row block. -/
abbrev bix (j : Fin 256) : S1x1x256.Idx := ix3 (n0 := 1) (n1 := 1) (n2 := 256) 0 0 j

/-- WINDOW 0: entry j of the block staged at point t is entry (row0 t, 0, j) of the first concatenated table. -/
theorem iblk_0 (c : Dev nD) (t : Fin (cfgA a).N) (j : Fin 256) :
    iblk a Vv c 0 t (bix j) = Vv c main_v80 (ix3 (n0 := 100000) (n1 := 1) (n2 := 256) ⟨(row0 a t).toNat, row0_lt a t⟩ 0 j) := by
  have e := index_0 a t
  show Vv c main_v80 ((((cfgA a).win 0).blk t).view.emb (bix j)) = _
  refine congrArg (Vv c main_v80) ?_
  funext ax
  apply Fin.ext
  match ax with
  | ⟨0, _⟩ => show ((cfgA a).win 0).index t (0 : Fin 3) * 1 + 1 * 0 = (row0 a t).toNat; rw [e]; show (row0 a t).toNat * 1 + 1 * 0 = _; omega
  | ⟨1, _⟩ => show ((cfgA a).win 0).index t (1 : Fin 3) * 1 + 1 * 0 = 0; rw [e]; rfl
  | ⟨2, _⟩ => show ((cfgA a).win 0).index t (2 : Fin 3) * 256 + 1 * j.val = j.val; rw [e]; show 0 * 256 + 1 * j.val = j.val; omega

/-- WINDOW 1: entry j of the block staged at point t is entry (row1 t, 0, j) of the second concatenated table. -/
theorem iblk_1 (c : Dev nD) (t : Fin (cfgA a).N) (j : Fin 256) :
    iblk a Vv c 1 t (bix j) = Vv c main_v81 (ix3 (n0 := 200000) (n1 := 1) (n2 := 256) ⟨(row1 a t).toNat, row1_lt a t⟩ 0 j) := by
  have e := index_1 a t
  show Vv c main_v81 ((((cfgA a).win 1).blk t).view.emb (bix j)) = _
  refine congrArg (Vv c main_v81) ?_
  funext ax
  apply Fin.ext
  match ax with
  | ⟨0, _⟩ => show ((cfgA a).win 1).index t (0 : Fin 3) * 1 + 1 * 0 = (row1 a t).toNat; rw [e]; show (row1 a t).toNat * 1 + 1 * 0 = _; omega
  | ⟨1, _⟩ => show ((cfgA a).win 1).index t (1 : Fin 3) * 1 + 1 * 0 = 0; rw [e]; rfl
  | ⟨2, _⟩ => show ((cfgA a).win 1).index t (2 : Fin 3) * 256 + 1 * j.val = j.val; rw [e]; show 0 * 256 + 1 * j.val = j.val; omega

/-- WINDOW 2: entry j of the block staged at point t is entry (row2 t, 0, j) of the second concatenated table. -/
theorem iblk_2 (c : Dev nD) (t : Fin (cfgA a).N) (j : Fin 256) :
    iblk a Vv c 2 t (bix j) = Vv c main_v81 (ix3 (n0 := 200000) (n1 := 1) (n2 := 256) ⟨(row2 a t).toNat, row2_lt a t⟩ 0 j) := by
  have e := index_2 a t
  show Vv c main_v81 ((((cfgA a).win 2).blk t).view.emb (bix j)) = _
  refine congrArg (Vv c main_v81) ?_
  funext ax
  apply Fin.ext
  match ax with
  | ⟨0, _⟩ => show ((cfgA a).win 2).index t (0 : Fin 3) * 1 + 1 * 0 = (row2 a t).toNat; rw [e]; show (row2 a t).toNat * 1 + 1 * 0 = _; omega
  | ⟨1, _⟩ => show ((cfgA a).win 2).index t (1 : Fin 3) * 1 + 1 * 0 = 0; rw [e]; rfl
  | ⟨2, _⟩ => show ((cfgA a).win 2).index t (2 : Fin 3) * 256 + 1 * j.val = j.val; rw [e]; show 0 * 256 + 1 * j.val = j.val; omega

/-- Every index of a [1, 1, 256] row block is entry j for its last coordinate j. -/
theorem eq_bix (y : S1x1x256.Idx) : y = bix (y 2) := by
  funext d
  match d with
  | ⟨0, _⟩ =>
    apply Fin.ext
    have hlt : (y 0).val < 1 := (y 0).isLt
    show (y 0).val = 0
    omega
  | ⟨1, _⟩ =>
    apply Fin.ext
    have hlt : (y 1).val < 1 := (y 1).isLt
    show (y 1).val = 0
    omega
  | ⟨2, _⟩ => rfl

end Cert.KernelIdeal.Hand

end
-- ==== Proof.BprAlgebra.lean ====
/-
  The law on the extended reals that joins a triplet-ranking loss accumulated one triplet at a time to the same loss
  computed on whole arrays.

  Per triplet the score is the inner product of a mean-pooled user row with the difference of two mean-pooled item
  rows; the loss adds minus the log-sigmoid of each score, and a regularizer adds half the squared norms of three
  base rows, scaled by a constant.

  * mean-pooling by "add the four layers to a zero, times 0.25" and by "add the four layers, divided by 4" are one
    function on every extended real (0 + x = x, and dividing by the real 4 is multiplying by its reciprocal);
  * an accumulator that starts at 0 and adds one term per step holds, after all steps, the finite sum of the terms
    (an additive commutative monoid: no finiteness needed);
  * the regularizer "constant times the sum over triplets of the per-triplet halves" is "another constant times (half
    of the sums over all triplets, divided by 100000)": distributivity, which needs real entries, and the arithmetic
    identity 2748779 / 2748779069440000 = (13743895 / 137438953472) / 100000;
  * the two spellings of softplus (x ≠ x tested as ordered or unordered, a negation as 0 - y or -y) are one function
    of x, and on the extended reals the x ≠ x branch is never taken.
-/
import proofs.«165248_j20779051778107_2_alg».proof.Proof.LibRealEdgeSums
import Mathlib.Algebra.BigOperators.Fin
import Mathlib.Tactic.NormNum
import Mathlib.Tactic.Ring

open scoped BigOperators

noncomputable section

namespace Cert.BprAlgebra

open Idealize.ShloMosaic Cert.GcnAlgebra

/-! ### Constants -/

/-- The pattern 0x3F000000 denotes the real 1/2. -/
theorem ofBits_half : Ideal.ofBits .f32 0x3F000000#32 = ((0.5 : ℝ) : EReal) := by
  simp [Ideal.ofBits, Ideal.ieee, -EReal.coe_mul]; norm_num

/-- The pattern 0x3E800000 denotes the real 1/4. -/
theorem ofBits_quarter : Ideal.ofBits .f32 0x3E800000#32 = ((0.25 : ℝ) : EReal) := by
  simp [Ideal.ofBits, Ideal.ieee, -EReal.coe_mul]; norm_num

/-- The pattern 0x40800000 denotes the real 4. -/
theorem ofBits_four : Ideal.ofBits .f32 0x40800000#32 = ((4 : ℝ) : EReal) := by
  simp [Ideal.ofBits, Ideal.ieee, -EReal.coe_mul]; norm_num

/-- The pattern 0x47C35000 denotes the real 100000. -/
theorem ofBits_hundredK : Ideal.ofBits .f32 0x47C35000#32 = ((100000 : ℝ) : EReal) := by
  simp [Ideal.ofBits, Ideal.ieee, -EReal.coe_mul]; norm_num

/-- The pattern 0x38D1B717 denotes the real 13743895 / 2^37. -/
theorem ofBits_D : Ideal.ofBits .f32 0x38D1B717#32 = ((13743895 / 137438953472 : ℝ) : EReal) := by
  simp [Ideal.ofBits, Ideal.ieee, -EReal.coe_mul]; norm_num

/-- The zero pattern denotes 0. -/
theorem ofBits_zero : Ideal.ofBits .f32 0x00000000#32 = 0 := Ideal.ofBits_zero_f32

/-! ### Real numbers are closed under the operations used here -/

theorem isReal_neg {a : EReal} (ha : IsReal a) : IsReal (-a) := by
  obtain ⟨r, rfl⟩ := ha; exact ⟨-r, (EReal.coe_neg r).symm⟩
theorem isReal_sub {a b : EReal} (ha : IsReal a) (hb : IsReal b) : IsReal (a - b) := by
  obtain ⟨r, rfl⟩ := ha; obtain ⟨t, rfl⟩ := hb; exact ⟨r - t, (EReal.coe_sub r t).symm⟩
theorem isReal_div_coe {a : EReal} (ha : IsReal a) {y : ℝ} (hy : y ≠ 0) : IsReal (Ideal.div a (y : EReal)) := by
  rw [Ideal.div_coe hy]; exact ha.mul (IsReal.coe _)

/-! ### (A) Mean-pooling and the score -/

/-- Four layers added, left to right, onto a zero. -/
abbrev Ks (f : Fin 4 → Fin 64 → EReal) (d : Fin 64) : EReal := (((0 + f 0 d) + f 1 d) + f 2 d) + f 3 d
/-- Four layers added, left to right. -/
abbrev Rs (f : Fin 4 → Fin 64 → EReal) (d : Fin 64) : EReal := ((f 0 d + f 1 d) + f 2 d) + f 3 d

/-- Adding onto a zero changes nothing. -/
theorem Ks_eq_Rs (f : Fin 4 → Fin 64 → EReal) (d : Fin 64) : Ks f d = Rs f d := by
  show (((0 + f 0 d) + f 1 d) + f 2 d) + f 3 d = ((f 0 d + f 1 d) + f 2 d) + f 3 d
  rw [zero_add]

/-- Times 0.25 is divided by 4, on every extended real. -/
theorem mul_quarter_eq_div_four (x : EReal) : x * ((0.25 : ℝ) : EReal) = Ideal.div x ((4 : ℝ) : EReal) := by
  rw [Ideal.div_coe (by norm_num : (4 : ℝ) ≠ 0)]
  have h : (0.25 : ℝ) = 1 / 4 := by norm_num
  rw [h]

/-- THE SCORE: the inner product of the mean-pooled user row with the difference of the mean-pooled item rows, with the
    mean taken as "sum onto zero, times 0.25" on the left and as "sum, divided by 4" on the right. It holds on all
    extended reals. -/
theorem score_eq (u p n : Fin 4 → Fin 64 → EReal) :
    (0 + ∑ d, (Ks u d * ((0.25 : ℝ) : EReal)) * ((Ks p d * ((0.25 : ℝ) : EReal)) - (Ks n d * ((0.25 : ℝ) : EReal))))
      = (0 + ∑ d, (Ideal.div (Rs u d) ((4 : ℝ) : EReal))
          * ((Ideal.div (Rs p d) ((4 : ℝ) : EReal)) - (Ideal.div (Rs n d) ((4 : ℝ) : EReal)))) := by
  simp only [Ks, Rs, zero_add, mul_quarter_eq_div_four]

/-- For real entries the score is a real number. -/
theorem score_isReal (u p n : Fin 4 → Fin 64 → EReal) (hu : ∀ l d, IsReal (u l d)) (hp : ∀ l d, IsReal (p l d))
    (hn : ∀ l d, IsReal (n l d)) :
    IsReal (0 + ∑ d, (Ideal.div (Rs u d) ((4 : ℝ) : EReal))
          * ((Ideal.div (Rs p d) ((4 : ℝ) : EReal)) - (Ideal.div (Rs n d) ((4 : ℝ) : EReal)))) := by
  have hR : ∀ f : Fin 4 → Fin 64 → EReal, (∀ l d, IsReal (f l d)) → ∀ d, IsReal (Ideal.div (Rs f d) ((4 : ℝ) : EReal)) :=
    fun f hf d => isReal_div_coe ((((hf 0 d).add (hf 1 d)).add (hf 2 d)).add (hf 3 d)) (by norm_num)
  refine IsReal.zero.add (IsReal.sum _ _ fun d _ => ?_)
  exact (hR u hu d).mul (isReal_sub (hR p hp d) (hR n hn d))

/-! ### (B) A left fold is a sum -/

section Fold
variable {M : Type*} [AddCommMonoid M] {N : ℕ}

/-- The `k`-th term of `g`, and 0 past the end. -/
def term (g : Fin N → M) (k : ℕ) : M := if h : k < N then g ⟨k, h⟩ else 0

/-- The accumulator after `k` steps: it starts at 0 and step `k` adds the `k`-th term. -/
def acc (g : Fin N → M) : ℕ → M
  | 0 => 0
  | k + 1 => acc g k + term g k

@[simp] theorem acc_zero (g : Fin N → M) : acc g 0 = 0 := rfl
theorem acc_succ' (g : Fin N → M) (k : ℕ) : acc g (k + 1) = acc g k + term g k := rfl
theorem term_of_lt (g : Fin N → M) {k : ℕ} (h : k < N) : term g k = g ⟨k, h⟩ := dif_pos h
/-- After step `t` the accumulator is its value before plus the term of step `t`. -/
theorem acc_succ (g : Fin N → M) (t : Fin N) : acc g (t.val + 1) = acc g t.val + g t := by
  rw [acc_succ', term_of_lt g t.isLt]
/-- After all `N` steps the accumulator is the sum of the terms. -/
theorem acc_eq_sum (g : Fin N → M) : acc g N = ∑ t : Fin N, g t := by
  have h : ∀ k, acc g k = ∑ i ∈ Finset.range k, term g i := by
    intro k
    induction k with
    | zero => simp
    | succ k ih => rw [acc_succ', Finset.sum_range_succ, ih]
  rw [h, ← Fin.sum_univ_eq_sum_range (fun i => term g i) N]
  exact Finset.sum_congr rfl fun t _ => term_of_lt g t.isLt
end Fold

/-! ### (C) The regularizer -/

/-- The regularizer's small constant, 2748779 / 2748779069440000. -/
abbrev κ : EReal := ((2748779 / 2748779069440000 : ℝ) : EReal)

/-- THE REGULARIZER: for real entries, the small constant times the sum over triplets of half the three squared norms
    is the pattern 0x38D1B717's value times (half the three sums of squares over all triplets, divided by 100000). -/
theorem reg_eq {ι δ : Type*} [Fintype ι] [Fintype δ] (u0 p0 n0 : ι → δ → EReal)
    (hu : ∀ b d, IsReal (u0 b d)) (hp : ∀ b d, IsReal (p0 b d)) (hn : ∀ b d, IsReal (n0 b d)) :
    κ * (∑ b, ((0.5 : ℝ) : EReal) * (((0 + ∑ d, u0 b d * u0 b d) + (0 + ∑ d, p0 b d * p0 b d)) + (0 + ∑ d, n0 b d * n0 b d)))
      = Ideal.ofBits .f32 0x38D1B717#32
          * Ideal.div (((0.5 : ℝ) : EReal) * (((0 + ∑ b, ∑ d, u0 b d * u0 b d) + (0 + ∑ b, ∑ d, p0 b d * p0 b d))
              + (0 + ∑ b, ∑ d, n0 b d * n0 b d))) (Ideal.ofBits .f32 0x47C35000#32) := by
  choose ur hur using hu
  choose pr hpr using hp
  choose nr hnr using hn
  rw [ofBits_D, ofBits_hundredK, Ideal.div_coe (by norm_num : (100000 : ℝ) ≠ 0)]
  have hR : ((2748779 / 2748779069440000 : ℝ) * ∑ b, (0.5 : ℝ) * (((∑ d, ur b d * ur b d) + (∑ d, pr b d * pr b d)) + (∑ d, nr b d * nr b d)))
      = (13743895 / 137438953472 : ℝ) * (((0.5 : ℝ) * (((∑ b, ∑ d, ur b d * ur b d) + (∑ b, ∑ d, pr b d * pr b d)) + (∑ b, ∑ d, nr b d * nr b d)))
          * (1 / 100000 : ℝ)) := by
    have h05 : (0.5 : ℝ) = 1 / 2 := by norm_num
    rw [h05, ← Finset.mul_sum, Finset.sum_add_distrib, Finset.sum_add_distrib]
    ring
  have hL : κ * (∑ b, ((0.5 : ℝ) : EReal) * (((0 + ∑ d, u0 b d * u0 b d) + (0 + ∑ d, p0 b d * p0 b d)) + (0 + ∑ d, n0 b d * n0 b d)))
      = (((2748779 / 2748779069440000 : ℝ) * ∑ b, (0.5 : ℝ) * (((∑ d, ur b d * ur b d) + (∑ d, pr b d * pr b d)) + (∑ d, nr b d * nr b d)) : ℝ) : EReal) := by
    simp only [hur, hpr, hnr, zero_add, coe_sum, EReal.coe_mul, EReal.coe_add]
  have hRR : ((13743895 / 137438953472 : ℝ) : EReal)
        * ((((0.5 : ℝ) : EReal) * (((0 + ∑ b, ∑ d, u0 b d * u0 b d) + (0 + ∑ b, ∑ d, p0 b d * p0 b d))
              + (0 + ∑ b, ∑ d, n0 b d * n0 b d))) * ((1 / 100000 : ℝ) : EReal))
      = (((13743895 / 137438953472 : ℝ) * (((0.5 : ℝ) * (((∑ b, ∑ d, ur b d * ur b d) + (∑ b, ∑ d, pr b d * pr b d)) + (∑ b, ∑ d, nr b d * nr b d)))
          * (1 / 100000 : ℝ)) : ℝ) : EReal) := by
    simp only [hur, hpr, hnr, zero_add, coe_sum, EReal.coe_mul, EReal.coe_add]
  rw [hL, hRR, hR]

/-! ### (D) Softplus, spelled twice -/

/-- Softplus as the kernel spells it: the test `x ≠ x` ordered, negation as `0 - y`. -/
def spK (x : EReal) : EReal :=
  if Ideal.cmp .one (x - 0) (x - 0) = 1 then x + 0
  else max x 0 + Ideal.log1p (Ideal.exp (0 - max (x - 0) (-(x - 0))))

/-- Softplus as the reference spells it: the test `x ≠ x` unordered, negation as `-y`. -/
def spR (x : EReal) : EReal :=
  if Ideal.cmp .une (x - 0) (x - 0) = 1 then x + 0
  else max x 0 + Ideal.log1p (Ideal.exp (-(max (x - 0) (-(x - 0)))))

/-- Softplus: `max x 0 + log (1 + exp (-|x|))`. -/
def softplus (x : EReal) : EReal := max x 0 + Ideal.log1p (Ideal.exp (-(max x (-x))))

theorem cmp_one_self (x : EReal) : Ideal.cmp .one x x = 0#1 := by
  simp [Ideal.cmp]
theorem cmp_une_self (x : EReal) : Ideal.cmp .une x x = 0#1 := by
  simp [Ideal.cmp]
theorem spK_eq (x : EReal) : spK x = softplus x := by
  rw [spK, cmp_one_self, if_neg (by decide), sub_zero, zero_sub, softplus]
theorem spR_eq (x : EReal) : spR x = softplus x := by
  rw [spR, cmp_une_self, if_neg (by decide), sub_zero, softplus]
/-- The two spellings are one function. -/
theorem spK_eq_spR (x : EReal) : spK x = spR x := by rw [spK_eq, spR_eq]
/-- Minus the log-sigmoid of a score, as the kernel spells it (`0 - ·` twice) and as the reference does (`-·` twice). -/
theorem neg_logsig_eq (o : EReal) : 0 - spK (0 - o) = -(spR (-o)) := by
  rw [zero_sub, zero_sub, spK_eq_spR]

/-! ### (E) The final combination -/

/-- The result: minus the loss plus the regularizer, in both spellings. -/
theorem final_eq {L L' R R' : EReal} (hL : L = L') (hR : κ * R = Ideal.ofBits .f32 0x38D1B717#32 * R') :
    (0 - L) + κ * R = (-L') + Ideal.ofBits .f32 0x38D1B717#32 * R' := by
  rw [zero_sub, hL, hR]

/-! ### The pieces together -/

/-- One triplet's loss term: minus the softplus of minus the score, in both spellings of the score, of softplus and of
    the negations. It holds on all extended reals. -/
theorem row_loss_eq (u p n : Fin 4 → Fin 64 → EReal) :
    0 - spK (0 - (0 + ∑ d, (Ks u d * ((0.25 : ℝ) : EReal)) * ((Ks p d * ((0.25 : ℝ) : EReal)) - (Ks n d * ((0.25 : ℝ) : EReal)))))
      = -(spR (-(0 + ∑ d, (Ideal.div (Rs u d) ((4 : ℝ) : EReal))
          * ((Ideal.div (Rs p d) ((4 : ℝ) : EReal)) - (Ideal.div (Rs n d) ((4 : ℝ) : EReal)))))) := by
  rw [score_eq, neg_logsig_eq]

/-- THE WHOLE LAW: a loss and a regularizer each accumulated one term per step and combined as `(0 - L) + κ * R`, against
    the loss summed onto a zero and negated plus the whole-array regularizer. -/
theorem total_eq {N : ℕ} (ls ls' r : Fin N → EReal) (hls : ∀ b, ls b = ls' b) {R' : EReal}
    (hR : κ * (∑ b, r b) = Ideal.ofBits .f32 0x38D1B717#32 * R') :
    (0 - acc ls N) + κ * acc r N = (-(0 + ∑ b, ls' b)) + Ideal.ofBits .f32 0x38D1B717#32 * R' := by
  rw [acc_eq_sum, acc_eq_sum, zero_sub, zero_add, hR, Finset.sum_congr rfl fun b _ => hls b]

/-! ### The same laws in the spellings the two programs' values come out in -/

/-- The score with the lane sum bare (no zero added first), means by "sum onto zero, times 0.25". -/
def scoreK (u p n : Fin 4 → Fin 64 → EReal) : EReal :=
  ∑ d, (Ks u d * ((0.25 : ℝ) : EReal)) * ((Ks p d * ((0.25 : ℝ) : EReal)) - (Ks n d * ((0.25 : ℝ) : EReal)))

/-- The score summed onto a zero, means by "sum, divided by 4". -/
def scoreR (u p n : Fin 4 → Fin 64 → EReal) : EReal :=
  0 + ∑ d, (Ideal.div (Rs u d) ((4 : ℝ) : EReal)) * ((Ideal.div (Rs p d) ((4 : ℝ) : EReal)) - (Ideal.div (Rs n d) ((4 : ℝ) : EReal)))

/-- The two spellings of the score are one extended real. -/
theorem scoreK_eq_scoreR (u p n : Fin 4 → Fin 64 → EReal) : scoreK u p n = scoreR u p n :=
  (zero_add _).symm.trans (score_eq u p n)

/-- For real entries the score is a real number. -/
theorem scoreR_isReal (u p n : Fin 4 → Fin 64 → EReal) (hu : ∀ l d, IsReal (u l d)) (hp : ∀ l d, IsReal (p l d))
    (hn : ∀ l d, IsReal (n l d)) : IsReal (scoreR u p n) := score_isReal u p n hu hp hn

/-- One triplet's loss term in both spellings. -/
theorem row_loss_eq' (u p n : Fin 4 → Fin 64 → EReal) : 0 - spK (0 - scoreK u p n) = -(spR (-(scoreR u p n))) := by
  rw [scoreK_eq_scoreR, neg_logsig_eq]

/-- One triplet's regularizer term: half the three squared norms, each lane sum bare. -/
def regRow {δ : Type*} [Fintype δ] (u0 p0 n0 : δ → EReal) : EReal :=
  ((0.5 : ℝ) : EReal) * (((∑ d, u0 d * u0 d) + (∑ d, p0 d * p0 d)) + (∑ d, n0 d * n0 d))

/-- THE REGULARIZER, per-triplet terms with bare lane sums against whole-array sums onto zeros. -/
theorem reg_eq' {ι δ : Type*} [Fintype ι] [Fintype δ] (u0 p0 n0 : ι → δ → EReal)
    (hu : ∀ b d, IsReal (u0 b d)) (hp : ∀ b d, IsReal (p0 b d)) (hn : ∀ b d, IsReal (n0 b d)) :
    κ * (∑ b, regRow (u0 b) (p0 b) (n0 b))
      = Ideal.ofBits .f32 0x38D1B717#32
          * Ideal.div (((0.5 : ℝ) : EReal) * (((0 + ∑ b, ∑ d, u0 b d * u0 b d) + (0 + ∑ b, ∑ d, p0 b d * p0 b d))
              + (0 + ∑ b, ∑ d, n0 b d * n0 b d))) (Ideal.ofBits .f32 0x47C35000#32) := by
  have h := reg_eq u0 p0 n0 hu hp hn
  simp only [zero_add] at h
  simp only [regRow, zero_add]
  exact h

end Cert.BprAlgebra

end
-- ==== Proof.KPay.lean ====
/-
  One grid point's work read at the accumulators' one index, at the ideal values.

  The three staged rows hold four layers of 64 features side by side. Read at an index, the body's pure values are: the
  mean-pooled rows as "the four layers added onto a zero, times 0.25"; the score as the lane sum of the pooled user row
  times the difference of the pooled item rows; the loss accumulator's gain as minus the softplus of minus the score;
  the regularizer accumulator's gain as half the three squared norms of the layer-0 rows; and the result as minus the
  loss accumulator plus the named constant times the regularizer accumulator.
-/
import proofs.«165248_j20779051778107_2_alg».proof.Proof.KSteps
import proofs.«165248_j20779051778107_2_alg».proof.Proof.BprAlgebra
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

open scoped BigOperators

noncomputable section

namespace Cert.KernelIdeal.Hand

open Cert.KernelIdeal Cert.KernelIdeal.Gen
open Idealize.ShloMosaic Idealize.ShloMosaic.ValueIdx
open Cert.BprAlgebra (Ks spK scoreK regRow)

/-! ## Rows and slices -/

/-- Layer `l`, feature `d` of a staged row: four layers of 64 features side by side. -/
def row (x : Vec Ideal S1x1x256 .f32) (l : Fin 4) (d : Fin 64) : EReal :=
  x (ix3 (0 : Fin 1) (0 : Fin 1) (⟨64 * l.val + d.val, by have := l.isLt; have := d.isLt; omega⟩ : Fin 256))

/-- The staged row with its leading unit axis dropped, read at a lane. -/
theorem pay5_apply (x : Vec Ideal S1x1x256 .f32) (c : Fin 256) :
    k0_pay5 (F := Ideal) x (ix2 (0 : Fin 1) c) = x (ix3 (0 : Fin 1) (0 : Fin 1) c) :=
  shapeCast_1ab_ab_apply x shapeCasts_S1x1x256_S1x256 0 c
theorem pay6_apply (x : Vec Ideal S1x1x256 .f32) (c : Fin 256) :
    k0_pay6 (F := Ideal) x (ix2 (0 : Fin 1) c) = x (ix3 (0 : Fin 1) (0 : Fin 1) c) :=
  shapeCast_1ab_ab_apply x shapeCasts_S1x1x256_S1x256 0 c
theorem pay7_apply (x : Vec Ideal S1x1x256 .f32) (c : Fin 256) :
    k0_pay7 (F := Ideal) x (ix2 (0 : Fin 1) c) = x (ix3 (0 : Fin 1) (0 : Fin 1) c) :=
  shapeCast_1ab_ab_apply x shapeCasts_S1x1x256_S1x256 0 c

/-- The 64 lanes from lane `64 l` on are layer `l`. -/
theorem slice_row (x : Vec Ideal S1x1x256 .f32) (pay : FVec Ideal S1x256 .f32)
    (hpay : ∀ c : Fin 256, pay (ix2 (0 : Fin 1) c) = x (ix3 (0 : Fin 1) (0 : Fin 1) c))
    (l : Fin 4) (o : ℕ) (ho : o = 64 * l.val) (h : S1x256.Slices ![0, o] S1x64) (d : Fin 64) :
    extractStridedSlice S1x64 ![0, o] pay h (ix2 (0 : Fin 1) d) = row x l d := by
  subst ho
  exact (slice2_axis1_apply (64 * l.val) pay h 0 d
    ⟨64 * l.val + d.val, by have := l.isLt; have := d.isLt; omega⟩ rfl).trans (hpay _)

/-- A lane sum kept as a one-element column, read at its index: the sum over the 64 lanes. -/
theorem lane_sum (src : FVec Ideal S1x64 .f32) (g : Fin 64 → EReal) (hg : ∀ d : Fin 64, src (ix2 (0 : Fin 1) d) = g d)
    (j : S1x1.Idx) :
    shapeCast S1x1 (multiReduction (F := Ideal) .add [1] S1 src 0x00000000#32 reduces_S1x64_S1 (.inl rfl) rfl)
        shapeCasts_S1_S1x1 j = ∑ d : Fin 64, g d := by
  obtain ⟨a, b, rfl⟩ : ∃ (a b : Fin 1), j = ix2 a b := ⟨j 0, j 1, eq_ix2 j⟩
  obtain rfl : a = 0 := Subsingleton.elim _ _
  obtain rfl : b = 0 := Subsingleton.elim _ _
  refine (shapeCast_a_1a_apply _ shapeCasts_S1_S1x1 0 0).trans ?_
  refine (Ideal.multiReduction_add_single src 0x00000000#32 reduces_S1x64_S1 (.inl rfl) rfl (ix1 (0 : Fin 1))).trans ?_
  refine Finset.sum_congr rfl fun d _ => (congrArg src ?_).trans (hg d)
  funext c
  match c with
  | ⟨0, _⟩ => rfl
  | ⟨1, _⟩ => rfl

/-! ## The pooled rows -/

/-- The negative-item row's four layers added onto a zero. -/
theorem pay8_apply (x : Vec Ideal S1x1x256 .f32) (d : Fin 64) :
    k0_pay8 (F := Ideal) x (ix2 (0 : Fin 1) d) = Ks (row x) d := by
  have e0 := slice_row x (k0_pay7 x) (pay7_apply x) 0 0 (by decide) slices_S1x256_o0_0_S1x64 d
  have e1 := slice_row x (k0_pay7 x) (pay7_apply x) 1 64 (by decide) slices_S1x256_o0_64_S1x64 d
  have e2 := slice_row x (k0_pay7 x) (pay7_apply x) 2 128 (by decide) slices_S1x256_o0_128_S1x64 d
  have e3 := slice_row x (k0_pay7 x) (pay7_apply x) 3 192 (by decide) slices_S1x256_o0_192_S1x64 d
  show (((Ideal.ofBits .f32 0x00000000#32
        + extractStridedSlice S1x64 ![0, 0] (k0_pay7 x) slices_S1x256_o0_0_S1x64 (ix2 (0 : Fin 1) d))
        + extractStridedSlice S1x64 ![0, 64] (k0_pay7 x) slices_S1x256_o0_64_S1x64 (ix2 (0 : Fin 1) d))
        + extractStridedSlice S1x64 ![0, 128] (k0_pay7 x) slices_S1x256_o0_128_S1x64 (ix2 (0 : Fin 1) d))
        + extractStridedSlice S1x64 ![0, 192] (k0_pay7 x) slices_S1x256_o0_192_S1x64 (ix2 (0 : Fin 1) d) = _
  rw [e0, e1, e2, e3, Ideal.ofBits_zero_f32]

/-- The user row's four layers added onto a zero, times 0.25. -/
theorem pay9_apply (x : Vec Ideal S1x1x256 .f32) (d : Fin 64) :
    k0_pay9 (F := Ideal) x (ix2 (0 : Fin 1) d) = Ks (row x) d * ((0.25 : ℝ) : EReal) := by
  have e0 := slice_row x (k0_pay5 x) (pay5_apply x) 0 0 (by decide) slices_S1x256_o0_0_S1x64 d
  have e1 := slice_row x (k0_pay5 x) (pay5_apply x) 1 64 (by decide) slices_S1x256_o0_64_S1x64 d
  have e2 := slice_row x (k0_pay5 x) (pay5_apply x) 2 128 (by decide) slices_S1x256_o0_128_S1x64 d
  have e3 := slice_row x (k0_pay5 x) (pay5_apply x) 3 192 (by decide) slices_S1x256_o0_192_S1x64 d
  show ((((Ideal.ofBits .f32 0x00000000#32
        + extractStridedSlice S1x64 ![0, 0] (k0_pay5 x) slices_S1x256_o0_0_S1x64 (ix2 (0 : Fin 1) d))
        + extractStridedSlice S1x64 ![0, 64] (k0_pay5 x) slices_S1x256_o0_64_S1x64 (ix2 (0 : Fin 1) d))
        + extractStridedSlice S1x64 ![0, 128] (k0_pay5 x) slices_S1x256_o0_128_S1x64 (ix2 (0 : Fin 1) d))
        + extractStridedSlice S1x64 ![0, 192] (k0_pay5 x) slices_S1x256_o0_192_S1x64 (ix2 (0 : Fin 1) d))
        * Ideal.ofBits .f32 0x3E800000#32 = _
  rw [e0, e1, e2, e3, Ideal.ofBits_zero_f32, Cert.BprAlgebra.ofBits_quarter]

/-- The positive-item row's four layers added onto a zero, times 0.25. -/
theorem pay10_apply (x : Vec Ideal S1x1x256 .f32) (d : Fin 64) :
    k0_pay10 (F := Ideal) x (ix2 (0 : Fin 1) d) = Ks (row x) d * ((0.25 : ℝ) : EReal) := by
  have e0 := slice_row x (k0_pay6 x) (pay6_apply x) 0 0 (by decide) slices_S1x256_o0_0_S1x64 d
  have e1 := slice_row x (k0_pay6 x) (pay6_apply x) 1 64 (by decide) slices_S1x256_o0_64_S1x64 d
  have e2 := slice_row x (k0_pay6 x) (pay6_apply x) 2 128 (by decide) slices_S1x256_o0_128_S1x64 d
  have e3 := slice_row x (k0_pay6 x) (pay6_apply x) 3 192 (by decide) slices_S1x256_o0_192_S1x64 d
  show ((((Ideal.ofBits .f32 0x00000000#32
        + extractStridedSlice S1x64 ![0, 0] (k0_pay6 x) slices_S1x256_o0_0_S1x64 (ix2 (0 : Fin 1) d))
        + extractStridedSlice S1x64 ![0, 64] (k0_pay6 x) slices_S1x256_o0_64_S1x64 (ix2 (0 : Fin 1) d))
        + extractStridedSlice S1x64 ![0, 128] (k0_pay6 x) slices_S1x256_o0_128_S1x64 (ix2 (0 : Fin 1) d))
        + extractStridedSlice S1x64 ![0, 192] (k0_pay6 x) slices_S1x256_o0_192_S1x64 (ix2 (0 : Fin 1) d))
        * Ideal.ofBits .f32 0x3E800000#32 = _
  rw [e0, e1, e2, e3, Ideal.ofBits_zero_f32, Cert.BprAlgebra.ofBits_quarter]

/-- The splat of 0.25. -/
theorem pay11_apply (i : S1x64.Idx) : k0_pay11 (F := Ideal) i = ((0.25 : ℝ) : EReal) :=
  Cert.BprAlgebra.ofBits_quarter

/-! ## The loss accumulator's step -/

/-- The loss step on scalars, the zero constant a parameter: `L + (Z - sp (Z - o))` with softplus spelled through `Z`. -/
def lossRaw (Z o L : EReal) : EReal :=
  L + (Z - (if Ideal.cmp .one ((Z - o) - Z) ((Z - o) - Z) = 1 then (Z - o) + Z
    else max (Z - o) Z + Ideal.log1p (Ideal.exp (Z - max ((Z - o) - Z) (-((Z - o) - Z))))))

/-- (1) The loss accumulator after a point: what it held plus minus the softplus of minus the triplet's score. -/
theorem lossStep_apply (u p n : Vec Ideal S1x1x256 .f32) (L : Vec Ideal S1x1 .f32) (j : S1x1.Idx) :
    lossStep (F := Ideal) u p n L j = L j + (0 - spK (0 - scoreK (row u) (row p) (row n))) := by
  have hs := lane_sum (mulf (k0_pay9 u) (subf (k0_pay10 p) (mulf (k0_pay8 n) (k0_pay11 (F := Ideal)))))
    (fun d => (Ks (row u) d * ((0.25 : ℝ) : EReal)) * ((Ks (row p) d * ((0.25 : ℝ) : EReal)) - (Ks (row n) d * ((0.25 : ℝ) : EReal))))
    (fun d => by
      show k0_pay9 u (ix2 (0 : Fin 1) d) * (k0_pay10 p (ix2 (0 : Fin 1) d)
        - k0_pay8 n (ix2 (0 : Fin 1) d) * k0_pay11 (F := Ideal) (ix2 (0 : Fin 1) d)) = _
      rw [pay9_apply, pay10_apply, pay8_apply, pay11_apply]) j
  unfold lossStep k0_pay12
  refine (congrFun (shapeCast_self _ shapeCasts_S1x1_S1x1) j).trans ?_
  show lossRaw (Ideal.ofBits .f32 0x00000000#32)
    (shapeCast S1x1 (multiReduction (F := Ideal) .add [1] S1
      (mulf (k0_pay9 u) (subf (k0_pay10 p) (mulf (k0_pay8 n) (k0_pay11 (F := Ideal))))) 0x00000000#32
      reduces_S1x64_S1 (.inl rfl) rfl) shapeCasts_S1_S1x1 j) (L j) = _
  rw [hs, Ideal.ofBits_zero_f32]
  rfl

/-! ## The regularizer accumulator's step -/

/-- (2) The regularizer accumulator after a point: what it held plus half the squared norms of the three layer-0 rows. -/
theorem regStep_apply (u p n : Vec Ideal S1x1x256 .f32) (R : Vec Ideal S1x1 .f32) (j : S1x1.Idx) :
    regStep (F := Ideal) u p n R j = R j + regRow (row u 0) (row p 0) (row n 0) := by
  have eu := slice_row u (k0_pay5 u) (pay5_apply u) 0 0 (by decide) slices_S1x256_o0_0_S1x64
  have ep := slice_row p (k0_pay6 p) (pay6_apply p) 0 0 (by decide) slices_S1x256_o0_0_S1x64
  have en := slice_row n (k0_pay7 n) (pay7_apply n) 0 0 (by decide) slices_S1x256_o0_0_S1x64
  have su := lane_sum (mulf (extractStridedSlice S1x64 ![0, 0] (k0_pay5 u) slices_S1x256_o0_0_S1x64)
      (extractStridedSlice S1x64 ![0, 0] (k0_pay5 u) slices_S1x256_o0_0_S1x64))
    (fun d => row u 0 d * row u 0 d)
    (fun d => by
      show extractStridedSlice S1x64 ![0, 0] (k0_pay5 u) slices_S1x256_o0_0_S1x64 (ix2 (0 : Fin 1) d)
        * extractStridedSlice S1x64 ![0, 0] (k0_pay5 u) slices_S1x256_o0_0_S1x64 (ix2 (0 : Fin 1) d) = _
      rw [eu d]) j
  have sp := lane_sum (mulf (extractStridedSlice S1x64 ![0, 0] (k0_pay6 p) slices_S1x256_o0_0_S1x64)
      (extractStridedSlice S1x64 ![0, 0] (k0_pay6 p) slices_S1x256_o0_0_S1x64))
    (fun d => row p 0 d * row p 0 d)
    (fun d => by
      show extractStridedSlice S1x64 ![0, 0] (k0_pay6 p) slices_S1x256_o0_0_S1x64 (ix2 (0 : Fin 1) d)
        * extractStridedSlice S1x64 ![0, 0] (k0_pay6 p) slices_S1x256_o0_0_S1x64 (ix2 (0 : Fin 1) d) = _
      rw [ep d]) j
  have sn := lane_sum (mulf (extractStridedSlice S1x64 ![0, 0] (k0_pay7 n) slices_S1x256_o0_0_S1x64)
      (extractStridedSlice S1x64 ![0, 0] (k0_pay7 n) slices_S1x256_o0_0_S1x64))
    (fun d => row n 0 d * row n 0 d)
    (fun d => by
      show extractStridedSlice S1x64 ![0, 0] (k0_pay7 n) slices_S1x256_o0_0_S1x64 (ix2 (0 : Fin 1) d)
        * extractStridedSlice S1x64 ![0, 0] (k0_pay7 n) slices_S1x256_o0_0_S1x64 (ix2 (0 : Fin 1) d) = _
      rw [en d]) j
  unfold regStep k0_pay1
  refine (congrFun (shapeCast_self _ shapeCasts_S1x1_S1x1) j).trans ?_
  show R j + Ideal.ofBits .f32 0x3F000000#32
    * ((shapeCast S1x1 (multiReduction (F := Ideal) .add [1] S1
          (mulf (extractStridedSlice S1x64 ![0, 0] (k0_pay5 u) slices_S1x256_o0_0_S1x64)
            (extractStridedSlice S1x64 ![0, 0] (k0_pay5 u) slices_S1x256_o0_0_S1x64)) 0x00000000#32
          reduces_S1x64_S1 (.inl rfl) rfl) shapeCasts_S1_S1x1 j
        + shapeCast S1x1 (multiReduction (F := Ideal) .add [1] S1
          (mulf (extractStridedSlice S1x64 ![0, 0] (k0_pay6 p) slices_S1x256_o0_0_S1x64)
            (extractStridedSlice S1x64 ![0, 0] (k0_pay6 p) slices_S1x256_o0_0_S1x64)) 0x00000000#32
          reduces_S1x64_S1 (.inl rfl) rfl) shapeCasts_S1_S1x1 j)
      + shapeCast S1x1 (multiReduction (F := Ideal) .add [1] S1
          (mulf (extractStridedSlice S1x64 ![0, 0] (k0_pay7 n) slices_S1x256_o0_0_S1x64)
            (extractStridedSlice S1x64 ![0, 0] (k0_pay7 n) slices_S1x256_o0_0_S1x64)) 0x00000000#32
          reduces_S1x64_S1 (.inl rfl) rfl) shapeCasts_S1_S1x1 j) = _
  rw [su, sp, sn, Cert.BprAlgebra.ofBits_half]
  rfl

/-! ## The result and the reset values -/

/-- The named constant is the table's rational. -/
theorem wd_named : Named.named (F := Ideal) Cert.KernelIdeal.κ "wd_over_u" (φ := .f32) 0x3089705F#32 = Cert.BprAlgebra.κ :=
  IdealRules.named_const.ideal_named_scalar _ _ _ _ rfl

/-- (3) The result written at the last point: minus the loss accumulator plus the constant times the regularizer
    accumulator. -/
theorem outVal_apply (L R : Vec Ideal S1x1 .f32) (j : S1x1.Idx) :
    outVal (F := Ideal) L R j = (0 - L j) + Cert.BprAlgebra.κ * R j := by
  show (Ideal.ofBits .f32 0x00000000#32 - L j)
    + Named.named (F := Ideal) Cert.KernelIdeal.κ "wd_over_u" (φ := .f32) 0x3089705F#32 * R j = _
  rw [Ideal.ofBits_zero_f32, wd_named]

/-- (4) Both accumulators are reset to zero. -/
theorem zeroL_apply (j : S1x1.Idx) : zeroL (F := Ideal) j = 0 := by
  unfold zeroL k0_pay3
  exact (congrFun (shapeCast_self _ shapeCasts_S1x1_S1x1) j).trans Ideal.ofBits_zero_f32
theorem zeroR_apply (j : S1x1.Idx) : zeroR (F := Ideal) j = 0 := by
  unfold zeroR k0_pay4
  exact (congrFun (shapeCast_self _ shapeCasts_S1x1_S1x1) j).trans Ideal.ofBits_zero_f32

end Cert.KernelIdeal.Hand

end
-- ==== Proof.LibRowGather.lean ====
/-
  Rows picked and rows accumulated through an integer index column.

  A gather whose start indices form a column `[E, 1]` and whose slices are whole rows reads, at `(e, c)`, the operand's
  row number `idx (e, 0)` — the word read as a signed integer and clamped into `[0, N - 1]` — at column `c`. An
  accumulating scatter with the same index column sends update row `e` to the operand row whose number is that signed
  integer, NOT clamped, and drops the row when the number is negative or at least `N`; so the result at `(v, c)` is
  the operand there plus the sum of the updates `(e, c)` over the edges `e` whose integer is exactly `v`. The same two
  readings hold for a flat operand `[N]` (no column coordinate). Stated for any extents `N`, `E`, `C`.
-/
import Idealize.ShloMosaic.Lib.ValueIdx
import Idealize.ShloMosaic.PureOps.Ideal.Laws

open scoped BigOperators

noncomputable section

namespace Cert.RowIndex

open Idealize.ShloMosaic Idealize.ShloMosaic.ValueIdx

variable {α : Type}

/-- A start index read as a signed integer and clamped into `[0, N - 1]`. -/
def clampRow (N : Nat) (hN : 0 < N) {w : Nat} (b : BitVec w) : Fin N :=
  ⟨min b.toInt.toNat (N - 1), by omega⟩

/-! ## Gathering whole rows of an `[N, C]` operand -/

/-- The dimension numbers of "row `idx (e, 0)` of the operand, whole": offset axis 1, collapsed axis 0, the start
    index names axis 0, the index vector is the column's unit axis. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER AT `(e, c)`: the operand at the clamped row and the same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (clampRow N hN (idx (ix2 e (0 : Fin 1)))) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have hst : (rowGather N E C wf).start (ix2 e c) idx 1 = 0 := by
      unfold GatherDims.start
      rw [dif_neg (show (1 : Fin 2) ∉ (rowGather N E C wf).startIndexMap from
        fun h => absurd (congrArg Fin.val (List.mem_singleton.mp h)) Nat.one_ne_zero)]
    have hof : (rowGather N E C wf).offCoord (ix2 e c) 1 = c.val := by
      unfold GatherDims.offCoord
      rw [dif_pos ((GatherDims.mem_sKept _ _).mpr
        ⟨fun h => absurd (congrArg Fin.val (List.mem_singleton.mp h)) Nat.one_ne_zero, List.not_mem_nil⟩)]
      rfl
    rw [hst, hof]
    omega

/-! ## Gathering entries of a flat `[N]` operand -/

/-- The dimension numbers of "entry `idx (e, 0)` of a flat operand". -/
abbrev flatGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the operand at the clamped entry. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGather N E wf) x idx (ix1 e) = x (ix1 (clampRow N hN (idx (ix2 e (0 : Fin 1))))) := by
  unfold Host.gather
  congr 1
  funext a
  obtain rfl : a = 0 := Subsingleton.elim _ _
  refine Fin.ext ?_
  show (flatGather N E wf).start (ix1 e) idx 0 + (flatGather N E wf).batchCoord (ix1 e) 0
    + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.RowIndex

end
-- ==== Proof.LibScatter.lean ====
/-
  A host `stablehlo.scatter` whose body returns the update (`x.at[…].set(u)`), read at an index. The scatter is the
  left fold, over the update indices in row-major order, of "replace the element at this update's result index"; an
  operand index that exactly one update index lands on holds that update's element, one that none lands on keeps the
  operand's. With every start index zero an update index lands at its window coordinates.
-/
import Idealize.ShloMosaic.PureOps.ShapeOps
import Idealize.ShloMosaic.Lib.ValueIdx

noncomputable section

namespace Cert.LibScatter

open Idealize.ShloMosaic

variable {α : Type} {s si u : Shape} {w : Nat}

/-- One step of the scatter's fold: update number `n` replaces the element at its result index, if it has one. -/
def step (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

/-- The scatter is the fold of `step`. -/
theorem scatter_eq_foldl (d : ScatterDims s si u) (f : α → α → α) (x : s.Idx → α) (idx : IVec si w) (upd : u.Idx → α) :
    Host.scatter d f x idx upd = (List.finRange u.numel).foldl (step d f idx upd) x := rfl

/-- A step whose update lands elsewhere leaves the element at `i`. -/
theorem step_miss (d : ScatterDims s si u) (f : α → α → α) (idx : IVec si w) (upd : u.Idx → α) (r : s.Idx → α)
    (n : Fin u.numel) (i : s.Idx) (h : d.resultIdx? (u.rowMajor.symm n) idx ≠ some i) : step d f idx upd r n i = r i := by
  unfold step
  generalize d.resultIdx? (u.rowMajor.symm n) idx = o at h
  cases o with
  | none => rfl
  | some i0 =>
    show (if i = i0 then _ else r i) = r i
    rw [if_neg]
    intro e
    exact h (by rw [e])

/-- A step whose update lands on `i` and whose body returns the update puts the update's element there. -/
theorem step_hit (d : ScatterDims s si u) (idx : IVec si w) (upd : u.Idx → α) (r : s.Idx → α)
    (n : Fin u.numel) (i : s.Idx) (h : d.resultIdx? (u.rowMajor.symm n) idx = some i) :
    step d (fun _ b => b) idx upd r n i = upd (u.rowMajor.symm n) := by
  unfold step
  rw [h]
  show (if i = i then _ else r i) = _
  rw [if_pos rfl]

/-- Steps none of which lands on `i` leave the element at `i`. -/
theorem foldl_step_miss (d : ScatterDims s si u) (f : α → α → α) (idx : IVec si w) (upd : u.Idx → α) (i : s.Idx) :
    ∀ (L : List (Fin u.numel)) (r : s.Idx → α), (∀ n ∈ L, d.resultIdx? (u.rowMajor.symm n) idx ≠ some i) →
      L.foldl (step d f idx upd) r i = r i
  | [], _, _ => rfl
  | n :: L, r, h => by
    rw [List.foldl_cons, foldl_step_miss d f idx upd i L _ fun m hm => h m (List.mem_cons_of_mem _ hm)]
    exact step_miss d f idx upd r n i (h n List.mem_cons_self)

/-- Steps exactly one of which, number `n0`, lands on `i` leave update `n0`'s element there. -/
theorem foldl_step_hit (d : ScatterDims s si u) (idx : IVec si w) (upd : u.Idx → α) (i : s.Idx) (n0 : Fin u.numel)
    (h0 : d.resultIdx? (u.rowMajor.symm n0) idx = some i) :
    ∀ (L : List (Fin u.numel)) (r : s.Idx → α), L.Nodup → n0 ∈ L →
      (∀ n ∈ L, d.resultIdx? (u.rowMajor.symm n) idx = some i → n = n0) →
      L.foldl (step d (fun _ b => b) idx upd) r i = upd (u.rowMajor.symm n0)
  | [], _, _, hm, _ => absurd hm List.not_mem_nil
  | n :: L, r, hnd, hm, huniq => by
    rw [List.foldl_cons]
    by_cases hn : n = n0
    · subst hn
      have hmiss : ∀ m ∈ L, d.resultIdx? (u.rowMajor.symm m) idx ≠ some i := fun m hmL hres => by
        have e := huniq m (List.mem_cons_of_mem _ hmL) hres
        subst e
        exact (List.nodup_cons.mp hnd).1 hmL
      rw [foldl_step_miss d _ idx upd i L _ hmiss]
      exact step_hit d idx upd r n i h0
    · have hm' : n0 ∈ L := (List.mem_cons.mp hm).resolve_left fun e => hn e.symm
      exact foldl_step_hit d idx upd i n0 h0 L _ (List.nodup_cons.mp hnd).2 hm'
        fun m hmL => huniq m (List.mem_cons_of_mem _ hmL)

/-- An operand index no update index lands on keeps the operand's element. -/
theorem scatter_apply_of_miss (d : ScatterDims s si u) (f : α → α → α) (x : s.Idx → α) (idx : IVec si w) (upd : u.Idx → α)
    (i : s.Idx) (h : ∀ j, d.resultIdx? j idx ≠ some i) : Host.scatter d f x idx upd i = x i := by
  rw [scatter_eq_foldl]
  exact foldl_step_miss d f idx upd i _ x fun n _ => h _

/-- An operand index exactly one update index `j` lands on holds, after a scatter whose body returns the update, the
    update's element at `j`. -/
theorem scatter_set_apply_of_hit (d : ScatterDims s si u) (x : s.Idx → α) (idx : IVec si w) (upd : u.Idx → α)
    (i : s.Idx) (j : u.Idx) (hj : d.resultIdx? j idx = some i) (huniq : ∀ j', d.resultIdx? j' idx = some i → j' = j) :
    Host.scatter d (fun _ b => b) x idx upd i = upd j := by
  rw [scatter_eq_foldl]
  have e : u.rowMajor.symm (u.rowMajor j) = j := u.rowMajor.symm_apply_apply j
  have h := foldl_step_hit d idx upd i (u.rowMajor j) (by rw [e]; exact hj) (List.finRange u.numel) x
    (List.nodup_finRange _) (List.mem_finRange _) fun n _ hn => by
      have := huniq _ hn
      exact (Equiv.symm_apply_eq _).mp this
  rw [h, e]

/-! ## Where an update index lands when every start index is zero -/

/-- With every word of the scatter indices zero, every window starts at zero. -/
theorem start_eq_zero (d : ScatterDims s si u) (j : u.Idx) (idx : IVec si w) (hidx : ∀ k, idx k = 0#w) (a : Fin s.rank) :
    d.start j idx a = 0 := by
  unfold ScatterDims.start
  split
  · rw [hidx]; exact BitVec.toInt_zero
  · rfl

/-- Then update index `j` lands at its window coordinates, which are inside the operand. -/
theorem resultIdx?_of_zero (d : ScatterDims s si u) (j : u.Idx) (idx : IVec si w) (hidx : ∀ k, idx k = 0#w)
    (i : s.Idx) (hi : ∀ a, (i a).val = d.window j a) : d.resultIdx? j idx = some i := by
  unfold ScatterDims.resultIdx?
  have hc : ∀ a, 0 ≤ d.start j idx a + d.window j a ∧ d.start j idx a + d.window j a < s.size a := fun a => by
    rw [start_eq_zero d j idx hidx a, ← hi a]
    have := (i a).isLt
    omega
  rw [dif_pos hc]
  congr 1
  funext a
  refine Fin.ext ?_
  show (d.start j idx a + d.window j a).toNat = (i a).val
  rw [start_eq_zero d j idx hidx a, hi a]
  omega

end Cert.LibScatter

end
-- ==== Proof.LibDiagScatterTake.lean ====
/-
  Three shape operations read at an index, and the words they read.

  * A scatter of one element per row of a square array, window `r` landing at `(idx[r, 0], idx[r, 1])`: when both index
    words of every row read the row's own number, the result is the update on the diagonal and the operand elsewhere.
  * A gather along axis 1 with axis 0 a batching axis (one element per row, the column read off the start indices):
    the operand at `(r, idx[r, 0, 0])`, the column read signed and clamped.
  * A reduction by `and` of an array of ones from one is one.
  * A word `BitVec.ofNat 32 n` with `n < 2 ^ 31` reads `n` signed, and the wrap of a negative index
    `select (i < 0) (i + d) i` leaves a word that reads non-negative unchanged.
-/
import Idealize.ShloMosaic.Lib.ValueIdx
import Idealize.ShloMosaic.Lib.DynamicIndex
import Idealize.ShloMosaic.Lib.ReduceAll
import proofs.«165248_j20779051778107_2_alg».proof.Proof.LibScatter

noncomputable section

namespace Cert.RefIdxLib

open Idealize.ShloMosaic Idealize.ShloMosaic.ValueIdx

/-! ## Words -/

/-- The wrap of a negative index leaves a word that reads non-negative unchanged. -/
theorem wrap_of_nonneg (x d : BitVec 32) (h : 0 ≤ x.toInt) :
    Scalar.select (IntOp.cmpi .slt x 0#32) (IntOp.addi x d) x = x := by
  have hc : ¬ IntOp.cmpi .slt x 0#32 = 1#1 := by
    rw [IntOp.cmpi_slt, BitVec.toInt_zero]; omega
  rw [eq_zero_of_ne_one hc, select_zero]

/-- The wrap of a negative index at the word of a number below `2 ^ 31` is that word. -/
theorem wrap_ofNat (n : Nat) (hn : n < 2 ^ 31) (d : BitVec 32) :
    Scalar.select (IntOp.cmpi .slt (BitVec.ofNat 32 n) 0#32) (IntOp.addi (BitVec.ofNat 32 n) d) (BitVec.ofNat 32 n)
      = BitVec.ofNat 32 n :=
  wrap_of_nonneg _ d (by rw [toInt_ofNat_of_lt hn]; omega)

/-- The sum of two number words is the word of the sum. -/
theorem addi_ofNat (a b : Nat) : IntOp.addi (BitVec.ofNat 32 a) (BitVec.ofNat 32 b) = BitVec.ofNat 32 (a + b) :=
  (BitVec.ofNat_add a b).symm

/-! ## A reduction by `and` of ones -/

/-- A left fold by `and` from one over ones is one. -/
theorem foldl_andi_all_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_all_one f l fun n hn => h n (List.mem_cons_of_mem _ hn)

/-- A reduction by `and`, from one, of an array whose every element is one is one at every index. -/
theorem reduce_andi_of_all_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_all_one x _ fun i _ => hx i

/-! ## The scatter of one element per row of a square array -/

section Diag
variable {α : Type} {w : Nat}

/-- The dimension numbers of `x.at[i, j].set(u)` for index vectors `i, j : [N]`: no window axes, both operand axes
    inserted, the two index words of row `r` of the scatter indices `[N, 2]` the two coordinates. -/
abbrev diagDims (N : Nat) (wf : ScatterDims.WF ⟨2, ![N, N]⟩ ⟨2, ![N, 2]⟩ ⟨1, ![N]⟩ [] [0, 1] [0, 1] 1) :
    ScatterDims ⟨2, ![N, N]⟩ ⟨2, ![N, 2]⟩ ⟨1, ![N]⟩ where
  updateWindowDims := []
  insertedWindowDims := [0, 1]
  scatterDimsToOperandDims := [0, 1]
  indexVectorDim := 1
  wf := wf

variable {N : Nat} (wf : ScatterDims.WF ⟨2, ![N, N]⟩ ⟨2, ![N, 2]⟩ ⟨1, ![N]⟩ [] [0, 1] [0, 1] 1)

/-- Every window is one element: its coordinate is zero on both axes. -/
theorem diag_window (j : (⟨1, ![N]⟩ : Shape).Idx) (a : Fin 2) : (diagDims N wf).window j a = 0 := by
  unfold ScatterDims.window
  rw [dif_neg]
  intro h
  have : a ∉ (diagDims N wf).insertedWindowDims := by
    simpa [ScatterDims.sKept, Shape.kept, List.mem_filter, List.mem_finRange] using h
  apply this
  match a with
  | ⟨0, _⟩ => exact List.mem_cons_self
  | ⟨1, _⟩ => exact List.mem_cons_of_mem _ List.mem_cons_self

/-- The start of window `j` on axis 0 is the first index word of row `j`, read signed. -/
theorem diag_start0 (j : (⟨1, ![N]⟩ : Shape).Idx) (idx : IVec ⟨2, ![N, 2]⟩ w) :
    (diagDims N wf).start j idx 0 = (idx (ix2 (j 0) 0)).toInt := by
  unfold ScatterDims.start
  rw [dif_pos (show (0 : Fin 2) ∈ (diagDims N wf).scatterDimsToOperandDims from List.mem_cons_self)]
  have hsi : (diagDims N wf).siIdx j ⟨List.idxOf (0 : Fin 2) (diagDims N wf).scatterDimsToOperandDims,
      List.idxOf_lt_length_iff.2 List.mem_cons_self⟩ = ix2 (j 0) 0 := by
    funext b; refine Fin.ext ?_
    match b with
    | ⟨0, _⟩ => rfl
    | ⟨1, _⟩ => rfl
  rw [hsi]
  rfl

/-- The start of window `j` on axis 1 is the second index word of row `j`, read signed. -/
theorem diag_start1 (j : (⟨1, ![N]⟩ : Shape).Idx) (idx : IVec ⟨2, ![N, 2]⟩ w) :
    (diagDims N wf).start j idx 1 = (idx (ix2 (j 0) 1)).toInt := by
  unfold ScatterDims.start
  rw [dif_pos (show (1 : Fin 2) ∈ (diagDims N wf).scatterDimsToOperandDims from List.mem_cons_of_mem _ List.mem_cons_self)]
  have hsi : (diagDims N wf).siIdx j ⟨List.idxOf (1 : Fin 2) (diagDims N wf).scatterDimsToOperandDims,
      List.idxOf_lt_length_iff.2 (List.mem_cons_of_mem _ List.mem_cons_self)⟩ = ix2 (j 0) 1 := by
    funext b; refine Fin.ext ?_
    match b with
    | ⟨0, _⟩ => rfl
    | ⟨1, _⟩ => rfl
  rw [hsi]
  rfl

/-- Window `j` whose two index words read the coordinates `c0`, `c1` lands at `(c0, c1)`. -/
theorem diag_resultIdx? (j : (⟨1, ![N]⟩ : Shape).Idx) (idx : IVec ⟨2, ![N, 2]⟩ w) (c0 c1 : Fin N)
    (h0 : (idx (ix2 (j 0) 0)).toInt = c0.val) (h1 : (idx (ix2 (j 0) 1)).toInt = c1.val) :
    (diagDims N wf).resultIdx? j idx = some (ix2 c0 c1) := by
  unfold ScatterDims.resultIdx?
  have e0 : (diagDims N wf).start j idx 0 + (diagDims N wf).window j 0 = c0.val := by
    rw [diag_start0, diag_window, h0]; simp
  have e1 : (diagDims N wf).start j idx 1 + (diagDims N wf).window j 1 = c1.val := by
    rw [diag_start1, diag_window, h1]; simp
  have hc : ∀ a, 0 ≤ (diagDims N wf).start j idx a + (diagDims N wf).window j a ∧
      (diagDims N wf).start j idx a + (diagDims N wf).window j a < (⟨2, ![N, N]⟩ : Shape).size a := fun a => by
    match a with
    | ⟨0, _⟩ =>
      show 0 ≤ (diagDims N wf).start j idx 0 + (diagDims N wf).window j 0 ∧
        (diagDims N wf).start j idx 0 + (diagDims N wf).window j 0 < (N : Int)
      rw [e0]; have := c0.isLt; omega
    | ⟨1, _⟩ =>
      show 0 ≤ (diagDims N wf).start j idx 1 + (diagDims N wf).window j 1 ∧
        (diagDims N wf).start j idx 1 + (diagDims N wf).window j 1 < (N : Int)
      rw [e1]; have := c1.isLt; omega
  rw [dif_pos hc]
  congr 1
  funext a
  refine Fin.ext ?_
  match a with
  | ⟨0, _⟩ =>
    show ((diagDims N wf).start j idx 0 + (diagDims N wf).window j 0).toNat = c0.val
    rw [e0]; simp
  | ⟨1, _⟩ =>
    show ((diagDims N wf).start j idx 1 + (diagDims N wf).window j 1).toNat = c1.val
    rw [e1]; simp

/-- THE SCATTER READ AT `(r, j)`, when both index words of every row read the row's number: the update of row `r` on
    the diagonal, the operand off it. -/
theorem diag_scatter_apply (x : (⟨2, ![N, N]⟩ : Shape).Idx → α) (idx : IVec ⟨2, ![N, 2]⟩ w)
    (upd : (⟨1, ![N]⟩ : Shape).Idx → α) (hidx : ∀ (r : Fin N) (c : Fin 2), (idx (ix2 r c)).toInt = r.val) (r j : Fin N) :
    Host.scatter (diagDims N wf) (fun _ b => b) x idx upd (ix2 r j) = if j = r then upd (ix1 r) else x (ix2 r j) := by
  have hres : ∀ j' : (⟨1, ![N]⟩ : Shape).Idx, (diagDims N wf).resultIdx? j' idx = some (ix2 (j' 0) (j' 0)) :=
    fun j' => diag_resultIdx? wf j' idx (j' 0) (j' 0) (hidx _ 0) (hidx _ 1)
  by_cases h : j = r
  · subst h
    rw [if_pos rfl]
    refine Cert.LibScatter.scatter_set_apply_of_hit (diagDims N wf) x idx upd (ix2 j j) (ix1 j) (hres (ix1 j)) ?_
    intro j' hj'
    rw [hres j'] at hj'
    have e := congrFun (Option.some.inj hj') 0
    rw [eq_ix1 j']
    exact congrArg ix1 e
  · rw [if_neg h]
    refine Cert.LibScatter.scatter_apply_of_miss (diagDims N wf) _ x idx upd (ix2 r j) ?_
    intro j' hj'
    rw [hres j'] at hj'
    have e0 : j' 0 = r := congrFun (Option.some.inj hj') 0
    have e1 : j' 0 = j := congrFun (Option.some.inj hj') 1
    exact h (e1.symm.trans e0)

end Diag

/-! ## The gather of one element per row along axis 1 -/

section TakeAlong
variable {α : Type} {w : Nat}

/-- The dimension numbers of `take_along_axis(x, idx, axis = 1)` for `x : [N, M]` and one index per row, the start
    indices as `[N, 1, 1]`: axis 0 a batching axis of both, axis 1 collapsed and named by the one index word. -/
abbrev takeAlongDims (N M : Nat)
    (wf : GatherDims.WF ⟨2, ![N, M]⟩ ⟨3, ![N, 1, 1]⟩ ⟨2, ![N, 1]⟩ [] [1] [0] [1] [0] 2 ![1, 1]) :
    GatherDims ⟨2, ![N, M]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- THE GATHER READ AT ROW `y 0`: the operand at that row and at the column the row's index word reads, signed and
    clamped into `[0, M − 1]`. -/
theorem gather_takeAlong_apply {N M : Nat} (hM : 0 < M)
    (wf : GatherDims.WF ⟨2, ![N, M]⟩ ⟨3, ![N, 1, 1]⟩ ⟨2, ![N, 1]⟩ [] [1] [0] [1] [0] 2 ![1, 1])
    (x : (⟨2, ![N, M]⟩ : Shape).Idx → α) (idx : IVec ⟨3, ![N, 1, 1]⟩ w) (y : (⟨2, ![N, 1]⟩ : Shape).Idx) :
    Host.gather (takeAlongDims N M wf) x idx y
      = x (ix2 (y 0) ⟨min (idx (ix3 (y 0) 0 0)).toInt.toNat (M - 1), by omega⟩) := by
  unfold Host.gather
  congr 1
  funext a
  refine Fin.ext ?_
  match a with
  | ⟨0, _⟩ =>
    show (takeAlongDims N M wf).start y idx 0 + (takeAlongDims N M wf).batchCoord y 0
      + (takeAlongDims N M wf).offCoord y 0 = (y 0).val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (takeAlongDims N M wf).operandBatchingDims from List.mem_singleton.mpr rfl)]
    rfl
  | ⟨1, _⟩ =>
    show (takeAlongDims N M wf).start y idx 1 + (takeAlongDims N M wf).batchCoord y 1
      + (takeAlongDims N M wf).offCoord y 1 = min (idx (ix3 (y 0) 0 0)).toInt.toNat (M - 1)
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeAlongDims N M wf).startIndexMap from List.mem_singleton.mpr rfl)]
    have hsi : (takeAlongDims N M wf).siIdx y ⟨List.idxOf (1 : Fin 2) (takeAlongDims N M wf).startIndexMap,
        List.idxOf_lt_length_iff.2 (List.mem_singleton.mpr rfl)⟩ = ix3 (y 0) 0 0 := by
      funext b
      match b with
      | ⟨0, _⟩ => exact Fin.ext rfl
      | ⟨1, _⟩ => exact Subsingleton.elim (α := Fin 1) _ _
      | ⟨2, _⟩ => exact Fin.ext rfl
    rw [hsi]
    rfl

end TakeAlong

end Cert.RefIdxLib

end
-- ==== Proof.RefGather.lean ====
/-
  The reference's row gathers read at an index. Each batch row is taken from a table through an index column: the index
  word, a negative one first wrapped by the table's height, placed as a column, then a whole-row gather, which reads the
  word signed and clamps it into the table. For an index word whose unsigned reading is below the table's height all of
  this is the identity on the index: the gather at `(b, d)` is the table at row `a b`, column `d`.
-/
import proofs.«165248_j20779051778107_2_alg».proof.Proof.Gen.ReferenceIdeal
import proofs.«165248_j20779051778107_2_alg».proof.Proof.LibRowGather
import proofs.«165248_j20779051778107_2_alg».proof.Proof.LibDiagScatterTake
import proofs.«165248_j20779051778107_2_alg».proof.Proof.LibBroadcastInDim
import Idealize.ShloMosaic.Lib.ValueIdx

noncomputable section

namespace Cert.ReferenceIdeal.RefRead

open Idealize.ShloMosaic Idealize.ShloMosaic.ValueIdx
open Cert.ReferenceIdeal Cert.ReferenceIdeal.Gen

variable {α : Type}

/-- A 32-bit word whose unsigned reading is below `2 ^ 31` reads the same signed. -/
theorem toInt_of_toNat_lt (x : BitVec 32) (h : x.toNat < 2 ^ 31) : x.toInt = (x.toNat : ℤ) := by
  rw [BitVec.toInt_eq_toNat_cond]
  split <;> omega

/-- The clamp of a word whose unsigned reading is below the height is that reading. -/
theorem clampRow_of_lt (N : ℕ) (hN : 0 < N) (hN' : N ≤ 2 ^ 31) (x : BitVec 32) (h : x.toNat < N) :
    Cert.RowIndex.clampRow N hN x = ⟨x.toNat, h⟩ := by
  refine Fin.ext ?_
  show min x.toInt.toNat (N - 1) = x.toNat
  rw [toInt_of_toNat_lt x (by omega), Int.toNat_natCast]
  omega

/-- The wrapped index column read at `(b, 0)`, for an index word that reads non-negative: the word itself. -/
theorem wrapCol_apply (N : BitVec 32) (a : IVec S4096 32) (b : Fin 4096) (h : (a (ix1 b)).toNat < 2 ^ 31) :
    broadcastInDim S4096x1 ![0] bcast_S4096_S4096x1_0
      (select (cmpi .slt a (broadcastInDim S4096 ![] bcast_S_S4096 (constantI S_ 32 0#32)))
        (addi a (broadcastInDim S4096 ![] bcast_S_S4096 (constantI S_ 32 N))) a) (ix2 b (0 : Fin 1))
      = a (ix1 b) := by
  rw [Cert.BroadcastInDim.column_apply]
  show Scalar.select (IntOp.cmpi .slt (a (ix1 b)) 0#32) (IntOp.addi (a (ix1 b)) N) (a (ix1 b)) = a (ix1 b)
  exact Cert.RefIdxLib.wrap_of_nonneg _ _ (by rw [toInt_of_toNat_lt _ h]; omega)

/-- A row gather from a table of 100000 rows through an in-range index column, at `(b, d)`: the table at row `a b`. -/
theorem gather_user_apply (x : S100000x64.Idx → α) (a : IVec S4096 32) (h : ∀ i, (a i).toNat < 100000)
    (b : Fin 4096) (d : Fin 64) :
    Host.gather gather_S100000x64_S4096x1_S4096x64_1_0_n_n_0_1_164 x
      (broadcastInDim S4096x1 ![0] bcast_S4096_S4096x1_0
        (select (cmpi .slt a (broadcastInDim S4096 ![] bcast_S_S4096 (constantI S_ 32 0#32)))
          (addi a (broadcastInDim S4096 ![] bcast_S_S4096 (constantI S_ 32 100000#32))) a)) (ix2 b d)
      = x (ix2 (⟨(a (ix1 b)).toNat, h (ix1 b)⟩ : Fin 100000) d) := by
  refine (Cert.RowIndex.gather_rows_apply (N := 100000) (E := 4096) (C := 64) (by omega)
    Gen.gather_S100000x64_S4096x1_S4096x64_1_0_n_n_0_1_164_wf x _ b d).trans ?_
  rw [wrapCol_apply _ a b (by have := h (ix1 b); omega),
    clampRow_of_lt 100000 (by omega) (by omega) _ (h (ix1 b))]

/-- A row gather from a table of 200000 rows through an in-range index column, at `(b, d)`: the table at row `a b`. -/
theorem gather_item_apply (x : S200000x64.Idx → α) (a : IVec S4096 32) (h : ∀ i, (a i).toNat < 200000)
    (b : Fin 4096) (d : Fin 64) :
    Host.gather gather_S200000x64_S4096x1_S4096x64_1_0_n_n_0_1_164 x
      (broadcastInDim S4096x1 ![0] bcast_S4096_S4096x1_0
        (select (cmpi .slt a (broadcastInDim S4096 ![] bcast_S_S4096 (constantI S_ 32 0#32)))
          (addi a (broadcastInDim S4096 ![] bcast_S_S4096 (constantI S_ 32 200000#32))) a)) (ix2 b d)
      = x (ix2 (⟨(a (ix1 b)).toNat, h (ix1 b)⟩ : Fin 200000) d) := by
  refine (Cert.RowIndex.gather_rows_apply (N := 200000) (E := 4096) (C := 64) (by omega)
    Gen.gather_S200000x64_S4096x1_S4096x64_1_0_n_n_0_1_164_wf x _ b d).trans ?_
  rw [wrapCol_apply _ a b (by have := h (ix1 b); omega),
    clampRow_of_lt 200000 (by omega) (by omega) _ (h (ix1 b))]

end Cert.ReferenceIdeal.RefRead

end
-- ==== Proof.KRows.lean ====
/-
  The staged rows of the kernel are the reference's gathered rows.

  The two programs build the propagated layers by the same host operations, so the reference's layers are the kernel's.
  At a grid point the kernel stages row `a0 t` of the user stack and rows `a1 t`, `a2 t` of the item stack; a stack's
  lanes `64 l … 64 l + 63` are layer `l`; and the reference's gather of layer `l` at an in-range index reads that same row.
  So layer `l`, feature `d` of each staged row is the reference's gathered row of layer `l` at the batch entry, feature `d`.
-/
import proofs.«165248_j20779051778107_2_alg».proof.Proof.KHost
import proofs.«165248_j20779051778107_2_alg».proof.Proof.KBlock
import proofs.«165248_j20779051778107_2_alg».proof.Proof.KPay
import proofs.«165248_j20779051778107_2_alg».proof.Proof.RefGather
import proofs.«165248_j20779051778107_2_alg».proof.Proof.RefRunResult

set_option maxRecDepth 16384

noncomputable section

namespace Cert.Bridge

open Idealize.ShloMosaic Idealize.ShloMosaic.TcCoe Idealize.ShloMosaic.ValueIdx
open Idealize.SL.Sem
open Cert.KernelIdeal Cert.KernelIdeal.Gen Cert.KernelIdeal.Hand

/-! ## The reference's layers are the kernel's -/

section Layers
variable (a3 : FVec Ideal S100000x64 .f32) (a4 : FVec Ideal S200000x64 .f32) (a5 a6 : IVec S1000000 32)
  (a7 : FVec Ideal S1000000 .f32)

theorem U1_eq : Cert.ReferenceIdeal.RefRun.U1 a4 a5 a6 a7 = Hand.U1 (F := Ideal) a3 a4 a5 a6 a7 := rfl
theorem I1_eq : Cert.ReferenceIdeal.RefRun.I1 a4 a5 a6 a7 = Hand.I1 (F := Ideal) a3 a4 a5 a6 a7 := rfl
theorem U2_eq : Cert.ReferenceIdeal.RefRun.U2 a4 a5 a6 a7 = Hand.U2 (F := Ideal) a3 a4 a5 a6 a7 := rfl
theorem I2_eq : Cert.ReferenceIdeal.RefRun.I2 a4 a5 a6 a7 = Hand.I2 (F := Ideal) a3 a4 a5 a6 a7 := rfl
theorem U3_eq : Cert.ReferenceIdeal.RefRun.U3 a4 a5 a6 a7 = Hand.U3 (F := Ideal) a3 a4 a5 a6 a7 := rfl
theorem I3_eq : Cert.ReferenceIdeal.RefRun.I3 a4 a5 a6 a7 = Hand.I3 (F := Ideal) a3 a4 a5 a6 a7 := rfl

end Layers

/-! ## The stack read at a layer -/

section Stack
variable {α : Type}

/-- A stack of four blocks read at row `r` and lane `64 l + d`: block `l` at row `r`, column `d`. -/
theorem stack_layer {n : ℕ} (x : Fin 4 → (⟨2, ![n, 64]⟩ : Shape).Idx → α)
    (hc : Shape.Concatenates [(⟨2, ![n, 64]⟩ : Shape), ⟨2, ![n, 64]⟩, ⟨2, ![n, 64]⟩, ⟨2, ![n, 64]⟩] ⟨2, ![n, 256]⟩ 1)
    (hs : (⟨2, ![n, 256]⟩ : Shape).ShapeCasts ⟨3, ![n, 1, 256]⟩)
    (r : Fin n) (u : Fin 1) (l : Fin 4) (d : Fin 64) (j : Fin 256) (hj : j.val = 64 * l.val + d.val) :
    shapeCast ⟨3, ![n, 1, 256]⟩ (concatenate ⟨2, ![n, 256]⟩ 1
      [⟨⟨2, ![n, 64]⟩, x 0⟩, ⟨⟨2, ![n, 64]⟩, x 1⟩, ⟨⟨2, ![n, 64]⟩, x 2⟩, ⟨⟨2, ![n, 64]⟩, x 3⟩] hc) hs (ix3 r u j)
      = x l (ix2 r d) :=
  stack_read (x 0) (x 1) (x 2) (x 3) hc hs r u j d l.val l.isLt (x l) (by fin_cases l <;> rfl) hj

/-- A table read at a row named by a word depends on the word only. -/
theorem at_word {n : ℕ} (T : (⟨2, ![n, 64]⟩ : Shape).Idx → α) (w w' : BitVec 32) (hw : w.toNat < n) (hw' : w'.toNat < n)
    (e : w = w') (d : Fin 64) : T (ix2 (⟨w.toNat, hw⟩ : Fin n) d) = T (ix2 (⟨w'.toNat, hw'⟩ : Fin n) d) := by
  subst e; rfl

end Stack

/-! ## The arguments, the layers as families, the buffers when the region is entered -/

variable (m : (ℓ : Loc nD τ sig) → Buf (Elt Ideal) ℓ) (c : Dev nD)

/-- The five arguments the host operations read, as launched. -/
abbrev A3 : FVec Ideal S100000x64 .f32 := m ((c : Thread nD τ).loc main_arg3)
abbrev A4 : FVec Ideal S200000x64 .f32 := m ((c : Thread nD τ).loc main_arg4)
abbrev A5 : IVec S1000000 32 := m ((c : Thread nD τ).loc main_arg5)
abbrev A6 : IVec S1000000 32 := m ((c : Thread nD τ).loc main_arg6)
abbrev A7 : FVec Ideal S1000000 .f32 := m ((c : Thread nD τ).loc main_arg7)

/-- The user table and the reference's three propagated user layers, by layer number. -/
def layU (l : Fin 4) : FVec Ideal S100000x64 .f32 :=
  match l with
  | ⟨0, _⟩ => A3 m c
  | ⟨1, _⟩ => Cert.ReferenceIdeal.RefRun.U1 (A4 m c) (A5 m c) (A6 m c) (A7 m c)
  | ⟨2, _⟩ => Cert.ReferenceIdeal.RefRun.U2 (A4 m c) (A5 m c) (A6 m c) (A7 m c)
  | ⟨3, _⟩ => Cert.ReferenceIdeal.RefRun.U3 (A4 m c) (A5 m c) (A6 m c) (A7 m c)

/-- The item table and the reference's three propagated item layers, by layer number. -/
def layI (l : Fin 4) : FVec Ideal S200000x64 .f32 :=
  match l with
  | ⟨0, _⟩ => A4 m c
  | ⟨1, _⟩ => Cert.ReferenceIdeal.RefRun.I1 (A4 m c) (A5 m c) (A6 m c) (A7 m c)
  | ⟨2, _⟩ => Cert.ReferenceIdeal.RefRun.I2 (A4 m c) (A5 m c) (A6 m c) (A7 m c)
  | ⟨3, _⟩ => Cert.ReferenceIdeal.RefRun.I3 (A4 m c) (A5 m c) (A6 m c) (A7 m c)

/-- The TensorCore buffers when the region is entered: the launch contents after the host operations. -/
abbrev VE (c : Dev nD) (b : Ref sig .tc) : Buf (Elt Ideal) ((c : Thread nD τ).loc b) :=
  StableHlo.after (Gen.hostOps0 (F := Ideal)) (fun b => m (c, b)) (Proc.devRef .tc b)

/-- The user stack when the region is entered, over the layer family. -/
theorem VE_v80 : VE m c main_v80 = shapeCast S100000x1x256 (concatenate S100000x256 1
      [⟨S100000x64, layU m c 0⟩, ⟨S100000x64, layU m c 1⟩, ⟨S100000x64, layU m c 2⟩, ⟨S100000x64, layU m c 3⟩]
      concatenates_S100000x64_S100000x64_S100000x64_S100000x64_S100000x256_d1) shapeCasts_S100000x256_S100000x1x256 :=
  V_v80 m c

/-- The item stack when the region is entered, over the layer family. -/
theorem VE_v81 : VE m c main_v81 = shapeCast S200000x1x256 (concatenate S200000x256 1
      [⟨S200000x64, layI m c 0⟩, ⟨S200000x64, layI m c 1⟩, ⟨S200000x64, layI m c 2⟩, ⟨S200000x64, layI m c 3⟩]
      concatenates_S200000x64_S200000x64_S200000x64_S200000x64_S200000x256_d1) shapeCasts_S200000x256_S200000x1x256 :=
  V_v81 m c

/-! ## The reference's gathered rows at an index -/

/-- The reference's rows of a 100000-row table at in-range batch indices, at `(b, d)`: the table at row `a b`. -/
theorem rowsU_apply (T : FVec Ideal S100000x64 .f32) (a0 : IVec S4096 32) (h0 : ∀ i, (a0 i).toNat < 100000)
    (b : Fin 4096) (d : Fin 64) :
    Cert.ReferenceIdeal.RefRun.rowsU T a0 (ix2 b d) = T (ix2 (⟨(a0 (ix1 b)).toNat, h0 (ix1 b)⟩ : Fin 100000) d) :=
  Cert.ReferenceIdeal.RefRead.gather_user_apply T a0 h0 b d

/-- The reference's rows of a 200000-row table at in-range batch indices, at `(b, d)`: the table at row `a b`. -/
theorem rowsI_apply (T : FVec Ideal S200000x64 .f32) (a1 : IVec S4096 32) (h1 : ∀ i, (a1 i).toNat < 200000)
    (b : Fin 4096) (d : Fin 64) :
    Cert.ReferenceIdeal.RefRun.rowsI T a1 (ix2 b d) = T (ix2 (⟨(a1 (ix1 b)).toNat, h1 (ix1 b)⟩ : Fin 200000) d) :=
  Cert.ReferenceIdeal.RefRead.gather_item_apply T a1 h1 b d

/-! ## The staged rows are the gathered rows -/

variable (a : (pcfg0 (F := Ideal)).Adm)

/-- The table position a point reads is the batch entry with the point's number. -/
theorem tix_eq (t : Fin (cfgA a).N) (b : Fin 4096) (hb : b.val = t.val) : tix a t = ix1 b :=
  congrArg (fun x : Fin 4096 => (ix1 x : S4096.Idx)) (Fin.ext hb.symm)

/-- WINDOW 0: layer `l`, feature `d` of the user row staged at point `t` is the reference's gathered row of user layer
    `l` at batch entry `t`, feature `d`. -/
theorem row_blk0 (a0 : IVec S4096 32) (e0 : ∀ i : S4096.Idx, (a.1 0 i : BitVec 32) = a0 i)
    (h0 : ∀ i, (a0 i).toNat < 100000) (t : Fin (cfgA a).N) (b : Fin 4096) (hb : b.val = t.val) (l : Fin 4) (d : Fin 64) :
    row (iblk a (VE m) c 0 t) l d = Cert.ReferenceIdeal.RefRun.rowsU (layU m c l) a0 (ix2 b d) := by
  rw [rowsU_apply _ a0 h0 b d]
  show iblk a (VE m) c 0 t (bix ⟨64 * l.val + d.val, by have := l.isLt; have := d.isLt; omega⟩) = _
  rw [iblk_0 a (VE m) c t, VE_v80 m c]
  refine (stack_layer (layU m c) _ _ _ _ l d _ rfl).trans ?_
  exact at_word (layU m c l) _ _ _ _ ((e0 _).trans (congrArg a0 (tix_eq a t b hb))) d

/-- WINDOW 1: the same for the item row staged through the second table, against the item layers. -/
theorem row_blk1 (a1 : IVec S4096 32) (e1 : ∀ i : S4096.Idx, (a.1 1 i : BitVec 32) = a1 i)
    (h1 : ∀ i, (a1 i).toNat < 200000) (t : Fin (cfgA a).N) (b : Fin 4096) (hb : b.val = t.val) (l : Fin 4) (d : Fin 64) :
    row (iblk a (VE m) c 1 t) l d = Cert.ReferenceIdeal.RefRun.rowsI (layI m c l) a1 (ix2 b d) := by
  rw [rowsI_apply _ a1 h1 b d]
  show iblk a (VE m) c 1 t (bix ⟨64 * l.val + d.val, by have := l.isLt; have := d.isLt; omega⟩) = _
  rw [iblk_1 a (VE m) c t, VE_v81 m c]
  refine (stack_layer (layI m c) _ _ _ _ l d _ rfl).trans ?_
  exact at_word (layI m c l) _ _ _ _ ((e1 _).trans (congrArg a1 (tix_eq a t b hb))) d

/-- WINDOW 2: the same for the item row staged through the third table. -/
theorem row_blk2 (a2 : IVec S4096 32) (e2 : ∀ i : S4096.Idx, (a.1 2 i : BitVec 32) = a2 i)
    (h2 : ∀ i, (a2 i).toNat < 200000) (t : Fin (cfgA a).N) (b : Fin 4096) (hb : b.val = t.val) (l : Fin 4) (d : Fin 64) :
    row (iblk a (VE m) c 2 t) l d = Cert.ReferenceIdeal.RefRun.rowsI (layI m c l) a2 (ix2 b d) := by
  rw [rowsI_apply _ a2 h2 b d]
  show iblk a (VE m) c 2 t (bix ⟨64 * l.val + d.val, by have := l.isLt; have := d.isLt; omega⟩) = _
  rw [iblk_2 a (VE m) c t, VE_v81 m c]
  refine (stack_layer (layI m c) _ _ _ _ l d _ rfl).trans ?_
  exact at_word (layI m c l) _ _ _ _ ((e2 _).trans (congrArg a2 (tix_eq a t b hb))) d

end Cert.Bridge

end
-- ==== Proof.KAcc.lean ====
/-
  The two accumulators point by point, at the ideal values: after the body at position `n` the loss accumulator holds
  the sum of the first `n + 1` triplets' loss terms and the regularizer accumulator the sum of their regularizer terms,
  each as the left fold that starts at zero; the result written at a point is minus the first plus the named constant
  times the second.
-/
import proofs.«165248_j20779051778107_2_alg».proof.Proof.KData
import proofs.«165248_j20779051778107_2_alg».proof.Proof.KPay

set_option maxRecDepth 16384

noncomputable section

namespace Cert.KernelIdeal.Hand

open Cert.KernelIdeal Cert.KernelIdeal.Gen
open Idealize.ShloMosaic Idealize.ShloMosaic.TcCoe
open Idealize.SL.Sem
open Cert.BprAlgebra (spK scoreK regRow acc acc_succ' acc_zero term_of_lt)

variable (a : (pcfg0 (F := Ideal)).Adm)
variable (Vv : (c : Dev nD) → (b : Ref sig .tc) → Buf (Elt Ideal) ((c : Thread nD τ).loc b))

/-- Triplet `t`'s loss term: minus the softplus of minus its score, from the three rows staged at point `t`. -/
def gL (c : Dev nD) : Fin (cfgA a).N → EReal := fun t =>
  0 - spK (0 - scoreK (row (iblk a Vv c 0 t)) (row (iblk a Vv c 1 t)) (row (iblk a Vv c 2 t)))

/-- Triplet `t`'s regularizer term: half the squared norms of the three layer-0 rows staged at point `t`. -/
def gR (c : Dev nD) : Fin (cfgA a).N → EReal := fun t =>
  regRow (row (iblk a Vv c 0 t) 0) (row (iblk a Vv c 1 t) 0) (row (iblk a Vv c 2 t) 0)

/-- After the body at position `n` each accumulator holds its left fold over the first `n + 1` points. -/
theorem accAt_apply (c : Dev nD) (n : ℕ) (hn : n < (cfgA a).N) (j : S1x1.Idx) :
    (accAt (F := Ideal) a Vv c n hn).1 j = acc (gL a Vv c) (n + 1)
      ∧ (accAt (F := Ideal) a Vv c n hn).2 j = acc (gR a Vv c) (n + 1) := by
  induction n generalizing j with
  | zero =>
    constructor
    · refine (lossStep_apply (iblk a Vv c 0 ⟨0, hn⟩) (iblk a Vv c 1 ⟨0, hn⟩) (iblk a Vv c 2 ⟨0, hn⟩) (zeroL (F := Ideal)) j).trans ?_
      rw [zeroL_apply, acc_succ', acc_zero, term_of_lt _ hn]
      rfl
    · refine (regStep_apply (iblk a Vv c 0 ⟨0, hn⟩) (iblk a Vv c 1 ⟨0, hn⟩) (iblk a Vv c 2 ⟨0, hn⟩) (zeroR (F := Ideal)) j).trans ?_
      rw [zeroR_apply, acc_succ', acc_zero, term_of_lt _ hn]
      rfl
  | succ n ih =>
    have ih' := ih (Nat.lt_of_succ_lt hn)
    constructor
    · refine (lossStep_apply (iblk a Vv c 0 ⟨n + 1, hn⟩) (iblk a Vv c 1 ⟨n + 1, hn⟩) (iblk a Vv c 2 ⟨n + 1, hn⟩)
        (accAt a Vv c n (Nat.lt_of_succ_lt hn)).1 j).trans ?_
      rw [(ih' j).1, acc_succ' (gL a Vv c) (n + 1), term_of_lt _ hn]
      rfl
    · refine (regStep_apply (iblk a Vv c 0 ⟨n + 1, hn⟩) (iblk a Vv c 1 ⟨n + 1, hn⟩) (iblk a Vv c 2 ⟨n + 1, hn⟩)
        (accAt a Vv c n (Nat.lt_of_succ_lt hn)).2 j).trans ?_
      rw [(ih' j).2, acc_succ' (gR a Vv c) (n + 1), term_of_lt _ hn]
      rfl

/-- The result written at point `t`: minus the loss fold plus the named constant times the regularizer fold. -/
theorem outAt_apply (c : Dev nD) (t : Fin (cfgA a).N) (j : S1x1.Idx) :
    outAt (F := Ideal) a Vv c t j
      = (0 - acc (gL a Vv c) (t.val + 1)) + Cert.BprAlgebra.κ * acc (gR a Vv c) (t.val + 1) := by
  have h := accAt_apply a Vv c t.val t.isLt j
  refine (outVal_apply _ _ j).trans ?_
  rw [h.1, h.2]

end Cert.KernelIdeal.Hand

end
-- ==== Proof.RefRead.lean ====
/-
  The reference's result read at its one index, stage by stage: the rows picked at the batch's indices from the four
  rounds' tables and summed are the four-layer sums; their quarter is the division by 4; the row-wise reduction onto a
  zero is the score; the outlined log-sigmoid is minus the softplus of minus it; the reductions over the batch and over
  batch and feature are sums onto a zero.
-/
import proofs.«165248_j20779051778107_2_alg».proof.Proof.RefRunResult
import proofs.«165248_j20779051778107_2_alg».proof.Proof.BprAlgebra
import proofs.«165248_j20779051778107_2_alg».proof.Proof.LibBroadcastInDim
import Idealize.ShloMosaic.Lib.ValueIdx
import Idealize.ShloMosaic.PureOps.Ideal.Laws

set_option maxRecDepth 16384

open scoped BigOperators

noncomputable section

namespace Cert.ReferenceIdeal.RefRead

open Idealize.ShloMosaic Idealize.ShloMosaic.ValueIdx
open Cert.ReferenceIdeal Cert.ReferenceIdeal.RefRun
open Cert.BprAlgebra (Rs spR scoreR)

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

/-! ## The rows of the four rounds' tables at the batch's indices -/

/-- The four rounds' 100000-row tables. -/
def tabU (a3 : FVec Ideal S100000x64 .f32) (a4 : FVec Ideal S200000x64 .f32) (a5 a6 : IVec S1000000 32)
    (a7 : FVec Ideal S1000000 .f32) : Fin 4 → FVec Ideal S100000x64 .f32 :=
  ![a3, U1 a4 a5 a6 a7, U2 a4 a5 a6 a7, U3 a4 a5 a6 a7]

/-- The four rounds' 200000-row tables. -/
def tabI (a4 : FVec Ideal S200000x64 .f32) (a5 a6 : IVec S1000000 32) (a7 : FVec Ideal S1000000 .f32) :
    Fin 4 → FVec Ideal S200000x64 .f32 :=
  ![a4, I1 a4 a5 a6 a7, I2 a4 a5 a6 a7, I3 a4 a5 a6 a7]

/-- Batch entry `b`'s row of round `l`'s 100000-row table, at feature `d`. -/
def rU (a0 : IVec S4096 32) (a3 : FVec Ideal S100000x64 .f32) (a4 : FVec Ideal S200000x64 .f32) (a5 a6 : IVec S1000000 32)
    (a7 : FVec Ideal S1000000 .f32) (b : Fin 4096) (l : Fin 4) (d : Fin 64) : EReal :=
  rowsU (tabU a3 a4 a5 a6 a7 l) a0 (ix2 b d)

/-- Batch entry `b`'s row of round `l`'s 200000-row table through the index array `a`, at feature `d`. -/
def rI (a : IVec S4096 32) (a4 : FVec Ideal S200000x64 .f32) (a5 a6 : IVec S1000000 32)
    (a7 : FVec Ideal S1000000 .f32) (b : Fin 4096) (l : Fin 4) (d : Fin 64) : EReal :=
  rowsI (tabI a4 a5 a6 a7 l) a (ix2 b d)

/-! ## The stages at an index -/

/-- The zero vector reads zero. -/
theorem zero4096_apply (i : S4096.Idx) : zero4096 i = 0 :=
  (Cert.BroadcastInDim.scalar_apply _ _ i).trans Ideal.ofBits_zero_f32

/-- The quarter at an index: the entry divided by the real 4. -/
theorem quarter_apply (x : FVec Ideal S4096x64 .f32) (i : S4096x64.Idx) : quarter x i = Ideal.div (x i) ((4 : ℝ) : EReal) :=
  congrArg (Ideal.div (x i)) ((Cert.BroadcastInDim.scalar_apply _ _ i).trans Cert.BprAlgebra.ofBits_four)

/-- The inner product at batch entry `b` is the score of its three four-layer rows. -/
theorem o_apply (a0 a1 a2 : IVec S4096 32) (a3 : FVec Ideal S100000x64 .f32) (a4 : FVec Ideal S200000x64 .f32)
    (a5 a6 : IVec S1000000 32) (a7 : FVec Ideal S1000000 .f32) (b : Fin 4096) :
    o a0 a1 a2 a3 a4 a5 a6 a7 (ix1 b)
      = scoreR (rU a0 a3 a4 a5 a6 a7 b) (rI a1 a4 a5 a6 a7 b) (rI a2 a4 a5 a6 a7 b) := by
  have hRed : S4096x64.Reduces [1] S4096 := by decide
  refine (Ideal.hostReduceAdd_single _ hRed _ _ (ix1 b)).trans ?_
  refine congrArg₂ (· + ·) Ideal.ofBits_zero_f32 (Finset.sum_congr rfl fun d _ => ?_)
  have hl : hRed.lift (ix1 b) d = ix2 b d := by
    funext c
    match c with
    | ⟨0, _⟩ => rfl
    | ⟨1, _⟩ => rfl
  rw [hl]
  show quarter (sumU a0 a3 a4 a5 a6 a7) (ix2 b d)
    * (quarter (sumI a1 a4 a5 a6 a7) (ix2 b d) - quarter (sumI a2 a4 a5 a6 a7) (ix2 b d)) = _
  rw [quarter_apply, quarter_apply, quarter_apply]
  rfl

/-- The outlined softplus at an index is the scalar softplus in the reference's spelling. -/
theorem softplus_apply (x : FVec Ideal S4096 .f32) (i : S4096.Idx) : RefRun.softplus x i = spR (x i) := by
  show (if Ideal.cmp .une (x i - zero4096 i) (x i - zero4096 i) = 1 then x i + zero4096 i
      else max (x i) (zero4096 i)
        + Ideal.log1p (Ideal.exp (-(max (x i - zero4096 i) (-(x i - zero4096 i)))))) = _
  rw [zero4096_apply]
  rfl

/-- The log-sigmoid of the inner product at batch entry `b`. -/
theorem ls_apply (a0 a1 a2 : IVec S4096 32) (a3 : FVec Ideal S100000x64 .f32) (a4 : FVec Ideal S200000x64 .f32)
    (a5 a6 : IVec S1000000 32) (a7 : FVec Ideal S1000000 .f32) (b : Fin 4096) :
    ls a0 a1 a2 a3 a4 a5 a6 a7 (ix1 b)
      = -(spR (-(scoreR (rU a0 a3 a4 a5 a6 a7 b) (rI a1 a4 a5 a6 a7 b) (rI a2 a4 a5 a6 a7 b)))) := by
  show -(RefRun.softplus (Host.negf (F := Ideal) (o a0 a1 a2 a3 a4 a5 a6 a7)) (ix1 b)) = _
  rw [softplus_apply]
  show -(spR (-(o a0 a1 a2 a3 a4 a5 a6 a7 (ix1 b)))) = _
  rw [o_apply]

/-- The loss: the log-sigmoids summed over the batch onto a zero. -/
theorem loss_apply (a0 a1 a2 : IVec S4096 32) (a3 : FVec Ideal S100000x64 .f32) (a4 : FVec Ideal S200000x64 .f32)
    (a5 a6 : IVec S1000000 32) (a7 : FVec Ideal S1000000 .f32) :
    loss a0 a1 a2 a3 a4 a5 a6 a7 ix0
      = 0 + ∑ b : Fin 4096, -(spR (-(scoreR (rU a0 a3 a4 a5 a6 a7 b) (rI a1 a4 a5 a6 a7 b) (rI a2 a4 a5 a6 a7 b)))) := by
  refine (Ideal.hostReduceAdd_total (t := S_) _ (fun b => b.elim0) _ _ ix0).trans ?_
  exact congrArg₂ (· + ·) Ideal.ofBits_zero_f32
    ((sum_idx1 _).trans (Finset.sum_congr rfl fun b _ => ls_apply a0 a1 a2 a3 a4 a5 a6 a7 b))

/-- The squared norm of the round-zero rows at `a0`: summed over batch and feature onto a zero. -/
theorem Su_apply (a0 : IVec S4096 32) (a3 : FVec Ideal S100000x64 .f32) (a4 : FVec Ideal S200000x64 .f32)
    (a5 a6 : IVec S1000000 32) (a7 : FVec Ideal S1000000 .f32) :
    Su a0 a3 ix0 = 0 + ∑ b : Fin 4096, ∑ d : Fin 64, rU a0 a3 a4 a5 a6 a7 b 0 d * rU a0 a3 a4 a5 a6 a7 b 0 d := by
  refine (Ideal.hostReduceAdd_total (t := S_) _ (fun b => b.elim0) _ _ ix0).trans ?_
  exact congrArg₂ (· + ·) Ideal.ofBits_zero_f32 (sum_idx2 _)

/-- The squared norm of the round-zero rows at the positive indices. -/
theorem Sp_apply (a1 : IVec S4096 32) (a4 : FVec Ideal S200000x64 .f32) (a5 a6 : IVec S1000000 32)
    (a7 : FVec Ideal S1000000 .f32) :
    Sp a1 a4 ix0 = 0 + ∑ b : Fin 4096, ∑ d : Fin 64, rI a1 a4 a5 a6 a7 b 0 d * rI a1 a4 a5 a6 a7 b 0 d := by
  refine (Ideal.hostReduceAdd_total (t := S_) _ (fun b => b.elim0) _ _ ix0).trans ?_
  exact congrArg₂ (· + ·) Ideal.ofBits_zero_f32 (sum_idx2 _)

/-- The squared norm of the round-zero rows at the negative indices. -/
theorem Sn_apply (a2 : IVec S4096 32) (a4 : FVec Ideal S200000x64 .f32) (a5 a6 : IVec S1000000 32)
    (a7 : FVec Ideal S1000000 .f32) :
    Sn a2 a4 ix0 = 0 + ∑ b : Fin 4096, ∑ d : Fin 64, rI a2 a4 a5 a6 a7 b 0 d * rI a2 a4 a5 a6 a7 b 0 d := by
  refine (Ideal.hostReduceAdd_total (t := S_) _ (fun b => b.elim0) _ _ ix0).trans ?_
  exact congrArg₂ (· + ·) Ideal.ofBits_zero_f32 (sum_idx2 _)

/-- THE RESULT at its one index: minus the summed log-sigmoids plus the constant times the halved, divided sum of the
    three squared norms. -/
theorem result_apply (a0 a1 a2 : IVec S4096 32) (a3 : FVec Ideal S100000x64 .f32) (a4 : FVec Ideal S200000x64 .f32)
    (a5 a6 : IVec S1000000 32) (a7 : FVec Ideal S1000000 .f32) :
    result a0 a1 a2 a3 a4 a5 a6 a7 ix0
      = (-(0 + ∑ b : Fin 4096, -(spR (-(scoreR (rU a0 a3 a4 a5 a6 a7 b) (rI a1 a4 a5 a6 a7 b) (rI a2 a4 a5 a6 a7 b))))))
        + Ideal.ofBits .f32 0x38D1B717#32
          * Ideal.div (((0.5 : ℝ) : EReal)
              * (((0 + ∑ b : Fin 4096, ∑ d : Fin 64, rU a0 a3 a4 a5 a6 a7 b 0 d * rU a0 a3 a4 a5 a6 a7 b 0 d)
                  + (0 + ∑ b : Fin 4096, ∑ d : Fin 64, rI a1 a4 a5 a6 a7 b 0 d * rI a1 a4 a5 a6 a7 b 0 d))
                + (0 + ∑ b : Fin 4096, ∑ d : Fin 64, rI a2 a4 a5 a6 a7 b 0 d * rI a2 a4 a5 a6 a7 b 0 d)))
            (Ideal.ofBits .f32 0x47C35000#32) := by
  show (-(loss a0 a1 a2 a3 a4 a5 a6 a7 ix0)) + Ideal.ofBits .f32 0x38D1B717#32
    * Ideal.div (Ideal.ofBits .f32 0x3F000000#32 * ((Su a0 a3 ix0 + Sp a1 a4 ix0) + Sn a2 a4 ix0))
        (Ideal.ofBits .f32 0x47C35000#32) = _
  rw [loss_apply, Su_apply a0 a3 a4 a5 a6 a7, Sp_apply a1 a4 a5 a6 a7, Sn_apply a2 a4 a5 a6 a7,
    Cert.BprAlgebra.ofBits_half]

end Cert.ReferenceIdeal.RefRead

end
-- ==== Proof.BprJoin.lean ====
/-
  The accumulated form of the ranking loss joined to its whole-array form: when the two sides read the same rows and
  the layer-0 rows are real numbers, "minus the folded loss terms plus the small constant times the folded regularizer
  terms" is "minus the loss terms summed onto a zero plus another constant times (half the sums of squares, divided by
  100000)".
-/
import proofs.«165248_j20779051778107_2_alg».proof.Proof.BprAlgebra

open scoped BigOperators

noncomputable section

namespace Cert.BprAlgebra

open Idealize.ShloMosaic Cert.GcnAlgebra

/-- THE JOIN: the accumulated form over rows `uK pK nK` is the whole-array form over rows `uR pR nR` when the rows agree
    entry by entry and the layer-0 rows are real. -/
theorem bpr_join {N : ℕ} (uK pK nK uR pR nR : Fin N → Fin 4 → Fin 64 → EReal)
    (hu : ∀ b l d, uK b l d = uR b l d) (hp : ∀ b l d, pK b l d = pR b l d) (hn : ∀ b l d, nK b l d = nR b l d)
    (hru : ∀ b d, IsReal (uR b 0 d)) (hrp : ∀ b d, IsReal (pR b 0 d)) (hrn : ∀ b d, IsReal (nR b 0 d)) :
    (0 - acc (fun b => 0 - spK (0 - scoreK (uK b) (pK b) (nK b))) N)
        + κ * acc (fun b => regRow (uK b 0) (pK b 0) (nK b 0)) N
      = (-(0 + ∑ b, -(spR (-(scoreR (uR b) (pR b) (nR b))))))
        + Ideal.ofBits .f32 0x38D1B717#32
          * Ideal.div (((0.5 : ℝ) : EReal)
              * (((0 + ∑ b, ∑ d, uR b 0 d * uR b 0 d) + (0 + ∑ b, ∑ d, pR b 0 d * pR b 0 d))
                + (0 + ∑ b, ∑ d, nR b 0 d * nR b 0 d)))
            (Ideal.ofBits .f32 0x47C35000#32) := by
  obtain rfl : uK = uR := funext fun b => funext fun l => funext fun d => hu b l d
  obtain rfl : pK = pR := funext fun b => funext fun l => funext fun d => hp b l d
  obtain rfl : nK = nR := funext fun b => funext fun l => funext fun d => hn b l d
  exact total_eq _ _ _ (fun b => row_loss_eq' (uK b) (pK b) (nK b))
    (reg_eq' (fun b => uK b 0) (fun b => pK b 0) (fun b => nK b 0) hru hrp hrn)

/-- THE JOIN across two index types of equal size: the accumulated form ranges over `Fin N` with `N = 4096`, the
    whole-array form over `Fin 4096`, and the rows agree at positions with the same number. -/
theorem bpr_join_cast {N : ℕ} (hN : N = 4096) (uK pK nK : Fin N → Fin 4 → Fin 64 → EReal)
    (uR pR nR : Fin 4096 → Fin 4 → Fin 64 → EReal)
    (hu : ∀ (t : Fin N) (b : Fin 4096), b.val = t.val → ∀ l d, uK t l d = uR b l d)
    (hp : ∀ (t : Fin N) (b : Fin 4096), b.val = t.val → ∀ l d, pK t l d = pR b l d)
    (hn : ∀ (t : Fin N) (b : Fin 4096), b.val = t.val → ∀ l d, nK t l d = nR b l d)
    (hru : ∀ b d, IsReal (uR b 0 d)) (hrp : ∀ b d, IsReal (pR b 0 d)) (hrn : ∀ b d, IsReal (nR b 0 d)) :
    (0 - acc (fun t => 0 - spK (0 - scoreK (uK t) (pK t) (nK t))) 4096)
        + κ * acc (fun t => regRow (uK t 0) (pK t 0) (nK t 0)) 4096
      = (-(0 + ∑ b : Fin 4096, -(spR (-(scoreR (uR b) (pR b) (nR b))))))
        + Ideal.ofBits .f32 0x38D1B717#32
          * Ideal.div (((0.5 : ℝ) : EReal)
              * (((0 + ∑ b : Fin 4096, ∑ d, uR b 0 d * uR b 0 d) + (0 + ∑ b : Fin 4096, ∑ d, pR b 0 d * pR b 0 d))
                + (0 + ∑ b : Fin 4096, ∑ d, nR b 0 d * nR b 0 d)))
            (Ideal.ofBits .f32 0x47C35000#32) := by
  subst hN
  exact bpr_join uK pK nK uR pR nR (fun b l d => hu b b rfl l d) (fun b l d => hp b b rfl l d)
    (fun b l d => hn b b rfl l d) hru hrp hrn

end Cert.BprAlgebra

end
-- ==== Proof.Join.lean ====
/-
  The kernel's accumulated value is the reference's result: at each grid point the three staged rows are the
  reference's gathered rows of the four layers at that batch entry, the table's entries are real numbers, and so the
  accumulated form of the loss joins its whole-array form.
-/
import proofs.«165248_j20779051778107_2_alg».proof.Proof.KRows
import proofs.«165248_j20779051778107_2_alg».proof.Proof.KAcc
import proofs.«165248_j20779051778107_2_alg».proof.Proof.KLaunch
import proofs.«165248_j20779051778107_2_alg».proof.Proof.RefRead
import proofs.«165248_j20779051778107_2_alg».proof.Proof.BprJoin

set_option maxRecDepth 16384

open scoped BigOperators

noncomputable section

namespace Cert.Bridge

open Idealize.ShloMosaic Idealize.ShloMosaic.TcCoe Idealize.ShloMosaic.ValueIdx
open Idealize.SL.Sem
open Cert.KernelIdeal Cert.KernelIdeal.Gen Cert.KernelIdeal.Hand
open Cert.GcnAlgebra (IsReal)

variable (m : (ℓ : Loc nD τ sig) → Buf (Elt Ideal) ℓ) (c : Dev nD)

/-- The three index arguments, as launched. -/
abbrev A0 : IVec S4096 32 := m ((c : Thread nD τ).loc main_arg0)
abbrev A1 : IVec S4096 32 := m ((c : Thread nD τ).loc main_arg1)
abbrev A2 : IVec S4096 32 := m ((c : Thread nD τ).loc main_arg2)

/-- The reference's table of round `l` is the layer family's. -/
theorem tabU_eq (l : Fin 4) :
    Cert.ReferenceIdeal.RefRead.tabU (A3 m c) (A4 m c) (A5 m c) (A6 m c) (A7 m c) l = layU m c l := by
  fin_cases l <;> rfl
theorem tabI_eq (l : Fin 4) :
    Cert.ReferenceIdeal.RefRead.tabI (A4 m c) (A5 m c) (A6 m c) (A7 m c) l = layI m c l := by
  fin_cases l <;> rfl

/-- THE VALUE: minus the folded loss terms plus the named constant times the folded regularizer terms, over the rows the
    kernel stages, is the reference's result of the launch arguments. -/
theorem value_eq (a : (pcfg0 (F := Ideal)).Adm)
    (e0 : ∀ i : S4096.Idx, (a.1 0 i : BitVec 32) = A0 m c i)
    (e1 : ∀ i : S4096.Idx, (a.1 1 i : BitVec 32) = A1 m c i)
    (e2 : ∀ i : S4096.Idx, (a.1 2 i : BitVec 32) = A2 m c i)
    (h0 : ∀ i, (A0 m c i).toNat < 100000) (h1 : ∀ i, (A1 m c i).toNat < 200000) (h2 : ∀ i, (A2 m c i).toNat < 200000)
    (r3 : ∀ i, IsReal (A3 m c i)) (r4 : ∀ i, IsReal (A4 m c i)) :
    (0 - Cert.BprAlgebra.acc (gL a (Hand.V m) c) 4096) + Cert.BprAlgebra.κ * Cert.BprAlgebra.acc (gR a (Hand.V m) c) 4096
      = Cert.ReferenceIdeal.RefRun.result (A0 m c) (A1 m c) (A2 m c) (A3 m c) (A4 m c) (A5 m c) (A6 m c) (A7 m c) ix0 := by
  refine Eq.trans ?_ (Cert.ReferenceIdeal.RefRead.result_apply (A0 m c) (A1 m c) (A2 m c) (A3 m c) (A4 m c) (A5 m c)
    (A6 m c) (A7 m c)).symm
  refine Cert.BprAlgebra.bpr_join_cast (N := (cfgA a).N) N_0
    (fun t => row (iblk a (Hand.V m) c 0 t)) (fun t => row (iblk a (Hand.V m) c 1 t)) (fun t => row (iblk a (Hand.V m) c 2 t))
    (Cert.ReferenceIdeal.RefRead.rU (A0 m c) (A3 m c) (A4 m c) (A5 m c) (A6 m c) (A7 m c))
    (Cert.ReferenceIdeal.RefRead.rI (A1 m c) (A4 m c) (A5 m c) (A6 m c) (A7 m c))
    (Cert.ReferenceIdeal.RefRead.rI (A2 m c) (A4 m c) (A5 m c) (A6 m c) (A7 m c)) ?_ ?_ ?_ ?_ ?_ ?_
  · intro t b hb l d
    refine (row_blk0 m c a (A0 m c) e0 h0 t b hb l d).trans ?_
    show _ = Cert.ReferenceIdeal.RefRun.rowsU (Cert.ReferenceIdeal.RefRead.tabU (A3 m c) (A4 m c) (A5 m c) (A6 m c) (A7 m c) l)
      (A0 m c) (ix2 b d)
    rw [tabU_eq]
  · intro t b hb l d
    refine (row_blk1 m c a (A1 m c) e1 h1 t b hb l d).trans ?_
    show _ = Cert.ReferenceIdeal.RefRun.rowsI (Cert.ReferenceIdeal.RefRead.tabI (A4 m c) (A5 m c) (A6 m c) (A7 m c) l)
      (A1 m c) (ix2 b d)
    rw [tabI_eq]
  · intro t b hb l d
    refine (row_blk2 m c a (A2 m c) e2 h2 t b hb l d).trans ?_
    show _ = Cert.ReferenceIdeal.RefRun.rowsI (Cert.ReferenceIdeal.RefRead.tabI (A4 m c) (A5 m c) (A6 m c) (A7 m c) l)
      (A2 m c) (ix2 b d)
    rw [tabI_eq]
  · intro b d
    show IsReal (Cert.ReferenceIdeal.RefRun.rowsU (A3 m c) (A0 m c) (ix2 b d))
    rw [rowsU_apply _ _ h0 b d]
    exact r3 _
  · intro b d
    show IsReal (Cert.ReferenceIdeal.RefRun.rowsI (A4 m c) (A1 m c) (ix2 b d))
    rw [rowsI_apply _ _ h1 b d]
    exact r4 _
  · intro b d
    show IsReal (Cert.ReferenceIdeal.RefRun.rowsI (A4 m c) (A2 m c) (ix2 b d))
    rw [rowsI_apply _ _ h2 b d]
    exact r4 _

end Cert.Bridge

end
-- ==== Proof.KFinal.lean ====
import proofs.«165248_j20779051778107_2_alg».proof.Proof.KBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the output array holds after the region

The output's one block is written back at the last point only, and it covers the whole one-element array: the array
ends holding the result computed from the accumulators after the last point. -/

variable (a : (pcfg0 (F := F)).Adm)
variable (Vv : (c : Dev nD) → (b : Ref sig .tc) → Buf (Elt F) ((c : Thread nD τ).loc b))

theorem size11 : ∀ ax : Fin S1x1.rank, S1x1.size ax = 1 := by decide

/-- A one-by-one array has one index. -/
instance subsingleton_S1x1 : Subsingleton S1x1.Idx := ⟨fun x y => funext fun ax => Fin.ext (by
  have hx : (x ax).val < 1 := lt_of_lt_of_eq (x ax).isLt (size11 ax)
  have hy : (y ax).val < 1 := lt_of_lt_of_eq (y ax).isLt (size11 ax)
  omega)⟩

theorem last_lt : 4095 < (cfgA a).N := by rw [N_eq a]; decide

/-- The last grid point. -/
def tLast : Fin (cfgA a).N := ⟨4095, last_lt a⟩

theorem flush3_only (t : Fin (cfgA a).N) (h : ((cfgA a).win 3).flush t = true) : t.val = 4095 := by
  by_contra hne
  rw [noFlush3 a t hne] at h
  exact Bool.false_ne_true h

theorem flush3_last : ((cfgA a).win 3).flush (tLast a) = true := by
  have hN : (cfgA a).grid.N = 4096 := N_0
  unfold Pipeline.Window.flush
  rw [Bool.and_eq_true, Bool.or_eq_true]
  refine ⟨rfl, Or.inl ?_⟩
  rw [decide_eq_true_eq]
  show 4095 + 1 = (cfgA a).grid.N
  rw [hN]

/-- The output array after the region. -/
theorem final3 (c : Dev nD) : (dats a Vv c).arrAt 3 (cfgA a).N = outAt a Vv c (tLast a) := by
  refine (dats a Vv c).arrAt_eq_of_cover 3 (outAt a Vv c (tLast a)) (fun t hf => ?_) (fun i => ⟨tLast a, flush3_last a, ?_⟩)
  · have ht : t = tLast a := Fin.ext (flush3_only a t hf)
    subst ht
    show ((cfgA a).win 3).cut (crd a (tLast a)) ((dats a Vv c).after 3 (tLast a)) = _
    rw [after3]
    funext j
    exact congrArg (outAt a Vv c (tLast a)) (Subsingleton.elim (α := S1x1.Idx) _ _)
  · have hm := (((cfgA a).win 3).blk (tLast a)).view.emb_mem_set (show S1x1.Idx from i)
    have e : (((cfgA a).win 3).blk (tLast a)).view.emb (show S1x1.Idx from i) = i := Subsingleton.elim (α := S1x1.Idx) _ _
    exact e ▸ hm

end Cert.KernelIdeal.Hand

end
-- ==== Proof.KValue.lean ====
/-
  The kernel's run with its result in closed form, at the ideal values.

  The output array's one block is written back at the last grid point only, so after the region the array holds the
  result computed from the two accumulators after that point; the result buffer is that one element at rank zero.
  At the ideal values each accumulator after the last point is the left fold, from zero, of its per-triplet terms over
  all 4096 points: the result is minus the fold of the loss terms plus the named constant times the fold of the
  regularizer terms.
-/
import proofs.«165248_j20779051778107_2_alg».proof.Proof.KFrame
import proofs.«165248_j20779051778107_2_alg».proof.Proof.KFinal
import proofs.«165248_j20779051778107_2_alg».proof.Proof.KAcc

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

/-- The output array after the region, read at the result's shape: its one element, the result computed from the
    accumulators after the last of the 4096 points (`4095 + 1 = 4096` terms folded in each). -/
theorem result_closed (a : (pcfg0 (F := Ideal)).Adm)
    (Vv : (c : Dev nD) → (b : Ref sig .tc) → Buf (Elt Ideal) ((c : Thread nD τ).loc b)) (c : Dev nD) :
    shapeCast S_ ((dats a Vv c).arrAt 3 (cfgA a).N) Gen.shapeCasts_S1x1_S_
      = fun _ => (0 - Cert.BprAlgebra.acc (gL a Vv c) 4096) + Cert.BprAlgebra.κ * Cert.BprAlgebra.acc (gR a Vv c) 4096 := by
  funext i
  rw [final3]
  exact outAt_apply a Vv c (tLast a) _

/-- The run of @main at the ideal values: the result buffer holds minus the fold of the loss terms plus the named
    constant times the fold of the regularizer terms, and the arguments are unchanged. -/
theorem run_value (m : (ℓ : Loc nD τ sig) → Buf (Elt Ideal) ℓ) (ρ : Dev nD → PrngReg) (a : (pcfg0 (F := Ideal)).Adm)
    (hpf : ∀ (c : Dev nD) k, m ((c.tc : Thread nD τ).loc (pre0.ref k)) = a.1 k) :
    θ_run (defs (F := Ideal)) (onTc (τ := τ) (main (F := Ideal))) ⟨m, fun _ => 0, ρ⟩ (fun r => ∀ c : Dev nD,
      r.2.mem ((c.tc : Thread nD τ).loc main_v83)
        = (fun _ => (0 - Cert.BprAlgebra.acc (gL a (V m) c) 4096) + Cert.BprAlgebra.κ * Cert.BprAlgebra.acc (gR a (V m) c) 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun r h c => ⟨(h c).1.trans (result_closed a (V m) c), (h c).2⟩)
    (run_generic m ρ a hpf)

end Cert.KernelIdeal.Hand

end
-- ==== Proof.Alg.lean ====
/-
  The two programs at the ideal values, from memories that agree on the eight arguments, end with equal results and
  unchanged arguments.

  The precondition puts the three index tables in range and makes the float arrays' entries real numbers. In range, the
  tables are admissible contents of the kernel's pipeline, whose run leaves in the result buffer minus the folded loss
  terms plus the named constant times the folded regularizer terms, over the rows staged point by point. The reference's
  run leaves its result of the arguments. The two values are one extended real: the staged rows are the reference's
  gathered rows, and the accumulated form of the loss joins its whole-array form. The common result is the reference's
  result of the kernel memory's arguments; the reference's own memory holds the same arguments.
-/
import proofs.«165248_j20779051778107_2_alg».proof.Defs
import proofs.«165248_j20779051778107_2_alg».proof.Proof.Gen.KernelIdeal
import proofs.«165248_j20779051778107_2_alg».proof.Proof.Gen.ReferenceIdeal
import proofs.«165248_j20779051778107_2_alg».proof.Proof.Gen.Pre_finite_inputs
import proofs.«165248_j20779051778107_2_alg».proof.Proof.PreDecode
import proofs.«165248_j20779051778107_2_alg».proof.Proof.Join
import proofs.«165248_j20779051778107_2_alg».proof.Proof.KValue
import proofs.«165248_j20779051778107_2_alg».proof.Proof.RefRun
import Idealize.ShloMosaic.Adequacy
import Idealize.ShloMosaic.Init

set_option maxRecDepth 16384

noncomputable section

namespace Cert.Bridge

open Idealize.ShloMosaic Idealize.ShloMosaic.TcCoe Idealize.SL.Sem

/-- The scalar shape has one index. -/
theorem idx_scalar (i : (⟨0, ![]⟩ : Shape).Idx) : i = ValueIdx.ix0 := funext fun ax => ax.elim0

theorem algebraic : Cert.algebraic_KernelIdeal_ReferenceIdeal := by
  intro m ρ m' ρ' hpre hagree
  have hp0 := hpre (0 : Dev Cert.KernelIdeal.nD)
  obtain ⟨h0, h1, h2⟩ := Cert.PreDecode.ranges_of_pre m hp0
  obtain ⟨r3, r4, -⟩ := Cert.PreDecode.all_finite _ _ _ _ _ _ _ _ hp0
  refine ⟨fun c => Cert.ReferenceIdeal.RefRun.result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7)), ?_, ?_⟩
  · -- the kernel: its accumulated value is the reference's result of its own arguments
    refine (θ_run (Cert.KernelIdeal.defs (F := Ideal)) _ _).mono (fun r h c => ⟨(h c).1.trans ?_, (h c).2⟩)
      (Cert.KernelIdeal.Hand.run_value m ρ (Cert.PreDecode.adm_of m h0 h1 h2) (Cert.PreDecode.adm_of_pf m h0 h1 h2))
    obtain rfl : c = 0 := Subsingleton.elim _ _
    funext i
    rw [idx_scalar i]
    exact value_eq m 0 (Cert.PreDecode.adm_of m h0 h1 h2) (fun _ => rfl) (fun _ => rfl) (fun _ => rfl) h0 h1 h2 r3 r4
  · -- the reference: its result of its own arguments, which are the kernel memory's
    refine (θ_run (Cert.ReferenceIdeal.defs (F := Ideal)) _ _).mono (fun r h c => ⟨?_, (h c).2⟩)
      (Cert.ReferenceIdeal.RefRun.run m' ρ')
    obtain ⟨e0, e1, e2, e3, e4, e5, e6, e7⟩ := hagree c
    rw [(h c).1, e0, e1, e2, e3, e4, e5, e6, e7]

end Cert.Bridge

end
-- ==== Proof.lean ====
/-
  A Bayesian-personalized-ranking loss over a three-layer graph convolution, computed two ways.

  Both programs propagate the user and item embedding tables through the same sparse graph convolution
  (six scatter-adds of edge-weighted gathered rows, identical operation for operation), giving four layers
  per table. For each of the 4096 (user, positive item, negative item) triplets the score is the inner
  product of the user's mean-pooled row with the difference of the two items' mean-pooled rows; the loss is
  minus the sum of the log-sigmoids of the scores plus the weight decay times half the squared norms of the
  triplets' layer-0 rows divided by the number of users.

  The kernel stacks the four layers of each table side by side, stages the three rows of a triplet per grid
  point through index tables, and carries two one-element accumulators across the 4096 grid points; the
  reference gathers the rows from each layer and reduces whole arrays. At the ideal instance the two agree:
  a product with 1/4 is a quotient by 4, a sequential accumulation from zero is the sum, the two spellings of
  the softplus are one function, and the kernel's folded weight-decay constant, named as the reference's own
  constant divided by 100000, moves across the sum of real terms. The triplets' indices are assumed in range
  (the reference wraps and clamps them, the kernel uses them as they are), and the float inputs finite.

  The frames: the kernel's launch stages one array through two windows, so its full share is dealt between them;
  the body obligation is proved once for any float instance and used at both.
-/
import proofs.«165248_j20779051778107_2_alg».proof.Defs
import proofs.«165248_j20779051778107_2_alg».proof.Proof.KFrame
import proofs.«165248_j20779051778107_2_alg».proof.Proof.BFrame
import proofs.«165248_j20779051778107_2_alg».proof.Proof.RefRun
import proofs.«165248_j20779051778107_2_alg».proof.Proof.Alg
import Idealize.ShloMosaic.Adequacy
import Idealize.ShloMosaic.Init

noncomputable section

namespace Cert.Proof

open Idealize.ShloMosaic Idealize.SL.Sem

/-- The word-level kernel runs and leaves its arguments unchanged: the triplets' indices are in range, so every
    staged row lies inside its table. -/
theorem frame_k : Cert.frame_Kernel := fun m ρ hpre => by
  have r := Cert.PreDecode.Bits.ranges_of_pre m (hpre 0)
  exact (θ_run (Cert.Kernel.defs (F := Bits)) _ _).mono (fun _ h c => (h c).2)
    (Cert.Kernel.Hand.run_generic m ρ (Cert.PreDecode.Bits.adm_of m r.1 r.2.1 r.2.2) (Cert.PreDecode.Bits.adm_of_pf m r.1 r.2.1 r.2.2))

/-- The same of the idealized kernel. -/
theorem frame_ki : Cert.frame_KernelIdeal := fun m ρ hpre => by
  have r := Cert.PreDecode.ranges_of_pre m (hpre 0)
  exact (θ_run (Cert.KernelIdeal.defs (F := Ideal)) _ _).mono (fun _ h c => (h c).2)
    (Cert.KernelIdeal.Hand.run_generic m ρ (Cert.PreDecode.adm_of m r.1 r.2.1 r.2.2) (Cert.PreDecode.adm_of_pf m r.1 r.2.1 r.2.2))

/-- The reference is a host program: its run with the result dropped. -/
theorem frame_ri : Cert.frame_ReferenceIdeal := fun m ρ _ =>
  (θ_run (Cert.ReferenceIdeal.defs (F := Ideal)) _ _).mono (fun _ h c => (h c).2) (Cert.ReferenceIdeal.RefRun.run m ρ)

/-- The one rewrite of the idealization: the weight-decay constant over the number of users, named as the
    reference's own weight-decay constant divided by 100000. -/
theorem preserves : Cert.preserves_Kernel_KernelIdeal :=
  IdealRules.named_const.statement Cert.KernelIdeal.κ "wd_over_u" .f32 0x3089705F#32 ((2748779 / 2748779069440000 : ℝ) : EReal) rfl

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Bridge.algebraic⟩

end Cert.Proof

end
